-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2048x100000 : Shape := ⟨2, ![2048, 100000]⟩
abbrev S2048 : Shape := ⟨1, ![2048]⟩
abbrev S_ : Shape := ⟨0, ![]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x100000 .f32) (main_arg1 : IVec S2048 32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 99999#32
  let main_v6 : IVec S2048 32 := broadcastInDim S2048 ![] bcast_S_S2048 main_c_1
  let main_v7 : IVec S2048 1 := cmpi .sle main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S2048x100000 : Shape := ⟨2, ![2048, 100000]⟩
abbrev S2048 : Shape := ⟨1, ![2048]⟩
abbrev S100000x2048 : Shape := ⟨2, ![100000, 2048]⟩
abbrev S12500x8x16x128 : Shape := ⟨4, ![12500, 8, 16, 128]⟩
abbrev S12500x16x8x128 : Shape := ⟨4, ![12500, 16, 8, 128]⟩
abbrev S1600000x128 : Shape := ⟨2, ![1600000, 128]⟩
abbrev S64 : Shape := ⟨1, ![64]⟩
abbrev S64x128 : Shape := ⟨2, ![64, 128]⟩
abbrev S_ : Shape := ⟨0, ![]⟩
abbrev S16 : Shape := ⟨1, ![16]⟩
abbrev S1x2048 : Shape := ⟨2, ![1, 2048]⟩
abbrev S1x1 : Shape := ⟨2, ![1, 1]⟩
abbrev S2000x2048 : Shape := ⟨2, ![2000, 2048]⟩
abbrev S8x2048 : Shape := ⟨2, ![8, 2048]⟩
abbrev S1x1x2048 : Shape := ⟨3, ![1, 1, 2048]⟩
abbrev S1 : Shape := ⟨1, ![1]⟩
abbrev S1x1x1 : Shape := ⟨3, ![1, 1, 1]⟩

abbrev nBuf : Table → Nat
  | .hbm => 11
  | .local .tc .vmem => 8
  | .local .scVector .vmem => 3
  | _ => 0

abbrev bufTy : (tb : Table) → Fin (nBuf tb) → BufTy
  | .hbm, ⟨0, _⟩ => ⟨S2048x100000, .f32⟩
  | .hbm, ⟨1, _⟩ => ⟨S2048, .i32⟩
  | .hbm, ⟨2, _⟩ => ⟨S100000x2048, .f32⟩
  | .hbm, ⟨3, _⟩ => ⟨S12500x8x16x128, .f32⟩
  | .hbm, ⟨4, _⟩ => ⟨S12500x16x8x128, .f32⟩
  | .hbm, ⟨5, _⟩ => ⟨S1600000x128, .f32⟩
  | .hbm, ⟨6, _⟩ => ⟨S2048, .f32⟩
  | .hbm, ⟨7, _⟩ => ⟨S1x2048, .i32⟩
  | .hbm, ⟨8, _⟩ => ⟨S1x2048, .f32⟩
  | .hbm, ⟨9, _⟩ => ⟨S1x1, .f32⟩
  | .hbm, ⟨10, _⟩ => ⟨S_, .f32⟩
  | .local .tc .vmem, ⟨0, _⟩ => ⟨S1x2048, .i32⟩
  | .local .tc .vmem, ⟨1, _⟩ => ⟨S1x2048, .f32⟩
  | .local .tc .vmem, ⟨2, _⟩ => ⟨S2000x2048, .f32⟩
  | .local .tc .vmem, ⟨3, _⟩ => ⟨S2000x2048, .f32⟩
  | .local .tc .vmem, ⟨4, _⟩ => ⟨S1x1, .f32⟩
  | .local .tc .vmem, ⟨5, _⟩ => ⟨S1x2048, .f32⟩
  | .local .tc .vmem, ⟨6, _⟩ => ⟨S1x2048, .f32⟩
  | .local .tc .vmem, ⟨7, _⟩ => ⟨S1x2048, .f32⟩
  | .local .scVector .vmem, ⟨0, _⟩ => ⟨S64, .i32⟩
  | .local .scVector .vmem, ⟨1, _⟩ => ⟨S64x128, .f32⟩
  | .local .scVector .vmem, ⟨2, _⟩ => ⟨S64, .f32⟩
  | _, _ => ⟨S2048x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v3_scv : Ref sig .scVector := ⟨.hbm, 5, rfl⟩
abbrev main_arg1_scv : Ref sig .scVector := ⟨.hbm, 1, rfl⟩
abbrev main_v4_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_scratch0 : Ref sig .tc := ⟨.vmem, 5, rfl⟩
abbrev cc1_scratch1 : Ref sig .tc := ⟨.vmem, 6, rfl⟩
abbrev cc1_scratch2 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]

def k0_chk1 (v80 : IVec S16 32) (v83 : IVec S16 32) : Prop :=
  (∀ a x, ((![v80, v83] : Fin 2 → IVec S16 32) a x).toNat < S64x128.size a)
instance k0_chk1.dec : ∀ (v80 : IVec S16 32) (v83 : IVec S16 32), Decidable (k0_chk1 v80 v83) := fun v80 v83 => decidable_of_iff' _ (Iff.of_eq (k0_chk1.eq_1 v80 v83))
theorem k0_idx1_inb : ∀ (v80 : IVec S16 32) (v83 : IVec S16 32) (k0_hw1 : k0_chk1 v80 v83), ∀ a x, ((![v80, v83] : Fin 2 → IVec S16 32) a x).toNat < S64x128.size a := fun v80 v83 k0_hw1 => k0_hw1

def k0_chk2 (v87 : IVec S16 32) (v90 : IVec S16 32) : Prop :=
  (∀ a x, ((![v87, v90] : Fin 2 → IVec S16 32) a x).toNat < S64x128.size a)
instance k0_chk2.dec : ∀ (v87 : IVec S16 32) (v90 : IVec S16 32), Decidable (k0_chk2 v87 v90) := fun v87 v90 => decidable_of_iff' _ (Iff.of_eq (k0_chk2.eq_1 v87 v90))
theorem k0_idx2_inb : ∀ (v87 : IVec S16 32) (v90 : IVec S16 32) (k0_hw2 : k0_chk2 v87 v90), ∀ a x, ((![v87, v90] : Fin 2 → IVec S16 32) a x).toNat < S64x128.size a := fun v87 v90 k0_hw2 => k0_hw2

def k0_chk3 (v94 : IVec S16 32) (v97 : IVec S16 32) : Prop :=
  (∀ a x, ((![v94, v97] : Fin 2 → IVec S16 32) a x).toNat < S64x128.size a)
instance k0_chk3.dec : ∀ (v94 : IVec S16 32) (v97 : IVec S16 32), Decidable (k0_chk3 v94 v97) := fun v94 v97 => decidable_of_iff' _ (Iff.of_eq (k0_chk3.eq_1 v94 v97))
theorem k0_idx3_inb : ∀ (v94 : IVec S16 32) (v97 : IVec S16 32) (k0_hw3 : k0_chk3 v94 v97), ∀ a x, ((![v94, v97] : Fin 2 → IVec S16 32) a x).toNat < S64x128.size a := fun v94 v97 k0_hw3 => k0_hw3

def k0_chk4 (v101 : IVec S16 32) (v104 : IVec S16 32) : Prop :=
  (∀ a x, ((![v101, v104] : Fin 2 → IVec S16 32) a x).toNat < S64x128.size a)
instance k0_chk4.dec : ∀ (v101 : IVec S16 32) (v104 : IVec S16 32), Decidable (k0_chk4 v101 v104) := fun v101 v104 => decidable_of_iff' _ (Iff.of_eq (k0_chk4.eq_1 v101 v104))
theorem k0_idx4_inb : ∀ (v101 : IVec S16 32) (v104 : IVec S16 32) (k0_hw4 : k0_chk4 v101 v104), ∀ a x, ((![v101, v104] : Fin 2 → IVec S16 32) a x).toNat < S64x128.size a := fun v101 v104 k0_hw4 => k0_hw4
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev grid1 : Pipeline.Grid := ⟨1, ![50], ![false]⟩

@[reducible] def k1_t1_loop : Scf.Loop 32 :=
  let c0_i32_2 : BitVec 32 := 0#32
  let c125_i32 : BitVec 32 := 125#32
  let v6 : BitVec 32 := Scalar.addi c0_i32_2 c125_i32
  let c1_i32 : BitVec 32 := 1#32
  ⟨c0_i32_2, v6, c1_i32⟩
def k1_off1 (k1_t1 : Fin k1_t1_loop.trips) : Fin 2 → Nat :=
  let c0_i32_2 : BitVec 32 := 0#32
  let c1_i32 : BitVec 32 := 1#32
  let arg8 : BitVec 32 := Scf.iv c0_i32_2 c1_i32 k1_t1
  let c16_i32 : BitVec 32 := 16#32
  let v25 : BitVec 32 := Scalar.muli arg8 c16_i32
  let v26 : Index := Scalar.indexCast v25
  let c0_15 : Index := 0#32
  ![v26.toNat, 0]
def k1_off2 (k1_t1 : Fin k1_t1_loop.trips) : Fin 2 → Nat :=
  let c0_i32_2 : BitVec 32 := 0#32
  let c1_i32 : BitVec 32 := 1#32
  let arg8 : BitVec 32 := Scf.iv c0_i32_2 c1_i32 k1_t1
  let c16_i32_16 : BitVec 32 := 16#32
  let v29 : BitVec 32 := Scalar.muli arg8 c16_i32_16
  let c8_i32 : BitVec 32 := 8#32
  let v30 : BitVec 32 := Scalar.addi v29 c8_i32
  let v31 : Index := Scalar.indexCast v30
  let c0_17 : Index := 0#32
  ![v31.toNat, 0]
def k1_cond2 (i : grid1.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_14 : BitVec 32 := 0#32
  let v24 : BitVec 1 := Scalar.cmpi .ne v23 c0_i32_14
  v24

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S2048x100000_S100000x2048_1_0 : S2048x100000.Transposes [1, 0] S100000x2048
  shapeCasts_S100000x2048_S12500x8x16x128 : S100000x2048.ShapeCasts S12500x8x16x128
  transposes_S12500x8x16x128_S12500x16x8x128_0_2_1_3 : S12500x8x16x128.Transposes [0, 2, 1, 3] S12500x16x8x128
  shapeCasts_S12500x16x8x128_S1600000x128 : S12500x16x8x128.ShapeCasts S1600000x128
  inb_S64_S16_0 : ∀ a, (![0] : Fin 1 → Nat) a + S16.size a ≤ S64.size a
  h_S16 : 0 < S16.numel
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  inb_S1600000x128_S1600000x128_0_0 : ∀ a, (![0, 0] : Fin 2 → Nat) a + S1600000x128.size a ≤ S1600000x128.size a
  gathers_S1600000x128_S64x128 : S1600000x128.Gathers 0 S64x128
  iota_S16_d0_w32_scVector : S16.Iotas .scVector 32 [0]
  h_S64x128 : 0 < S64x128.numel
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2000x2048_S1x2048_0_0 : ∀ a, (![0, 0] : Fin 2 → Nat) a + S1x2048.size a ≤ S2000x2048.size a
  h_S8x2048 : 0 < S8x2048.numel
  shapeCasts_S8x2048_S8x2048 : S8x2048.ShapeCasts S8x2048
  reduces_S8x2048_S2048 : S8x2048.Reduces [0] S2048
  shapeCasts_S1x2048_S1x1x2048 : S1x2048.ShapeCasts S1x1x2048
  reduces_S1x1x2048_S1 : S1x1x2048.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inb_S1x1_S1x1_0_0 : ∀ a, (![0, 0] : Fin 2 → Nat) a + S1x1.size a ≤ S1x1.size a
  h_S1x1 : 0 < S1x1.numel
  shapeCasts_S1x1_S_ : S1x1.ShapeCasts S_
  hcc0_scratch3 : 0 + S_.numel ≤ 8
  hcc0_scoped0 : 1 + S_.numel ≤ 8
  hcc0_scoped1 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S2048.size a
  k0_off2_inb : ∀ i : grid0.Coords, ∀ a, (k0_off2 i) a + S64.size a ≤ S2048.size a
  hrank1 : 0 < grid1.rank
  k1_t1_ok : k1_t1_loop.OK
  k1_off1_inb : ∀ k1_t1 : Fin k1_t1_loop.trips, ∀ a, (k1_off1 k1_t1) a + S8x2048.size a ≤ S2000x2048.size a
  k1_off2_inb : ∀ k1_t1 : Fin k1_t1_loop.trips, ∀ a, (k1_off2 k1_t1) a + S8x2048.size a ≤ S2000x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .i32 = 32 ∨ (Rect.block (s := S1x2048) S1x2048.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2048.size a ≤ S100000x2048.size a
  hwx1_2 : ∀ i : grid1.Coords, EltTy.bits .f32 = 32 ∨ (Rect.block (s := S100000x2048) S2000x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1

abbrev win1_0 : Pipeline.Window sig grid1 :=
  Pipeline.Window.ofSpec (Memref.whole main_v5) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x100000 : Shape := ⟨2, ![2048, 100000]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S1 : Shape := ⟨1, ![1]⟩

abbrev nBuf : Space → Nat
  | .hbm => 68
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S_, .f32⟩
  | .hbm, ⟨3, _⟩ => ⟨S2048x100000, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048x1, .i32⟩
  | .hbm, ⟨20, _⟩ => ⟨S2048x1, .i32⟩
  | .hbm, ⟨21, _⟩ => ⟨S2048x2, .i32⟩
  | .hbm, ⟨22, _⟩ => ⟨S_, .f32⟩
  | .hbm, ⟨23, _⟩ => ⟨S2048, .f32⟩
  | .hbm, ⟨24, _⟩ => ⟨S2048x100000, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S2048, .f32⟩
  | .hbm, ⟨29, _⟩ => ⟨S2048x100000, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048x1, .i1⟩
  | .hbm, ⟨34, _⟩ => ⟨S_, .f32⟩
  | .hbm, ⟨35, _⟩ => ⟨S_, .f32⟩
  | .hbm, ⟨36, _⟩ => ⟨S2048x100000, .i1⟩
  | .hbm, ⟨37, _⟩ => ⟨S2048x100000, .f32⟩
  | .hbm, ⟨38, _⟩ => ⟨S2048x100000, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1, .f32⟩
  | .hbm, ⟨45, _⟩ => ⟨S2048x100000, .f32⟩
  | .hbm, ⟨46, _⟩ => ⟨S2048x100000, .f32⟩
  | .hbm, ⟨47, _⟩ => ⟨S2048x100000, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1, .f32⟩
  | .hbm, ⟨52, _⟩ => ⟨S2048x100000, .f32⟩
  | .hbm, ⟨53, _⟩ => ⟨S2048x100000, .f32⟩
  | .hbm, ⟨54, _⟩ => ⟨S2048x100000, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S2048, .i1⟩
  | .hbm, ⟨59, _⟩ => ⟨S2048, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v24 : Ref sig .tc := ⟨.hbm, 53, rfl⟩
abbrev main_v25 : Ref sig .tc := ⟨.hbm, 54, rfl⟩
abbrev main_cst_8 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_9 : Ref sig .tc := ⟨.hbm, 60, rfl⟩
abbrev main_v30 : Ref sig .tc := ⟨.hbm, 61, rfl⟩
abbrev main_cst_10 : Ref sig .tc := ⟨.hbm, 62, rfl⟩
abbrev main_v31 : Ref sig .tc := ⟨.hbm, 63, rfl⟩
abbrev main_c_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩

abbrev nD : Nat := 1
abbrev τ : Topo := Topo.v7x

variable {F : FTy → Type} [FloatOps F]

class Facts₀ : Prop where
  bcast_S_S2048x100000 : S_.BroadcastsInDim S2048x100000 (![] : Fin 0 → Fin S2048x100000.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S_S1 : S_.BroadcastsInDim S1 (![] : Fin 0 → Fin S1.rank)
  bcast_S2048x1_S2048x100000_0_1 : S2048x1.BroadcastsInDim S2048x100000 (![0, 1] : Fin 2 → Fin S2048x100000.rank)
  reducesTo_S2048x100000_S2048_d1 : S2048x100000.ReducesTo [1] S2048
  h_S_ : 0 < S_.numel
  natLt_1_32 : 1 < 32
  reducesTo_S2048_S_d0 : S2048.ReducesTo [0] S_
  scatter_S2048x100000_S2048x2_S2048_n_01_01_1_wf : ScatterDims.WF S2048x100000 S2048x2 S2048 [] [0, 1] [0, 1] 1
  scatter_S2048x100000_S1_S2048_0_1_1_0_wf : ScatterDims.WF S2048x100000 S1 S2048 [0] [1] [1] 0

variable [Facts₀]

def scatter_S2048x100000_S2048x2_S2048_n_01_01_1 : ScatterDims S2048x100000 S2048x2 S2048 where
  updateWindowDims := []
  insertedWindowDims := [0, 1]
  scatterDimsToOperandDims := [0, 1]
  indexVectorDim := 1
  wf := scatter_S2048x100000_S2048x2_S2048_n_01_01_1_wf
def scatter_S2048x100000_S1_S2048_0_1_1_0 : ScatterDims S2048x100000 S1 S2048 where
  updateWindowDims := [0]
  insertedWindowDims := [1]
  scatterDimsToOperandDims := [1]
  indexVectorDim := 0
  wf := scatter_S2048x100000_S1_S2048_0_1_1_0_wf

class Facts : Prop extends Facts₀ where

variable [Facts]
-- ==== Proof.KCommon.lean ====
/-
  What every module of the kernel's frame shares: the program as the launch theorem reads it, the resource algebra
  (the handshakes' rounds beside the region's staging rounds and the transfers' counters), and the three HBM arrays the
  vector subcores touch — the re-laid table of logits, the targets, the gathered logits — as locations of a device.
-/
import proofs.«209869_g82368882803221_cont_9to1_m_506_32_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«209869_g82368882803221_cont_9to1_m_506_32_alg».proof.Proof.Gen.KernelIdeal
import proofs.«209869_g82368882803221_cont_9to1_m_506_32_alg».proof.Proof.Gen.KernelIdeal.Skeleton
import proofs.«209869_g82368882803221_cont_9to1_m_506_32_alg».proof.Proof.Gen.KernelIdeal.Launch
import proofs.«209869_g82368882803221_cont_9to1_m_506_32_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The region's staging rounds. -/
abbrev UR' : Type := URounds (GSem nD τ sig) Unit
abbrev UU : Type := UH × (UR' × Counters)

abbrev 𝕄 (F : FTy → Type) : Type := MT nD τ sig (HIx 1) (Elt F) ℕ UU ℕ

abbrev EH : Emb UH (𝕄 F) := embL
def EP : Emb UR' (𝕄 F) :=
  ((Emb.inl : Emb UR' (UR' × Counters)).trans (Emb.inr : Emb (UR' × Counters) UU)).trans
    (uEmb (nD := nD) (sig := sig) (Ix := HIx 1) (Val := Elt F) (Name := ℕ) (U := UU) (Lvl := ℕ)).toEmb

instance EP_landsIn : (EP : Emb UR' (𝕄 F)).LandsIn (upEmb : UEmb _ (𝕄 F)) := by unfold EP; infer_instance

/-! ## The arrays the vector subcores touch -/

/-- The re-laid table of logits (1600000 rows of 128), the targets, the gathered logits: as locations of device `d`. -/
abbrev tabLoc (d : Dev nD) : Loc nD τ sig := (SparseCore.T d).loc main_v3
abbrev tgtLoc (d : Dev nD) : Loc nD τ sig := (SparseCore.T d).loc main_arg1
abbrev outLoc (d : Dev nD) : Loc nD τ sig := (SparseCore.T d).loc main_v4

end Cert.KernelIdeal.Hand

end
-- ==== Proof.KTileDefs.lean ====
import proofs.«209869_g82368882803221_cont_9to1_m_506_32_alg».proof.Proof.KCommon
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## A tile's coordinates, its two slices, and what it picks -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The tile's 64 targets and its 64 outputs, as the program slices the two arrays. -/
abbrev tgtSl (L : grid0.Coords) : Memref sig .scVector .hbm S64 .i32 :=
  (Memref.whole main_arg1_scv : Memref sig .scVector .hbm S2048 .i32).slice (Rect.unit (s := S2048) (k0_off1 L) S64.size (k0_off1_inb L)) (fun _ => rfl)
abbrev outSl (L : grid0.Coords) : Memref sig .scVector .hbm S64 .f32 :=
  (Memref.whole main_v4_scv : Memref sig .scVector .hbm S2048 .f32).slice (Rect.unit (s := S2048) (k0_off2 L) S64.size (k0_off2_inb L)) (fun _ => rfl)

variable (d : Dev nD)

/-- The table entry the kernel picks for output position `n` with target `t`: row `(t / 8) * 128 + t % 8 + (n / 128) * 8`, lane `n % 128`. -/
def picked (ft : Buf (Elt F) (tabLoc d)) (tg : Buf (Elt F) (tgtLoc d)) (n : Fin 2048) : Elt F .f32 :=
  ft (ValueIdx.ix2 (⟨((tg (ValueIdx.ix1 n)).toNat / 8 * 128 + (tg (ValueIdx.ix1 n)).toNat % 8 + n.val / 128 * 8) % 1600000, Nat.mod_lt _ (by omega)⟩ : Fin 1600000)
    (⟨n.val % 128, Nat.mod_lt _ (by omega)⟩ : Fin 128))

/-- The output position of tile `L`'s `j`-th word. -/
def posOf (L : grid0.Coords) (j : S64.Idx) : Fin 2048 :=
  ⟨128 * (L 1).val + 64 * (L 0).val + (j 0).val, by
    have h1 : (L 1).val < 16 := (L 1).isLt
    have h0 : (L 0).val < 2 := (L 0).isLt
    have hj : (j 0).val < 64 := (j 0).isLt
    omega⟩

end Cert.KernelIdeal.Hand

end
-- ==== Proof.KLaunchA.lean ====
import proofs.«209869_g82368882803221_cont_9to1_m_506_32_alg».proof.Proof.KCommon
import proofs.«209869_g82368882803221_cont_9to1_m_506_32_alg».proof.Proof.KTileDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## What the body of a tile does: the statement the launch consumes -/

/-- The tile's body at a symbolic tile: from a read share of the table, the tile's targets and its output slice, to the same with the
    output slice holding what the tile picks. -/
def TileBodySpec (F : FTy → Type) [FloatOps F] : Prop :=
  ∀ (d : Dev nD) (L : grid0.Coords) (_ : (K (F := F)).Facts) (ft : Buf (Elt F) (tabLoc d)) (tg : Buf (Elt F) (tgtLoc d)) (q : PosShare TreeShare)
    (_ : ∀ i, (tg i).toNat < 100000) (O : CellTallies nD τ sig (HIx 1)) (W : Waits sig (HIx 1)) (_ : ∀ g, O g none = 0),
    (iprop(levAts (K (F := F)).L (K (F := F)).lev ∗ (tabLoc d ↦{q} ft) ∗ (tgtLoc d ↦[(tgtSl L).view.set]{fullShare} tg) ∗ (∃ f0, outLoc d ↦[(outSl L).view.set]{fullShare} f0)
        ∗ scopedBufs (V d (cV L) (jV L)) ∗ scopedSems0 (V d (cV L) (jV L)) ∗ owes (V d (cV L) (jV L)) O W) : sProp (𝕄 F))
      ⊢ wp frame (wpE (defs₀ (F := F)) 𝒱₀ (V d (cV L) (jV L)) none) Set.univ
          (cc0__sc_gather L (Memref.whole main_v3_scv) (Memref.isWhole_whole _) (Memref.whole main_arg1_scv) (Memref.isWhole_whole _) (Memref.whole main_v4_scv) (Memref.isWhole_whole _)
            (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop((tabLoc d ↦{q} ft) ∗ (tgtLoc d ↦[(tgtSl L).view.set]{fullShare} tg)
            ∗ (∃ f, ⌜∀ j : S64.Idx, f ((outSl L).view.emb j) = picked d ft tg (posOf L j)⌝ ∗ outLoc d ↦[(outSl L).view.set]{fullShare} f)
            ∗ scopedBufs (V d (cV L) (jV L)) ∗ scopedSems0 (V d (cV L) (jV L)) ∗ ∃ W', ⌜∀ p ∈ W', p ∈ W ∨ p.2 = none⌝ ∗ owes (V d (cV L) (jV L)) O W')

/-! ## What the handshakes carry -/

/-- The worker number of SparseCore `c`, tile `s`: `2 s + c`. -/
def wOf (c : Fin ((K (F := F)).nCore 0)) (s : Fin ((K (F := F)).nSub 0)) : Fin 32 :=
  ⟨2 * s.val + c.val, by have := c.isLt; have := s.isLt; simp only [nCore_zero, nSub_zero] at *; omega⟩

/-- The grid point of the launch theorem's `(c, i)`. -/
def coordsK (c : Fin ((K (F := F)).nCore 0)) (i : Fin ((K (F := F)).nSub 0)) : grid0.Coords :=
  coordsV ⟨c.val, c.isLt⟩ ⟨i.val, i.isLt⟩

variable (d : Dev nD)

/-- What a tile is handed: a read share of the table at `ft`, its targets, its output slice. -/
def goRes (ft : Buf (Elt F) (tabLoc d)) (c : Fin ((K (F := F)).nCore 0)) (i : Fin ((K (F := F)).nSub 0)) : sProp (𝕄 F) :=
  iprop((tabLoc d ↦{Transfers.shareTok fullShare 32 (wOf c i)} ft) ∗ (tgtLoc d ↦[(tgtSl (coordsK c i)).view.set]{fullShare} m (tgtLoc d))
    ∗ (∃ f0, outLoc d ↦[(outSl (coordsK c i)).view.set]{fullShare} f0))
/-- What it hands back: the same, the output slice at what the tile picks. -/
def tdRes (ft : Buf (Elt F) (tabLoc d)) (c : Fin ((K (F := F)).nCore 0)) (i : Fin ((K (F := F)).nSub 0)) : sProp (𝕄 F) :=
  iprop((tabLoc d ↦{Transfers.shareTok fullShare 32 (wOf c i)} ft) ∗ (tgtLoc d ↦[(tgtSl (coordsK c i)).view.set]{fullShare} m (tgtLoc d))
    ∗ (∃ f, ⌜∀ j : S64.Idx, f ((outSl (coordsK c i)).view.emb j) = picked d ft (m (tgtLoc d)) (posOf (coordsK c i) j)⌝ ∗ outLoc d ↦[(outSl (coordsK c i)).view.set]{fullShare} f))

end Cert.KernelIdeal.Hand

end
-- ==== Proof.KLaunchB.lean ====
import proofs.«209869_g82368882803221_cont_9to1_m_506_32_alg».proof.Proof.KCommon
import proofs.«209869_g82368882803221_cont_9to1_m_506_32_alg».proof.Proof.KLaunchA

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## @main's host operations and the valuations they leave -/

abbrev r_arg0 : DevRef τ sig := Proc.devRef .tc (main_arg0 : Ref sig .tc)
abbrev r_arg1 : DevRef τ sig := Proc.devRef .tc (main_arg1 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)

/-- The logits transposed; cut into groups of 8 vocabulary rows and 16 groups of 128 positions; the two middle axes swapped; flattened to
    rows of 128: the table the tiles gather from. -/
abbrev op0 : HloOp τ sig (Elt F) :=
  StableHlo.unary main_arg0 main_v0 ((transpose S100000x2048 [1, 0] · transposes_S2048x100000_S100000x2048_1_0) : (⟨S2048x100000, .f32⟩ : BufTy).Contents (Elt F) → (⟨S100000x2048, .f32⟩ : BufTy).Contents (Elt F))
abbrev op1 : HloOp τ sig (Elt F) := StableHlo.reshape main_v0 main_v1 rfl shapeCasts_S100000x2048_S12500x8x16x128
abbrev op2 : HloOp τ sig (Elt F) :=
  StableHlo.unary main_v1 main_v2 ((transpose S12500x16x8x128 [0, 2, 1, 3] · transposes_S12500x8x16x128_S12500x16x8x128_0_2_1_3) : (⟨S12500x8x16x128, .f32⟩ : BufTy).Contents (Elt F) → (⟨S12500x16x8x128, .f32⟩ : BufTy).Contents (Elt F))
abbrev op3 : HloOp τ sig (Elt F) := StableHlo.reshape main_v2 main_v3 rfl shapeCasts_S12500x16x8x128_S1600000x128
/-- The targets and the gathered logits as one row each; the result as a scalar. -/
abbrev op5 : HloOp τ sig (Elt F) := StableHlo.reshape main_arg1 main_v5 rfl shapeCasts_S2048_S1x2048
abbrev op6 : HloOp τ sig (Elt F) := StableHlo.reshape main_v4 main_v6 rfl shapeCasts_S2048_S1x2048
abbrev op8 : HloOp τ sig (Elt F) := StableHlo.reshape main_v7 main_v8 rfl shapeCasts_S1x1_S_

/-- The launch valuation, and the one the four operations before the SparseCore call leave. -/
def V0 (d : Dev nD) : Valuation τ sig (Elt F) := fun b => m (d, b)
def V4 (d : Dev nD) : Valuation τ sig (Elt F) := (op3 (F := F)).result ((op2 (F := F)).result ((op1 (F := F)).result ((op0 (F := F)).result (V0 m d))))

/-- The table's contents at the SparseCore call. -/
def TAB (d : Dev nD) : Buf (Elt F) (tabLoc d) := V4 m d r_v3

/-! ## The handshakes' payloads -/

def P : (K (F := F)).Pay (nD := nD) (Val := Elt F) (Name := ℕ) (U := UU) where
  st := fun q d c => match q with | 0 => bigSep Finset.univ fun i : Fin ((K (F := F)).nSub 0) => goRes m d (TAB m d) c i
  dn := fun q d c => match q with | 0 => bigSep Finset.univ fun i : Fin ((K (F := F)).nSub 0) => tdRes m d (TAB m d) c i
  go := fun q d c i => match q with | 0 => goRes m d (TAB m d) c i
  td := fun q d c i => match q with | 0 => tdRes m d (TAB m d) c i
  x := fun _ _ => iprop(emp)

instance goRes_storable (d : Dev nD) (ft : Buf (Elt F) (tabLoc d)) (c) (i) : BI.Storable (upEmb : UEmb _ (𝕄 F)) (goRes m d ft c i) := by
  unfold goRes; infer_instance
instance tdRes_storable (d : Dev nD) (ft : Buf (Elt F) (tabLoc d)) (c) (i) : BI.Storable (upEmb : UEmb _ (𝕄 F)) (tdRes m d ft c i) := by
  unfold tdRes; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-- The operands of a SparseCore are its tiles' shares, the results its tiles' results. -/
theorem vecSplit : (K (F := F)).VecSplit' (P m) 0 := by
  intro d c
  show (bigSep Finset.univ fun i : Fin ((K (F := F)).nSub 0) => goRes m d (TAB m d) c i) ⊢ |={Set.univ}=> iprop(
      (bigSep Finset.univ fun i : Fin ((K (F := F)).nSub 0) => goRes m d (TAB m d) c i)
      ∗ ((bigSep Finset.univ fun i : Fin ((K (F := F)).nSub 0) => tdRes m d (TAB m d) c i)
          -∗ (bigSep Finset.univ fun i : Fin ((K (F := F)).nSub 0) => tdRes m d (TAB m d) c i)))
  iintro H; imodintro
  isplitl [H]; · iexact H
  iintro H; iexact H

end Cert.KernelIdeal.Hand

end
-- ==== Proof.KRegionData.lean ====
/-
  The proof data of the TensorCore region: what the 50 grid points of the loss kernel leave, point by point.

  Grid point `t` stages rows `2000 t … 2000 t + 1999` of the transposed logits (a block `X` of 2000 rows of 2048) and
  adds them, sixteen rows a trip, into two carried 8-row accumulators (`accAt X k`: the sum of exponentials and the
  plain sum of the rows before trip `k`); after the 125 trips the accumulators are folded down their 8 rows onto the
  two running rows kept in scratch.  Point 0 first clears those two rows and keeps row 0 of its block in a third;
  point 49 last turns the three rows, the targets and the gathered logits into the one number of the result.
-/
import proofs.«209869_g82368882803221_cont_9to1_m_506_32_alg».proof.Proof.KCommon
import proofs.«209869_g82368882803221_cont_9to1_m_506_32_alg».proof.Proof.Gen.KernelIdeal.Loops
import Idealize.ShloMosaic.Lib.Pipeline.Frame
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One whole-block store read back -/

/-- A store of the whole shape (offsets 0, the shape's sizes, unit strides), the last of a list of stores, leaves
    its payload: every element lies under it. -/
theorem read_writes_cons_full {sg : RefSig} {κ : Kind} {sp : Space} {s : Shape} {e : EltTy} {Val : EltTy → Type}
    (v : View sg κ sp s e) (f : v.ty.Contents Val) (off : Fin s.rank → Nat) (hoff : ∀ a, off a = 0)
    (inb : ∀ a, off a + s.size a ≤ s.size a) (w : s.Idx → Val e) (L : List (View.Piece Val s e)) :
    v.read Val (v.writes Val f (⟨Rect.unit off s.size inb, w⟩ :: L)) = w := by
  funext y
  have h := View.read_writes_cons_emb v f (Rect.unit off s.size inb) w L y
  have he : (Rect.unit off s.size inb).emb y = y := by
    funext a; apply Fin.ext; show off a + 1 * (y a : Nat) = y a; rw [hoff]; omega
  rwa [he] at h

/-- A load through a whole memref held at the raw contents that read `X` reads `X` at the box's indices. -/
theorem readAt_unread {sg : RefSig} {κ : Kind} {sp : Space} {s : Shape} {e : EltTy} {Val : EltTy → Type}
    {m : Memref sg κ sp s e} (h : m.IsWhole) (r : LoadRect s) (X : s.Idx → Val e) :
    m.view.readAt Val r (h.unread X) = fun j => X (r.idx j) := by
  funext j; rw [View.readAt_apply, h.read_unread]

/-! ## The counted loop's carried value -/

/-- Eight rows of a block of 2000, from row `off 0`. -/
def rows8 (X : Vec F S2000x2048 .f32) (off : Fin 2 → Nat) (inb : ∀ a, off a + S8x2048.size a ≤ S2000x2048.size a) :
    Vec F S8x2048 .f32 :=
  fun j => X ((Rect.unit (s := S2000x2048) off S8x2048.size inb).toLoadRect.idx j)

/-- Trip `k` reads rows `16 k … 16 k + 7` -/
def ld1 (X : Vec F S2000x2048 .f32) (k : Fin k1_t1_loop.trips) : Vec F S8x2048 .f32 := rows8 X (k1_off1 k) (k1_off1_inb k)
/-- and rows `16 k + 8 … 16 k + 15` of the block. -/
def ld2 (X : Vec F S2000x2048 .f32) (k : Fin k1_t1_loop.trips) : Vec F S8x2048 .f32 := rows8 X (k1_off2 k) (k1_off2_inb k)

/-- One trip on the carried pair: the exponentials of the sixteen rows added to the first, the rows to the second;
    past the last trip, nothing. -/
def accStep (X : Vec F S2000x2048 .f32) (k : ℕ) (prev : FVec F S8x2048 .f32 × FVec F S8x2048 .f32) :
    FVec F S8x2048 .f32 × FVec F S8x2048 .f32 :=
  if h : k < k1_t1_loop.trips then
    (k1_pay8 prev.1 (ld1 X ⟨k, h⟩) (ld2 X ⟨k, h⟩), k1_pay9 prev.2 (ld1 X ⟨k, h⟩) (ld2 X ⟨k, h⟩))
  else prev

/-- The carried pair before trip `k` over the block `X`: zeros before the first. -/
def accAt (X : Vec F S2000x2048 .f32) : ℕ → FVec F S8x2048 .f32 × FVec F S8x2048 .f32
  | 0 => (k1_pay5, k1_pay5)
  | k + 1 => accStep X k (accAt X k)

theorem accAt_zero (X : Vec F S2000x2048 .f32) : accAt X 0 = (k1_pay5, k1_pay5) := rfl

theorem accAt_succ (X : Vec F S2000x2048 .f32) (k : Fin k1_t1_loop.trips) :
    accAt X (k.val + 1)
      = (k1_pay8 (accAt X k.val).1 (ld1 X k) (ld2 X k), k1_pay9 (accAt X k.val).2 (ld1 X k) (ld2 X k)) := by
  rw [accAt]; unfold accStep; exact dif_pos k.isLt

/-- The carried pair after the last trip. -/
def accFin (X : Vec F S2000x2048 .f32) : FVec F S8x2048 .f32 × FVec F S8x2048 .f32 := accAt X k1_t1_loop.trips

/-! ## The three scratch rows -/

/-- The running sum of exponentials, the running sum, and row 0 of the first block. -/
abbrev Scr (F : FTy → Type) : Type := Vec F S1x2048 .f32 × Vec F S1x2048 .f32 × Vec F S1x2048 .f32

/-- Row 0 of a block. -/
def row0 (X : Vec F S2000x2048 .f32) : Vec F S1x2048 .f32 :=
  fun j => X ((Rect.unit (s := S2000x2048) ![0, 0] S1x2048.size inb_S2000x2048_S1x2048_0_0).toLoadRect.idx j)

/-- What the first point's reset leaves: two rows of zeros and row 0 of its block. -/
def scrReset (X : Vec F S2000x2048 .f32) : Scr F := (k1_pay2, k1_pay3, k1_pay4 (row0 X))

/-- What a point adds over its block `X`: the two accumulators, folded down their 8 rows, onto the two running rows. -/
def scrStep (X : Vec F S2000x2048 .f32) (p : Scr F) : Scr F :=
  (k1_pay10 (accFin X).1 p.1, k1_pay11 (accFin X).2 p.2.1, p.2.2)

/-- The scratch rows after point `n`, over the blocks `B n` the points stage. -/
def scrAt (B : ℕ → Vec F S2000x2048 .f32) : ℕ → Scr F
  | 0 => scrStep (B 0) (scrReset (B 0))
  | n + 1 => scrStep (B (n + 1)) (scrAt B n)

theorem scrAt_zero (B : ℕ → Vec F S2000x2048 .f32) : scrAt B 0 = scrStep (B 0) (scrReset (B 0)) := rfl
theorem scrAt_succ (B : ℕ → Vec F S2000x2048 .f32) (n : ℕ) : scrAt B (n + 1) = scrStep (B (n + 1)) (scrAt B n) := rfl

/-! ## The windows' blocks -/

variable (c : Dev nD)

/-- Window `w`'s block at point `t`, read off the array `A` the region finds. -/
def blkOf (w : Fin cfg1.W) (A : Buf (Elt F) ((cfg1.win w).arr.view.loc (c.tc : Thread nD τ))) (t : Fin cfg1.N) :
    ((cfg1.win w).xblock (cfg1.grid.coords t)).Idx → Elt F (cfg1.win w).elt :=
  ((cfg1.win w).blk t).view.read (Elt F) A

/-- Point number `n` of the grid (numbers past the grid wrap: nothing reads them). -/
def pt (n : ℕ) : Fin cfg1.N := ⟨n % 50, Nat.mod_lt _ (by decide)⟩

theorem pt_val (t : Fin cfg1.N) : pt t.val = t :=
  Fin.ext (Nat.mod_eq_of_lt (lt_of_lt_of_eq t.isLt (show cfg1.N = 50 from N_1)))

variable (A5 : Buf (Elt F) ((c : Thread nD τ).loc main_v5)) (A6 : Buf (Elt F) ((c : Thread nD τ).loc main_v6))
  (A0 : Buf (Elt F) ((c : Thread nD τ).loc main_v0)) (A7 : Buf (Elt F) ((c : Thread nD τ).loc main_v7))

/-- The block of the transposed logits point number `n` stages. -/
def logitsBlk (n : ℕ) : Vec F S2000x2048 .f32 := blkOf c 2 A0 (pt n)

/-- The scratch rows after point number `n`. -/
def scr (n : ℕ) : Scr F := scrAt (logitsBlk c A0) n

/-- What the last point stores into the result's staging buffer, stated at every point: the loss from the targets,
    the scratch rows after the point and the gathered logits. -/
def lossAt (t : Fin cfg1.N) : Vec F S1x1 .f32 :=
  k1_pay12 (k1_pay1 (blkOf c 0 A5 t)) (scr c A0 t.val).1 (scr c A0 t.val).2.2 (blkOf c 1 A6 t) (scr c A0 t.val).2.1

/-! ## The invariant: the scratch rows between points -/

/-- The three scratch buffers whole at the rows `p`. -/
def scrHeld (p : Scr F) : sProp (𝕄 F) :=
  iprop(owns (c : Thread nD τ) (Memref.whole cc1_scratch0) fullShare p.1
    ∗ owns (c : Thread nD τ) (Memref.whole cc1_scratch1) fullShare p.2.1
    ∗ owns (c : Thread nD τ) (Memref.whole cc1_scratch2) fullShare p.2.2)

/-- Before point `n`: at the first, the scratch buffers at anything; after point `n - 1`, at `scr (n - 1)`. -/
def PhiAt : ℕ → sProp (𝕄 F)
  | 0 => iprop(∃ p : Scr F, scrHeld c p)
  | n + 1 => scrHeld c (scr c A0 n)

/-! ## The proof data -/

/-- The proof data of the region on core `c`, from the arrays the region finds: the targets as [1,2048], the
    gathered logits as [1,2048], the transposed logits, the result's array.  The core owes nothing and the body waits
    for nothing: the pairs its waits recorded before the region — all of level at most 8 — bound the recorded set at
    every point. -/
def dats : Dat τ (Elt F) (HIx 1) ℕ UU ℕ cfg1 c where
  A w := match w with
    | ⟨0, _⟩ => A5
    | ⟨1, _⟩ => A6
    | ⟨2, _⟩ => A0
    | ⟨3, _⟩ => A7
  after w t := match w with
    | ⟨0, _⟩ => blkOf c 0 A5 t
    | ⟨1, _⟩ => blkOf c 1 A6 t
    | ⟨2, _⟩ => blkOf c 2 A0 t
    | ⟨3, _⟩ => lossAt c A5 A6 A0 t
  Φ n := PhiAt c A0 n.val
  q _ := fullShare
  owed _ := 0
  recorded _ := {p : SemLoc sig × HIx 1 | (K (F := F)).lev ((c : Thread nD τ), p.1) p.2 ≤ 8}

theorem A_0 : (dats c A5 A6 A0 A7).A 0 = A5 := by dsimp only [dats]
theorem A_1 : (dats c A5 A6 A0 A7).A 1 = A6 := by dsimp only [dats]
theorem A_2 : (dats c A5 A6 A0 A7).A 2 = A0 := by dsimp only [dats]
theorem A_3 : (dats c A5 A6 A0 A7).A 3 = A7 := by dsimp only [dats]

theorem after1_0 (t : Fin cfg1.N) : (dats c A5 A6 A0 A7).after 0 t = blkOf c 0 A5 t := by dsimp only [dats]
theorem after1_1 (t : Fin cfg1.N) : (dats c A5 A6 A0 A7).after 1 t = blkOf c 1 A6 t := by dsimp only [dats]
theorem after1_2 (t : Fin cfg1.N) : (dats c A5 A6 A0 A7).after 2 t = blkOf c 2 A0 t := by dsimp only [dats]
theorem after1_3 (t : Fin cfg1.N) : (dats c A5 A6 A0 A7).after 3 t = lossAt c A5 A6 A0 t := by dsimp only [dats]

theorem Φ_eq (n : Fin (cfg1.N + 1)) : (dats c A5 A6 A0 A7).Φ n = PhiAt c A0 n.val := rfl
theorem Φ_zero : (dats c A5 A6 A0 A7).Φ 0 = iprop(∃ p : Scr F, scrHeld c p) := rfl
theorem Φ_succ (t : Fin cfg1.N) : (dats c A5 A6 A0 A7).Φ t.succ = scrHeld c (scr c A0 t.val) := rfl
theorem Φ_last : (dats c A5 A6 A0 A7).Φ (Fin.last cfg1.N) = scrHeld c (scr c A0 49) := rfl
theorem owed_eq (n : Fin (cfg1.N + 1)) : (dats c A5 A6 A0 A7).owed n = 0 := rfl
/-- The pairs the core's waits have recorded stay, at every point, among those of level at most 8. -/
theorem recorded_eq (n : Fin (cfg1.N + 1)) :
    (dats c A5 A6 A0 A7).recorded n = {p : SemLoc sig × HIx 1 | (K (F := F)).lev ((c : Thread nD τ), p.1) p.2 ≤ 8} := rfl
theorem share_full (w : Fin cfg1.W) : (dats c A5 A6 A0 A7).share w = fullShare :=
  (dats c A5 A6 A0 A7).share_full (fun _ => rfl) w

end Cert.KernelIdeal.Hand

end
-- ==== Proof.KVals.lean ====
import proofs.«209869_g82368882803221_cont_9to1_m_506_32_alg».proof.Proof.KCommon
import proofs.«209869_g82368882803221_cont_9to1_m_506_32_alg».proof.Proof.KLaunchB
import proofs.«209869_g82368882803221_cont_9to1_m_506_32_alg».proof.Proof.KRegionData

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The valuations @main passes through after the SparseCore call, and its result -/

/-- What the gathered-logits array holds after the call: at position `n` the table entry the kernel picks for it. -/
def OUT (d : Dev nD) : Buf (Elt F) (outLoc d) := fun x => picked d (TAB m d) (m (tgtLoc d)) (x 0)

/-- After the call: the gathered logits at what the tiles picked. -/
def V5 (d : Dev nD) : Valuation τ sig (Elt F) := Function.update (V4 m d) r_v4 (OUT m d)
/-- After the two reshapes. -/
def V6 (d : Dev nD) : Valuation τ sig (Elt F) := (op6 (F := F)).result ((op5 (F := F)).result (V5 m d))

/-- What the region finds in its four arrays. -/
def A5 (d : Dev nD) : Buf (Elt F) ((d : Thread nD τ).loc main_v5) := V6 m d r_v5
def A6 (d : Dev nD) : Buf (Elt F) ((d : Thread nD τ).loc main_v6) := V6 m d r_v6
def A0 (d : Dev nD) : Buf (Elt F) ((d : Thread nD τ).loc main_v0) := V6 m d r_v0
def A7 (d : Dev nD) : Buf (Elt F) ((d : Thread nD τ).loc main_v7) := V6 m d r_v7

/-- What the region leaves in its result array. -/
def RES (d : Dev nD) : Buf (Elt F) ((d : Thread nD τ).loc main_v7) := (dats d (A5 m d) (A6 m d) (A0 m d) (A7 m d)).arrAt 3 cfg1.N

/-- After the region, and the program's result. -/
def V7 (d : Dev nD) : Valuation τ sig (Elt F) := Function.update (V6 m d) r_v7 (RES m d)
def VAL (d : Dev nD) : Buf (Elt F) ((d : Thread nD τ).loc main_v8) := (op8 (F := F)).result (V7 m d) r_v8

end Cert.KernelIdeal.Hand

end
-- ==== Proof.PreFacts.lean ====
/-
  The precondition `input_domain` read back. It is the conjunction of two `all`s: every logit has absolute value
  strictly below +∞, and every target word, read signed, lies between 0 and 99999. Each `all` is a fold by `and`
  from 1 over a whole array into the one-element shape, so it is 1 only if every element of the array is 1; an
  element of the second array is the `and` of two signed comparisons, an element of the first is one strict
  comparison of `|x|` with the pattern of +∞. The integer half holds at every float instance (the float half's bit
  is then just some bit); the float half is read on the extended reals, where `|x| = max x (-x)` and the comparison
  is the strict order: `max x (-x) < ⊤` excludes both infinities, so `x` is a real number.
-/
import Idealize.ShloMosaic.Lib.ReduceAll
import Idealize.ShloMosaic.Lib.ValueIdx
import Idealize.ShloMosaic.PureOps.Ideal
import Idealize.ShloMosaic.PureOps.Ideal.Laws
import proofs.«209869_g82368882803221_cont_9to1_m_506_32_alg».proof.Pre_input_domain

noncomputable section

namespace Cert.PreFacts

open Idealize.ShloMosaic Idealize.ShloMosaic.ValueIdx
open Cert.Pre_input_domain

variable [Cert.Pre_input_domain.Facts]

/-- The scalar shape has one index. -/
instance subsingleton_S_ : Subsingleton S_.Idx := ⟨fun a b => funext fun d => d.elim0⟩

/-- The precondition split: every element of the float comparison array is 1, and every element of each of the
    two integer comparison arrays is 1. Generic in the float instance: no float operation is unfolded. -/
theorem split {F : FTy → Type} [FloatOps F] (x0 : FVec F S2048x100000 .f32) (x1 : IVec S2048 32)
    (h : Cert.Pre_input_domain.fn (F := F) x0 x1 = fun _ => 1#1) :
    (∀ i : S2048x100000.Idx,
        FloatOps.cmpf .olt (FloatOps.hostAbsf (x0 i)) (FloatOps.ofBits (F := F) .f32 0x7F800000#32) = 1#1)
    ∧ (∀ i : S2048.Idx, IntOp.cmpi .sge (x1 i) 0#32 = 1#1 ∧ IntOp.cmpi .sle (x1 i) 99999#32 = 1#1) := by
  have e := congrFun h ix0
  unfold Cert.Pre_input_domain.fn at e
  dsimp only at e
  obtain ⟨e1, e2⟩ := IntOp.andi_eq_one.1 (show IntOp.andi _ _ = 1#1 from e)
  refine ⟨fun i => ?_, fun i => ?_⟩
  · exact Host.reduce_andi_all _ _ _ _ ix0 e1 i
  · exact IntOp.andi_eq_one.1 (Host.reduce_andi_all _ _ _ _ ix0 e2 i)

/-- For every float instance: under the precondition every target word is, read signed, in [0, 99999]. -/
theorem target_range {F : FTy → Type} [FloatOps F] (x0 : FVec F Cert.Pre_input_domain.S2048x100000 .f32)
    (x1 : IVec Cert.Pre_input_domain.S2048 32)
    (h : Cert.Pre_input_domain.fn (F := F) x0 x1 = fun _ => 1#1) :
    ∀ i : Cert.Pre_input_domain.S2048.Idx, 0 ≤ (x1 i).toInt ∧ (x1 i).toInt ≤ 99999 := by
  intro i
  obtain ⟨h0, h1⟩ := (split x0 x1 h).2 i
  rw [IntOp.cmpi_sge] at h0
  rw [IntOp.cmpi_sle] at h1
  have z0 : (0#32 : BitVec 32).toInt = 0 := by decide
  have z1 : (99999#32 : BitVec 32).toInt = 99999 := by decide
  rw [z0] at h0
  rw [z1] at h1
  exact ⟨h0, h1⟩

/-- A word in [0, 99999] read signed is below 100000 read unsigned. -/
theorem target_toNat_lt {F : FTy → Type} [FloatOps F] (x0 : FVec F Cert.Pre_input_domain.S2048x100000 .f32)
    (x1 : IVec Cert.Pre_input_domain.S2048 32)
    (h : Cert.Pre_input_domain.fn (F := F) x0 x1 = fun _ => 1#1) :
    ∀ i : Cert.Pre_input_domain.S2048.Idx, (x1 i).toNat < 100000 := by
  intro i
  obtain ⟨h0, h1⟩ := target_range x0 x1 h i
  have hc := BitVec.toInt_eq_toNat_cond (x1 i)
  have hlt := (x1 i).isLt
  split at hc <;> omega

/-- On the extended reals, `max x (-x) < ⊤` leaves only the real numbers. -/
theorem real_of_abs_lt_top (x : EReal) (hx : max x (-x) < ⊤) : ∃ r : ℝ, x = (r : EReal) := by
  induction x using EReal.rec with
  | bot => simp at hx
  | coe r => exact ⟨r, rfl⟩
  | top => simp at hx

/-- On the extended reals: under the precondition every logit is a real number. -/
theorem logits_real (x0 : FVec Ideal Cert.Pre_input_domain.S2048x100000 .f32) (x1 : IVec Cert.Pre_input_domain.S2048 32)
    (h : Cert.Pre_input_domain.fn (F := Ideal) x0 x1 = fun _ => 1#1) :
    ∀ i : Cert.Pre_input_domain.S2048x100000.Idx, ∃ r : ℝ, x0 i = (r : EReal) := by
  intro i
  have e := (split x0 x1 h).1 i
  have hinf : Ideal.ofBits .f32 0x7F800000#32 = (⊤ : EReal) := by simp [Ideal.ofBits, Ideal.ieee]
  rw [Ideal.hostAbsf_def, Ideal.absf_def, Ideal.cmpf_def, Ideal.ofBits_def, hinf] at e
  have hlt : max (x0 i) (-x0 i) < ⊤ := by
    by_contra hn
    have e0 : Ideal.cmp .olt (max (x0 i) (-x0 i)) ⊤ = 0#1 := by
      show BitVec.ofBool (decide (max (x0 i) (-x0 i) < ⊤)) = 0#1
      rw [decide_eq_false hn]; rfl
    rw [e0] at e
    exact absurd e (by decide)
  exact real_of_abs_lt_top _ hlt

end Cert.PreFacts

end
-- ==== Proof.Spec.lean ====
/-
  The label-smoothing loss both programs compute, written twice as a plain function of the logits
  `x : Fin 2048 → Fin 100000 → EReal` and the targets `t : Fin 2048 → BitVec 32`, on the extended reals.

  `kerLoss` is the arrangement with one log-sum-exp per row: with `z = log Σ_v exp x_v`, `lp_v = x_v - z`,
  a row's loss is `-(ε · (Σ_v x_v - 100000 · z - lp_0 - lp_t) + c · lp_t)`; rows whose target is the padding
  index 0 count nothing; the sum is divided by the number of other rows (at least 1).

  `refLoss` is the arrangement through a smoothed distribution: `lp_v = (x_v - M) - log Σ_v exp (x_v - M)` for a
  row shift `M`, the row's loss `-Σ_v d_v · lp_v` with `d_v = 0` on a padding row and at column 0, `c` at the
  target's column and `ε` elsewhere.

  The two agree when every logit is a real number and every shift `M n` is real (Algebra.lean).
-/
import Idealize.ShloMosaic.PureOps.Ideal

noncomputable section

open scoped BigOperators

namespace Cert.Spec

open Idealize.ShloMosaic

/-- The smoothing mass per column, `f32(0.1 / 99998)`, as both programs spell it. -/
def eps : EReal := Ideal.ofBits .f32 0x3586386D#32
/-- The confidence `f32(0.9)`, as both programs spell it. -/
def conf : EReal := Ideal.ofBits .f32 0x3F666666#32
/-- The vocabulary size `100000.0` as the kernel spells it. -/
def vocab : EReal := Ideal.ofBits .f32 0x47C35000#32

/-- The column a target word names. -/
def col (t : BitVec 32) : Fin 100000 := ⟨t.toNat % 100000, Nat.mod_lt _ (by norm_num)⟩

/-- Column 0. -/
def col0 : Fin 100000 := ⟨0, by norm_num⟩

/-- One row's loss from the row's log-sum-exp `z`, its sum of logits `s`, its logit `x0` at column 0 and its logit `xt` at the target. -/
def rowOf (z s x0 xt : EReal) : EReal :=
  0 - (eps * (((s - vocab * z) - (x0 - z)) - (xt - z)) + conf * (xt - z))

/-- One row's loss, the kernel's arrangement. -/
def kerRow (x : Fin 100000 → EReal) (t : BitVec 32) : EReal :=
  rowOf (Ideal.log (∑ v, Ideal.exp (x v))) (∑ v, x v) (x col0) (x (col t))

/-- The number of rows whose target is not the padding index. -/
def cnt (t : Fin 2048 → BitVec 32) : ℕ := (Finset.univ.filter fun n => t n ≠ 0#32).card

/-- The loss, the kernel's arrangement. -/
def kerLoss (x : Fin 2048 → Fin 100000 → EReal) (t : Fin 2048 → BitVec 32) : EReal :=
  Ideal.div (∑ n, if t n ≠ 0#32 then kerRow (x n) (t n) else 0)
    (max (∑ n, if t n ≠ 0#32 then (1 : EReal) else 0) 1)

/-- The smoothed distribution at a column. -/
def dist (t : BitVec 32) (v : Fin 100000) : EReal :=
  if t = 0#32 then 0 else if v = col0 then 0 else if v = col t then conf else eps

/-- One row's loss, the reference's arrangement, from the row shift `M`. -/
def refRow (x : Fin 100000 → EReal) (t : BitVec 32) (M : EReal) : EReal :=
  - ∑ v, dist t v * ((x v - M) - Ideal.log (∑ u, Ideal.exp (x u - M)))

/-- The loss, the reference's arrangement. -/
def refLoss (x : Fin 2048 → Fin 100000 → EReal) (t : Fin 2048 → BitVec 32) (M : Fin 2048 → EReal) : EReal :=
  Ideal.div (∑ n, refRow (x n) (t n) (M n)) (((max (cnt t) 1 : ℕ) : ℝ) : EReal)

end Cert.Spec

end
-- ==== Proof.AlgebraRow.lean ====
/-
  The arithmetic behind the agreement of the two arrangements of the label-smoothing loss, on the reals.

  * the three constants: `vocab` is the real `100000`; `eps` and `conf` are real numbers;
  * the coercion `ℝ → EReal` commutes with finite sums;
  * shifting every logit by `m` shifts the log-sum-exp by `m`:
    `log Σ_v exp (x_v - m) = log Σ_v exp x_v - m`;
  * a weighted sum whose weights are `0` at `a`, `c` at `b ≠ a` and `e` elsewhere is
    `e · Σ_v f_v - e · f_a + (c - e) · f_b`.
-/
import proofs.«209869_g82368882803221_cont_9to1_m_506_32_alg».proof.Proof.Spec

noncomputable section

open scoped BigOperators

namespace Cert.Algebra

open Idealize.ShloMosaic

/-- `100000.0` denotes the real `100000`. -/
theorem vocab_eq : Spec.vocab = ((100000 : ℝ) : EReal) := by
  simp [Spec.vocab, Ideal.ofBits, Ideal.ieee, -EReal.coe_mul]; norm_num

/-- The smoothing mass is a real number. -/
theorem eps_real : ∃ r : ℝ, Spec.eps = (r : EReal) := by
  simp [Spec.eps, Ideal.ofBits, Ideal.ieee, -EReal.coe_mul]

/-- The confidence is a real number. -/
theorem conf_real : ∃ r : ℝ, Spec.conf = (r : EReal) := by
  simp [Spec.conf, Ideal.ofBits, Ideal.ieee, -EReal.coe_mul]

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of exponentials over a nonempty index type is positive. -/
theorem sum_exp_pos {ι : Type*} [Fintype ι] [Nonempty ι] (x : ι → ℝ) : 0 < ∑ v, Real.exp (x v) :=
  Finset.sum_pos (fun v _ => Real.exp_pos (x v)) Finset.univ_nonempty

/-- Shifting every logit by `m` shifts the log-sum-exp by `m`. -/
theorem log_sum_exp_shift {ι : Type*} [Fintype ι] [Nonempty ι] (x : ι → ℝ) (m : ℝ) :
    Real.log (∑ v, Real.exp (x v - m)) = Real.log (∑ v, Real.exp (x v)) - m := by
  have h : ∑ v, Real.exp (x v - m) = (∑ v, Real.exp (x v)) / Real.exp m := by
    rw [Finset.sum_div]
    exact Finset.sum_congr rfl fun v _ => Real.exp_sub _ _
  rw [h, Real.log_div (sum_exp_pos x).ne' (Real.exp_pos m).ne', Real.log_exp]

/-- A weighted sum whose weights are `0` at `a`, `c` at `b ≠ a` and `e` elsewhere. -/
theorem sum_weights {ι : Type*} [Fintype ι] [DecidableEq ι] (a b : ι) (hab : b ≠ a) (e c : ℝ) (f : ι → ℝ) :
    ∑ v, (if v = a then 0 else if v = b then c else e) * f v
      = e * (∑ v, f v) - e * f a + (c - e) * f b := by
  have h : ∀ v, (if v = a then 0 else if v = b then c else e) * f v
      = e * f v - (if v = a then e * f a else 0) + (if v = b then (c - e) * f b else 0) := by
    intro v
    by_cases hva : v = a
    · subst hva
      rw [if_pos rfl, if_pos rfl, if_neg (Ne.symm hab)]
      ring
    · rw [if_neg hva, if_neg hva]
      by_cases hvb : v = b
      · subst hvb
        rw [if_pos rfl, if_pos rfl]
        ring
      · rw [if_neg hvb, if_neg hvb]
        ring
  rw [Finset.sum_congr rfl fun v _ => h v, Finset.sum_add_distrib, Finset.sum_sub_distrib,
    ← Finset.mul_sum, Finset.sum_ite_eq' Finset.univ a, Finset.sum_ite_eq' Finset.univ b,
    if_pos (Finset.mem_univ a), if_pos (Finset.mem_univ b)]

end Cert.Algebra

end
-- ==== Proof.Algebra.lean ====
/-
  The two arrangements of the label-smoothing loss agree on real logits.

  With every logit and every row shift a real number, a row's shifted log-probabilities
  `(x_v - M) - log Σ_u exp (x_u - M)` are `x_v - z` with `z = log Σ_u exp x_u` (AlgebraRow.lean,
  `log_sum_exp_shift`).  On a row whose target `t` is not the padding index the target's column differs
  from column 0, the smoothed distribution weighs column 0 by `0`, the target's column by `c` and every other
  column by `ε`, so `Σ_v d_v · (x_v - z) = ε · (Σ_v (x_v - z) - (x_0 - z) - (x_t - z)) + c · (x_t - z)` and
  `Σ_v (x_v - z) = Σ_v x_v - 100000 · z`: that is the kernel's row.  On a padding row every weight is `0`.
  The two divisors are the same number: the count of non-padding rows, at least `1`.
-/
import proofs.«209869_g82368882803221_cont_9to1_m_506_32_alg».proof.Proof.AlgebraRow

noncomputable section

open scoped BigOperators

namespace Cert.Algebra

open Idealize.ShloMosaic

/-- The reference's row on real logits, in the reals: the weights are `0` at `a`, `c` at `b ≠ a`, `e` elsewhere. -/
theorem ref_row_real {ι : Type*} [Fintype ι] [DecidableEq ι] [Nonempty ι] (a b : ι) (hab : b ≠ a)
    (e c m N : ℝ) (hN : (Fintype.card ι : ℝ) = N) (x : ι → ℝ) :
    -(∑ v, (if v = a then 0 else if v = b then c else e)
          * ((x v - m) - Real.log (∑ u, Real.exp (x u - m))))
      = 0 - (e * ((((∑ v, x v) - N * Real.log (∑ u, Real.exp (x u)))
                - (x a - Real.log (∑ u, Real.exp (x u))))
                - (x b - Real.log (∑ u, Real.exp (x u))))
              + c * (x b - Real.log (∑ u, Real.exp (x u)))) := by
  rw [log_sum_exp_shift]
  have h : ∀ v, (if v = a then 0 else if v = b then c else e)
        * ((x v - m) - (Real.log (∑ u, Real.exp (x u)) - m))
      = (if v = a then 0 else if v = b then c else e) * (x v - Real.log (∑ u, Real.exp (x u))) := by
    intro v
    rw [sub_sub_sub_cancel_right]
  rw [Finset.sum_congr rfl fun v _ => h v,
    sum_weights a b hab e c (fun v => x v - Real.log (∑ u, Real.exp (x u))),
    Finset.sum_sub_distrib, Finset.sum_const, Finset.card_univ, nsmul_eq_mul, hN]
  ring

/-- The smoothed distribution of a non-padding row, as a real number. -/
theorem dist_coe (t : BitVec 32) (h0 : t ≠ 0#32) (e c : ℝ) (he : Spec.eps = (e : EReal))
    (hc : Spec.conf = (c : EReal)) (v : Fin 100000) :
    Spec.dist t v = ((if v = Spec.col0 then 0 else if v = Spec.col t then c else e : ℝ) : EReal) := by
  unfold Spec.dist
  rw [if_neg h0, he, hc]
  by_cases h1 : v = Spec.col0
  · rw [if_pos h1, if_pos h1, EReal.coe_zero]
  · rw [if_neg h1, if_neg h1]
    by_cases h2 : v = Spec.col t
    · rw [if_pos h2, if_pos h2]
    · rw [if_neg h2, if_neg h2]

/-- The reference's row on real logits is the coercion of a real number. -/
theorem refRow_coe (x : Fin 100000 → ℝ) (t : BitVec 32) (h0 : t ≠ 0#32) (m e c : ℝ)
    (he : Spec.eps = (e : EReal)) (hc : Spec.conf = (c : EReal)) :
    Spec.refRow (fun v => (x v : EReal)) t (m : EReal)
      = ((-(∑ v, (if v = Spec.col0 then 0 else if v = Spec.col t then c else e)
              * ((x v - m) - Real.log (∑ u, Real.exp (x u - m)))) : ℝ) : EReal) := by
  have hS : (∑ u, Ideal.exp ((x u : EReal) - (m : EReal)))
      = ((∑ u, Real.exp (x u - m) : ℝ) : EReal) := by
    rw [coe_sum]
    exact Finset.sum_congr rfl fun u _ => by rw [← EReal.coe_sub, Ideal.exp_coe]
  have hpos : ¬ (∑ u, Real.exp (x u - m)) ≤ 0 := not_le.2 (sum_exp_pos fun u => x u - m)
  simp only [Spec.refRow]
  rw [hS, Ideal.log_coe, if_neg hpos, EReal.coe_neg, coe_sum, neg_inj]
  refine Finset.sum_congr rfl fun v _ => ?_
  rw [dist_coe t h0 e c he hc v, EReal.coe_mul, EReal.coe_sub, EReal.coe_sub]

/-- The kernel's row on real logits is the coercion of a real number. -/
theorem kerRow_coe (x : Fin 100000 → ℝ) (t : BitVec 32) (e c : ℝ)
    (he : Spec.eps = (e : EReal)) (hc : Spec.conf = (c : EReal)) :
    Spec.kerRow (fun v => (x v : EReal)) t
      = ((0 - (e * ((((∑ v, x v) - 100000 * Real.log (∑ u, Real.exp (x u)))
                - (x Spec.col0 - Real.log (∑ u, Real.exp (x u))))
                - (x (Spec.col t) - Real.log (∑ u, Real.exp (x u))))
              + c * (x (Spec.col t) - Real.log (∑ u, Real.exp (x u)))) : ℝ) : EReal) := by
  have hS : (∑ u, Ideal.exp (x u : EReal)) = ((∑ u, Real.exp (x u) : ℝ) : EReal) := by
    rw [coe_sum]
    exact Finset.sum_congr rfl fun u _ => Ideal.exp_coe _
  have hpos : ¬ (∑ u, Real.exp (x u)) ≤ 0 := not_le.2 (sum_exp_pos x)
  simp only [Spec.kerRow, Spec.rowOf]
  rw [hS, Ideal.log_coe, if_neg hpos, ← coe_sum, he, hc, vocab_eq]
  simp only [EReal.coe_sub, EReal.coe_add, EReal.coe_mul, EReal.coe_zero]

/-- A target word below `100000` that is not the padding index names a column other than column 0. -/
theorem col_ne_col0 (t : BitVec 32) (h0 : t ≠ 0#32) (ht : t.toNat < 100000) : Spec.col t ≠ Spec.col0 := by
  intro h
  apply h0
  have h1 : t.toNat % 100000 = 0 := congrArg Fin.val h
  rw [Nat.mod_eq_of_lt ht] at h1
  exact BitVec.eq_of_toNat_eq h1

/-- One row: the reference's arrangement is the kernel's on a non-padding row and `0` on a padding row. -/
theorem row_eq (x : Fin 100000 → ℝ) (t : BitVec 32) (m : ℝ) (ht : t.toNat < 100000) :
    Spec.refRow (fun v => (x v : EReal)) t (m : EReal)
      = if t ≠ 0#32 then Spec.kerRow (fun v => (x v : EReal)) t else 0 := by
  by_cases h0 : t = 0#32
  · rw [if_neg (not_not.2 h0)]
    simp only [Spec.refRow, Spec.dist, if_pos h0, zero_mul, Finset.sum_const_zero, neg_zero]
  · rw [if_pos h0]
    obtain ⟨e, he⟩ := eps_real
    obtain ⟨c, hc⟩ := conf_real
    rw [refRow_coe x t h0 m e c he hc, kerRow_coe x t e c he hc,
      ref_row_real Spec.col0 (Spec.col t) (col_ne_col0 t h0 ht) e c m 100000 (by simp) x]

/-- The two divisors are the same number. -/
theorem den_eq (t : Fin 2048 → BitVec 32) :
    max (∑ n, if t n ≠ 0#32 then (1 : EReal) else 0) 1 = (((max (Spec.cnt t) 1 : ℕ) : ℝ) : EReal) := by
  have h1 : ∀ n, (if t n ≠ 0#32 then (1 : EReal) else 0) = ((if t n ≠ 0#32 then 1 else 0 : ℝ) : EReal) := by
    intro n
    by_cases h : t n ≠ 0#32
    · rw [if_pos h, if_pos h, EReal.coe_one]
    · rw [if_neg h, if_neg h, EReal.coe_zero]
  rw [Finset.sum_congr rfl fun n _ => h1 n, ← coe_sum, Finset.sum_boole, Nat.cast_max, Nat.cast_one,
    EReal.coe_strictMono.monotone.map_max, EReal.coe_one]
  rfl

/-- The reference's arrangement of the loss is the kernel's, on real logits and real row shifts. -/
theorem loss_eq (x : Fin 2048 → Fin 100000 → EReal) (t : Fin 2048 → BitVec 32) (M : Fin 2048 → EReal)
    (hx : ∀ n v, ∃ r : ℝ, x n v = (r : EReal)) (hM : ∀ n, ∃ r : ℝ, M n = (r : EReal))
    (ht : ∀ n, (t n).toNat < 100000) :
    Cert.Spec.refLoss x t M = Cert.Spec.kerLoss x t := by
  choose xr hxr using hx
  choose mr hmr using hM
  have hnum : (∑ n, Spec.refRow (x n) (t n) (M n))
      = ∑ n, if t n ≠ 0#32 then Spec.kerRow (x n) (t n) else 0 := by
    refine Finset.sum_congr rfl fun n _ => ?_
    have hxn : x n = fun v => (xr n v : EReal) := funext (hxr n)
    rw [hxn, hmr n]
    exact row_eq (xr n) (t n) (mr n) (ht n)
  unfold Spec.refLoss Spec.kerLoss
  rw [den_eq, hnum]

end Cert.Algebra

end
-- ==== Proof.IdxOne.lean ====
/-
  A rank-1 index set is its one coordinate range, so a sum over it is the sum over the coordinate.
-/
import Idealize.ShloMosaic.Lib.ValueIdx

noncomputable section

open scoped BigOperators

namespace Cert.RefValue

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.RefValue

end
-- ==== Proof.RefLogSoftmax.lean ====
/-
  The reference program's value, read at the ideal instance, as a function of its two arguments.

  RefLogSoftmax: the float part. With `M n` the reference's row shift (the larger of −∞ and the maximum of
  row `n`), the inlined log-softmax at `(n, v)` is `(x n v − M n) − log Σ_u exp (x n u − M n)`; the row's loss
  is minus the sum over the row of the smoothed distribution times that; the result is the sum of the rows'
  losses divided by the converted count. The smoothed distribution (two scatters and a select) and the count
  (an integer sum) are read in their own modules and enter here as the two hypotheses of `ref_eq_of`.
-/
import proofs.«209869_g82368882803221_cont_9to1_m_506_32_alg».proof.Proof.RefRead
import proofs.«209869_g82368882803221_cont_9to1_m_506_32_alg».proof.Proof.Spec
import proofs.«209869_g82368882803221_cont_9to1_m_506_32_alg».proof.Proof.IdxOne
import Idealize.ShloMosaic.Lib.ValueIdx

noncomputable section

open scoped BigOperators

namespace Cert.RefValue

open Idealize.ShloMosaic Idealize.ShloMosaic.ValueIdx Cert.ReferenceIdeal Cert.ReferenceIdeal.ReadP

/-- The reference's row shift: the larger of −∞ and the maximum of row `n`. -/
def shift (x0 : (⟨S2048x100000, .f32⟩ : BufTy).Contents (Elt Ideal)) (n : Fin 2048) : EReal :=
  val_main_call1_v2 (F := Ideal) x0 (ix1 n)

/-- The shift broadcast along the row. -/
theorem shift_bcast (x0 : (⟨S2048x100000, .f32⟩ : BufTy).Contents (Elt Ideal)) (n : Fin 2048) (v : Fin 100000) :
    val_main_call1_v4 (F := Ideal) x0 (ix2 n v) = shift x0 n := by
  rw [val_main_call1_v4_apply, val_main_call1_v3_apply]
  exact congrArg (val_main_call1_v2 (F := Ideal) x0) (funext fun a => by match a with | ⟨0, _⟩ => rfl)

/-- The row's log-sum-exp of the shifted logits, broadcast along the row. -/
theorem lse_bcast (x0 : (⟨S2048x100000, .f32⟩ : BufTy).Contents (Elt Ideal)) (n : Fin 2048) (v : Fin 100000) :
    val_main_call1_v10 (F := Ideal) x0 (ix2 n v)
      = Ideal.log (∑ u : Fin 100000, Ideal.exp (x0 (ix2 n u) - shift x0 n)) := by
  rw [val_main_call1_v10_apply, val_main_call1_v9_apply, val_main_call1_v8_apply, val_main_call1_v7_apply,
    val_main_call1_cst_1_apply, Ideal.hostUnary_log_def, Ideal.ofBits_def, Ideal.ofBits_zero_f32, zero_add]
  refine congrArg Ideal.log (Finset.sum_congr rfl fun u _ => ?_)
  have e : idx_main_call1_v7 (idx_main_call1_v8 (idx_main_call1_v10 (ix2 n v))) u = ix2 n u :=
    funext fun a => by match a with | ⟨0, _⟩ => rfl | ⟨1, _⟩ => rfl
  rw [e, val_main_call1_v6_apply, Ideal.hostUnary_exp_def, val_main_call1_v5_apply, Ideal.subf_def, shift_bcast]

/-- The inlined log-softmax at `(n, v)`. -/
theorem logSoftmax_at (x0 : (⟨S2048x100000, .f32⟩ : BufTy).Contents (Elt Ideal)) (n : Fin 2048) (v : Fin 100000) :
    val_main_v24 (F := Ideal) x0 (ix2 n v)
      = (x0 (ix2 n v) - shift x0 n) - Ideal.log (∑ u : Fin 100000, Ideal.exp (x0 (ix2 n u) - shift x0 n)) := by
  rw [val_main_v24_apply, Ideal.subf_def, val_main_call1_v5_apply, Ideal.subf_def, shift_bcast, lse_bcast]

/-- One row's loss: minus the row's sum of the smoothed distribution times the log-softmax. -/
theorem row_at (x0 : (⟨S2048x100000, .f32⟩ : BufTy).Contents (Elt Ideal)) (x1 : (⟨S2048, .i32⟩ : BufTy).Contents (Elt Ideal))
    (n : Fin 2048) :
    val_main_v27 (F := Ideal) x0 x1 (ix1 n)
      = -∑ v : Fin 100000, val_main_v23 (F := Ideal) x1 (ix2 n v)
          * ((x0 (ix2 n v) - shift x0 n) - Ideal.log (∑ u : Fin 100000, Ideal.exp (x0 (ix2 n u) - shift x0 n))) := by
  rw [val_main_v27_apply, Ideal.hostNegf_def, Ideal.negf_def, val_main_v26_apply, val_main_cst_8_apply, Ideal.ofBits_def,
    Ideal.ofBits_zero_f32, zero_add]
  refine congrArg (fun y : EReal => -y) (Finset.sum_congr rfl fun v _ => ?_)
  have e : idx_main_v26 (ix1 n) v = ix2 n v :=
    funext fun a => by match a with | ⟨0, _⟩ => rfl | ⟨1, _⟩ => rfl
  rw [e, val_main_v25_apply, Ideal.mulf_def, logSoftmax_at]

/-- The result: the rows' losses summed, divided by the converted count. -/
theorem total_at (x0 : (⟨S2048x100000, .f32⟩ : BufTy).Contents (Elt Ideal)) (x1 : (⟨S2048, .i32⟩ : BufTy).Contents (Elt Ideal))
    (i : S_.Idx) :
    val_main_v34 (F := Ideal) x0 x1 i
      = Ideal.div (∑ n : Fin 2048, val_main_v27 (F := Ideal) x0 x1 (ix1 n)) (val_main_v33 (F := Ideal) x1 i) := by
  rw [val_main_v34_apply, Ideal.hostDivf_def, val_main_v31_apply, val_main_cst_10_apply, Ideal.ofBits_def,
    Ideal.ofBits_zero_f32, zero_add]
  rw [sum_idx1]

/-- The reference's value is the specification's, given the smoothed distribution and the count. -/
theorem ref_eq_of (x0 : (⟨S2048x100000, .f32⟩ : BufTy).Contents (Elt Ideal)) (x1 : (⟨S2048, .i32⟩ : BufTy).Contents (Elt Ideal))
    (hd : ∀ (n : Fin 2048) (v : Fin 100000), val_main_v23 (F := Ideal) x1 (ix2 n v) = Cert.Spec.dist (x1 (ix1 n)) v)
    (hc : ∀ i : S_.Idx, val_main_v33 (F := Ideal) x1 i
        = (((max (Cert.Spec.cnt fun n => x1 (ix1 n)) 1 : ℕ) : ℝ) : EReal)) :
    val_main_v34 (F := Ideal) x0 x1
      = fun _ => Cert.Spec.refLoss (fun n v => x0 (ix2 n v)) (fun n => x1 (ix1 n)) (shift x0) := by
  funext i
  rw [total_at, hc]
  unfold Cert.Spec.refLoss Cert.Spec.refRow
  have hrow : ∀ n : Fin 2048, val_main_v27 (F := Ideal) x0 x1 (ix1 n)
      = -∑ v : Fin 100000, Cert.Spec.dist (x1 (ix1 n)) v
          * ((x0 (ix2 n v) - shift x0 n) - Ideal.log (∑ u : Fin 100000, Ideal.exp (x0 (ix2 n u) - shift x0 n))) := by
    intro n
    rw [row_at]
    refine congrArg (fun y : EReal => -y) (Finset.sum_congr rfl fun v _ => ?_)
    rw [hd]
  rw [Finset.sum_congr rfl fun n _ => hrow n]

end Cert.RefValue

end
-- ==== Proof.LibScatterSet.lean ====
/-
  A `stablehlo.scatter` whose body returns the update (`.at[…].set`) and whose updates all carry ONE value `c`,
  read at an operand index `i'`: the fold over the update indices leaves `c` at `i'` as soon as some update
  index lands on `i'`, and the operand's own element when none does. Which update lands last does not matter,
  because every update writes the same value; so no distinctness of the landing indices is needed.
-/
import Idealize.ShloMosaic.PureOps

namespace Cert.RefValue

open Idealize.ShloMosaic

section ScatterSet

variable {α : Type} {s si u : Shape} {w : Nat}

/-- One step of the scatter's fold: update number `n` (row-major) overwrites the element it lands on, if it lands. -/
def scatterStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with the body "return the update" is the left fold of that step. -/
theorem scatter_eq_foldl_step (d : ScatterDims s si u) (x : s.Idx → α) (idx : IVec si w) (upd : u.Idx → α) :
    Host.scatter d (fun _ b => b) x idx upd = (List.finRange u.numel).foldl (scatterStep d idx upd) x := rfl

theorem scatterStep_some (d : ScatterDims s si u) (idx : IVec si w) (upd : u.Idx → α) (r : s.Idx → α) (n : Fin u.numel)
    (i i' : s.Idx) (h : d.resultIdx? (u.rowMajor.symm n) idx = some i) :
    scatterStep d idx upd r n i' = if i' = i then upd (u.rowMajor.symm n) else r i' := by
  unfold scatterStep; rw [h]

theorem scatterStep_none (d : ScatterDims s si u) (idx : IVec si w) (upd : u.Idx → α) (r : s.Idx → α) (n : Fin u.numel)
    (h : d.resultIdx? (u.rowMajor.symm n) idx = none) : scatterStep d idx upd r n = r := by
  unfold scatterStep; rw [h]

/-- No update of the list lands on `i'`: the fold leaves the element it started from. -/
theorem foldl_step_miss (d : ScatterDims s si u) (idx : IVec si w) (upd : u.Idx → α) (i' : s.Idx) :
    ∀ (l : List (Fin u.numel)) (x : s.Idx → α), (∀ n ∈ l, d.resultIdx? (u.rowMajor.symm n) idx ≠ some i') →
      l.foldl (scatterStep d idx upd) x i' = x i'
  | [], _, _ => rfl
  | n :: l, x, h => by
    rw [List.foldl_cons, foldl_step_miss d idx upd i' l _ (fun m hm => h m (List.mem_cons_of_mem _ hm))]
    cases hn : d.resultIdx? (u.rowMajor.symm n) idx with
    | none => rw [scatterStep_none d idx upd x n hn]
    | some i =>
      rw [scatterStep_some d idx upd x n i i' hn, if_neg]
      intro e
      exact h n List.mem_cons_self (by rw [hn, e])

/-- Some update of the list lands on `i'`, and every update carries `c`: the fold leaves `c` there. -/
theorem foldl_step_hit (d : ScatterDims s si u) (idx : IVec si w) (upd : u.Idx → α) (c : α) (hupd : ∀ j, upd j = c)
    (i' : s.Idx) :
    ∀ (l : List (Fin u.numel)) (x : s.Idx → α), (∃ n ∈ l, d.resultIdx? (u.rowMajor.symm n) idx = some i') →
      l.foldl (scatterStep d idx upd) x i' = c
  | [], _, h => by obtain ⟨n, hn, _⟩ := h; cases hn
  | n :: l, x, h => by
    rw [List.foldl_cons]
    by_cases hl : ∃ m ∈ l, d.resultIdx? (u.rowMajor.symm m) idx = some i'
    · exact foldl_step_hit d idx upd c hupd i' l _ hl
    · have hmiss : ∀ m ∈ l, d.resultIdx? (u.rowMajor.symm m) idx ≠ some i' := fun m hm e => hl ⟨m, hm, e⟩
      rw [foldl_step_miss d idx upd i' l _ hmiss]
      obtain ⟨m, hm, e⟩ := h
      rcases List.mem_cons.1 hm with rfl | hm'
      · rw [scatterStep_some d idx upd x m i' i' e, if_pos rfl, hupd]
      · exact absurd ⟨m, hm', e⟩ hl

/-- No update index lands on `i'`: the scatter leaves the operand's element. -/
theorem scatter_set_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  rw [scatter_eq_foldl_step]
  exact foldl_step_miss d idx upd i' _ x (fun n _ => h _)

/-- Some update index lands on `i'`, and every update carries `c`: the scatter leaves `c` there. -/
theorem scatter_set_hit (d : ScatterDims s si u) (x : s.Idx → α) (idx : IVec si w) (upd : u.Idx → α) (c : α)
    (hupd : ∀ j, upd j = c) (i' : s.Idx) (j : u.Idx) (h : d.resultIdx? j idx = some i') :
    Host.scatter d (fun _ b => b) x idx upd i' = c := by
  rw [scatter_eq_foldl_step]
  exact foldl_step_hit d idx upd c hupd i' _ x
    ⟨u.rowMajor j, List.mem_finRange _, by rw [Equiv.symm_apply_apply]; exact h⟩

end ScatterSet

end Cert.RefValue
-- ==== Proof.Words.lean ====
/-
  32-bit words read as signed integers: a small natural number's word is that number and is not negative; a word
  whose signed value is not negative is its unsigned value.
-/
import Idealize.ShloMosaic.PureOps

namespace Cert.RefValue

open Idealize.ShloMosaic

/-- A small natural number's word, read signed, is the number. -/
theorem toInt_ofNat_small (c : ℕ) (h : c < 2 ^ 31) : (BitVec.ofNat 32 c).toInt = (c : Int) := by
  have hn : (BitVec.ofNat 32 c).toNat = c := by rw [BitVec.toNat_ofNat]; exact Nat.mod_eq_of_lt (by omega)
  rw [BitVec.toInt_eq_toNat_of_lt (by rw [hn]; omega), hn]

/-- A word that is not negative is not below zero in the signed comparison. -/
theorem cmpi_slt_zero_of_nonneg (t : BitVec 32) (h : 0 ≤ t.toInt) : IntOp.cmpi .slt t 0#32 = 0#1 := by
  have hs : t.slt 0#32 = false := by
    rw [Bool.eq_false_iff, Ne, BitVec.slt_iff_toInt_lt]
    have h0 : (0#32 : BitVec 32).toInt = 0 := by decide
    rw [h0]; omega
  show BitVec.ofBool (t.slt 0#32) = 0#1
  rw [hs]; rfl

/-- A word that is not negative, read signed, is its unsigned value. -/
theorem toInt_eq_toNat_of_nonneg (t : BitVec 32) (h : 0 ≤ t.toInt) : t.toInt = (t.toNat : Int) := by
  have hlt := t.isLt
  rw [BitVec.toInt_eq_toNat_cond] at h ⊢
  by_cases hc : 2 * t.toNat < 2 ^ 32
  · rw [if_pos hc]
  · rw [if_neg hc] at h; exfalso; omega

/-- Equality with the zero word as a bit. -/
theorem cmpi_eq_zero_of_ne (t : BitVec 32) (h : t ≠ 0#32) : IntOp.cmpi .eq t 0#32 = 0#1 := by
  show BitVec.ofBool (t == 0#32) = 0#1
  rw [beq_eq_false_iff_ne.2 h]; rfl

end Cert.RefValue
-- ==== Proof.RefDist.lean ====
/-
  The smoothed distribution the reference builds, read at `(n, v)`.

  The reference pairs each row number with the row's target (a two-column index array), writes the confidence
  at those pairs into an array filled with the smoothing mass, writes 0 down column 0, and replaces the rows
  whose target is the padding index by 0. Each of the two writes is a scatter that sets one value everywhere it
  lands, so its result at an element is that value if some update lands there and the operand's element if none
  does: the first lands row `m` on `(m, target m)`, the second on `(m, 0)`. The row numbers are below 2048
  and the targets lie in [0, 99999], so no index wraps and no update is dropped.
-/
import proofs.«209869_g82368882803221_cont_9to1_m_506_32_alg».proof.Proof.RefRead
import proofs.«209869_g82368882803221_cont_9to1_m_506_32_alg».proof.Proof.Spec
import proofs.«209869_g82368882803221_cont_9to1_m_506_32_alg».proof.Proof.LibScatterSet
import proofs.«209869_g82368882803221_cont_9to1_m_506_32_alg».proof.Proof.Words
import Idealize.ShloMosaic.Lib.ValueIdx

noncomputable section

namespace Cert.RefValue

open Idealize.ShloMosaic Idealize.ShloMosaic.ValueIdx Cert.ReferenceIdeal Cert.ReferenceIdeal.Gen Cert.ReferenceIdeal.ReadP

/-! ## Where the two scatters' updates land -/

/-- The first scatter's dimension numbers: update `m` is one element, its place the pair at row `m` of the index array. -/
abbrev d1 := scatter_S2048x100000_S2048x2_S2048_n_01_01_1
abbrev d2 := scatter_S2048x100000_S1_S2048_0_1_1_0

theorem d1_window (j : S2048.Idx) (a : Fin 2) : d1.window j a = 0 := by
  unfold ScatterDims.window
  rw [dif_neg]
  revert a; decide

theorem fin1_eq_zero (x : Fin S2048.rank) : x = ⟨0, Nat.one_pos⟩ := Fin.ext (by have h : x.val < 1 := x.isLt; show x.val = 0; omega)

theorem d1_siIdx_val0 (j : S2048.Idx) (c : Fin d1.scatterDimsToOperandDims.length) :
    ((d1.siIdx j c) ⟨0, by decide⟩).val = (j 0).val := by
  unfold ScatterDims.siIdx
  split
  next h => exact absurd h (by decide)
  next h =>
    unfold ScatterDims.siCoord
    simp only [Fin.val_cast]
    exact congrArg (fun x => (j x).val) (fin1_eq_zero _)

theorem d1_siIdx_val1 (j : S2048.Idx) (c : Fin d1.scatterDimsToOperandDims.length) :
    ((d1.siIdx j c) ⟨1, by decide⟩).val = c.val := by
  unfold ScatterDims.siIdx
  split
  next h => rfl
  next h => exact absurd rfl h

theorem d1_start0 (j : S2048.Idx) (idx : IVec S2048x2 32) :
    d1.start j idx ⟨0, by decide⟩ = (idx (ix2 (j 0) 0)).toInt := by
  unfold ScatterDims.start
  split
  next ha =>
    refine congrArg (fun k => (idx k).toInt) (funext fun b => Fin.ext ?_)
    match b with
    | ⟨0, _⟩ => exact d1_siIdx_val0 j _
    | ⟨1, _⟩ => exact (d1_siIdx_val1 j _).trans rfl
  next ha => exact absurd (by decide) ha

theorem d1_start1 (j : S2048.Idx) (idx : IVec S2048x2 32) :
    d1.start j idx ⟨1, by decide⟩ = (idx (ix2 (j 0) 1)).toInt := by
  unfold ScatterDims.start
  split
  next ha =>
    refine congrArg (fun k => (idx k).toInt) (funext fun b => Fin.ext ?_)
    match b with
    | ⟨0, _⟩ => exact d1_siIdx_val0 j _
    | ⟨1, _⟩ => exact (d1_siIdx_val1 j _).trans rfl
  next ha => exact absurd (by decide) ha

theorem d1_resultIdx (m : Fin 2048) (idx : IVec S2048x2 32) (r : Fin 2048) (c : Fin 100000)
    (h0 : (idx (ix2 m 0)).toInt = (r.val : Int)) (h1 : (idx (ix2 m 1)).toInt = (c.val : Int)) :
    d1.resultIdx? (ix1 m) idx = some (ix2 r c) := by
  have hs : ∀ a : Fin 2, d1.start (ix1 m) idx a + (d1.window (ix1 m) a : Int) = ((ix2 r c a).val : Int) := by
    intro a
    match a with
    | ⟨0, _⟩ => rw [d1_window, d1_start0]; exact (add_zero _).trans h0
    | ⟨1, _⟩ => rw [d1_window, d1_start1]; exact (add_zero _).trans h1
  unfold ScatterDims.resultIdx?
  split
  next h =>
    refine congrArg some (funext fun a => Fin.ext ?_)
    show (d1.start (ix1 m) idx a + (d1.window (ix1 m) a : Int)).toNat = _
    rw [hs a]; exact Int.toNat_natCast _
  next h =>
    refine absurd (fun a => ?_) h
    rw [hs a]
    exact ⟨Int.natCast_nonneg _, Int.ofNat_lt.2 (ix2 r c a).isLt⟩

theorem d2_window0 (j : S2048.Idx) : d2.window j ⟨0, by decide⟩ = (j 0).val := by
  unfold ScatterDims.window
  split
  next h => exact congrArg (fun x => (j x).val) (fin1_eq_zero _)
  next h => exact absurd (by decide) h

theorem d2_window1 (j : S2048.Idx) : d2.window j ⟨1, by decide⟩ = 0 := by
  unfold ScatterDims.window
  split
  next h => exact absurd h (by decide)
  next h => rfl

theorem d2_start0 (j : S2048.Idx) (idx : IVec S1 32) : d2.start j idx ⟨0, by decide⟩ = 0 := by
  unfold ScatterDims.start
  split
  next h => exact absurd h (by decide)
  next h => rfl

theorem d2_start1 (j : S2048.Idx) (idx : IVec S1 32) : d2.start j idx ⟨1, by decide⟩ = (idx (ix1 0)).toInt := by
  unfold ScatterDims.start
  split
  next ha =>
    refine congrArg (fun k => (idx k).toInt) (funext fun b => Fin.ext ?_)
    match b with
    | ⟨0, _⟩ =>
      unfold ScatterDims.siIdx
      split
      next h => rfl
      next h => exact absurd rfl h
  next ha => exact absurd (by decide) ha

theorem d2_resultIdx (m : Fin 2048) (idx : IVec S1 32) (h0 : (idx (ix1 0)).toInt = 0) :
    d2.resultIdx? (ix1 m) idx = some (ix2 m Cert.Spec.col0) := by
  have hs : ∀ a : Fin 2, d2.start (ix1 m) idx a + (d2.window (ix1 m) a : Int) = ((ix2 m Cert.Spec.col0 a).val : Int) := by
    intro a
    match a with
    | ⟨0, _⟩ => rw [d2_window0, d2_start0]; exact zero_add _
    | ⟨1, _⟩ => rw [d2_window1, d2_start1, h0]; rfl
  unfold ScatterDims.resultIdx?
  split
  next h =>
    refine congrArg some (funext fun a => Fin.ext ?_)
    show (d2.start (ix1 m) idx a + (d2.window (ix1 m) a : Int)).toNat = _
    rw [hs a]; exact Int.toNat_natCast _
  next h =>
    refine absurd (fun a => ?_) h
    rw [hs a]
    exact ⟨Int.natCast_nonneg _, Int.ofNat_lt.2 (ix2 m Cert.Spec.col0 a).isLt⟩

/-! ## The index array -/

/-- The row numbers' column: row `m` holds the word of `m` (it is not negative, so it is not wrapped). -/
theorem rowWord (m : Fin 2048) : val_main_v6 (F := Ideal) (ix1 m) = BitVec.ofNat 32 m.val := by
  rw [val_main_v6_apply, val_main_v3_apply, val_main_v1_apply]
  show Scalar.select (IntOp.cmpi .slt (BitVec.ofNat 32 m.val) (val_main_v2 (F := Ideal) (ix1 m))) _ _ = _
  rw [val_main_v2_apply, val_main_c_apply]
  have e : IntOp.cmpi .slt (BitVec.ofNat 32 m.val) 0#32 = 0#1 :=
    cmpi_slt_zero_of_nonneg _ (by rw [toInt_ofNat_small _ (by have := m.isLt; omega)]; exact Int.natCast_nonneg _)
  rw [e, select_zero]

/-- The targets' column: a target that is not negative is not wrapped. -/
theorem targetWord (x1 : (⟨S2048, .i32⟩ : BufTy).Contents (Elt Ideal)) (m : Fin 2048) (h : 0 ≤ (x1 (ix1 m)).toInt) :
    val_main_v11 (F := Ideal) x1 (ix1 m) = x1 (ix1 m) := by
  rw [val_main_v11_apply, val_main_v8_apply, val_main_v7_apply, val_main_c_1_apply, cmpi_slt_zero_of_nonneg _ h,
    select_zero]

/-- Column 0 of the index array is the row number. -/
theorem pair_col0 (x1 : (⟨S2048, .i32⟩ : BufTy).Contents (Elt Ideal)) (m : Fin 2048) :
    val_main_v14 (F := Ideal) x1 (ix2 m (0 : Fin 2)) = BitVec.ofNat 32 m.val := by
  unfold val_main_v14
  refine (concatenate_pair_apply_left (t := S2048x2) (s₁ := S2048x1) (s₂ := S2048x1) _ _ _ _ (ix2 m (0 : Fin 2)) rfl (ix2 m (0 : Fin 1))
    (fun b => by match b with | ⟨0, _⟩ => rfl | ⟨1, _⟩ => rfl)).trans ?_
  rw [val_main_v12_apply]
  have e : idx_main_v12 (ix2 m (0 : Fin 1)) = ix1 m := funext fun a => by match a with | ⟨0, _⟩ => rfl
  rw [e, rowWord]

/-- Column 1 of the index array is the target. -/
theorem pair_col1 (x1 : (⟨S2048, .i32⟩ : BufTy).Contents (Elt Ideal)) (m : Fin 2048) (h : 0 ≤ (x1 (ix1 m)).toInt) :
    val_main_v14 (F := Ideal) x1 (ix2 m (1 : Fin 2)) = x1 (ix1 m) := by
  unfold val_main_v14
  refine (concatenate_pair_apply_right (t := S2048x2) (s₁ := S2048x1) (s₂ := S2048x1) _ _ _ _ (ix2 m (1 : Fin 2)) rfl rfl
    (ix2 m (0 : Fin 1)) ?_ ?_).trans ?_
  · intro b hb
    match b with
    | ⟨0, _⟩ => rfl
    | ⟨1, _⟩ => exact absurd rfl hb
  · rfl
  · rw [val_main_v13_apply]
    have e : idx_main_v13 (ix2 m (0 : Fin 1)) = ix1 m := funext fun a => by match a with | ⟨0, _⟩ => rfl
    rw [e, targetWord x1 m h]

/-- A target in range, read signed, is the column it names. -/
theorem col_val (t : BitVec 32) (h0 : 0 ≤ t.toInt) (h1 : t.toInt ≤ 99999) : t.toInt = ((Cert.Spec.col t).val : Int) := by
  have e := toInt_eq_toNat_of_nonneg t h0
  rw [e] at h1 ⊢
  show (t.toNat : Int) = ((t.toNat % 100000 : ℕ) : Int)
  rw [Nat.mod_eq_of_lt (by omega)]

/-! ## The three stages -/

/-- After the first scatter: the confidence at the target's column, the smoothing mass elsewhere. -/
theorem smooth_at (x1 : (⟨S2048, .i32⟩ : BufTy).Contents (Elt Ideal))
    (ht : ∀ n : Fin 2048, 0 ≤ (x1 (ix1 n)).toInt ∧ (x1 (ix1 n)).toInt ≤ 99999) (n : Fin 2048) (v : Fin 100000) :
    val_main_v16 (F := Ideal) x1 (ix2 n v)
      = if v = Cert.Spec.col (x1 (ix1 n)) then Cert.Spec.conf else Cert.Spec.eps := by
  unfold val_main_v16
  have hupd : ∀ j, val_main_v15 (F := Ideal) j = Cert.Spec.conf := fun j => by
    rw [val_main_v15_apply, val_main_cst_3_apply]; rfl
  have hres : ∀ m : Fin 2048, d1.resultIdx? (ix1 m) (val_main_v14 (F := Ideal) x1)
      = some (ix2 m (Cert.Spec.col (x1 (ix1 m)))) := fun m =>
    d1_resultIdx m _ m _ (by rw [pair_col0]; exact toInt_ofNat_small _ (by have := m.isLt; omega))
      (by rw [pair_col1 x1 m (ht m).1]; exact col_val _ (ht m).1 (ht m).2)
  by_cases hv : v = Cert.Spec.col (x1 (ix1 n))
  · rw [if_pos hv, hv]
    exact scatter_set_hit d1 _ _ _ _ hupd _ (ix1 n) (hres n)
  · rw [if_neg hv, scatter_set_miss d1 _ _ _ _ ?_]
    · rw [val_main_v0_apply, val_main_cst_apply]; rfl
    · intro j
      obtain ⟨m, rfl⟩ : ∃ m : Fin 2048, j = ix1 m := ⟨j 0, eq_ix1 j⟩
      rw [hres m]
      intro e
      have e' := Option.some.inj e
      have e0 : m = n := congrFun e' 0
      have e1 : Cert.Spec.col (x1 (ix1 m)) = v := congrFun e' 1
      subst e0
      exact hv e1.symm

/-- After the second scatter: 0 at column 0, the first scatter's result elsewhere. -/
theorem smooth0_at (x1 : (⟨S2048, .i32⟩ : BufTy).Contents (Elt Ideal)) (n : Fin 2048) (v : Fin 100000) :
    val_main_v19 (F := Ideal) x1 (ix2 n v)
      = if v = Cert.Spec.col0 then 0 else val_main_v16 (F := Ideal) x1 (ix2 n v) := by
  unfold val_main_v19
  have hupd : ∀ j, val_main_v18 (F := Ideal) j = 0 := fun j => by
    rw [val_main_v18_apply, val_main_cst_5_apply, Ideal.ofBits_def, Ideal.ofBits_zero_f32]
  have hidx : (val_main_v17 (F := Ideal) (ix1 0)).toInt = 0 := by
    rw [val_main_v17_apply, val_main_c_4_apply]; decide
  have hres : ∀ m : Fin 2048, d2.resultIdx? (ix1 m) (val_main_v17 (F := Ideal)) = some (ix2 m Cert.Spec.col0) :=
    fun m => d2_resultIdx m _ hidx
  by_cases hv : v = Cert.Spec.col0
  · rw [if_pos hv, hv]
    exact scatter_set_hit d2 _ _ _ _ hupd _ (ix1 n) (hres n)
  · rw [if_neg hv]
    refine scatter_set_miss d2 _ _ _ _ ?_
    intro j
    obtain ⟨m, rfl⟩ : ∃ m : Fin 2048, j = ix1 m := ⟨j 0, eq_ix1 j⟩
    rw [hres m]
    intro e
    have e1 : Cert.Spec.col0 = v := congrFun (Option.some.inj e) 1
    exact hv e1.symm

/-- After the select on the padding mask: the specification's smoothed distribution. -/
theorem dist_at (x1 : (⟨S2048, .i32⟩ : BufTy).Contents (Elt Ideal))
    (ht : ∀ n : Fin 2048, 0 ≤ (x1 (ix1 n)).toInt ∧ (x1 (ix1 n)).toInt ≤ 99999) (n : Fin 2048) (v : Fin 100000) :
    val_main_v23 (F := Ideal) x1 (ix2 n v) = Cert.Spec.dist (x1 (ix1 n)) v := by
  have e : idx_main_v22 (idx_main_call0_v1 (ix2 n v)) = ix1 n := funext fun a => by match a with | ⟨0, _⟩ => rfl
  rw [val_main_v23_apply, val_main_call0_v1_apply, val_main_v22_apply, e, val_main_v21_apply, val_main_v20_apply,
    val_main_c_6_apply, val_main_call0_v2_apply, val_main_call0_v0_apply, val_main_cst_7_apply, Ideal.ofBits_def,
    Ideal.ofBits_zero_f32, smooth0_at, smooth_at x1 ht]
  unfold Cert.Spec.dist
  by_cases h : x1 (ix1 n) = 0#32
  · rw [if_pos h, h]
    have e1 : IntOp.cmpi .eq (0#32) 0#32 = 1#1 := by decide
    rw [e1, select_one]
  · rw [if_neg h, cmpi_eq_zero_of_ne _ h, select_zero]

end Cert.RefValue

end
-- ==== Proof.RefCount.lean ====
/-
  The reference's divisor. Each row contributes the bit "its target is not the padding index 0", widened to a
  32-bit word; the words are added with wrapping addition; the sum is compared with 1 (signed maximum) and
  converted to a float. At most 2048 ones are added, so nothing wraps: the sum is the word of the number of
  non-padding rows, the maximum is the word of `max count 1`, and its conversion is that natural number.
-/
import proofs.«209869_g82368882803221_cont_9to1_m_506_32_alg».proof.Proof.RefRead
import proofs.«209869_g82368882803221_cont_9to1_m_506_32_alg».proof.Proof.Spec
import proofs.«209869_g82368882803221_cont_9to1_m_506_32_alg».proof.Proof.IdxOne
import proofs.«209869_g82368882803221_cont_9to1_m_506_32_alg».proof.Proof.Words
import Idealize.ShloMosaic.Lib.ValueIdx

noncomputable section

open scoped BigOperators

namespace Cert.RefValue

open Idealize.ShloMosaic Idealize.ShloMosaic.ValueIdx Cert.ReferenceIdeal Cert.ReferenceIdeal.Gen Cert.ReferenceIdeal.ReadP

/-- A wrapping 32-bit sum of words is the word of the sum of their values. -/
theorem fold_addi_eq_ofNat {ι : Type} (S : Finset ι) (g : ι → BitVec 32) :
    S.fold IntOp.addi 0#32 g = BitVec.ofNat 32 (∑ i ∈ S, (g i).toNat) := by
  classical
  induction S using Finset.induction_on with
  | empty => rfl
  | insert a S ha ih =>
    rw [Finset.fold_insert ha, Finset.sum_insert ha, ih, BitVec.ofNat_add, BitVec.ofNat_toNat, BitVec.setWidth_eq]
    rfl

/-- The signed maximum of a small count's word and 1, read signed, is `max count 1`. -/
theorem toInt_maxsi_one (c : ℕ) (h : c ≤ 2048) :
    (IntOp.maxsi (BitVec.ofNat 32 c) 1#32).toInt = ((max c 1 : ℕ) : Int) := by
  have h1 : (1#32 : BitVec 32).toInt = 1 := by decide
  have hc := toInt_ofNat_small c (by omega)
  unfold IntOp.maxsi
  by_cases hlt : 1 < c
  · have hs : (1#32 : BitVec 32).slt (BitVec.ofNat 32 c) = true := by
      rw [BitVec.slt_iff_toInt_lt, h1, hc]; exact_mod_cast hlt
    rw [if_pos hs, hc, max_eq_left (by omega)]
  · have hs : ¬ ((1#32 : BitVec 32).slt (BitVec.ofNat 32 c) = true) := by
      rw [BitVec.slt_iff_toInt_lt, h1, hc]; exact_mod_cast hlt
    rw [if_neg hs, h1, max_eq_right (by omega)]
    rfl

/-- A row's word: 1 when its target is not the padding index, else 0. -/
theorem bit_at (x1 : (⟨S2048, .i32⟩ : BufTy).Contents (Elt Ideal)) (j : S2048.Idx) :
    val_main_v29 (F := Ideal) x1 j = if x1 j ≠ 0#32 then 1#32 else 0#32 := by
  rw [val_main_v29_apply, val_main_v28_apply, val_main_v21_apply, val_main_v20_apply, val_main_c_6_apply]
  by_cases h : x1 j = 0#32
  · rw [if_neg (not_not.2 h), h]; decide
  · rw [if_pos h]
    rw [cmpi_eq_zero_of_ne _ h]; decide

instance : Subsingleton S_.Idx := ⟨fun _ _ => funext fun d => d.elim0⟩

/-- The integer sum is the word of the number of rows whose target is not the padding index. -/
theorem count_word (x1 : (⟨S2048, .i32⟩ : BufTy).Contents (Elt Ideal)) (i : S_.Idx) :
    val_main_v30 (F := Ideal) x1 i = BitVec.ofNat 32 (Cert.Spec.cnt fun n => x1 (ix1 n)) := by
  unfold val_main_v30
  rw [Host.reduce_eq_fold IntOp.addi _ _ reducesTo_S2048_S_d0 h_S_ i,
    Finset.filter_true_of_mem (fun j _ => Subsingleton.elim _ _), val_main_c_9_apply, fold_addi_eq_ofNat]
  refine congrArg (BitVec.ofNat 32) ?_
  rw [sum_idx1]
  unfold Cert.Spec.cnt
  rw [Finset.card_filter]
  refine Finset.sum_congr rfl fun n _ => ?_
  rw [bit_at]
  split <;> rfl

/-- There are at most 2048 rows. -/
theorem cnt_le (t : Fin 2048 → BitVec 32) : Cert.Spec.cnt t ≤ 2048 := by
  unfold Cert.Spec.cnt
  exact (Finset.card_filter_le _ _).trans (by rw [Finset.card_univ, Fintype.card_fin])

/-- The converted divisor is `max count 1`. -/
theorem count_real (x1 : (⟨S2048, .i32⟩ : BufTy).Contents (Elt Ideal)) (i : S_.Idx) :
    val_main_v33 (F := Ideal) x1 i = (((max (Cert.Spec.cnt fun n => x1 (ix1 n)) 1 : ℕ) : ℝ) : EReal) := by
  rw [val_main_v33_apply, val_main_v32_apply, count_word, val_main_c_11_apply]
  show ((((IntOp.maxsi (BitVec.ofNat 32 (Cert.Spec.cnt fun n => x1 (ix1 n))) 1#32).toInt : Int) : ℝ) : EReal) = _
  rw [toInt_maxsi_one _ (cnt_le _)]
  norm_cast

end Cert.RefValue

end
-- ==== Proof.RefShift.lean ====
/-
  The reference's row shift is a real number when the logits are: it is the larger of −∞ and the maximum of the
  row, taken as a fold of `max` started at −∞ over the row's 100000 entries; a fold of `max` from −∞ over a
  non-empty family of reals is one of them.
-/
import proofs.«209869_g82368882803221_cont_9to1_m_506_32_alg».proof.Proof.RefLogSoftmax

noncomputable section

namespace Cert.RefValue

open Idealize.ShloMosaic Idealize.ShloMosaic.ValueIdx Cert.ReferenceIdeal Cert.ReferenceIdeal.Gen Cert.ReferenceIdeal.ReadP

/-- The word the reference starts its maximum from is −∞. -/
theorem ofBits_neg_inf : Ideal.ofBits .f32 0xFF800000#32 = ⊥ := by
  simp [Ideal.ofBits, Ideal.ieee]

/-- A fold of `max` from −∞ over a non-empty family of reals is a real. -/
theorem fold_max_real {ι : Type} (S : Finset ι) (hS : S.Nonempty) (f : ι → EReal) (hf : ∀ i, ∃ r : ℝ, f i = (r : EReal)) :
    ∃ r : ℝ, S.fold (FloatOps.maximumf (F := Ideal) (φ := .f32)) (⊥ : EReal) f = (r : EReal) := by
  induction hS using Finset.Nonempty.cons_induction with
  | singleton a =>
    obtain ⟨r, hr⟩ := hf a
    exact ⟨r, by rw [Finset.fold_singleton, Ideal.maximumf_def, hr, max_eq_left bot_le]⟩
  | cons a s ha hs ih =>
    obtain ⟨r, hr⟩ := hf a
    obtain ⟨r', hr'⟩ := ih
    rcases le_total r r' with h | h
    · exact ⟨r', by rw [Finset.fold_cons, hr', Ideal.maximumf_def, hr, max_eq_right (EReal.coe_le_coe_iff.2 h)]⟩
    · exact ⟨r, by rw [Finset.fold_cons, hr', Ideal.maximumf_def, hr, max_eq_left (EReal.coe_le_coe_iff.2 h)]⟩

/-- The row shift of real logits is real. -/
theorem shift_real (x0 : (⟨S2048x100000, .f32⟩ : BufTy).Contents (Elt Ideal)) (hx : ∀ i, ∃ r : ℝ, x0 i = (r : EReal))
    (n : Fin 2048) : ∃ r : ℝ, shift x0 n = (r : EReal) := by
  unfold shift
  rw [val_main_call1_v2_apply, Ideal.maximumf_def, val_main_call1_v1_apply, val_main_call1_cst_0_apply, Ideal.ofBits_def,
    ofBits_neg_inf, max_eq_right bot_le]
  unfold val_main_call1_v0
  have key := Host.reduce_eq_fold_single (FloatOps.maximumf (F := Ideal) (φ := .f32)) x0 (val_main_call1_cst (F := Ideal))
    reducesTo_S2048x100000_S2048_d1 (by decide) h_S_ (ix1 n)
  rw [val_main_call1_cst_apply, Ideal.ofBits_def, ofBits_neg_inf] at key
  refine Exists.imp (fun r hr => key.trans hr) ?_
  exact fold_max_real _ ⟨⟨0, by decide⟩, Finset.mem_univ _⟩ _ (fun k => hx _)

end Cert.RefValue

end
-- ==== Proof.RefValue.lean ====
/-
  The reference program's value, read at the ideal instance, is the specification's loss in the reference's
  arrangement, with the row shifts the reference itself computes (real numbers when the logits are).
  The float part is RefLogSoftmax, the smoothed distribution RefDist, the divisor RefCount, the shifts RefShift.
-/
import proofs.«209869_g82368882803221_cont_9to1_m_506_32_alg».proof.Proof.RefLogSoftmax
import proofs.«209869_g82368882803221_cont_9to1_m_506_32_alg».proof.Proof.RefDist
import proofs.«209869_g82368882803221_cont_9to1_m_506_32_alg».proof.Proof.RefCount
import proofs.«209869_g82368882803221_cont_9to1_m_506_32_alg».proof.Proof.RefShift

noncomputable section

namespace Cert.RefValue

open Idealize.ShloMosaic Idealize.ShloMosaic.ValueIdx

theorem ref_eq
    (x0 : (⟨Cert.ReferenceIdeal.S2048x100000, .f32⟩ : BufTy).Contents (Elt Ideal)) (x1 : (⟨Cert.ReferenceIdeal.S2048, .i32⟩ : BufTy).Contents (Elt Ideal))
    (hx : ∀ i, ∃ r : ℝ, x0 i = (r : EReal)) (ht : ∀ n : Fin 2048, 0 ≤ (x1 (ValueIdx.ix1 n)).toInt ∧ (x1 (ValueIdx.ix1 n)).toInt ≤ 99999) :
    ∃ M : Fin 2048 → EReal, (∀ n, ∃ r : ℝ, M n = (r : EReal)) ∧
      Cert.ReferenceIdeal.ReadP.val_main_v34 (F := Ideal) x0 x1
        = fun _ => Cert.Spec.refLoss (fun n v => x0 (ValueIdx.ix2 n v)) (fun n => x1 (ValueIdx.ix1 n)) M :=
  ⟨shift x0, shift_real x0 hx, ref_eq_of x0 x1 (dist_at x1 ht) (count_real x1)⟩

end Cert.RefValue

end
-- ==== Proof.KClaims.lean ====
/-
  The certificate's five claims from their pieces.

  Both programs compute the label-smoothing loss of Spec.lean. The reference's result, read at the ideal instance,
  is `refLoss` of its arguments with the row shifts it computes itself (RefValue); under the precondition every
  logit is a real number and every target lies in [0, 99999] (PreFacts), so `refLoss = kerLoss` (Algebra); the
  kernel's result is `kerLoss` of its arguments. From memories that agree on the arguments the two results are
  therefore one function. The three frame claims are the runs with the value conjunct dropped, and the kernel's
  idealization rewrote nothing.

  Three facts are taken here as hypotheses, each stated as a proposition of its own: the reference's run read
  back (`RefRunSpec`), the kernel's run with its result array named (`KRunSpec`, and `KRunSpecB` for the printed
  program at the bit-exact instance, arguments only), and the kernel's named result as `kerLoss` (`KValSpec`).
-/
import proofs.«209869_g82368882803221_cont_9to1_m_506_32_alg».proof.Defs
import proofs.«209869_g82368882803221_cont_9to1_m_506_32_alg».proof.Proof.Gen.Kernel
import proofs.«209869_g82368882803221_cont_9to1_m_506_32_alg».proof.Proof.Gen.KernelIdeal
import proofs.«209869_g82368882803221_cont_9to1_m_506_32_alg».proof.Proof.Gen.ReferenceIdeal
import proofs.«209869_g82368882803221_cont_9to1_m_506_32_alg».proof.Proof.Gen.Pre_input_domain
import proofs.«209869_g82368882803221_cont_9to1_m_506_32_alg».proof.Proof.KVals
import proofs.«209869_g82368882803221_cont_9to1_m_506_32_alg».proof.Proof.PreFacts
import proofs.«209869_g82368882803221_cont_9to1_m_506_32_alg».proof.Proof.Algebra
import proofs.«209869_g82368882803221_cont_9to1_m_506_32_alg».proof.Proof.RefValue

noncomputable section

namespace Cert.Proof.Claims

open Idealize.ShloMosaic Idealize.SL.Sem Idealize.ShloMosaic.ValueIdx

/-! ## The three facts taken as hypotheses -/

/-- The reference's run read back: it terminates with its result at the operations' composed term of the arguments,
    and the arguments unchanged. -/
def RefRunSpec : Prop :=
  ∀ (m : (ℓ : Loc Cert.ReferenceIdeal.nD Cert.ReferenceIdeal.τ Cert.ReferenceIdeal.sig) → Buf (Elt Ideal) ℓ)
    (ρ : Dev Cert.ReferenceIdeal.nD → PrngReg),
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v34)
          = Cert.ReferenceIdeal.ReadP.val_main_v34 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)

/-- The kernel's run, at any float instance, from a memory whose targets are below 100000: it terminates with its
    result array at the named value, and the arguments unchanged. -/
def KRunSpec (F : FTy → Type) [FloatOps F] : Prop :=
  ∀ (m : (ℓ : Loc Cert.KernelIdeal.nD Cert.KernelIdeal.τ Cert.KernelIdeal.sig) → Buf (Elt F) ℓ)
    (ρ : Dev Cert.KernelIdeal.nD → PrngReg),
    (∀ d i, (m (Cert.KernelIdeal.Hand.tgtLoc d) i).toNat < 100000) →
    θ_run (Cert.KernelIdeal.defs (F := F)) (Cert.KernelIdeal.threads (F := F)) ⟨m, fun _ => 0, ρ⟩ fun r =>
      ∀ c : Dev Cert.KernelIdeal.nD,
        r.2.mem ((c.tc : Thread Cert.KernelIdeal.nD Cert.KernelIdeal.τ).loc Cert.KernelIdeal.main_v8)
          = Cert.KernelIdeal.Hand.VAL m c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)

/-- The printed kernel's run at the bit-exact instance, from a memory whose targets are below 100000: it terminates
    with the arguments unchanged. -/
def KRunSpecB : Prop :=
  ∀ (m : (ℓ : Loc Cert.Kernel.nD Cert.Kernel.τ Cert.Kernel.sig) → Buf (Elt Bits) ℓ) (ρ : Dev Cert.Kernel.nD → PrngReg),
    (∀ d i, (m ((SparseCore.T d : Thread Cert.Kernel.nD Cert.Kernel.τ).loc Cert.Kernel.main_arg1) i).toNat < 100000) →
    θ_run (Cert.Kernel.defs (F := Bits)) (Cert.Kernel.threads (F := Bits)) ⟨m, fun _ => 0, ρ⟩ fun r =>
      ∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1)

/-- The kernel's named result, at the ideal instance, is the loss in the kernel's arrangement. -/
def KValSpec : Prop :=
  ∀ (m : (ℓ : Loc Cert.KernelIdeal.nD Cert.KernelIdeal.τ Cert.KernelIdeal.sig) → Buf (Elt Ideal) ℓ)
    (d : Dev Cert.KernelIdeal.nD),
    (∀ i, (m (Cert.KernelIdeal.Hand.tgtLoc d) i).toNat < 100000) →
    Cert.KernelIdeal.Hand.VAL (F := Ideal) m d
      = fun _ => Cert.Spec.kerLoss (fun n v => m (d, Cert.KernelIdeal.Hand.r_arg0) (ValueIdx.ix2 n v))
          (fun n => m (d, Cert.KernelIdeal.Hand.r_arg1) (ValueIdx.ix1 n))

/-! ## From the precondition to the facts the pieces ask for -/

/-- Under the precondition the kernel's targets are below 100000, on every device (ideal instance). -/
theorem targets_lt (m : (ℓ : Loc Cert.KernelIdeal.nD Cert.KernelIdeal.τ Cert.KernelIdeal.sig) → Buf (Elt Ideal) ℓ)
    (hpre : Cert.Pre_KernelIdeal m) : ∀ d i, (m (Cert.KernelIdeal.Hand.tgtLoc d) i).toNat < 100000 :=
  fun d i => Cert.PreFacts.target_toNat_lt (F := Ideal) _ _ (hpre d) i

/-- Under the precondition the printed kernel's targets are below 100000, on every device (bit-exact instance). -/
theorem targets_ltB (m : (ℓ : Loc Cert.Kernel.nD Cert.Kernel.τ Cert.Kernel.sig) → Buf (Elt Bits) ℓ)
    (hpre : Cert.Pre_Kernel m) :
    ∀ d i, (m ((SparseCore.T d : Thread Cert.Kernel.nD Cert.Kernel.τ).loc Cert.Kernel.main_arg1) i).toNat < 100000 :=
  fun d i => Cert.PreFacts.target_toNat_lt (F := Bits) _ _ (hpre d) i

/-- Under the precondition the reference's value is the loss in the kernel's arrangement. -/
theorem ref_value (x0 : FVec Ideal Cert.Pre_input_domain.S2048x100000 .f32) (x1 : IVec Cert.Pre_input_domain.S2048 32)
    (h : Cert.Pre_input_domain.fn (F := Ideal) x0 x1 = fun _ => 1#1) :
    Cert.ReferenceIdeal.ReadP.val_main_v34 (F := Ideal) x0 x1
      = fun _ => Cert.Spec.kerLoss (fun n v => x0 (ValueIdx.ix2 n v)) (fun n => x1 (ValueIdx.ix1 n)) := by
  obtain ⟨M, hM, e⟩ := Cert.RefValue.ref_eq x0 x1 (Cert.PreFacts.logits_real x0 x1 h)
    (fun n => Cert.PreFacts.target_range x0 x1 h (ValueIdx.ix1 n))
  rw [e]
  funext _
  exact Cert.Algebra.loss_eq _ _ M (fun n v => Cert.PreFacts.logits_real x0 x1 h (ValueIdx.ix2 n v)) hM
    (fun n => Cert.PreFacts.target_toNat_lt x0 x1 h (ValueIdx.ix1 n))

/-! ## The claims -/

theorem frame_ri (H : RefRunSpec) : Cert.frame_ReferenceIdeal := fun m ρ _ =>
  (θ_run Cert.ReferenceIdeal.defs _ _).mono (fun _ h c => (h c).2) (H m ρ)

theorem frame_pi (H : KRunSpec Ideal) : Cert.frame_KernelIdeal := fun m ρ hpre =>
  (θ_run Cert.KernelIdeal.defs _ _).mono (fun _ h c => (h c).2) (H m ρ (targets_lt m hpre))

theorem frame_p (H : KRunSpecB) : Cert.frame_Kernel := fun m ρ hpre => H m ρ (targets_ltB m hpre)

/-- The idealization rewrote no operation. -/
theorem preserves : Cert.preserves_Kernel_KernelIdeal := trivial

/-- At the ideal instance, from memories agreeing on the arguments, the kernel's result array and the reference's
    end at one value: the loss in the kernel's arrangement. -/
theorem algebraic (HK : KRunSpec Ideal) (HV : KValSpec) (HR : RefRunSpec) : Cert.algebraic_KernelIdeal_ReferenceIdeal := by
  intro m ρ m' ρ' hpre hagree
  have hlt := targets_lt m hpre
  refine ⟨fun c => Cert.KernelIdeal.Hand.VAL (F := Ideal) m c, HK m ρ hlt, ?_⟩
  refine (θ_run Cert.ReferenceIdeal.defs _ _).mono (fun _ h c => ⟨(h c).1.trans ?_, (h c).2⟩) (HR m' ρ')
  rw [(hagree c).1, (hagree c).2]
  exact (ref_value _ _ (hpre c)).trans (HV m c (hlt c)).symm

/-- The five claims together, from the four facts. -/
theorem claim_of (HB : KRunSpecB) (HK : KRunSpec Ideal) (HV : KValSpec) (HR : RefRunSpec) : Cert.Claim :=
  ⟨Cert.Kernel.Gen.facts, Cert.KernelIdeal.Gen.facts, Cert.ReferenceIdeal.Gen.facts, Cert.Pre_input_domain.Gen.facts,
    frame_p HB, frame_pi HK, frame_ri HR, preserves, algebraic HK HV HR⟩

end Cert.Proof.Claims

end
-- ==== Proof.RefRunH.lean ====
/-
  The reference's run, read in stretches.

  The reference's @main is a straight line of 66 host operations; what a buffer holds after the line is the fold of
  the operations' results over the launch contents. The fold over a concatenation of lines is the second line's fold
  of the first line's, so the line is cut into five stretches, each read over a VARIABLE valuation `V` of the buffers:

    1. operations 0–18: the constants and index vectors up to the two columns `main_v12`, `main_v13` of the scatter
       indices, and the smoothing background `main_v0`;
    2. operation 19 alone: the concatenation `main_v14` of the two columns;
    3. operations 20–36: the two scatters and the padding mask, up to the smoothed distribution `main_v23`
       (and the padding test `main_v21`, which the count of rows reads later);
    4. operations 37–51: the log-softmax `main_v24` of the logits;
    5. operations 52–65: the products, the two sums, the count and the quotient `main_v34`.

  Each stretch's value at the buffers a later stretch reads is the stage function of Proof/RefRead.lean
  (`val_main_vN`) of the values the stretch itself reads; a buffer a stretch does not write keeps its contents.
  Composed, the result buffer holds `val_main_v34` of the two arguments' launch contents, and the arguments are unchanged.
-/
import proofs.«209869_g82368882803221_cont_9to1_m_506_32_alg».proof.Proof.RefRun
import proofs.«209869_g82368882803221_cont_9to1_m_506_32_alg».proof.Proof.RefRead

noncomputable section

namespace Cert.RefRunH

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Operations 0–18 of @main. -/
abbrev s1 : List (HloOp τ sig (Elt F)) :=
  [ nullary main_cst (constant S_ .f32 0x3586386D#32),
    unary main_cst main_v0 (broadcastInDim S2048x100000 ![] bcast_S_S2048x100000 : (⟨S_, .f32⟩ : BufTy).Contents (Elt F) → (⟨S2048x100000, .f32⟩ : BufTy).Contents (Elt F)),
    nullary main_v1 (iotaInDim S2048 32 0),
    nullary main_c (constantI S_ 32 0#32),
    unary main_c main_v2 (broadcastInDim S2048 ![] bcast_S_S2048 : (⟨S_, .i32⟩ : BufTy).Contents (Elt F) → (⟨S2048, .i32⟩ : BufTy).Contents (Elt F)),
    binary main_v1 main_v2 main_v3 (cmpi .slt : (⟨S2048, .i32⟩ : BufTy).Contents (Elt F) → (⟨S2048, .i32⟩ : BufTy).Contents (Elt F) → (⟨S2048, .i1⟩ : BufTy).Contents (Elt F)),
    nullary main_c_0 (constantI S_ 32 2048#32),
    unary main_c_0 main_v4 (broadcastInDim S2048 ![] bcast_S_S2048 : (⟨S_, .i32⟩ : BufTy).Contents (Elt F) → (⟨S2048, .i32⟩ : BufTy).Contents (Elt F)),
    binary main_v1 main_v4 main_v5 (addi : (⟨S2048, .i32⟩ : BufTy).Contents (Elt F) → (⟨S2048, .i32⟩ : BufTy).Contents (Elt F) → (⟨S2048, .i32⟩ : BufTy).Contents (Elt F)),
    ternary main_v3 main_v5 main_v1 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_1 (constantI S_ 32 0#32),
    unary main_c_1 main_v7 (broadcastInDim S2048 ![] bcast_S_S2048 : (⟨S_, .i32⟩ : BufTy).Contents (Elt F) → (⟨S2048, .i32⟩ : BufTy).Contents (Elt F)),
    binary main_arg1 main_v7 main_v8 (cmpi .slt : (⟨S2048, .i32⟩ : BufTy).Contents (Elt F) → (⟨S2048, .i32⟩ : BufTy).Contents (Elt F) → (⟨S2048, .i1⟩ : BufTy).Contents (Elt F)),
    nullary main_c_2 (constantI S_ 32 100000#32),
    unary main_c_2 main_v9 (broadcastInDim S2048 ![] bcast_S_S2048 : (⟨S_, .i32⟩ : BufTy).Contents (Elt F) → (⟨S2048, .i32⟩ : BufTy).Contents (Elt F)),
    binary main_arg1 main_v9 main_v10 (addi : (⟨S2048, .i32⟩ : BufTy).Contents (Elt F) → (⟨S2048, .i32⟩ : BufTy).Contents (Elt F) → (⟨S2048, .i32⟩ : BufTy).Contents (Elt F)),
    ternary main_v8 main_v10 main_arg1 main_v11 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v6 main_v12 (broadcastInDim S2048x1 ![0] bcast_S2048_S2048x1_0 : (⟨S2048, .i32⟩ : BufTy).Contents (Elt F) → (⟨S2048x1, .i32⟩ : BufTy).Contents (Elt F)),
    unary main_v11 main_v13 (broadcastInDim S2048x1 ![0] bcast_S2048_S2048x1_0 : (⟨S2048, .i32⟩ : BufTy).Contents (Elt F) → (⟨S2048x1, .i32⟩ : BufTy).Contents (Elt F)) ]

/-- Operation 19 of @main: the concatenation. -/
abbrev s2 : List (HloOp τ sig (Elt F)) :=
  [ binary main_v12 main_v13 main_v14 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- Operations 20–36 of @main. -/
abbrev s3 : List (HloOp τ sig (Elt F)) :=
  [ nullary main_cst_3 (constant S_ .f32 0x3F666666#32),
    unary main_cst_3 main_v15 (broadcastInDim S2048 ![] bcast_S_S2048 : (⟨S_, .f32⟩ : BufTy).Contents (Elt F) → (⟨S2048, .f32⟩ : BufTy).Contents (Elt F)),
    ternary main_v0 main_v14 main_v15 main_v16 ((fun x i u => Host.scatter scatter_S2048x100000_S2048x2_S2048_n_01_01_1 (fun _ b => b) x i u) : (⟨S2048x100000, .f32⟩ : BufTy).Contents (Elt F) → (⟨S2048x2, .i32⟩ : BufTy).Contents (Elt F) → (⟨S2048, .f32⟩ : BufTy).Contents (Elt F) → (⟨S2048x100000, .f32⟩ : BufTy).Contents (Elt F)),
    nullary main_c_4 (constantI S_ 32 0#32),
    unary main_c_4 main_v17 (broadcastInDim S1 ![] bcast_S_S1 : (⟨S_, .i32⟩ : BufTy).Contents (Elt F) → (⟨S1, .i32⟩ : BufTy).Contents (Elt F)),
    nullary main_cst_5 (constant S_ .f32 0x00000000#32),
    unary main_cst_5 main_v18 (broadcastInDim S2048 ![] bcast_S_S2048 : (⟨S_, .f32⟩ : BufTy).Contents (Elt F) → (⟨S2048, .f32⟩ : BufTy).Contents (Elt F)),
    ternary main_v16 main_v17 main_v18 main_v19 ((fun x i u => Host.scatter scatter_S2048x100000_S1_S2048_0_1_1_0 (fun _ b => b) x i u) : (⟨S2048x100000, .f32⟩ : BufTy).Contents (Elt F) → (⟨S1, .i32⟩ : BufTy).Contents (Elt F) → (⟨S2048, .f32⟩ : BufTy).Contents (Elt F) → (⟨S2048x100000, .f32⟩ : BufTy).Contents (Elt F)),
    nullary main_c_6 (constantI S_ 32 0#32),
    unary main_c_6 main_v20 (broadcastInDim S2048 ![] bcast_S_S2048 : (⟨S_, .i32⟩ : BufTy).Contents (Elt F) → (⟨S2048, .i32⟩ : BufTy).Contents (Elt F)),
    binary main_arg1 main_v20 main_v21 (cmpi .eq : (⟨S2048, .i32⟩ : BufTy).Contents (Elt F) → (⟨S2048, .i32⟩ : BufTy).Contents (Elt F) → (⟨S2048, .i1⟩ : BufTy).Contents (Elt F)),
    unary main_v21 main_v22 (broadcastInDim S2048x1 ![0] bcast_S2048_S2048x1_0 : (⟨S2048, .i1⟩ : BufTy).Contents (Elt F) → (⟨S2048x1, .i1⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S2048x1, .i1⟩) main_v22) (TRef.of (T := ⟨S2048x100000, .i1⟩) main_call0_v1) (broadcastInDim S2048x100000 ![0, 1] bcast_S2048x1_S2048x100000_0_1),
    TRef.unary (TRef.of (T := ⟨S_, .f32⟩) main_call0_v0) (TRef.of (T := ⟨S2048x100000, .f32⟩) main_call0_v2) (broadcastInDim S2048x100000 ![] bcast_S_S2048x100000),
    TRef.ternary (TRef.of (T := ⟨S2048x100000, .i1⟩) main_call0_v1) (TRef.of (T := ⟨S2048x100000, .f32⟩) main_call0_v2) (TRef.of (T := ⟨S2048x100000, .f32⟩) main_v19) (TRef.of (T := ⟨S2048x100000, .f32⟩) main_v23) select ]

/-- Operations 37–51 of @main: the log-softmax call, inlined. -/
abbrev s4 : List (HloOp τ sig (Elt F)) :=
  [ TRef.nullary (TRef.of (T := ⟨S_, .f32⟩) main_call1_cst) (constant S_ .f32 0xFF800000#32),
    TRef.binary (TRef.of (T := ⟨S2048x100000, .f32⟩) main_arg0) (TRef.of (T := ⟨S_, .f32⟩) main_call1_cst) (TRef.of (T := ⟨S2048, .f32⟩) main_call1_v0) (fun x v => Host.reduce FloatOps.maximumf x v reducesTo_S2048x100000_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x100000, .f32⟩) main_call1_v4) (broadcastInDim S2048x100000 ![0, 1] bcast_S2048x1_S2048x100000_0_1),
    TRef.binary (TRef.of (T := ⟨S2048x100000, .f32⟩) main_arg0) (TRef.of (T := ⟨S2048x100000, .f32⟩) main_call1_v4) (TRef.of (T := ⟨S2048x100000, .f32⟩) main_call1_v5) subf,
    TRef.unary (TRef.of (T := ⟨S2048x100000, .f32⟩) main_call1_v5) (TRef.of (T := ⟨S2048x100000, .f32⟩) main_call1_v6) Host.exp,
    TRef.nullary (TRef.of (T := ⟨S_, .f32⟩) main_call1_cst_1) (constant S_ .f32 0x00000000#32),
    TRef.binary (TRef.of (T := ⟨S2048x100000, .f32⟩) main_call1_v6) (TRef.of (T := ⟨S_, .f32⟩) main_call1_cst_1) (TRef.of (T := ⟨S2048, .f32⟩) main_call1_v7) (fun x v => Host.reduceAdd x v reducesTo_S2048x100000_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x100000, .f32⟩) main_call1_v10) (broadcastInDim S2048x100000 ![0, 1] bcast_S2048x1_S2048x100000_0_1),
    TRef.binary (TRef.of (T := ⟨S2048x100000, .f32⟩) main_call1_v5) (TRef.of (T := ⟨S2048x100000, .f32⟩) main_call1_v10) (TRef.of (T := ⟨S2048x100000, .f32⟩) main_v24) subf ]

/-- Operations 52–65 of @main. -/
abbrev s5 : List (HloOp τ sig (Elt F)) :=
  [ binary main_v23 main_v24 main_v25 (mulf : (⟨S2048x100000, .f32⟩ : BufTy).Contents (Elt F) → (⟨S2048x100000, .f32⟩ : BufTy).Contents (Elt F) → (⟨S2048x100000, .f32⟩ : BufTy).Contents (Elt F)),
    nullary main_cst_8 (constant S_ .f32 0x00000000#32),
    binary main_v25 main_cst_8 main_v26 ((fun x v => Host.reduceAdd x v reducesTo_S2048x100000_S2048_d1 h_S_) : (⟨S2048x100000, .f32⟩ : BufTy).Contents (Elt F) → (⟨S_, .f32⟩ : BufTy).Contents (Elt F) → (⟨S2048, .f32⟩ : BufTy).Contents (Elt F)),
    unary main_v26 main_v27 (Host.negf : (⟨S2048, .f32⟩ : BufTy).Contents (Elt F) → (⟨S2048, .f32⟩ : BufTy).Contents (Elt F)),
    unary main_v21 main_v28 (noti : (⟨S2048, .i1⟩ : BufTy).Contents (Elt F) → (⟨S2048, .i1⟩ : BufTy).Contents (Elt F)),
    unary main_v28 main_v29 ((extui 32 · natLt_1_32) : (⟨S2048, .i1⟩ : BufTy).Contents (Elt F) → (⟨S2048, .i32⟩ : BufTy).Contents (Elt F)),
    nullary main_c_9 (constantI S_ 32 0#32),
    binary main_v29 main_c_9 main_v30 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_cst_10 (constant S_ .f32 0x00000000#32),
    binary main_v27 main_cst_10 main_v31 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_c_11 (constantI S_ 32 1#32),
    binary main_v30 main_c_11 main_v32 (maxsi : (⟨S_, .i32⟩ : BufTy).Contents (Elt F) → (⟨S_, .i32⟩ : BufTy).Contents (Elt F) → (⟨S_, .i32⟩ : BufTy).Contents (Elt F)),
    unary main_v32 main_v33 (sitofp .f32 : (⟨S_, .i32⟩ : BufTy).Contents (Elt F) → (⟨S_, .f32⟩ : BufTy).Contents (Elt F)),
    binary main_v31 main_v33 main_v34 (Host.divf : (⟨S_, .f32⟩ : BufTy).Contents (Elt F) → (⟨S_, .f32⟩ : BufTy).Contents (Elt F) → (⟨S_, .f32⟩ : BufTy).Contents (Elt F)) ]

set_option maxRecDepth 1000000 in
/-- The line is its five stretches, in order. -/
theorem ops_split : (ops : List (HloOp τ sig (Elt F))) = s1 ++ (s2 ++ (s3 ++ (s4 ++ s5))) := rfl

/-! ### A typed reference's transport at a literal reference is the identity

A module-local function's operations move a value between its own type and its buffer's along the equation of the two
types; at a literal reference the two types are the same and the transport is the identity. One equation per typed
reference that meets an untyped operation in this line; a transport there and back cancels by itself. -/

theorem toBuf_v23 (v : (⟨S2048x100000, .f32⟩ : BufTy).Contents (Elt F)) :
    (TRef.of (sig := sig) (T := ⟨S2048x100000, .f32⟩) main_v23).toBuf v = v := rfl
theorem toBuf_v24 (v : (⟨S2048x100000, .f32⟩ : BufTy).Contents (Elt F)) :
    (TRef.of (sig := sig) (T := ⟨S2048x100000, .f32⟩) main_v24).toBuf v = v := rfl
theorem ofBuf_v22 (v : (⟨S2048x1, .i1⟩ : BufTy).Contents (Elt F)) :
    (TRef.of (sig := sig) (T := ⟨S2048x1, .i1⟩) main_v22).ofBuf v = v := rfl
theorem ofBuf_cst_7 (v : (⟨S_, .f32⟩ : BufTy).Contents (Elt F)) :
    (TRef.of (sig := sig) (T := ⟨S_, .f32⟩) main_cst_7).ofBuf v = v := rfl
theorem ofBuf_v19 (v : (⟨S2048x100000, .f32⟩ : BufTy).Contents (Elt F)) :
    (TRef.of (sig := sig) (T := ⟨S2048x100000, .f32⟩) main_v19).ofBuf v = v := rfl
theorem ofBuf_arg0 (v : (⟨S2048x100000, .f32⟩ : BufTy).Contents (Elt F)) :
    (TRef.of (sig := sig) (T := ⟨S2048x100000, .f32⟩) main_arg0).ofBuf v = v := rfl

/-- A transport to a typed reference's buffer type and back is the identity. -/
theorem ofBuf_toBuf {T : BufTy} (x : TRef sig T) (v : T.Contents (Elt F)) : x.ofBuf (x.toBuf v) = v := by
  unfold TRef.ofBuf TRef.toBuf
  rw [cast_cast]
  exact cast_eq _ _

section Stretches

variable (V : Valuation τ sig (Elt F))

/-! ### Stretch 1 -/

theorem s1_v0 : after s1 V (Proc.devRef (τ := τ) .tc main_v0) = val_main_v0 (F := F) := by
  after_results_simp <;> rfl
theorem s1_v12 : after s1 V (Proc.devRef (τ := τ) .tc main_v12) = val_main_v12 (F := F) := by
  after_results_simp <;> rfl
theorem s1_v13 : after s1 V (Proc.devRef (τ := τ) .tc main_v13) = val_main_v13 (F := F) (V (Proc.devRef (τ := τ) .tc main_arg1)) := by
  after_results_simp <;> rfl
theorem s1_arg0 : after s1 V (Proc.devRef (τ := τ) .tc main_arg0) = V (Proc.devRef (τ := τ) .tc main_arg0) := by
  after_results_simp <;> rfl
theorem s1_arg1 : after s1 V (Proc.devRef (τ := τ) .tc main_arg1) = V (Proc.devRef (τ := τ) .tc main_arg1) := by
  after_results_simp <;> rfl

/-! ### Stretch 2 -/

theorem s2_v14 (x1 : (⟨S2048, .i32⟩ : BufTy).Contents (Elt F))
    (h12 : V (Proc.devRef (τ := τ) .tc main_v12) = val_main_v12 (F := F))
    (h13 : V (Proc.devRef (τ := τ) .tc main_v13) = val_main_v13 (F := F) x1) :
    after s2 V (Proc.devRef (τ := τ) .tc main_v14) = val_main_v14 (F := F) x1 := by
  after_results_simp
  rw [h12, h13]
  rfl
theorem s2_v0 : after s2 V (Proc.devRef (τ := τ) .tc main_v0) = V (Proc.devRef (τ := τ) .tc main_v0) := by
  after_results_simp <;> rfl
theorem s2_arg0 : after s2 V (Proc.devRef (τ := τ) .tc main_arg0) = V (Proc.devRef (τ := τ) .tc main_arg0) := by
  after_results_simp <;> rfl
theorem s2_arg1 : after s2 V (Proc.devRef (τ := τ) .tc main_arg1) = V (Proc.devRef (τ := τ) .tc main_arg1) := by
  after_results_simp <;> rfl

/-! ### Stretch 3 -/

theorem s3_v23 (x1 : (⟨S2048, .i32⟩ : BufTy).Contents (Elt F))
    (h0 : V (Proc.devRef (τ := τ) .tc main_v0) = val_main_v0 (F := F))
    (h14 : V (Proc.devRef (τ := τ) .tc main_v14) = val_main_v14 (F := F) x1)
    (h1 : V (Proc.devRef (τ := τ) .tc main_arg1) = x1) :
    after s3 V (Proc.devRef (τ := τ) .tc main_v23) = val_main_v23 (F := F) x1 := by
  after_results_simp
  rw [toBuf_v23]
  repeat rw [ofBuf_toBuf]
  rw [ofBuf_v22, ofBuf_cst_7, ofBuf_v19, h0, h14, h1]
  rfl
theorem s3_v21 (x1 : (⟨S2048, .i32⟩ : BufTy).Contents (Elt F))
    (h1 : V (Proc.devRef (τ := τ) .tc main_arg1) = x1) :
    after s3 V (Proc.devRef (τ := τ) .tc main_v21) = val_main_v21 (F := F) x1 := by
  after_results_simp
  rw [h1]
  rfl
theorem s3_arg0 : after s3 V (Proc.devRef (τ := τ) .tc main_arg0) = V (Proc.devRef (τ := τ) .tc main_arg0) := by
  after_results_simp <;> rfl
theorem s3_arg1 : after s3 V (Proc.devRef (τ := τ) .tc main_arg1) = V (Proc.devRef (τ := τ) .tc main_arg1) := by
  after_results_simp <;> rfl

/-! ### Stretch 4 -/

theorem s4_v24 (x0 : (⟨S2048x100000, .f32⟩ : BufTy).Contents (Elt F))
    (h0 : V (Proc.devRef (τ := τ) .tc main_arg0) = x0) :
    after s4 V (Proc.devRef (τ := τ) .tc main_v24) = val_main_v24 (F := F) x0 := by
  after_results_simp
  rw [toBuf_v24]
  repeat rw [ofBuf_toBuf]
  rw [ofBuf_arg0, h0]
  rfl
theorem s4_v23 : after s4 V (Proc.devRef (τ := τ) .tc main_v23) = V (Proc.devRef (τ := τ) .tc main_v23) := by
  after_results_simp <;> rfl
theorem s4_v21 : after s4 V (Proc.devRef (τ := τ) .tc main_v21) = V (Proc.devRef (τ := τ) .tc main_v21) := by
  after_results_simp <;> rfl
theorem s4_arg0 : after s4 V (Proc.devRef (τ := τ) .tc main_arg0) = V (Proc.devRef (τ := τ) .tc main_arg0) := by
  after_results_simp <;> rfl
theorem s4_arg1 : after s4 V (Proc.devRef (τ := τ) .tc main_arg1) = V (Proc.devRef (τ := τ) .tc main_arg1) := by
  after_results_simp <;> rfl

/-! ### Stretch 5 -/

theorem s5_v34 (x0 : (⟨S2048x100000, .f32⟩ : BufTy).Contents (Elt F)) (x1 : (⟨S2048, .i32⟩ : BufTy).Contents (Elt F))
    (h23 : V (Proc.devRef (τ := τ) .tc main_v23) = val_main_v23 (F := F) x1)
    (h24 : V (Proc.devRef (τ := τ) .tc main_v24) = val_main_v24 (F := F) x0)
    (h21 : V (Proc.devRef (τ := τ) .tc main_v21) = val_main_v21 (F := F) x1) :
    after s5 V (Proc.devRef (τ := τ) .tc main_v34) = val_main_v34 (F := F) x0 x1 := by
  after_results_simp
  rw [h23, h24, h21]
  rfl
theorem s5_arg0 : after s5 V (Proc.devRef (τ := τ) .tc main_arg0) = V (Proc.devRef (τ := τ) .tc main_arg0) := by
  after_results_simp <;> rfl
theorem s5_arg1 : after s5 V (Proc.devRef (τ := τ) .tc main_arg1) = V (Proc.devRef (τ := τ) .tc main_arg1) := by
  after_results_simp <;> rfl

end Stretches

/-! ### The whole line -/

/-- After the whole line, over any valuation: the result buffer holds the last stage of the two arguments' contents,
    and the arguments keep theirs. -/
theorem after_ops (V : Valuation τ sig (Elt F)) :
    after ops V (Proc.devRef (τ := τ) .tc main_v34)
        = val_main_v34 (F := F) (V (Proc.devRef (τ := τ) .tc main_arg0)) (V (Proc.devRef (τ := τ) .tc main_arg1))
      ∧ after ops V (Proc.devRef (τ := τ) .tc main_arg0) = V (Proc.devRef (τ := τ) .tc main_arg0)
      ∧ after ops V (Proc.devRef (τ := τ) .tc main_arg1) = V (Proc.devRef (τ := τ) .tc main_arg1) := by
  rw [ops_split, StableHlo.after_append, StableHlo.after_append, StableHlo.after_append, StableHlo.after_append]
  -- after stretch 1
  have e1_0 := s1_arg0 V
  have e1_1 := s1_arg1 V
  have e1_v0 := s1_v0 V
  have e1_v12 := s1_v12 V
  have e1_v13 := s1_v13 V
  -- after stretch 2
  have e2_0 := (s2_arg0 (after s1 V)).trans e1_0
  have e2_1 := (s2_arg1 (after s1 V)).trans e1_1
  have e2_v0 := (s2_v0 (after s1 V)).trans e1_v0
  have e2_v14 := s2_v14 (after s1 V) _ e1_v12 e1_v13
  -- after stretch 3
  have e3_0 := (s3_arg0 (after s2 (after s1 V))).trans e2_0
  have e3_1 := (s3_arg1 (after s2 (after s1 V))).trans e2_1
  have e3_v23 := s3_v23 (after s2 (after s1 V)) _ e2_v0 e2_v14 e2_1
  have e3_v21 := s3_v21 (after s2 (after s1 V)) _ e2_1
  -- after stretch 4
  have e4_0 := (s4_arg0 (after s3 (after s2 (after s1 V)))).trans e3_0
  have e4_1 := (s4_arg1 (after s3 (after s2 (after s1 V)))).trans e3_1
  have e4_v23 := (s4_v23 (after s3 (after s2 (after s1 V)))).trans e3_v23
  have e4_v21 := (s4_v21 (after s3 (after s2 (after s1 V)))).trans e3_v21
  have e4_v24 := s4_v24 (after s3 (after s2 (after s1 V))) _ e3_0
  -- after stretch 5
  exact ⟨s5_v34 (after s4 (after s3 (after s2 (after s1 V)))) _ _ e4_v23 e4_v24 e4_v21,
    (s5_arg0 (after s4 (after s3 (after s2 (after s1 V))))).trans e4_0,
    (s5_arg1 (after s4 (after s3 (after s2 (after s1 V))))).trans e4_1⟩

/-- On every device, for any float values, from any memory with zero counters: every weakly fair execution of @main
    terminates with the result buffer at the last stage of the arguments' launch contents and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v34) = val_main_v34 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v34).trans (after_ops (launchContents m c)).1,
       (h c main_arg0).trans (after_ops (launchContents m c)).2.1,
       (h c main_arg1).trans (after_ops (launchContents m c)).2.2⟩)
    (run_seq scopedRefs_eq scopedSems_eq defs main (fun _ => ops) main_eq (fun _ => ops_sub) m ρ)

/-- The same at the extended reals. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread _ _).loc Cert.ReferenceIdeal.main_v34) = Cert.ReferenceIdeal.ReadP.val_main_v34 (F := Ideal) (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1) :=
  run_gen m ρ

end Cert.RefRunH

end
-- ==== Proof.KHostVals.lean ====
/-
  What the host operations of the program compute, read at an index. Before the gather the logits [2048, 100000] are
  transposed to [100000, 2048], cut row-major into [12500, 8, 16, 128] (vocabulary row v = 8 a + b, position n = 128 c + l),
  the two middle axes swapped, and flattened row-major to [1600000, 128]: the entry of vocabulary row v and position n
  lands in table row ((v / 8) * 16 + n / 128) * 8 + v % 8 = v / 8 * 128 + v % 8 + n / 128 * 8, lane n % 128. After it the
  targets and the gathered logits are viewed as one row each, and the [1, 1] result as a scalar.
-/
import proofs.«209869_g82368882803221_cont_9to1_m_506_32_alg».proof.Proof.KLaunchB
import proofs.«209869_g82368882803221_cont_9to1_m_506_32_alg».proof.Proof.KTileDefs
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open Idealize.SL.Sem

variable {F : FTy → Type} [FloatOps F] (m : (ℓ : Loc nD τ sig) → Buf (Elt F) ℓ)

/-! ## The table -/

/-- The table as one term over the logits: the four layout operations composed. -/
theorem TAB_eq (d : Dev nD) :
    TAB m d = shapeCast S1600000x128 (transpose S12500x16x8x128 [0, 2, 1, 3]
      (shapeCast S12500x8x16x128 (transpose S100000x2048 [1, 0] (m (d, r_arg0)) transposes_S2048x100000_S100000x2048_1_0)
        shapeCasts_S100000x2048_S12500x8x16x128) transposes_S12500x8x16x128_S12500x16x8x128_0_2_1_3)
      shapeCasts_S12500x16x8x128_S1600000x128 := by
  unfold TAB V4
  rw [StableHlo.reshape_result', StableHlo.unary_result', StableHlo.reshape_result', StableHlo.unary_result']
  rfl

/-- THE TABLE read at the row and lane of vocabulary row `v` and position `n`: the logit of position `n`, column `v`. -/
theorem TAB_apply (d : Dev nD) (n : Fin 2048) (v : Fin 100000)
    (hR : v.val / 8 * 128 + v.val % 8 + n.val / 128 * 8 < 1600000) (hl : n.val % 128 < 128) :
    TAB m d (ix2 (⟨v.val / 8 * 128 + v.val % 8 + n.val / 128 * 8, hR⟩ : Fin 1600000) (⟨n.val % 128, hl⟩ : Fin 128))
      = m (d, r_arg0) (ix2 n v) := by
  have hv := v.isLt
  have hn := n.isLt
  rw [TAB_eq]
  -- the flattening [12500, 16, 8, 128] → [1600000, 128]
  refine (shapeCast_apply _ _ _
    (ix4 (⟨v.val / 8, by omega⟩ : Fin 12500) (⟨n.val / 128, by omega⟩ : Fin 16) (⟨v.val % 8, by omega⟩ : Fin 8) (⟨n.val % 128, hl⟩ : Fin 128)) ?_).trans ?_
  · rw [Shape.rowMajor_val_four, Shape.rowMajor_val_two]
    show ((v.val / 8 * 16 + n.val / 128) * 8 + v.val % 8) * 128 + n.val % 128
      = (v.val / 8 * 128 + v.val % 8 + n.val / 128 * 8) * 128 + n.val % 128
    omega
  -- the swap of the two middle axes
  refine (transpose_apply _ _ _ _
    (ix4 (⟨v.val / 8, by omega⟩ : Fin 12500) (⟨v.val % 8, by omega⟩ : Fin 8) (⟨n.val / 128, by omega⟩ : Fin 16) (⟨n.val % 128, hl⟩ : Fin 128)) ?_).trans ?_
  · intro b
    match b with
    | ⟨0, _⟩ => rfl
    | ⟨1, _⟩ => rfl
    | ⟨2, _⟩ => rfl
    | ⟨3, _⟩ => rfl
  -- the cut [100000, 2048] → [12500, 8, 16, 128]
  refine (shapeCast_apply _ _ _ (ix2 v n) ?_).trans ?_
  · rw [Shape.rowMajor_val_four, Shape.rowMajor_val_two]
    show v.val * 2048 + n.val = ((v.val / 8 * 8 + v.val % 8) * 16 + n.val / 128) * 128 + n.val % 128
    omega
  -- the transposition of the logits
  refine transpose_apply _ _ _ _ (ix2 n v) ?_
  intro b
  match b with
  | ⟨0, _⟩ => rfl
  | ⟨1, _⟩ => rfl

/-- In the words of the tile's specification: with the table at its value and a target below 100000, the entry picked for
    position `n` is the logit of position `n` at the target's column. -/
theorem picked_TAB (d : Dev nD) (tg : Buf (Elt F) (tgtLoc d)) (n : Fin 2048) (h : (tg (ix1 n)).toNat < 100000) :
    picked d (TAB m d) tg n = m (d, r_arg0) (ix2 n (⟨(tg (ix1 n)).toNat, h⟩ : Fin 100000)) := by
  have hn := n.isLt
  have hX : (tg (ix1 n)).toNat / 8 * 128 + (tg (ix1 n)).toNat % 8 + n.val / 128 * 8 < 1600000 := by omega
  have e : ∀ hm, (⟨((tg (ix1 n)).toNat / 8 * 128 + (tg (ix1 n)).toNat % 8 + n.val / 128 * 8) % 1600000, hm⟩ : Fin 1600000)
      = ⟨(tg (ix1 n)).toNat / 8 * 128 + (tg (ix1 n)).toNat % 8 + n.val / 128 * 8, hX⟩ := fun _ => Fin.ext (Nat.mod_eq_of_lt hX)
  unfold picked
  rw [e]
  exact TAB_apply m d n ⟨_, h⟩ hX _

/-! ## The buffers the four operations do not write -/

/-- A buffer that is none of the four results keeps its launch contents. -/
theorem V4_of_ne (d : Dev nD) (r : Ref sig .tc) (h0 : r ≠ main_v0) (h1 : r ≠ main_v1) (h2 : r ≠ main_v2) (h3 : r ≠ main_v3) :
    V4 m d (Proc.devRef .tc r) = m (d, Proc.devRef .tc r) := by
  unfold V4
  rw [StableHlo.reshape_result_ne (h := h3), StableHlo.unary_result_ne (h := h2), StableHlo.reshape_result_ne (h := h1),
    StableHlo.unary_result_ne (h := h0)]
  rfl

theorem V4_arg0 (d : Dev nD) : V4 m d r_arg0 = m (d, r_arg0) := V4_of_ne m d main_arg0 (by decide) (by decide) (by decide) (by decide)
theorem V4_arg1 (d : Dev nD) : V4 m d r_arg1 = m (d, r_arg1) := V4_of_ne m d main_arg1 (by decide) (by decide) (by decide) (by decide)
theorem V4_v4 (d : Dev nD) : V4 m d r_v4 = m (d, r_v4) := V4_of_ne m d main_v4 (by decide) (by decide) (by decide) (by decide)
theorem V4_v5 (d : Dev nD) : V4 m d r_v5 = m (d, r_v5) := V4_of_ne m d main_v5 (by decide) (by decide) (by decide) (by decide)
theorem V4_v6 (d : Dev nD) : V4 m d r_v6 = m (d, r_v6) := V4_of_ne m d main_v6 (by decide) (by decide) (by decide) (by decide)
theorem V4_v7 (d : Dev nD) : V4 m d r_v7 = m (d, r_v7) := V4_of_ne m d main_v7 (by decide) (by decide) (by decide) (by decide)
theorem V4_v8 (d : Dev nD) : V4 m d r_v8 = m (d, r_v8) := V4_of_ne m d main_v8 (by decide) (by decide) (by decide) (by decide)

/-! ## The transposed logits -/

theorem V4_v0_eq (d : Dev nD) :
    V4 m d r_v0 = transpose S100000x2048 [1, 0] (m (d, r_arg0)) transposes_S2048x100000_S100000x2048_1_0 := by
  unfold V4
  rw [StableHlo.reshape_result_ne (r := main_v0) (h := by decide), StableHlo.unary_result_ne (r := main_v0) (h := by decide),
    StableHlo.reshape_result_ne (r := main_v0) (h := by decide), StableHlo.unary_result']
  rfl

theorem V4_v0_apply (d : Dev nD) (v : Fin 100000) (n : Fin 2048) : V4 m d r_v0 (ix2 v n) = m (d, r_arg0) (ix2 n v) := by
  rw [V4_v0_eq]
  refine transpose_apply _ _ _ _ (ix2 n v) ?_
  intro b
  match b with
  | ⟨0, _⟩ => rfl
  | ⟨1, _⟩ => rfl

/-! ## The reshapes after the gather -/

variable (W : Valuation τ sig (Elt F))

theorem op5_apply (n : Fin 2048) : (op5 (F := F)).result W r_v5 (ix2 (0 : Fin 1) n) = W r_arg1 (ix1 n) := by
  rw [StableHlo.reshape_result']
  refine shapeCast_apply _ _ _ (ix1 n) ?_
  show (S2048.rowMajor (ix1 n)).val = (S1x2048.rowMajor (ix2 (0 : Fin 1) n)).val
  rw [Shape.rowMajor_val_one, Shape.rowMajor_val_two]
  show n.val = 0 * 2048 + n.val
  omega
theorem op5_ne (r : Ref sig .tc) (h : r ≠ main_v5) : (op5 (F := F)).result W (Proc.devRef .tc r) = W (Proc.devRef .tc r) :=
  StableHlo.reshape_result_ne (h := h) ..

theorem op6_apply (n : Fin 2048) : (op6 (F := F)).result W r_v6 (ix2 (0 : Fin 1) n) = W r_v4 (ix1 n) := by
  rw [StableHlo.reshape_result']
  refine shapeCast_apply _ _ _ (ix1 n) ?_
  show (S2048.rowMajor (ix1 n)).val = (S1x2048.rowMajor (ix2 (0 : Fin 1) n)).val
  rw [Shape.rowMajor_val_one, Shape.rowMajor_val_two]
  show n.val = 0 * 2048 + n.val
  omega
theorem op6_ne (r : Ref sig .tc) (h : r ≠ main_v6) : (op6 (F := F)).result W (Proc.devRef .tc r) = W (Proc.devRef .tc r) :=
  StableHlo.reshape_result_ne (h := h) ..

theorem op8_apply : (op8 (F := F)).result W r_v8 ix0 = W r_v7 (ix2 (0 : Fin 1) (0 : Fin 1)) := by
  rw [StableHlo.reshape_result']
  refine shapeCast_apply _ _ _ (ix2 (0 : Fin 1) (0 : Fin 1)) ?_
  show (S1x1.rowMajor (ix2 (0 : Fin 1) (0 : Fin 1))).val = (S_.rowMajor ix0).val
  rw [Shape.rowMajor_val_two]
  have h : (S_.rowMajor ix0).val < 1 := lt_of_lt_of_eq (S_.rowMajor ix0).isLt (by decide)
  show 0 * 1 + 0 = (S_.rowMajor ix0).val
  omega
theorem op8_ne (r : Ref sig .tc) (h : r ≠ main_v8) : (op8 (F := F)).result W (Proc.devRef .tc r) = W (Proc.devRef .tc r) :=
  StableHlo.reshape_result_ne (h := h) ..

end Cert.KernelIdeal.Hand

end
-- ==== Proof.KBlockSum.lean ====
/-
  Regrouping finite sums by blocks, over any commutative monoid: a sum over `n · c` consecutive naturals is the sum over
  `n` blocks of `c`; the 2000 rows of one block of logits are 125 trips of two groups of eight rows; the 100000 rows
  are 50 blocks of 2000.
-/
import Mathlib.Algebra.BigOperators.Fin
import Mathlib.Algebra.BigOperators.Intervals
import Mathlib.Logic.Equiv.Fin.Basic

open scoped BigOperators

namespace Cert.BlockSum

variable {M : Type*} [AddCommMonoid M]

/-- A sum over the first `n · c` naturals is the sum over `n` consecutive blocks of `c`. -/
theorem sum_range_mul (g : ℕ → M) (n c : ℕ) :
    ∑ m ∈ Finset.range (n * c), g m = ∑ j ∈ Finset.range n, ∑ r ∈ Finset.range c, g (c * j + r) := by
  induction n with
  | zero => simp
  | succ n ih => rw [Nat.succ_mul, Finset.sum_range_add, ih, Finset.sum_range_succ, Nat.mul_comm n c]

/-- Sixteen consecutive terms are eight pairs eight apart. -/
theorem sum_range_16 (g : ℕ → M) (o : ℕ) :
    ∑ r ∈ Finset.range 16, g (o + r) = ∑ r ∈ Finset.range 8, (g (o + r) + g (o + 8 + r)) := by
  show ∑ r ∈ Finset.range (8 + 8), g (o + r) = _
  rw [Finset.sum_range_add, ← Finset.sum_add_distrib]
  exact Finset.sum_congr rfl fun r _ => by rw [Nat.add_assoc]

/-- The 2000 terms of a block, taken as 125 trips of two groups of eight (term `16 j + r` and term `16 j + 8 + r` at trip
    `j`, lane `r`), lane by lane. -/
theorem sum_trips (g : ℕ → M) :
    ∑ r : Fin 8, ∑ j ∈ Finset.range 125, (g (16 * j + r.val) + g (16 * j + 8 + r.val)) = ∑ m : Fin 2000, g m.val := by
  rw [Fin.sum_univ_eq_sum_range (fun r => ∑ j ∈ Finset.range 125, (g (16 * j + r) + g (16 * j + 8 + r))) 8,
    Fin.sum_univ_eq_sum_range g 2000, show (2000 : ℕ) = 125 * 16 from rfl, sum_range_mul, Finset.sum_comm]
  exact Finset.sum_congr rfl fun j _ => (sum_range_16 g (16 * j)).symm

/-- Row `r` of block `j` of `b` rows is below `a · b`. -/
theorem blk_lt {a b j r : ℕ} (hj : j < a) (hr : r < b) : b * j + r < a * b :=
  calc b * j + r < b * j + b := Nat.add_lt_add_left hr _
    _ = b * (j + 1) := (Nat.mul_succ b j).symm
    _ ≤ b * a := Nat.mul_le_mul_left b hj
    _ = a * b := Nat.mul_comm b a

/-- `a` blocks of `b` rows are the `a · b` rows. -/
theorem sum_blocks (a b : ℕ) (f : Fin (a * b) → M) :
    ∑ j : Fin a, ∑ r : Fin b, f ⟨b * j.val + r.val, blk_lt j.isLt r.isLt⟩ = ∑ v : Fin (a * b), f v := by
  rw [← Fintype.sum_prod_type' (f := fun (j : Fin a) (r : Fin b) => f ⟨b * j.val + r.val, blk_lt j.isLt r.isLt⟩)]
  exact Fintype.sum_equiv finProdFinEquiv _ _ fun x => congrArg f (Fin.ext (by
    show b * x.1.val + x.2.val = x.2.val + b * x.1.val
    exact Nat.add_comm _ _))

/-- 50 blocks of 2000 rows are the 100000 rows. -/
theorem blocks_sum (f : Fin 100000 → M) :
    ∑ j : Fin 50, ∑ r : Fin 2000, f ⟨2000 * j.val + r.val, blk_lt (a := 50) j.isLt r.isLt⟩ = ∑ v : Fin 100000, f v :=
  sum_blocks 50 2000 f

end Cert.BlockSum
-- ==== Proof.KPay.lean ====
/-
  What the TensorCore kernel's pure payloads compute, read at an index on the extended reals: the resets and plain copies at
  the first grid point, one loop trip's two accumulations (a running sum of exponentials and a running sum, eight lanes of
  rows at a time), the two column sums that close a block of 2000 rows, and the final formula, which is the specification's
  mean of `rowOf` over the rows whose target is not the padding word.
-/
import proofs.«209869_g82368882803221_cont_9to1_m_506_32_alg».proof.Proof.Gen.KernelIdeal.Skeleton
import proofs.«209869_g82368882803221_cont_9to1_m_506_32_alg».proof.Proof.Spec
import proofs.«209869_g82368882803221_cont_9to1_m_506_32_alg».proof.Proof.KBlockSum
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## Words and layout operations the payloads meet -/

/-- The word `0x3F800000` is the real `1`. -/
theorem ofBits_one_f32 : Ideal.ofBits .f32 0x3F800000#32 = 1 := by
  simp [Ideal.ofBits, Ideal.ieee, -EReal.coe_mul]; norm_num

/-- The comparison "not equal" of two words is the bit of the proposition. -/
theorem cmpi_ne_eq (a b : BitVec 32) : IntOp.cmpi .ne a b = if a ≠ b then 1#1 else 0#1 := by
  show BitVec.ofBool (a != b) = _
  by_cases h : a = b
  · subst h; rw [if_neg (not_not.mpr rfl), bne_self_eq_false]; rfl
  · rw [if_pos h, bne_iff_ne.mpr h]; rfl

/-- A select on "not equal" is the `if`. -/
theorem select_ne {α : Type} (a b : BitVec 32) (x y : α) :
    Scalar.select (IntOp.cmpi .ne a b) x y = if a ≠ b then x else y := by
  rw [cmpi_ne_eq]; unfold Scalar.select
  by_cases h : a = b
  · rw [if_neg (not_not.mpr h), if_neg (not_not.mpr h), if_neg (by decide)]
  · rw [if_pos h, if_pos h, if_pos (by decide)]

/-- The bit of "not equal", widened and converted, is the real 1 or 0. -/
theorem sitofp_ne (a b : BitVec 32) :
    (FloatOps.sitofp (F := Ideal) .f32 ((IntOp.cmpi .ne a b).setWidth 32) : EReal) = if a ≠ b then (1 : EReal) else 0 := by
  show (((((IntOp.cmpi .ne a b).setWidth 32).toInt : ℤ) : ℝ) : EReal) = _
  rw [cmpi_ne_eq]
  by_cases h : a = b
  · rw [if_neg (not_not.mpr h), if_neg (not_not.mpr h)]
    have e : ((0#1 : BitVec 1).setWidth 32).toInt = 0 := by decide
    rw [e]; simp
  · rw [if_pos h, if_pos h]
    have e : ((1#1 : BitVec 1).setWidth 32).toInt = 1 := by decide
    rw [e]; simp

/-- The one index of a `[1,1,1]` vector cast from a `[1]` vector reads the `[1]` vector's one entry. -/
theorem extract_cast_S1 {α : Type} (X : S1.Idx → α) (h : S1.ShapeCasts S1x1x1) (hp : ∀ a, (![0, 0, 0] : Fin 3 → Nat) a < S1x1x1.size a) :
    extractAt ![0, 0, 0] (shapeCast S1x1x1 X h) hp = X (ix1 (0 : Fin 1)) := by
  unfold extractAt
  exact shapeCast_apply X h _ (ix1 (0 : Fin 1)) (by rw [Shape.rowMajor_val_one, Shape.rowMajor_val_three]; rfl)

/-- The indices of a `[1,1,2048]` vector are its last coordinates. -/
def idx112 : S1x1x2048.Idx ≃ Fin 2048 where
  toFun i := i 2
  invFun n := ix3 (0 : Fin 1) (0 : Fin 1) n
  left_inv i := by
    have h0 : (i 0).val < 1 := (i 0).isLt
    have h1 : (i 1).val < 1 := (i 1).isLt
    funext a
    match a with
    | ⟨0, _⟩ => exact Fin.ext (by show (0 : ℕ) = (i 0).val; omega)
    | ⟨1, _⟩ => exact Fin.ext (by show (0 : ℕ) = (i 1).val; omega)
    | ⟨2, _⟩ => rfl
  right_inv _ := rfl

/-- A sum over both trailing axes of a `[1,1,2048]` vector is the sum of its 2048 entries. -/
theorem red12 (src : FVec Ideal S1x1x2048 .f32) (h : S1x1x2048.Reduces [1, 2] S1) (hφ : FKind.Formats .f32)
    (hacc : (0x00000000#32 : BitVec 32) = 0x00000000#32) (j : S1.Idx) :
    multiReduction .add [1, 2] S1 src 0x00000000#32 h hφ hacc j = ∑ n : Fin 2048, src (ix3 (0 : Fin 1) (0 : Fin 1) n) :=
  (Ideal.multiReduction_add_total src 0x00000000#32 h (by decide) hφ hacc j).trans
    (Equiv.sum_comp idx112.symm src).symm

/-- The kernel's way of summing a `[1,2048]` row to a scalar (cast to `[1,1,2048]`, sum both trailing axes, cast the `[1]` result
    to `[1,1,1]`, extract its entry) is the sum of the row's 2048 entries. -/
theorem total_apply (y : FVec Ideal S1x2048 .f32) (h1 : S1x2048.ShapeCasts S1x1x2048) (h2 : S1x1x2048.Reduces [1, 2] S1)
    (hφ : FKind.Formats .f32) (hacc : (0x00000000#32 : BitVec 32) = 0x00000000#32) (h3 : S1.ShapeCasts S1x1x1)
    (hp : ∀ a, (![0, 0, 0] : Fin 3 → Nat) a < S1x1x1.size a) :
    extractAt ![0, 0, 0] (shapeCast S1x1x1 (multiReduction .add [1, 2] S1 (shapeCast S1x1x2048 y h1) 0x00000000#32 h2 hφ hacc) h3) hp
      = ∑ n : Fin 2048, y (ix2 (0 : Fin 1) n) :=
  (extract_cast_S1 _ h3 hp).trans ((red12 _ h2 hφ hacc _).trans
    (Finset.sum_congr rfl fun n _ => shapeCast_ab_1ab_apply y h1 (0 : Fin 1) (0 : Fin 1) n))

section AtIndex
variable {s : Shape} {φ : FTy}
/-- A logarithm at an index is the logarithm of the element … -/
theorem log_apply (a : FVec Ideal s φ) (i : s.Idx) : log a i = Ideal.log (a i) := rfl
/-- … an exponential the exponential of the element … -/
theorem exp_apply (a : FVec Ideal s φ) (i : s.Idx) : exp a i = Ideal.exp (a i) := rfl
/-- … and an integer comparison the comparison of the elements. -/
theorem cmpi_apply {w : Nat} (p : CmpIPredicate) (a b : IVec s w) (i : s.Idx) : cmpi p a b i = IntOp.cmpi p (a i) (b i) := rfl
end AtIndex

/-! ## The final formula -/

/-- The final formula: the `[1,1]` loss from the targets row `v1`, the running sum of exponentials `l`, the row-0 logits `x0`,
    the gathered logits `xt` and the running sum `s`: the mean over the rows whose target is not the padding word of the rows'
    losses, each from the row's `log l`, `s`, `x0`, `xt`. -/
theorem pay12_apply (v1 : IVec S1x2048 32) (l x0 xt s : Vec Ideal S1x2048 .f32) (i : S1x1.Idx) :
    k1_pay12 (F := Ideal) v1 l x0 xt s i
      = Ideal.div (∑ n : Fin 2048, if v1 (ix2 (0 : Fin 1) n) ≠ 0#32 then
            Cert.Spec.rowOf (Ideal.log (l (ix2 (0 : Fin 1) n))) (s (ix2 (0 : Fin 1) n)) (x0 (ix2 (0 : Fin 1) n)) (xt (ix2 (0 : Fin 1) n)) else 0)
          (max (∑ n : Fin 2048, if v1 (ix2 (0 : Fin 1) n) ≠ 0#32 then (1 : EReal) else 0) 1) := by
  unfold k1_pay12
  simp only [divf_apply, maximumf_apply, broadcast_apply]
  refine congrArg₂ Ideal.div ((total_apply _ _ _ _ _ _ _).trans (Finset.sum_congr rfl fun n _ => ?_))
    (congrArg₂ max ((total_apply _ _ _ _ _ _ _).trans (Finset.sum_congr rfl fun n _ => ?_)) ofBits_one_f32)
  · simp only [select_apply, cmpi_apply, subf_apply, addf_apply, mulf_apply, broadcast_apply, log_apply, shapeCast_self,
      Ideal.ofBits_def, Ideal.ofBits_zero_f32]
    rw [select_ne]
    rfl
  · simp only [sitofp_apply, extui_apply, cmpi_apply, broadcast_apply]
    exact sitofp_ne _ _

/-! ## The resets at the first point, and the two plain copies -/

/-- The running sum of exponentials is reset to zero … -/
theorem pay2_apply (i : S1x2048.Idx) : k1_pay2 (F := Ideal) i = 0 := by
  unfold k1_pay2
  simp only [shapeCast_self, broadcast_apply, Ideal.ofBits_def, Ideal.ofBits_zero_f32]

/-- … and so is the running sum. -/
theorem pay3_apply (i : S1x2048.Idx) : k1_pay3 (F := Ideal) i = 0 := by
  unfold k1_pay3
  simp only [shapeCast_self, broadcast_apply, Ideal.ofBits_def, Ideal.ofBits_zero_f32]

/-- Row 0 of the logits is kept as read. -/
theorem pay4_apply (v33 : Vec Ideal S1x2048 .f32) (i : S1x2048.Idx) : k1_pay4 (F := Ideal) v33 i = v33 i := by
  unfold k1_pay4
  simp only [shapeCast_self]

/-- The targets row is used as read. -/
theorem pay1_apply (v0 : Vec Ideal S1x2048 .i32) (i : S1x2048.Idx) : k1_pay1 (F := Ideal) v0 i = v0 i := by
  unfold k1_pay1
  simp only [shapeCast_self]

/-! ## One loop trip, and a block's accumulation -/

/-- The loop's two carried vectors start at zero. -/
theorem pay5_apply (i : S8x2048.Idx) : k1_pay5 (F := Ideal) i = 0 := by
  unfold k1_pay5
  simp only [broadcast_apply, Ideal.ofBits_def, Ideal.ofBits_zero_f32]

/-- One trip adds the exponentials of its two groups of eight rows to the first carried vector … -/
theorem pay8_apply (acc : FVec Ideal S8x2048 .f32) (va vb : Vec Ideal S8x2048 .f32) (i : S8x2048.Idx) :
    k1_pay8 (F := Ideal) acc va vb i = acc i + (Ideal.exp (va i) + Ideal.exp (vb i)) := by
  unfold k1_pay8 k1_pay6 k1_pay7
  simp only [addf_apply, exp_apply, shapeCast_self]
  exact add_assoc _ _ _

/-- … and the rows themselves to the second. -/
theorem pay9_apply (acc : FVec Ideal S8x2048 .f32) (va vb : Vec Ideal S8x2048 .f32) (i : S8x2048.Idx) :
    k1_pay9 (F := Ideal) acc va vb i = acc i + (va i + vb i) := by
  unfold k1_pay9 k1_pay6 k1_pay7
  simp only [addf_apply, shapeCast_self]
  exact add_assoc _ _ _

/-- One block's accumulation: `k` trips of the loop body from the zero vectors, trip `j` reading the two groups of rows
    `a j` and `b j`. -/
def accAt (a b : ℕ → Vec Ideal S8x2048 .f32) : ℕ → FVec Ideal S8x2048 .f32 × FVec Ideal S8x2048 .f32
  | 0 => (k1_pay5 (F := Ideal), k1_pay5 (F := Ideal))
  | k + 1 => (k1_pay8 (accAt a b k).1 (a k) (b k), k1_pay9 (accAt a b k).2 (a k) (b k))

/-- After `k` trips the first carried vector holds, lane by lane, the sum of the exponentials of the rows read so far … -/
theorem accAt_fst (a b : ℕ → Vec Ideal S8x2048 .f32) (k : ℕ) (i : S8x2048.Idx) :
    (accAt a b k).1 i = ∑ j ∈ Finset.range k, (Ideal.exp (a j i) + Ideal.exp (b j i)) := by
  induction k with
  | zero => show k1_pay5 (F := Ideal) i = _; rw [pay5_apply, Finset.sum_range_zero]
  | succ k ih =>
    show k1_pay8 (F := Ideal) (accAt a b k).1 (a k) (b k) i = _
    rw [pay8_apply, ih, Finset.sum_range_succ]

/-- … and the second the sum of those rows. -/
theorem accAt_snd (a b : ℕ → Vec Ideal S8x2048 .f32) (k : ℕ) (i : S8x2048.Idx) :
    (accAt a b k).2 i = ∑ j ∈ Finset.range k, (a j i + b j i) := by
  induction k with
  | zero => show k1_pay5 (F := Ideal) i = _; rw [pay5_apply, Finset.sum_range_zero]
  | succ k ih =>
    show k1_pay9 (F := Ideal) (accAt a b k).2 (a k) (b k) i = _
    rw [pay9_apply, ih, Finset.sum_range_succ]

/-! ## Closing a block: the column sums -/

/-- The sum over the eight lanes of an `[8,2048]` vector, cast to a `[1,2048]` row, reads at column `n` the sum of that column. -/
theorem colsum_apply (y : FVec Ideal S8x2048 .f32) (h : S8x2048.Reduces [0] S2048) (hφ : FKind.Formats .f32)
    (hacc : (0x00000000#32 : BitVec 32) = 0x00000000#32) (h1 : S2048.ShapeCasts S1x2048) (n : Fin 2048) :
    shapeCast S1x2048 (multiReduction .add [0] S2048 y 0x00000000#32 h hφ hacc) h1 (ix2 (0 : Fin 1) n) = ∑ r : Fin 8, y (ix2 r n) :=
  (shapeCast_a_1a_apply _ h1 (0 : Fin 1) n).trans ((Ideal.multiReduction_add_single y 0x00000000#32 h hφ hacc (ix1 n)).trans
    (Finset.sum_congr rfl fun r _ => congrArg y (funext fun c => by
      match c with
      | ⟨0, _⟩ => rfl
      | ⟨1, _⟩ => rfl)))

/-- Closing a block adds each column's eight lanes of the first carried vector to the running sum of exponentials … -/
theorem pay10_apply (acc : FVec Ideal S8x2048 .f32) (prev : Vec Ideal S1x2048 .f32) (n : Fin 2048) :
    k1_pay10 (F := Ideal) acc prev (ix2 (0 : Fin 1) n) = prev (ix2 (0 : Fin 1) n) + ∑ r : Fin 8, acc (ix2 r n) := by
  unfold k1_pay10
  simp only [shapeCast_self, addf_apply]
  exact congrArg (prev (ix2 (0 : Fin 1) n) + ·) (colsum_apply acc _ _ _ _ n)

/-- … and of the second to the running sum. -/
theorem pay11_apply (acc : FVec Ideal S8x2048 .f32) (prev : Vec Ideal S1x2048 .f32) (n : Fin 2048) :
    k1_pay11 (F := Ideal) acc prev (ix2 (0 : Fin 1) n) = prev (ix2 (0 : Fin 1) n) + ∑ r : Fin 8, acc (ix2 r n) := by
  unfold k1_pay11
  simp only [shapeCast_self, addf_apply]
  exact congrArg (prev (ix2 (0 : Fin 1) n) + ·) (colsum_apply acc _ _ _ _ n)

/-- When trip `k` reads rows `16 k + r` and `16 k + 8 + r` of a block of 2000 rows into lane `r` of its two groups, the lanes'
    sums over the 125 trips of any function `e` of the entries add up to the block's column sum of `e`. -/
theorem trips_blk (e : EReal → EReal) (blk : Fin 2000 → Fin 2048 → EReal) (a b : ℕ → Vec Ideal S8x2048 .f32)
    (ha : ∀ k (hk : k < 125) (r : Fin 8) (n : Fin 2048), a k (ix2 r n) = blk ⟨16 * k + r.val, by omega⟩ n)
    (hb : ∀ k (hk : k < 125) (r : Fin 8) (n : Fin 2048), b k (ix2 r n) = blk ⟨16 * k + 8 + r.val, by omega⟩ n)
    (n : Fin 2048) :
    ∑ r : Fin 8, ∑ j ∈ Finset.range 125, (e (a j (ix2 r n)) + e (b j (ix2 r n))) = ∑ r : Fin 2000, e (blk r n) := by
  let g : ℕ → EReal := fun m => if h : m < 2000 then e (blk ⟨m, h⟩ n) else 0
  have hg' : ∀ (m : ℕ) (h : m < 2000), g m = e (blk ⟨m, h⟩ n) := fun m h => dif_pos h
  have hg : ∀ m : Fin 2000, g m.val = e (blk m n) := fun m => hg' m.val m.isLt
  rw [← Finset.sum_congr rfl fun m _ => hg m, ← Cert.BlockSum.sum_trips g]
  refine Finset.sum_congr rfl fun r _ => Finset.sum_congr rfl fun j hj => ?_
  have hj' : j < 125 := Finset.mem_range.mp hj
  rw [ha j hj' r n, hb j hj' r n, hg' (16 * j + r.val) (by omega), hg' (16 * j + 8 + r.val) (by omega)]

/-- A block's accumulation, closed: the running sum of exponentials grows by the block's column sums of exponentials … -/
theorem pay10_accAt (blk : Fin 2000 → Fin 2048 → EReal) (a b : ℕ → Vec Ideal S8x2048 .f32)
    (ha : ∀ k (hk : k < 125) (r : Fin 8) (n : Fin 2048), a k (ix2 r n) = blk ⟨16 * k + r.val, by omega⟩ n)
    (hb : ∀ k (hk : k < 125) (r : Fin 8) (n : Fin 2048), b k (ix2 r n) = blk ⟨16 * k + 8 + r.val, by omega⟩ n)
    (prev : Vec Ideal S1x2048 .f32) (n : Fin 2048) :
    k1_pay10 (F := Ideal) (accAt a b 125).1 prev (ix2 (0 : Fin 1) n)
      = prev (ix2 (0 : Fin 1) n) + ∑ r : Fin 2000, Ideal.exp (blk r n) := by
  rw [pay10_apply, ← trips_blk Ideal.exp blk a b ha hb n]
  exact congrArg (prev (ix2 (0 : Fin 1) n) + ·) (Finset.sum_congr rfl fun r _ => accAt_fst a b 125 (ix2 r n))

/-- … and the running sum by the block's column sums. -/
theorem pay11_accAt (blk : Fin 2000 → Fin 2048 → EReal) (a b : ℕ → Vec Ideal S8x2048 .f32)
    (ha : ∀ k (hk : k < 125) (r : Fin 8) (n : Fin 2048), a k (ix2 r n) = blk ⟨16 * k + r.val, by omega⟩ n)
    (hb : ∀ k (hk : k < 125) (r : Fin 8) (n : Fin 2048), b k (ix2 r n) = blk ⟨16 * k + 8 + r.val, by omega⟩ n)
    (prev : Vec Ideal S1x2048 .f32) (n : Fin 2048) :
    k1_pay11 (F := Ideal) (accAt a b 125).2 prev (ix2 (0 : Fin 1) n)
      = prev (ix2 (0 : Fin 1) n) + ∑ r : Fin 2000, blk r n := by
  rw [pay11_apply, ← trips_blk (fun x => x) blk a b ha hb n]
  exact congrArg (prev (ix2 (0 : Fin 1) n) + ·) (Finset.sum_congr rfl fun r _ => accAt_snd a b 125 (ix2 r n))

/-! ## The blocks -/

/-- 50 blocks of 2000 rows are the 100000 rows. -/
theorem blocks_sum {M : Type*} [AddCommMonoid M] (f : Fin 100000 → M) :
    ∑ j : Fin 50, ∑ r : Fin 2000, f ⟨2000 * j.val + r.val, by omega⟩ = ∑ v : Fin 100000, f v :=
  Cert.BlockSum.blocks_sum f

end Cert.KernelIdeal.PayValue

end
-- ==== Proof.KRegionValue.lean ====
/-
  The value the TensorCore region leaves, on the extended reals: the block a window stages at a grid point is a band of
  rows of its array; a loop trip's two loads are sixteen consecutive rows of the block; so after point `m` the two running
  rows hold, column by column, the sums of exponentials and of logits over the first `2000 (m + 1)` rows, the third row
  keeps row 0, and the number the last point stores is the specification's loss of the whole arrays.
-/
import proofs.«209869_g82368882803221_cont_9to1_m_506_32_alg».proof.Proof.KRegionData
import proofs.«209869_g82368882803221_cont_9to1_m_506_32_alg».proof.Proof.KPay

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- The index maps of the three input windows, decided over the grid: the logits' window moves one block of rows a point,
    the two row windows stay. -/
theorem idx_facts : ∀ t : Fin cfg1.N, win1_2.index t (0 : Fin 2) = t.val ∧ win1_2.index t (1 : Fin 2) = 0
    ∧ win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The counted loop makes 125 trips. -/
theorem trips_eq : k1_t1_loop.trips = 125 := by decide

variable (c : Dev nD)

/-! ## The region's arrays as functions of an index -/

/-- The transposed logits `[100000, 2048]` read as a function of the index, on the extended reals, -/
abbrev logitsT (A0 : Buf (Elt Ideal) ((c : Thread nD τ).loc main_v0)) : S100000x2048.Idx → EReal := A0
/-- the targets row `[1, 2048]` as words, -/
abbrev targetsRow (A5 : Buf (Elt Ideal) ((c : Thread nD τ).loc main_v5)) : S1x2048.Idx → BitVec 32 := A5
/-- and the gathered logits row `[1, 2048]`. -/
abbrev pickedRow (A6 : Buf (Elt Ideal) ((c : Thread nD τ).loc main_v6)) : S1x2048.Idx → EReal := A6

/-! ## A window's block read at an index -/

/-- The logits' block at point `t` is rows `2000 t …` of the transposed logits. -/
theorem blk2_apply (A0 : Buf (Elt Ideal) ((c : Thread nD τ).loc main_v0)) (t : Fin cfg1.N) (r : Fin 2000) (n : Fin 2048)
    (h : 2000 * t.val + r.val < 100000) :
    (blkOf c 2 A0 t : Vec Ideal S2000x2048 .f32) (ix2 r n) = logitsT c A0 (ix2 ⟨2000 * t.val + r.val, h⟩ n) := by
  obtain ⟨h0, h1, -⟩ := idx_facts t
  unfold blkOf
  rw [View.read_apply]
  show logitsT c A0 _ = _
  congr 1
  funext a
  apply Fin.ext
  match a with
  | ⟨0, _⟩ => show win1_2.index t (0 : Fin 2) * 2000 + 1 * r.val = 2000 * t.val + r.val; rw [h0]; omega
  | ⟨1, _⟩ => show win1_2.index t (1 : Fin 2) * 2048 + 1 * n.val = n.val; rw [h1]; omega

/-- The targets' window stages the whole row at every point … -/
theorem blk0_eq (A5 : Buf (Elt Ideal) ((c : Thread nD τ).loc main_v5)) (t : Fin cfg1.N) :
    (blkOf c 0 A5 t : Vec Ideal S1x2048 .i32) = targetsRow c A5 := by
  obtain ⟨-, -, h0, h1, -⟩ := idx_facts t
  funext y
  unfold blkOf
  rw [View.read_apply]
  show targetsRow c A5 _ = _
  congr 1
  funext a
  apply Fin.ext
  match a with
  | ⟨0, _⟩ => show win1_0.index t (0 : Fin 2) * 1 + 1 * (y 0).val = (y 0).val; rw [h0]; omega
  | ⟨1, _⟩ => show win1_0.index t (1 : Fin 2) * 2048 + 1 * (y 1).val = (y 1).val; rw [h1]; omega

/-- … and so does the gathered logits' window. -/
theorem blk1_eq (A6 : Buf (Elt Ideal) ((c : Thread nD τ).loc main_v6)) (t : Fin cfg1.N) :
    (blkOf c 1 A6 t : Vec Ideal S1x2048 .f32) = pickedRow c A6 := by
  obtain ⟨-, -, -, -, h0, h1⟩ := idx_facts t
  funext y
  unfold blkOf
  rw [View.read_apply]
  show pickedRow c A6 _ = _
  congr 1
  funext a
  apply Fin.ext
  match a with
  | ⟨0, _⟩ => show win1_1.index t (0 : Fin 2) * 1 + 1 * (y 0).val = (y 0).val; rw [h0]; omega
  | ⟨1, _⟩ => show win1_1.index t (1 : Fin 2) * 2048 + 1 * (y 1).val = (y 1).val; rw [h1]; omega

/-! ## A trip's two loads, and row 0 -/

/-- Trip `k`'s first load is rows `16 k … 16 k + 7` of the block … -/
theorem ld1_apply (X : Vec Ideal S2000x2048 .f32) (k : Fin k1_t1_loop.trips) (r : Fin 8) (n : Fin 2048)
    (h : 16 * k.val + r.val < 2000) :
    ld1 X k (ix2 r n) = X (ix2 ⟨16 * k.val + r.val, h⟩ n) := by
  unfold ld1 rows8
  congr 1
  funext a
  apply Fin.ext
  match a with
  | ⟨0, _⟩ =>
    simp only [LoadRect.idx_apply, Rect.emb_apply, Rect.off_unit, Rect.stride_unit, Nat.one_mul]
    exact congrArg (· + r.val) (congrFun (k1_off1_eq k) (0 : Fin 2))
  | ⟨1, _⟩ =>
    simp only [LoadRect.idx_apply, Rect.emb_apply, Rect.off_unit, Rect.stride_unit, Nat.one_mul]
    exact (congrArg (· + n.val) (congrFun (k1_off1_eq k) (1 : Fin 2))).trans (Nat.zero_add _)

/-- … and its second rows `16 k + 8 … 16 k + 15`. -/
theorem ld2_apply (X : Vec Ideal S2000x2048 .f32) (k : Fin k1_t1_loop.trips) (r : Fin 8) (n : Fin 2048)
    (h : 16 * k.val + 8 + r.val < 2000) :
    ld2 X k (ix2 r n) = X (ix2 ⟨16 * k.val + 8 + r.val, h⟩ n) := by
  unfold ld2 rows8
  congr 1
  funext a
  apply Fin.ext
  match a with
  | ⟨0, _⟩ =>
    simp only [LoadRect.idx_apply, Rect.emb_apply, Rect.off_unit, Rect.stride_unit, Nat.one_mul]
    exact congrArg (· + r.val) (congrFun (k1_off2_eq k) (0 : Fin 2))
  | ⟨1, _⟩ =>
    simp only [LoadRect.idx_apply, Rect.emb_apply, Rect.off_unit, Rect.stride_unit, Nat.one_mul]
    exact (congrArg (· + n.val) (congrFun (k1_off2_eq k) (1 : Fin 2))).trans (Nat.zero_add _)

/-- Row 0 of a block, read at a column. -/
theorem row0_apply (X : Vec Ideal S2000x2048 .f32) (n : Fin 2048) :
    row0 X (ix2 (0 : Fin 1) n) = X (ix2 (⟨0, by omega⟩ : Fin 2000) n) := by
  unfold row0
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; exact Nat.zero_add _

/-! ## A block's accumulation, closed -/

/-- The rows trip number `k` loads first (nothing past the last trip) … -/
def lda (X : Vec Ideal S2000x2048 .f32) (k : ℕ) : Vec Ideal S8x2048 .f32 :=
  if h : k < k1_t1_loop.trips then ld1 X ⟨k, h⟩ else fun _ => 0
/-- … and second. -/
def ldb (X : Vec Ideal S2000x2048 .f32) (k : ℕ) : Vec Ideal S8x2048 .f32 :=
  if h : k < k1_t1_loop.trips then ld2 X ⟨k, h⟩ else fun _ => 0

theorem lda_apply (X : Vec Ideal S2000x2048 .f32) (k : ℕ) (hk : k < 125) (r : Fin 8) (n : Fin 2048) :
    lda X k (ix2 r n) = X (ix2 ⟨16 * k + r.val, by omega⟩ n) := by
  have hk' : k < k1_t1_loop.trips := by rw [trips_eq]; exact hk
  rw [show lda X k = ld1 X ⟨k, hk'⟩ from dif_pos hk']
  exact ld1_apply X ⟨k, hk'⟩ r n _

theorem ldb_apply (X : Vec Ideal S2000x2048 .f32) (k : ℕ) (hk : k < 125) (r : Fin 8) (n : Fin 2048) :
    ldb X k (ix2 r n) = X (ix2 ⟨16 * k + 8 + r.val, by omega⟩ n) := by
  have hk' : k < k1_t1_loop.trips := by rw [trips_eq]; exact hk
  rw [show ldb X k = ld2 X ⟨k, hk'⟩ from dif_pos hk']
  exact ld2_apply X ⟨k, hk'⟩ r n _

/-- The carried pair before trip `k` is the payload lemmas' accumulation over those loads. -/
theorem accAt_eq (X : Vec Ideal S2000x2048 .f32) (k : ℕ) (hk : k ≤ k1_t1_loop.trips) :
    accAt X k = PayValue.accAt (lda X) (ldb X) k := by
  induction k with
  | zero => rfl
  | succ k ih =>
    have hk' : k < k1_t1_loop.trips := hk
    refine (accAt_succ X ⟨k, hk'⟩).trans ?_
    show _ = (k1_pay8 (PayValue.accAt (lda X) (ldb X) k).1 (lda X k) (ldb X k),
      k1_pay9 (PayValue.accAt (lda X) (ldb X) k).2 (lda X k) (ldb X k))
    rw [show lda X k = ld1 X ⟨k, hk'⟩ from dif_pos hk', show ldb X k = ld2 X ⟨k, hk'⟩ from dif_pos hk',
      ← ih (Nat.le_of_lt hk')]

theorem accFin_eq (X : Vec Ideal S2000x2048 .f32) : accFin X = PayValue.accAt (lda X) (ldb X) 125 :=
  (accAt_eq X _ le_rfl).trans (congrArg (PayValue.accAt (lda X) (ldb X)) trips_eq)

/-- Closing a point: the running sum of exponentials grows by the block's column sums of exponentials … -/
theorem step_exp (X : Vec Ideal S2000x2048 .f32) (prev : Vec Ideal S1x2048 .f32) (n : Fin 2048) :
    k1_pay10 (F := Ideal) (accFin X).1 prev (ix2 (0 : Fin 1) n)
      = prev (ix2 (0 : Fin 1) n) + ∑ r : Fin 2000, Ideal.exp (X (ix2 r n)) := by
  rw [accFin_eq]
  exact PayValue.pay10_accAt (fun r n => X (ix2 r n)) (lda X) (ldb X) (fun k hk r n => lda_apply X k hk r n)
    (fun k hk r n => ldb_apply X k hk r n) prev n

/-- … and the running sum by the block's column sums. -/
theorem step_sum (X : Vec Ideal S2000x2048 .f32) (prev : Vec Ideal S1x2048 .f32) (n : Fin 2048) :
    k1_pay11 (F := Ideal) (accFin X).2 prev (ix2 (0 : Fin 1) n)
      = prev (ix2 (0 : Fin 1) n) + ∑ r : Fin 2000, X (ix2 r n) := by
  rw [accFin_eq]
  exact PayValue.pay11_accAt (fun r n => X (ix2 r n)) (lda X) (ldb X) (fun k hk r n => lda_apply X k hk r n)
    (fun k hk r n => ldb_apply X k hk r n) prev n

/-! ## The scratch rows after point `m` -/

/-- After point `m` the first row holds, column by column, the sum of the exponentials of the blocks staged so far … -/
theorem scrAt_fst (B : ℕ → Vec Ideal S2000x2048 .f32) (m : ℕ) (n : Fin 2048) :
    (scrAt B m).1 (ix2 (0 : Fin 1) n) = ∑ j ∈ Finset.range (m + 1), ∑ r : Fin 2000, Ideal.exp (B j (ix2 r n)) := by
  induction m with
  | zero =>
    show k1_pay10 (F := Ideal) (accFin (B 0)).1 (k1_pay2 (F := Ideal)) (ix2 (0 : Fin 1) n) = _
    rw [step_exp, PayValue.pay2_apply, zero_add, Finset.sum_range_one]
  | succ m ih =>
    show k1_pay10 (F := Ideal) (accFin (B (m + 1))).1 (scrAt B m).1 (ix2 (0 : Fin 1) n) = _
    rw [step_exp, ih, Finset.sum_range_succ _ (m + 1)]

/-- … the second the sum of the blocks' entries … -/
theorem scrAt_snd (B : ℕ → Vec Ideal S2000x2048 .f32) (m : ℕ) (n : Fin 2048) :
    (scrAt B m).2.1 (ix2 (0 : Fin 1) n) = ∑ j ∈ Finset.range (m + 1), ∑ r : Fin 2000, B j (ix2 r n) := by
  induction m with
  | zero =>
    show k1_pay11 (F := Ideal) (accFin (B 0)).2 (k1_pay3 (F := Ideal)) (ix2 (0 : Fin 1) n) = _
    rw [step_sum, PayValue.pay3_apply, zero_add, Finset.sum_range_one]
  | succ m ih =>
    show k1_pay11 (F := Ideal) (accFin (B (m + 1))).2 (scrAt B m).2.1 (ix2 (0 : Fin 1) n) = _
    rw [step_sum, ih, Finset.sum_range_succ _ (m + 1)]

/-- … and the third keeps row 0 of the first block. -/
theorem scrAt_thd (B : ℕ → Vec Ideal S2000x2048 .f32) (m : ℕ) (n : Fin 2048) :
    (scrAt B m).2.2 (ix2 (0 : Fin 1) n) = B 0 (ix2 (⟨0, by omega⟩ : Fin 2000) n) := by
  induction m with
  | zero =>
    show k1_pay4 (F := Ideal) (row0 (B 0)) (ix2 (0 : Fin 1) n) = _
    rw [PayValue.pay4_apply, row0_apply]
  | succ m ih => exact ih

/-! ## The last point's number -/

variable (A5 : Buf (Elt Ideal) ((c : Thread nD τ).loc main_v5)) (A6 : Buf (Elt Ideal) ((c : Thread nD τ).loc main_v6))
  (A0 : Buf (Elt Ideal) ((c : Thread nD τ).loc main_v0))

/-- The block point number `j` stages is rows `2000 j …` of the transposed logits. -/
theorem logitsBlk_apply (j : ℕ) (hj : j < 50) (r : Fin 2000) (n : Fin 2048) :
    logitsBlk c A0 j (ix2 r n) = logitsT c A0 (ix2 ⟨2000 * j + r.val, by omega⟩ n) := by
  have hp : (pt j).val = j := Nat.mod_eq_of_lt hj
  unfold logitsBlk
  refine (blk2_apply c A0 (pt j) r n (by rw [hp]; omega)).trans ?_
  exact congrArg (fun q : Fin 100000 => logitsT c A0 (ix2 q n))
    (Fin.ext (by show 2000 * (pt j).val + r.val = 2000 * j + r.val; rw [hp]))

/-- After the last point the first row holds each column's sum of exponentials over all 100000 rows … -/
theorem scr_fst_last (n : Fin 2048) :
    (scr c A0 49).1 (ix2 (0 : Fin 1) n) = ∑ v : Fin 100000, Ideal.exp (logitsT c A0 (ix2 v n)) := by
  unfold scr
  rw [scrAt_fst]
  show ∑ j ∈ Finset.range 50, ∑ r : Fin 2000, Ideal.exp (logitsBlk c A0 j (ix2 r n)) = _
  rw [← Fin.sum_univ_eq_sum_range (fun j => ∑ r : Fin 2000, Ideal.exp (logitsBlk c A0 j (ix2 r n))) 50,
    ← PayValue.blocks_sum (fun v => Ideal.exp (logitsT c A0 (ix2 v n)))]
  exact Finset.sum_congr rfl fun j _ => Finset.sum_congr rfl fun r _ => by rw [logitsBlk_apply c A0 j.val j.isLt r n]

/-- … the second each column's sum … -/
theorem scr_snd_last (n : Fin 2048) :
    (scr c A0 49).2.1 (ix2 (0 : Fin 1) n) = ∑ v : Fin 100000, logitsT c A0 (ix2 v n) := by
  unfold scr
  rw [scrAt_snd]
  show ∑ j ∈ Finset.range 50, ∑ r : Fin 2000, logitsBlk c A0 j (ix2 r n) = _
  rw [← Fin.sum_univ_eq_sum_range (fun j => ∑ r : Fin 2000, logitsBlk c A0 j (ix2 r n)) 50,
    ← PayValue.blocks_sum (fun v => logitsT c A0 (ix2 v n))]
  exact Finset.sum_congr rfl fun j _ => Finset.sum_congr rfl fun r _ => by rw [logitsBlk_apply c A0 j.val j.isLt r n]

/-- … and the third row 0 of the logits. -/
theorem scr_thd (m : ℕ) (n : Fin 2048) :
    (scr c A0 m).2.2 (ix2 (0 : Fin 1) n) = logitsT c A0 (ix2 (⟨0, by omega⟩ : Fin 100000) n) := by
  unfold scr
  rw [scrAt_thd, logitsBlk_apply c A0 0 (by omega) _ n]
  rfl

/-- THE NUMBER THE LAST POINT STORES: the specification's loss in the kernel's arrangement, of the targets row `A5`, the
    gathered logits row `A6` and the transposed logits `A0` (column `n` of `A0` is row `n` of the logits). -/
theorem loss_last (t : Fin cfg1.N) (ht : t.val = 49) (i : S1x1.Idx) :
    lossAt c A5 A6 A0 t i
      = Ideal.div (∑ n : Fin 2048, if targetsRow c A5 (ix2 (0 : Fin 1) n) ≠ 0#32 then
            Cert.Spec.rowOf (Ideal.log (∑ v : Fin 100000, Ideal.exp (logitsT c A0 (ix2 v n))))
              (∑ v : Fin 100000, logitsT c A0 (ix2 v n))
              (logitsT c A0 (ix2 (⟨0, by omega⟩ : Fin 100000) n))
              (pickedRow c A6 (ix2 (0 : Fin 1) n)) else 0)
          (max (∑ n : Fin 2048, if targetsRow c A5 (ix2 (0 : Fin 1) n) ≠ 0#32 then (1 : EReal) else 0) 1) := by
  unfold lossAt
  rw [PayValue.pay12_apply, ht]
  have e5 : ∀ n : Fin 2048, k1_pay1 (F := Ideal) (blkOf c 0 A5 t) (ix2 (0 : Fin 1) n) = targetsRow c A5 (ix2 (0 : Fin 1) n) :=
    fun n => (PayValue.pay1_apply _ _).trans (congrFun (blk0_eq c A5 t) _)
  have e6 : ∀ n : Fin 2048, (blkOf c 1 A6 t : Vec Ideal S1x2048 .f32) (ix2 (0 : Fin 1) n) = pickedRow c A6 (ix2 (0 : Fin 1) n) :=
    fun n => congrFun (blk1_eq c A6 t) _
  refine congrArg₂ Ideal.div (Finset.sum_congr rfl fun n _ => ?_) (congrArg₂ max (Finset.sum_congr rfl fun n _ => ?_) rfl)
  · rw [e5 n, e6 n, scr_fst_last, scr_snd_last, scr_thd]
  · rw [e5 n]

/-- The same number as the specification's `kerLoss` of the logits (row `n` of the logits is column `n` of `A0`) and the
    targets, once the gathered row holds, at every row whose target is not the padding word, that row's logit at its
    target's column. -/
theorem loss_last_spec (t : Fin cfg1.N) (ht : t.val = 49) (i : S1x1.Idx)
    (hpick : ∀ n : Fin 2048, targetsRow c A5 (ix2 (0 : Fin 1) n) ≠ 0#32 →
      pickedRow c A6 (ix2 (0 : Fin 1) n) = logitsT c A0 (ix2 (Cert.Spec.col (targetsRow c A5 (ix2 (0 : Fin 1) n))) n)) :
    lossAt c A5 A6 A0 t i
      = Cert.Spec.kerLoss (fun n v => logitsT c A0 (ix2 v n)) (fun n => targetsRow c A5 (ix2 (0 : Fin 1) n)) := by
  rw [loss_last c A5 A6 A0 t ht i]
  unfold Cert.Spec.kerLoss Cert.Spec.kerRow
  refine congrArg₂ Ideal.div (Finset.sum_congr rfl fun n _ => ?_) rfl
  by_cases h : targetsRow c A5 (ix2 (0 : Fin 1) n) = 0#32
  · rw [if_neg (not_not.mpr h), if_neg (not_not.mpr h)]
  · rw [if_pos h, if_pos h, hpick n h]
    rfl

end Cert.KernelIdeal.Hand

end
-- ==== Proof.KValue.lean ====
/-
  The kernel program's result, assembled: the scalar the program returns is the one entry of the [1, 1] array the
  TensorCore region leaves; only the last of the region's 50 points writes that array back, and what it writes is the
  loss formula over the three arrays the region finds — the targets as a row, the gathered logits as a row and the
  transposed logits —, which, read back through the host operations to the program's two arguments, is the
  specification's loss in the kernel's arrangement.
-/
import proofs.«209869_g82368882803221_cont_9to1_m_506_32_alg».proof.Proof.KVals
import proofs.«209869_g82368882803221_cont_9to1_m_506_32_alg».proof.Proof.KHostVals
import proofs.«209869_g82368882803221_cont_9to1_m_506_32_alg».proof.Proof.Spec
import proofs.«209869_g82368882803221_cont_9to1_m_506_32_alg».proof.Proof.Gen.KernelIdeal.Points
import proofs.«209869_g82368882803221_cont_9to1_m_506_32_alg».proof.Proof.KRegionValue
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! ## The result array after the region -/

section Res
variable {F : FTy → Type} [FloatOps F] (m : (ℓ : Loc nD τ sig) → Buf (Elt F) ℓ)

/-- A [1, 1] array has one index. -/
theorem S1x1_idx (i : S1x1.Idx) : i = ix2 (0 : Fin 1) (0 : Fin 1) := by
  have h0 : (i 0).val < 1 := (i 0).isLt
  have h1 : (i 1).val < 1 := (i 1).isLt
  funext a
  match a with
  | ⟨0, _⟩ => exact Fin.ext (by show (i 0).val = 0; omega)
  | ⟨1, _⟩ => exact Fin.ext (by show (i 1).val = 0; omega)

/-- The last point of the region's grid. -/
def t49 : Fin cfg1.N := ⟨49, by rw [show cfg1.N = 50 from N_1]; omega⟩

/-- The one entry of the result array after the region is the number the last point stores: point 49 alone writes the
    array back, and its block is the whole array. -/
theorem RES_apply (d : Dev nD) (t : Fin cfg1.N) (ht : t.val = 49) :
    RES m d (ix2 (0 : Fin 1) (0 : Fin 1)) = lossAt d (A5 m d) (A6 m d) (A0 m d) t (ix2 (0 : Fin 1) (0 : Fin 1)) := by
  have hN : cfg1.N = 50 := N_1
  have hf : (cfg1.win 3).flush t = true := (flush1_3 t).mpr (by rw [ht])
  have hdisj : ∀ u u' : Fin cfg1.N, (cfg1.win 3).flush u = true → (cfg1.win 3).flush u' = true → u ≠ u' →
      Disjoint ((cfg1.win 3).blk u).view.set ((cfg1.win 3).blk u').view.set := by
    intro u u' hu hu' hne
    exfalso
    apply hne
    apply Fin.ext
    have h1 := (flush1_3 u).mp hu
    have h2 := (flush1_3 u').mp hu'
    have h3 := u.isLt
    have h4 := u'.isLt
    omega
  have h := (dats d (A5 m d) (A6 m d) (A0 m d) (A7 m d)).arrAt_emb_eq_flushed 3 hdisj t hf (ix2 (0 : Fin 1) (0 : Fin 1))
  have e : ((cfg1.win 3).blk t).view.emb (ix2 (0 : Fin 1) (0 : Fin 1)) = ix2 (0 : Fin 1) (0 : Fin 1) := S1x1_idx _
  rw [e] at h
  unfold RES
  refine h.trans ?_
  show (dats d (A5 m d) (A6 m d) (A0 m d) (A7 m d)).after 3 t (ix2 (0 : Fin 1) (0 : Fin 1)) = _
  rw [after1_3]

end Res

/-! ## The arrays the region finds, read back to the program's arguments -/

section Arrays
variable {F : FTy → Type} [FloatOps F] (m : (ℓ : Loc nD τ sig) → Buf (Elt F) ℓ)

/-- The targets row the region finds is the targets argument. -/
theorem A5_apply (d : Dev nD) (n : Fin 2048) : A5 m d (ix2 (0 : Fin 1) n) = m (d, r_arg1) (ix1 n) := by
  unfold A5 V6
  rw [op6_ne _ main_v5 (by decide), op5_apply]
  unfold V5
  rw [Function.update_of_ne (show r_arg1 ≠ r_v4 by decide), V4_arg1]

/-- The transposed logits the region finds are the logits argument, transposed. -/
theorem A0_apply (d : Dev nD) (v : Fin 100000) (n : Fin 2048) : A0 m d (ix2 v n) = m (d, r_arg0) (ix2 n v) := by
  unfold A0 V6
  rw [op6_ne _ main_v0 (by decide), op5_ne _ main_v0 (by decide)]
  unfold V5
  rw [Function.update_of_ne (show r_v0 ≠ r_v4 by decide), V4_v0_apply]

/-- The gathered row the region finds holds, at a position whose target is below 100000, the position's logit at the
    target's column. -/
theorem A6_apply (d : Dev nD) (n : Fin 2048) (h : (m (tgtLoc d) (ix1 n)).toNat < 100000) :
    A6 m d (ix2 (0 : Fin 1) n) = m (d, r_arg0) (ix2 n (⟨(m (tgtLoc d) (ix1 n)).toNat, h⟩ : Fin 100000)) := by
  unfold A6 V6
  rw [op6_apply, op5_ne _ main_v4 (by decide)]
  unfold V5
  rw [Function.update_self]
  show picked d (TAB m d) (m (tgtLoc d)) n = _
  exact picked_TAB m d (m (tgtLoc d)) n h

end Arrays

/-! ## The program's result -/

/-- THE VALUE of the kernel program: the specification's loss in the kernel's arrangement, of the logits and the targets. -/
theorem VAL_eq (m : (ℓ : Loc nD τ sig) → Buf (Elt Ideal) ℓ) (d : Dev nD) (ht : ∀ i, (m (tgtLoc d) i).toNat < 100000) :
    VAL (F := Ideal) m d
      = fun _ => Cert.Spec.kerLoss (fun n v => m (d, r_arg0) (ValueIdx.ix2 n v)) (fun n => m (d, r_arg1) (ValueIdx.ix1 n)) := by
  funext j
  have ej : j = ix0 := funext fun a => a.elim0
  rw [ej]
  unfold VAL
  rw [op8_apply]
  have e7 : V7 m d r_v7 = RES m d := by unfold V7; exact Function.update_self _ _ _
  rw [e7, RES_apply m d t49 rfl]
  have hpick : ∀ n : Fin 2048, targetsRow d (A5 m d) (ix2 (0 : Fin 1) n) ≠ 0#32 →
      pickedRow d (A6 m d) (ix2 (0 : Fin 1) n)
        = logitsT d (A0 m d) (ix2 (Cert.Spec.col (targetsRow d (A5 m d) (ix2 (0 : Fin 1) n))) n) := by
    intro n _
    have hn : (m (tgtLoc d) (ix1 n)).toNat < 100000 := ht (ix1 n)
    show A6 m d (ix2 (0 : Fin 1) n) = A0 m d (ix2 (Cert.Spec.col (A5 m d (ix2 (0 : Fin 1) n))) n)
    rw [A6_apply m d n hn, A0_apply, A5_apply]
    have ec : Cert.Spec.col (m (d, r_arg1) (ix1 n)) = (⟨(m (tgtLoc d) (ix1 n)).toNat, hn⟩ : Fin 100000) :=
      Fin.ext (Nat.mod_eq_of_lt hn)
    rw [ec]
  rw [loss_last_spec d (A5 m d) (A6 m d) (A0 m d) t49 rfl _ hpick]
  have e0 : (fun (n : Fin 2048) (v : Fin 100000) => logitsT d (A0 m d) (ix2 v n)) = fun n v => m (d, r_arg0) (ix2 n v) :=
    funext fun n => funext fun v => A0_apply m d v n
  have e5 : (fun n : Fin 2048 => targetsRow d (A5 m d) (ix2 (0 : Fin 1) n)) = fun n => m (d, r_arg1) (ix1 n) :=
    funext fun n => A5_apply m d n
  rw [e0, e5]

end Cert.KernelIdeal.Hand

end
-- ==== Proof.KLaunchC.lean ====
import proofs.«209869_g82368882803221_cont_9to1_m_506_32_alg».proof.Proof.KCommon
import proofs.«209869_g82368882803221_cont_9to1_m_506_32_alg».proof.Proof.KLaunchB

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## The launch theorem's obligation for the tiles -/

theorem defs₀_vector (c : Fin τ.nSC) (s : Fin τ.nSub) :
    defs₀ (F := F) (.scVector c s) 0 ()
      = SparseCore.onTile hcore0 hsub0 (fun c s => cc0__sc_gather (coordsV c s)
          (Memref.whole main_v3_scv) (Memref.isWhole_whole _) (Memref.whole main_arg1_scv) (Memref.isWhole_whole _) (Memref.whole main_v4_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1) ⟨⟩ c s := rfl

omit [FloatOps F] in
theorem obl_post {thr : Thread nD τ} {A A' B C : sProp (𝕄 F)} {O : CellTallies nD τ sig (HIx 1)} {W : Waits sig (HIx 1)} {q : Fin 1} (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

theorem tileObl (TB : TileBodySpec F) (hF : (K (F := F)).Facts) (hpre : ∀ d i, (m (tgtLoc d) i).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := TB d (coordsK c i) hF (TAB m d) (m (tgtLoc d)) (Transfers.shareTok fullShare 32 (wOf c i)) (hpre d) O W hO
  refine BI.Entails.trans ?_ (h.trans (wp_mono frame _ _ fun _ => ?_))
  · show iprop(_ ∗ emp ∗ goRes m d (TAB m d) c i ∗ _) ⊢ _
    unfold goRes
    iintro ⟨Hl, -, ⟨Ht, Hg, Ho⟩, Hb, Hs, HO⟩
    isplitl [Hl]; · iexact Hl
    isplitl [Ht]; · iexact Ht
    isplitl [Hg]; · iexact Hg
    isplitl [Ho]; · iexact Ho
    isplitl [Hb]; · iexact Hb
    isplitl [Hs]; · iexact Hs
    iexact HO
  · show _ ⊢ iprop(tdRes m d (TAB m d) c i ∗ _)
    unfold tdRes
    iintro ⟨Ht, Hg, Ho, Hrest⟩
    iapply (obl_post (q := 0) (BI.Entails.refl _))
    isplitl [Ht Hg Ho]
    · isplitl [Ht]; · iexact Ht
      isplitl [Hg]; · iexact Hg
      iexact Ho
    iexact Hrest

end Cert.KernelIdeal.Hand

end
-- ==== Proof.KLaunchD.lean ====
import proofs.«209869_g82368882803221_cont_9to1_m_506_32_alg».proof.Proof.KCommon
import proofs.«209869_g82368882803221_cont_9to1_m_506_32_alg».proof.Proof.KLaunchB

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

/-! ## The 32 slices of a 2048-vector: worker `w` has entries `64 w … 64 w + 63` -/

theorem hdiv32 : 32 ∣ S2048.size 0 := ⟨64, rfl⟩
abbrev piece (w : Fin 32) : Rect S2048 := Rect.part (s := S2048) (a₀ := 0) hdiv32 w
abbrev pieceSet (w : Fin 32) : Finset S2048.Idx := (piece w).set

/-- The worker of a grid point. -/
def wL (L : grid0.Coords) : Fin 32 :=
  ⟨2 * (L 1).val + (L 0).val, by
    have h1 : (L 1).val < 16 := (L 1).isLt
    have h0 : (L 0).val < 2 := (L 0).isLt
    omega⟩

theorem sl1_eq (L : grid0.Coords) : Rect.unit (s := S2048) (k0_off1 L) S64.size (k0_off1_inb L) = piece (wL L) := by
  unfold piece Rect.part Rect.block
  congr 1 <;> funext a
  · rw [k0_off1_eq]
    match a with
    | 0 => simp [Shape.partIx, Shape.partSize, wL]; omega
  · match a with
    | 0 => simp [Shape.partSize]
theorem sl2_eq (L : grid0.Coords) : Rect.unit (s := S2048) (k0_off2 L) S64.size (k0_off2_inb L) = piece (wL L) := by
  unfold piece Rect.part Rect.block
  congr 1 <;> funext a
  · rw [k0_off2_eq]
    match a with
    | 0 => simp [Shape.partIx, Shape.partSize, wL]; omega
  · match a with
    | 0 => simp [Shape.partSize]

theorem tgtSet_eq (L : grid0.Coords) : (tgtSl L).view.set = pieceSet (wL L) := by
  show ((View.whole (main_arg1_scv : Ref sig .scVector)).slice (Rect.unit (s := S2048) (k0_off1 L) S64.size (k0_off1_inb L))).set = _
  rw [View.set_slice_whole, sl1_eq]
theorem outSet_eq (L : grid0.Coords) : (outSl L).view.set = pieceSet (wL L) := by
  show ((View.whole (main_v4_scv : Ref sig .scVector)).slice (Rect.unit (s := S2048) (k0_off2 L) S64.size (k0_off2_inb L))).set = _
  rw [View.set_slice_whole, sl2_eq]

theorem pieces_disjoint : ∀ i ∈ (Finset.univ : Finset (Fin 32)), ∀ j ∈ (Finset.univ : Finset (Fin 32)), i ≠ j → Disjoint (pieceSet i) (pieceSet j) :=
  fun _ _ _ _ h => Rect.part_disjoint hdiv32 h
theorem pieces_cover : (Finset.univ : Finset (Fin 32)).biUnion pieceSet = Finset.univ := Rect.biUnion_part hdiv32

theorem tgt_pieces (d : Dev nD) (f : Buf (Elt F) (tgtLoc d)) :
    (tgtLoc d ↦{fullShare} f : sProp (𝕄 F)) = bigSep Finset.univ fun w : Fin 32 => tgtLoc d ↦[pieceSet w]{fullShare} f := by
  rw [← pointsTo_biUnion Finset.univ (ℓ := tgtLoc d) pieceSet pieces_disjoint, pieces_cover]; try rfl
theorem out_pieces (d : Dev nD) (f : Buf (Elt F) (outLoc d)) :
    (outLoc d ↦{fullShare} f : sProp (𝕄 F)) = bigSep Finset.univ fun w : Fin 32 => outLoc d ↦[pieceSet w]{fullShare} f := by
  rw [← pointsTo_biUnion Finset.univ (ℓ := outLoc d) pieceSet pieces_disjoint, pieces_cover]; try rfl

end Cert.KernelIdeal.Hand

end
-- ==== Proof.KLaunchE.lean ====
import proofs.«209869_g82368882803221_cont_9to1_m_506_32_alg».proof.Proof.KCommon
import proofs.«209869_g82368882803221_cont_9to1_m_506_32_alg».proof.Proof.KLaunchC
import proofs.«209869_g82368882803221_cont_9to1_m_506_32_alg».proof.Proof.KLaunchD

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

/-! ## The workers, by SparseCore and tile -/

theorem wL_coordsK (c : Fin ((K (F := F)).nCore 0)) (i : Fin ((K (F := F)).nSub 0)) : wL (coordsK c i) = wOf c i := rfl

theorem wOf_injOn :
    Set.InjOn (fun ci : Fin ((K (F := F)).nCore 0) × Fin ((K (F := F)).nSub 0) => wOf ci.1 ci.2)
      ((Finset.univ ×ˢ Finset.univ : Finset (Fin ((K (F := F)).nCore 0) × Fin ((K (F := F)).nSub 0))) : Set _) := by
  rintro ⟨c, i⟩ - ⟨c', i'⟩ - e
  have hc : c.val < 2 := c.isLt
  have hc' : c'.val < 2 := c'.isLt
  have h : 2 * i.val + c.val = 2 * i'.val + c'.val := congrArg Fin.val e
  exact Prod.ext (Fin.ext (show c.val = c'.val by omega)) (Fin.ext (show i.val = i'.val by omega))

theorem wOf_image :
    ((Finset.univ ×ˢ Finset.univ : Finset (Fin ((K (F := F)).nCore 0) × Fin ((K (F := F)).nSub 0))).image fun ci => wOf ci.1 ci.2) = Finset.univ := by
  ext w
  simp only [Finset.mem_image, Finset.mem_product, Finset.mem_univ, and_self, true_and, iff_true]
  have hw : w.val < 32 := w.isLt
  exact ⟨(⟨w.val % 2, Nat.mod_lt _ (by omega)⟩, ⟨w.val / 2, by show w.val / 2 < 16; omega⟩), Fin.ext (by show 2 * (w.val / 2) + w.val % 2 = w.val; omega)⟩

/-- A family over the 32 workers, SparseCore by SparseCore and tile by tile. -/
theorem bigSep_workers (Φ : Fin 32 → sProp (𝕄 F)) :
    bigSep Finset.univ Φ
      = bigSep Finset.univ fun c : Fin ((K (F := F)).nCore 0) => bigSep Finset.univ fun i : Fin ((K (F := F)).nSub 0) => Φ (wOf c i) := by
  rw [← SparseCore.bigSep_product Finset.univ Finset.univ (fun ci : Fin ((K (F := F)).nCore 0) × Fin ((K (F := F)).nSub 0) => Φ (wOf ci.1 ci.2)),
    ← SparseCore.bigSep_image_of_injOn (wOf_injOn (F := F)) Φ, wOf_image]

end Cert.KernelIdeal.Hand

end
-- ==== Proof.KLaunchF.lean ====
import proofs.«209869_g82368882803221_cont_9to1_m_506_32_alg».proof.Proof.KCommon
import proofs.«209869_g82368882803221_cont_9to1_m_506_32_alg».proof.Proof.KLaunchE

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

/-! ## The TensorCore's eleven HBM values, held one by one -/

abbrev S11 : Finset (DevRef τ sig) := {r_arg0, r_arg1, r_v0, r_v1, r_v2, r_v3, r_v4, r_v5, r_v6, r_v7, r_v8}

abbrev pl (d : Dev nD) (b : Ref sig .tc) (f : Buf (Elt F) ((SparseCore.T d : Thread nD τ).loc b)) : sProp (𝕄 F) := (SparseCore.T d : Thread nD τ).loc b ↦{fullShare} f

theorem held_S11 (d : Dev nD) (W : Valuation τ sig (Elt F)) :
    (held (T d) S11 W : sProp (𝕄 F))
      = iprop(pl d main_arg0 (W r_arg0) ∗ pl d main_arg1 (W r_arg1) ∗ pl d main_v0 (W r_v0) ∗ pl d main_v1 (W r_v1) ∗ pl d main_v2 (W r_v2) ∗ pl d main_v3 (W r_v3) ∗ pl d main_v4 (W r_v4) ∗ pl d main_v5 (W r_v5) ∗ pl d main_v6 (W r_v6) ∗ pl d main_v7 (W r_v7) ∗ pl d main_v8 (W r_v8)) := by
  unfold held S11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp (𝕄 F))
      = iprop(pl d main_arg0 (W main_arg0) ∗ pl d main_arg1 (W main_arg1) ∗ pl d main_v0 (W main_v0) ∗ pl d main_v1 (W main_v1) ∗ pl d main_v2 (W main_v2) ∗ pl d main_v3 (W main_v3) ∗ pl d main_v4 (W main_v4) ∗ pl d main_v5 (W main_v5) ∗ pl d main_v6 (W main_v6) ∗ pl d main_v7 (W main_v7) ∗ pl d main_v8 (W main_v8)) := by
  unfold unscopedBufs
  rw [show (Finset.univ.filter fun b : Ref sig .tc => ¬ b.isScoped) = {main_arg0, main_arg1, main_v0, main_v1, main_v2, main_v3, main_v4, main_v5, main_v6, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d : Thread nD τ).loc b)) : sProp (𝕄 F)) = held (T d) S11 (V0 m d) := by
  rw [unscopedBufs_eq, held_S11]; rfl

variable [FloatOps F]

theorem h_op0 : (op0 (F := F)).bufs ⊆ S11 := show ({r_arg0, r_v0} : Finset (DevRef τ sig)) ⊆ S11 by decide
theorem h_op1 : (op1 (F := F)).bufs ⊆ S11 := show ({r_v0, r_v1} : Finset (DevRef τ sig)) ⊆ S11 by decide
theorem h_op2 : (op2 (F := F)).bufs ⊆ S11 := show ({r_v1, r_v2} : Finset (DevRef τ sig)) ⊆ S11 by decide
theorem h_op3 : (op3 (F := F)).bufs ⊆ S11 := show ({r_v2, r_v3} : Finset (DevRef τ sig)) ⊆ S11 by decide
theorem h_op5 : (op5 (F := F)).bufs ⊆ S11 := show ({r_arg1, r_v5} : Finset (DevRef τ sig)) ⊆ S11 by decide
theorem h_op6 : (op6 (F := F)).bufs ⊆ S11 := show ({r_v4, r_v6} : Finset (DevRef τ sig)) ⊆ S11 by decide
theorem h_op8 : (op8 (F := F)).bufs ⊆ S11 := show ({r_v7, r_v8} : Finset (DevRef τ sig)) ⊆ S11 by decide

end Cert.KernelIdeal.Hand

end
-- ==== Proof.KLaunchG.lean ====
import proofs.«209869_g82368882803221_cont_9to1_m_506_32_alg».proof.Proof.KCommon
import proofs.«209869_g82368882803221_cont_9to1_m_506_32_alg».proof.Proof.KLaunchF
import proofs.«209869_g82368882803221_cont_9to1_m_506_32_alg».proof.Proof.KVals

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## From the whole arrays to the tiles' shares, and back with what the tiles picked -/

/-- What a worker is handed, and hands back, in terms of its number. -/
def GO (d : Dev nD) (fo : Buf (Elt F) (outLoc d)) (w : Fin 32) : sProp (𝕄 F) :=
  iprop((tabLoc d ↦{Transfers.shareTok fullShare 32 w} TAB m d) ∗ (tgtLoc d ↦[pieceSet w]{fullShare} m (tgtLoc d)) ∗ (outLoc d ↦[pieceSet w]{fullShare} fo))
def TD (d : Dev nD) (w : Fin 32) : sProp (𝕄 F) :=
  iprop((tabLoc d ↦{Transfers.shareTok fullShare 32 w} TAB m d) ∗ (tgtLoc d ↦[pieceSet w]{fullShare} m (tgtLoc d)) ∗ (outLoc d ↦[pieceSet w]{fullShare} OUT m d))

theorem GO_goRes (d : Dev nD) (fo : Buf (Elt F) (outLoc d)) (c : Fin ((K (F := F)).nCore 0)) (i : Fin ((K (F := F)).nSub 0)) :
    GO m d fo (wOf c i) ⊢ goRes m d (TAB m d) c i := by
  unfold GO goRes
  rw [tgtSet_eq, outSet_eq, wL_coordsK]
  iintro ⟨Ht, Hg, Ho⟩
  isplitl [Ht]; · iexact Ht
  isplitl [Hg]; · iexact Hg
  iexists fo; iexact Ho

omit [FloatOps F] in
theorem emb_outSl (L : grid0.Coords) (j : S64.Idx) : (((outSl L).view.emb j) 0 : Fin 2048) = posOf L j := by
  apply Fin.ext
  show (k0_off2 L) 0 + 1 * (j 0).val = 128 * (L 1).val + 64 * (L 0).val + (j 0).val
  rw [k0_off2_eq]
  simp

theorem piece_value (d : Dev nD) (L : grid0.Coords) (f : Buf (Elt F) (outLoc d))
    (hf : ∀ j : S64.Idx, f ((outSl L).view.emb j) = picked d (TAB m d) (m (tgtLoc d)) (posOf L j)) :
    ∀ x ∈ (outSl L).view.set, f x = OUT m d x := by
  intro x hx
  obtain ⟨j, -, rfl⟩ := Finset.mem_map.mp hx
  rw [hf j]; unfold OUT; rw [emb_outSl]

theorem tdRes_TD (d : Dev nD) (c : Fin ((K (F := F)).nCore 0)) (i : Fin ((K (F := F)).nSub 0)) :
    tdRes m d (TAB m d) c i ⊢ TD m d (wOf c i) := by
  unfold tdRes TD
  iintro ⟨Ht, Hg, %f, %hf, Ho⟩
  isplitl [Ht]; · iexact Ht
  isplitl [Hg]; · rw [← wL_coordsK, ← tgtSet_eq]; iexact Hg
  rw [← wL_coordsK, ← outSet_eq,
    show (outLoc d ↦[(outSl (coordsK c i)).view.set]{fullShare} OUT m d : sProp (𝕄 F)) = outLoc d ↦[(outSl (coordsK c i)).view.set]{fullShare} f from
      (pointsTo_congr (piece_value m d (coordsK c i) f hf)).symm]
  iexact Ho

/-- The whole arrays dealt to the two SparseCores' tiles; a remainder of the table's share stays behind. -/
theorem st0_intro (d : Dev nD) (fo : Buf (Elt F) (outLoc d)) :
    iprop((tabLoc d ↦{fullShare} TAB m d) ∗ (tgtLoc d ↦{fullShare} m (tgtLoc d)) ∗ (outLoc d ↦{fullShare} fo))
      ⊢ iprop((tabLoc d ↦{Transfers.shareDrop fullShare 32} TAB m d) ∗ bigSep Finset.univ fun c : Fin ((K (F := F)).nCore 0) => (P m).st 0 d c) := by
  have hgo : (bigSep Finset.univ fun w : Fin 32 => GO m d fo w) ⊢ bigSep Finset.univ fun c : Fin ((K (F := F)).nCore 0) => (P m).st 0 d c := by
    rw [bigSep_workers]
    exact bigSep_mono fun c _ => (show _ ⊢ (bigSep Finset.univ fun i : Fin ((K (F := F)).nSub 0) => goRes m d (TAB m d) c i) from
      bigSep_mono fun i _ => GO_goRes m d fo c i)
  have hGO : (bigSep Finset.univ fun w : Fin 32 => GO m d fo w)
      = iprop((bigSep Finset.univ fun w : Fin 32 => (tabLoc d ↦{Transfers.shareTok fullShare 32 w} TAB m d : sProp (𝕄 F)))
        ∗ (bigSep Finset.univ fun w : Fin 32 => (tgtLoc d ↦[pieceSet w]{fullShare} m (tgtLoc d) : sProp (𝕄 F)))
        ∗ (bigSep Finset.univ fun w : Fin 32 => (outLoc d ↦[pieceSet w]{fullShare} fo : sProp (𝕄 F)))) := by
    unfold GO; rw [bigSep_sep', bigSep_sep']
  rw [tgt_pieces, out_pieces]
  iintro ⟨Ht, Hg, Ho⟩
  ihave Ht' := (Transfers.pointsTo_toks_split fullShare 32) $$ Ht
  icases Ht' with ⟨Hrem, Htok⟩
  isplitl [Hrem]; · iexact Hrem
  iapply hgo
  iapply (Entails.of_eq hGO.symm)
  isplitl [Htok]; · iexact Htok
  isplitl [Hg]; · iexact Hg
  iexact Ho

/-- And back: the table whole again, the targets whole, the gathered logits at what the tiles picked. -/
theorem dn0_elim (d : Dev nD) :
    iprop((tabLoc d ↦{Transfers.shareDrop fullShare 32} TAB m d) ∗ bigSep Finset.univ fun c : Fin ((K (F := F)).nCore 0) => (P m).dn 0 d c)
      ⊢ iprop((tabLoc d ↦{fullShare} TAB m d) ∗ (tgtLoc d ↦{fullShare} m (tgtLoc d)) ∗ (outLoc d ↦{fullShare} OUT m d)) := by
  have htd : (bigSep Finset.univ fun c : Fin ((K (F := F)).nCore 0) => (P m).dn 0 d c) ⊢ bigSep Finset.univ fun w : Fin 32 => TD m d w := by
    rw [bigSep_workers (fun w => TD m d w)]
    exact bigSep_mono fun c _ => (show (bigSep Finset.univ fun i : Fin ((K (F := F)).nSub 0) => tdRes m d (TAB m d) c i) ⊢ _ from
      bigSep_mono fun i _ => tdRes_TD m d c i)
  have hTD : (bigSep Finset.univ fun w : Fin 32 => TD m d w)
      = iprop((bigSep Finset.univ fun w : Fin 32 => (tabLoc d ↦{Transfers.shareTok fullShare 32 w} TAB m d : sProp (𝕄 F)))
        ∗ (bigSep Finset.univ fun w : Fin 32 => (tgtLoc d ↦[pieceSet w]{fullShare} m (tgtLoc d) : sProp (𝕄 F)))
        ∗ (bigSep Finset.univ fun w : Fin 32 => (outLoc d ↦[pieceSet w]{fullShare} OUT m d : sProp (𝕄 F)))) := by
    unfold TD; rw [bigSep_sep', bigSep_sep']
  rw [tgt_pieces, out_pieces]
  iintro ⟨Hrem, Hdn⟩
  ihave H0 := htd $$ Hdn
  ihave H := (Entails.of_eq hTD) $$ H0
  icases H with ⟨Htok, Hg, Ho⟩
  isplitl [Hrem Htok]
  · iapply (Transfers.pointsTo_toks_join fullShare 32)
    isplitl [Hrem]; · iexact Hrem
    iexact Htok
  isplitl [Hg]; · iexact Hg
  iexact Ho

end Cert.KernelIdeal.Hand

end
-- ==== Proof.KRegionRun.lean ====
/-
  The runs of the TensorCore region's body: one trip of the counted loop, the loop by its invariant, the body in each
  of its three cases (the first point, which resets the scratch rows; the points between; the last point, which
  stores the result), and the body obligation at every point.
-/
import proofs.«209869_g82368882803221_cont_9to1_m_506_32_alg».proof.Proof.KRegionData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions, decided over the grid -/

/-- The condition of the body's first `scf.if`, from the grid coordinate. -/
abbrev cond1 (i : grid1.Coords) : Prop :=
  (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val % 50 = 0 :=
  (by decide +kernel : ∀ t : Fin grid1.N, cond1 (grid1.coords t) ↔ t.val % 50 = 0)
/-- The condition of the body's last `scf.if`. -/
abbrev cond2 (i : grid1.Coords) : Prop := k1_cond2 i = 1#1
/-- It holds at the last point only. -/
theorem hcond2 : ∀ t : Fin cfg1.N, cond2 (grid1.coords t) ↔ t.val % 50 = 49 :=
  (by decide +kernel : ∀ t : Fin grid1.N, cond2 (grid1.coords t) ↔ t.val % 50 = 49)
/-- The result's window is idle at every point but the last. -/
theorem idle3 : ∀ t : Fin cfg1.N, cfg1.idle 3 (cfg1.grid.coords t) = decide (t.val % 50 ≠ 49) :=
  (by decide +kernel : ∀ t : Fin grid1.N, idle1 3 (grid1.coords t) = decide (t.val % 50 ≠ 49))

/-! ## Loads of a whole memref -/

/-- A load of the whole shape through a whole memref held at the raw contents that read `X` reads `X`. -/
theorem readAt_unread_full {sg : RefSig} {κ : Kind} {sp : Space} {s : Shape} {e : EltTy} {Val : EltTy → Type}
    {m : Memref sg κ sp s e} (h : m.IsWhole) (off : Fin s.rank → Nat) (hoff : ∀ a, off a = 0)
    (inb : ∀ a, off a + s.size a ≤ s.size a) (X : s.Idx → Val e) :
    m.view.readAt Val (Rect.unit off s.size inb).toLoadRect (h.unread X) = X := by
  rw [readAt_unread]
  funext j
  congr 1
  funext a; apply Fin.ext; show off a + 1 * (j a : Nat) = j a; rw [hoff]; omega

theorem zero2 : ∀ a : Fin 2, (![0, 0] : Fin 2 → ℕ) a = 0 := by intro a; fin_cases a <;> rfl

/-! ## One trip of the counted loop -/

/-- One trip at a symbolic `k`: the block is read twice and left as it was; the yield is the step of `accAt`. -/
theorem trip (𝒱 : Variants) (c : Dev nD) (bd : Option 𝒱.V) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole)
    (x3 : Vec F S2000x2048 .f32) (k : Fin k1_t1_loop.trips) (E : Set ℕ) (acc : FVec F S8x2048 .f32 × FVec F S8x2048 .f32) :
    (arg3.view.loc (c : Thread nD τ) ↦[arg3.view.set]{fullShare} harg3.unread x3 : sProp (𝕄 F))
      ⊢ wp frame (wpE (defs₀ (F := F)) 𝒱 (c : Thread nD τ) bd) E (k1_t1_body (F := F) i arg1 harg1 arg2 harg2 arg3 harg3 arg4 harg4 arg5 harg5 arg6 harg6 arg7 harg7 k acc)
          (fun yld => iprop(⌜yld = (k1_pay8 acc.1 (ld1 x3 k) (ld2 x3 k), k1_pay9 acc.2 (ld1 x3 k) (ld2 x3 k))⌝
            ∗ (arg3.view.loc (c : Thread nD τ) ↦[arg3.view.set]{fullShare} harg3.unread x3))) := by
  have hk : k.val < 125 := Nat.lt_of_lt_of_le k.isLt k1_t1_abs.2.1
  have e1 : arg3.view.readAt (Elt F) (Rect.unit (s := S2000x2048) (k1_off1 k) S8x2048.size (k1_off1_inb k)).toLoadRect (harg3.unread x3) = ld1 x3 k :=
    readAt_unread harg3 _ x3
  have e2 : arg3.view.readAt (Elt F) (Rect.unit (s := S2000x2048) (k1_off2 k) S8x2048.size (k1_off2_inb k)).toLoadRect (harg3.unread x3) = ld2 x3 k :=
    readAt_unread harg3 _ x3
  unfold k1_t1_body
  iintro HR_arg3
  sl_exec
  sl_step
  isplitr
  · ipureintro; first | rfl | rw [e1, e2]
  · iexact HR_arg3

/-! ## The loop by its invariant -/

/-- Before trip `k`: the block as it was, and the carried pair at `accAt x3 k`. -/
abbrev inv_loop (c : Dev nD) (arg3 : Memref sig .tc .vmem S2000x2048 .f32) (harg3 : arg3.IsWhole) (x3 : Vec F S2000x2048 .f32)
    (k : ℕ) (acc : FVec F S8x2048 .f32 × FVec F S8x2048 .f32) : sProp (𝕄 F) :=
  iprop((arg3.view.loc (c : Thread nD τ) ↦[arg3.view.set]{fullShare} harg3.unread x3) ∗ ⌜acc = accAt x3 k⌝)

macro_rules | `(tactic| sl_pure) => `(tactic| with_reducible exact (Cert.KernelIdeal.Hand.accAt_zero ..).symm)

set_option warn.classDefReducibility false in
/-- The counted loop by its invariant, at the region's resource algebra. -/
@[sl_loop] def loopInv (𝒱 : Variants) (c : Dev nD) (bd : Option 𝒱.V) (E : Set ℕ) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole)
    (x3 : Vec F S2000x2048 .f32) :
    LoopInvTy_k1_t1 (F := F) (HIx 1) ℕ UU ℕ 𝒱 c bd E i arg1 harg1 arg2 harg2 arg3 harg3 arg4 harg4 arg5 harg5 arg6 harg6 arg7 harg7 (k1_pay5 (F := F), k1_pay5 (F := F)) where
  inv := inv_loop (F := F) c arg3 harg3 x3
  step k acc := by
    iintro ⟨HR_arg3, %h_acc⟩
    subst h_acc
    iapply (wp_wand_r Idealize.ShloMosaic.frame (wpE (defs₀ (F := F)) 𝒱 (c : Thread nD τ) bd) E)
    isplitl [HR_arg3]
    · iapply (trip (F := F) 𝒱 c bd i arg1 harg1 arg2 harg2 arg3 harg3 arg4 harg4 arg5 harg5 arg6 harg6 arg7 harg7 x3 k E (accAt x3 k))
      iexact HR_arg3
    · iintro %yld ⟨%h_res, HR_arg3⟩
      isplitl [HR_arg3]; · iexact HR_arg3
      ipureintro; rw [h_res, accAt_succ]

/-! ## Whole-block stores and loads of the kernel's rows read back -/

theorem read_full_1x2048 {κ : Kind} {sp : Space} (v : View sig κ sp S1x2048 .f32) (f : v.ty.Contents (Elt F))
    (w : S1x2048.Idx → Elt F .f32) (L : List (View.Piece (Elt F) S1x2048 .f32)) :
    v.read (Elt F) (v.writes (Elt F) f (⟨Rect.unit (s := S1x2048) ![0, 0] S1x2048.size inb_S1x2048_S1x2048_0_0, w⟩ :: L)) = w :=
  read_writes_cons_full v f _ zero2 _ w L

theorem read_full_1x1 {κ : Kind} {sp : Space} (v : View sig κ sp S1x1 .f32) (f : v.ty.Contents (Elt F))
    (w : S1x1.Idx → Elt F .f32) (L : List (View.Piece (Elt F) S1x1 .f32)) :
    v.read (Elt F) (v.writes (Elt F) f (⟨Rect.unit (s := S1x1) ![0, 0] S1x1.size inb_S1x1_S1x1_0_0, w⟩ :: L)) = w :=
  read_writes_cons_full v f _ zero2 _ w L

theorem readCov_full_1x2048 {κ : Kind} {sp : Space} (v : View sig κ sp S1x2048 .f32)
    (w : S1x2048.Idx → Elt F .f32) (L : List (View.Piece (Elt F) S1x2048 .f32)) :
    v.readCov (⟨Rect.unit (s := S1x2048) ![0, 0] S1x2048.size inb_S1x2048_S1x2048_0_0, w⟩ :: L)
      (Rect.unit (s := S1x2048) ![0, 0] S1x2048.size inb_S1x2048_S1x2048_0_0).toLoadRect = w := by
  unfold View.readCov
  funext j
  rw [View.readAt_apply, read_full_1x2048]
  congr 1
  funext a; apply Fin.ext
  show (![0, 0] : Fin 2 → ℕ) a + 1 * (j a : Nat) = j a
  rw [zero2]; omega

theorem readAt_writes_full_1x2048 {κ : Kind} {sp : Space} (v : View sig κ sp S1x2048 .f32) (f : v.ty.Contents (Elt F))
    (w : S1x2048.Idx → Elt F .f32) (L : List (View.Piece (Elt F) S1x2048 .f32)) :
    v.readAt (Elt F) (Rect.unit (s := S1x2048) ![0, 0] S1x2048.size inb_S1x2048_S1x2048_0_0).toLoadRect
      (v.writes (Elt F) f (⟨Rect.unit (s := S1x2048) ![0, 0] S1x2048.size inb_S1x2048_S1x2048_0_0, w⟩ :: L)) = w := by
  funext j
  rw [View.readAt_apply, read_full_1x2048]
  congr 1
  funext a; apply Fin.ext
  show (![0, 0] : Fin 2 → ℕ) a + 1 * (j a : Nat) = j a
  rw [zero2]; omega

/-! ## The body, case by case -/

/-- A point between the first and the last: the two running rows take the point's block, row 0 and every window stay. -/
theorem run_mid (c : Dev nD) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc1 : ¬cond1 i) (hc2 : ¬cond2 i)
    (x1 : Vec F S1x2048 .i32) (x2 : Vec F S1x2048 .f32) (x3 : Vec F S2000x2048 .f32) (d4 : Vec F S1x1 .f32) (p : Scr F)
    (E : Set ℕ) (K : PUnit → sProp (𝕄 F)) :
    iprop(owns (c : Thread nD τ) arg1 fullShare x1 ∗ owns (c : Thread nD τ) arg2 fullShare x2 ∗ owns (c : Thread nD τ) arg3 fullShare x3 ∗ owns (c : Thread nD τ) arg4 fullShare d4
        ∗ owns (c : Thread nD τ) arg5 fullShare p.1 ∗ owns (c : Thread nD τ) arg6 fullShare p.2.1 ∗ owns (c : Thread nD τ) arg7 fullShare p.2.2
        ∗ (iprop(owns (c : Thread nD τ) arg1 fullShare x1 ∗ owns (c : Thread nD τ) arg2 fullShare x2 ∗ owns (c : Thread nD τ) arg3 fullShare x3 ∗ owns (c : Thread nD τ) arg4 fullShare d4
            ∗ owns (c : Thread nD τ) arg5 fullShare (scrStep x3 p).1 ∗ owns (c : Thread nD τ) arg6 fullShare (scrStep x3 p).2.1 ∗ owns (c : Thread nD τ) arg7 fullShare (scrStep x3 p).2.2) -∗ K ⟨⟩))
      ⊢ wp frame (wpE (defs₀ (F := F)) Variants.none (c : Thread nD τ) none) E (cc1__ls_kernel i arg1 harg1 arg2 harg2 arg3 harg3 arg4 harg4 arg5 harg5 arg6 harg6 arg7 harg7) K := by
  have e1 : arg1.view.readAt (Elt F) (Rect.unit (s := S1x2048) ![0, 0] S1x2048.size inb_S1x2048_S1x2048_0_0).toLoadRect (harg1.unread x1) = x1 :=
    readAt_unread_full harg1 _ zero2 _ x1
  have e2 : arg2.view.readAt (Elt F) (Rect.unit (s := S1x2048) ![0, 0] S1x2048.size inb_S1x2048_S1x2048_0_0).toLoadRect (harg2.unread x2) = x2 :=
    readAt_unread_full harg2 _ zero2 _ x2
  have e3 : arg3.view.readAt (Elt F) (Rect.unit (s := S2000x2048) ![0, 0] S1x2048.size inb_S2000x2048_S1x2048_0_0).toLoadRect (harg3.unread x3) = row0 x3 :=
    readAt_unread harg3 _ x3
  have e5 : arg5.view.readAt (Elt F) (Rect.unit (s := S1x2048) ![0, 0] S1x2048.size inb_S1x2048_S1x2048_0_0).toLoadRect (harg5.unread p.1) = p.1 :=
    readAt_unread_full harg5 _ zero2 _ p.1
  have e6 : arg6.view.readAt (Elt F) (Rect.unit (s := S1x2048) ![0, 0] S1x2048.size inb_S1x2048_S1x2048_0_0).toLoadRect (harg6.unread p.2.1) = p.2.1 :=
    readAt_unread_full harg6 _ zero2 _ p.2.1
  have e7 : arg7.view.readAt (Elt F) (Rect.unit (s := S1x2048) ![0, 0] S1x2048.size inb_S1x2048_S1x2048_0_0).toLoadRect (harg7.unread p.2.2) = p.2.2 :=
    readAt_unread_full harg7 _ zero2 _ p.2.2
  simp only [cc1__ls_kernel_eq_skeleton, k1_part1_eq_skeleton]; unfold cc1__ls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    exact harg4.read_unread _
  isplitl [H5]
  · iexists _; isplitr; swap; · iexact H5
    ipureintro
    rw [read_full_1x2048]; first | rfl | (rw [e5]; rfl)
  isplitl [H6]
  · iexists _; isplitr; swap; · iexact H6
    ipureintro
    rw [read_full_1x2048]; first | rfl | (rw [e6]; rfl)
  iexists _; isplitr; swap; · iexact H7
  ipureintro
  exact harg7.read_unread _

/-- The first point: whatever the scratch rows held, they are reset, then take the point's block. -/
theorem run_first (c : Dev nD) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc1 : cond1 i) (hc2 : ¬cond2 i)
    (x1 : Vec F S1x2048 .i32) (x2 : Vec F S1x2048 .f32) (x3 : Vec F S2000x2048 .f32) (d4 : Vec F S1x1 .f32) (p : Scr F)
    (E : Set ℕ) (K : PUnit → sProp (𝕄 F)) :
    iprop(owns (c : Thread nD τ) arg1 fullShare x1 ∗ owns (c : Thread nD τ) arg2 fullShare x2 ∗ owns (c : Thread nD τ) arg3 fullShare x3 ∗ owns (c : Thread nD τ) arg4 fullShare d4
        ∗ owns (c : Thread nD τ) arg5 fullShare p.1 ∗ owns (c : Thread nD τ) arg6 fullShare p.2.1 ∗ owns (c : Thread nD τ) arg7 fullShare p.2.2
        ∗ (iprop(owns (c : Thread nD τ) arg1 fullShare x1 ∗ owns (c : Thread nD τ) arg2 fullShare x2 ∗ owns (c : Thread nD τ) arg3 fullShare x3 ∗ owns (c : Thread nD τ) arg4 fullShare d4
            ∗ owns (c : Thread nD τ) arg5 fullShare (scrStep x3 (scrReset x3)).1 ∗ owns (c : Thread nD τ) arg6 fullShare (scrStep x3 (scrReset x3)).2.1 ∗ owns (c : Thread nD τ) arg7 fullShare (scrStep x3 (scrReset x3)).2.2) -∗ K ⟨⟩))
      ⊢ wp frame (wpE (defs₀ (F := F)) Variants.none (c : Thread nD τ) none) E (cc1__ls_kernel i arg1 harg1 arg2 harg2 arg3 harg3 arg4 harg4 arg5 harg5 arg6 harg6 arg7 harg7) K := by
  have e1 : arg1.view.readAt (Elt F) (Rect.unit (s := S1x2048) ![0, 0] S1x2048.size inb_S1x2048_S1x2048_0_0).toLoadRect (harg1.unread x1) = x1 :=
    readAt_unread_full harg1 _ zero2 _ x1
  have e2 : arg2.view.readAt (Elt F) (Rect.unit (s := S1x2048) ![0, 0] S1x2048.size inb_S1x2048_S1x2048_0_0).toLoadRect (harg2.unread x2) = x2 :=
    readAt_unread_full harg2 _ zero2 _ x2
  have e3 : arg3.view.readAt (Elt F) (Rect.unit (s := S2000x2048) ![0, 0] S1x2048.size inb_S2000x2048_S1x2048_0_0).toLoadRect (harg3.unread x3) = row0 x3 :=
    readAt_unread harg3 _ x3
  have e5 : arg5.view.readAt (Elt F) (Rect.unit (s := S1x2048) ![0, 0] S1x2048.size inb_S1x2048_S1x2048_0_0).toLoadRect (harg5.unread p.1) = p.1 :=
    readAt_unread_full harg5 _ zero2 _ p.1
  have e6 : arg6.view.readAt (Elt F) (Rect.unit (s := S1x2048) ![0, 0] S1x2048.size inb_S1x2048_S1x2048_0_0).toLoadRect (harg6.unread p.2.1) = p.2.1 :=
    readAt_unread_full harg6 _ zero2 _ p.2.1
  have e7 : arg7.view.readAt (Elt F) (Rect.unit (s := S1x2048) ![0, 0] S1x2048.size inb_S1x2048_S1x2048_0_0).toLoadRect (harg7.unread p.2.2) = p.2.2 :=
    readAt_unread_full harg7 _ zero2 _ p.2.2
  simp only [cc1__ls_kernel_eq_skeleton, k1_part1_eq_skeleton]; unfold cc1__ls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    exact harg4.read_unread _
  isplitl [H5]
  · iexists _; isplitr; swap; · iexact H5
    ipureintro
    rw [read_full_1x2048]; delta run_first.sl.v8 run_first.sl.H5_1; rw [readCov_full_1x2048]; rfl
  isplitl [H6]
  · iexists _; isplitr; swap; · iexact H6
    ipureintro
    rw [read_full_1x2048]; delta run_first.sl.v15 run_first.sl.H6_1; rw [readCov_full_1x2048]; rfl
  iexists _; isplitr; swap; · iexact H7
  ipureintro
  delta run_first.sl.H7_1; rw [read_full_1x2048]; rfl

/-- The last point: as between, then the loss is stored into the result's staging buffer. -/
theorem run_last (c : Dev nD) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc1 : ¬cond1 i) (hc2 : cond2 i)
    (x1 : Vec F S1x2048 .i32) (x2 : Vec F S1x2048 .f32) (x3 : Vec F S2000x2048 .f32) (d4 : Vec F S1x1 .f32) (p : Scr F)
    (E : Set ℕ) (K : PUnit → sProp (𝕄 F)) :
    iprop(owns (c : Thread nD τ) arg1 fullShare x1 ∗ owns (c : Thread nD τ) arg2 fullShare x2 ∗ owns (c : Thread nD τ) arg3 fullShare x3 ∗ owns (c : Thread nD τ) arg4 fullShare d4
        ∗ owns (c : Thread nD τ) arg5 fullShare p.1 ∗ owns (c : Thread nD τ) arg6 fullShare p.2.1 ∗ owns (c : Thread nD τ) arg7 fullShare p.2.2
        ∗ (iprop(owns (c : Thread nD τ) arg1 fullShare x1 ∗ owns (c : Thread nD τ) arg2 fullShare x2 ∗ owns (c : Thread nD τ) arg3 fullShare x3 ∗ owns (c : Thread nD τ) arg4 fullShare (k1_pay12 (k1_pay1 x1) (scrStep x3 p).1 (scrStep x3 p).2.2 x2 (scrStep x3 p).2.1)
            ∗ owns (c : Thread nD τ) arg5 fullShare (scrStep x3 p).1 ∗ owns (c : Thread nD τ) arg6 fullShare (scrStep x3 p).2.1 ∗ owns (c : Thread nD τ) arg7 fullShare (scrStep x3 p).2.2) -∗ K ⟨⟩))
      ⊢ wp frame (wpE (defs₀ (F := F)) Variants.none (c : Thread nD τ) none) E (cc1__ls_kernel i arg1 harg1 arg2 harg2 arg3 harg3 arg4 harg4 arg5 harg5 arg6 harg6 arg7 harg7) K := by
  have e1 : arg1.view.readAt (Elt F) (Rect.unit (s := S1x2048) ![0, 0] S1x2048.size inb_S1x2048_S1x2048_0_0).toLoadRect (harg1.unread x1) = x1 :=
    readAt_unread_full harg1 _ zero2 _ x1
  have e2 : arg2.view.readAt (Elt F) (Rect.unit (s := S1x2048) ![0, 0] S1x2048.size inb_S1x2048_S1x2048_0_0).toLoadRect (harg2.unread x2) = x2 :=
    readAt_unread_full harg2 _ zero2 _ x2
  have e3 : arg3.view.readAt (Elt F) (Rect.unit (s := S2000x2048) ![0, 0] S1x2048.size inb_S2000x2048_S1x2048_0_0).toLoadRect (harg3.unread x3) = row0 x3 :=
    readAt_unread harg3 _ x3
  have e5 : arg5.view.readAt (Elt F) (Rect.unit (s := S1x2048) ![0, 0] S1x2048.size inb_S1x2048_S1x2048_0_0).toLoadRect (harg5.unread p.1) = p.1 :=
    readAt_unread_full harg5 _ zero2 _ p.1
  have e6 : arg6.view.readAt (Elt F) (Rect.unit (s := S1x2048) ![0, 0] S1x2048.size inb_S1x2048_S1x2048_0_0).toLoadRect (harg6.unread p.2.1) = p.2.1 :=
    readAt_unread_full harg6 _ zero2 _ p.2.1
  have e7 : arg7.view.readAt (Elt F) (Rect.unit (s := S1x2048) ![0, 0] S1x2048.size inb_S1x2048_S1x2048_0_0).toLoadRect (harg7.unread p.2.2) = p.2.2 :=
    readAt_unread_full harg7 _ zero2 _ p.2.2
  simp only [cc1__ls_kernel_eq_skeleton, k1_part1_eq_skeleton]; unfold cc1__ls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_full_1x1]; delta run_last.sl.v25 run_last.sl.v32 run_last.sl.H5_1 run_last.sl.H6_1; rw [readCov_full_1x2048, readCov_full_1x2048]; rfl
  isplitl [H5]
  · iexists _; isplitr; swap; · iexact H5
    ipureintro
    delta run_last.sl.H5_1; rw [read_full_1x2048]; rfl
  isplitl [H6]
  · iexists _; isplitr; swap; · iexact H6
    ipureintro
    delta run_last.sl.H6_1; rw [read_full_1x2048]; rfl
  iexists _; isplitr; swap; · iexact H7
  ipureintro
  exact harg7.read_unread _

/-! ## What the body finds in the input windows' staging buffers -/

variable (c : Dev nD)
variable (A5 : Buf (Elt F) ((c : Thread nD τ).loc main_v5)) (A6 : Buf (Elt F) ((c : Thread nD τ).loc main_v6))
  (A0 : Buf (Elt F) ((c : Thread nD τ).loc main_v0)) (A7 : Buf (Elt F) ((c : Thread nD τ).loc main_v7))

/-- The targets' staging buffer holds the targets at every point, fetched there or not. -/
theorem before1_0 (t : Fin cfg1.N) (d) : (dats c A5 A6 A0 A7).before 0 t d = blkOf c 0 A5 t :=
  ((dats c A5 A6 A0 A7).before_in_eq_fetched 0 rfl (fun _ => rfl) (fun _ _ _ => rfl)
    (fun t => by rw [after1_0]; unfold Dat.blockOf blkOf; rw [A_0]; try rfl) t d).trans
    (by unfold Dat.fetched Dat.blockOf blkOf; rw [A_0]; try rfl)
/-- The gathered logits' staging buffer holds them at every point, fetched there or not. -/
theorem before1_1 (t : Fin cfg1.N) (d) : (dats c A5 A6 A0 A7).before 1 t d = blkOf c 1 A6 t :=
  ((dats c A5 A6 A0 A7).before_in_eq_fetched 1 rfl (fun _ => rfl) (fun _ _ _ => rfl)
    (fun t => by rw [after1_1]; unfold Dat.blockOf blkOf; rw [A_1]; try rfl) t d).trans
    (by unfold Dat.fetched Dat.blockOf blkOf; rw [A_1]; try rfl)
/-- The logits' current staging buffer holds the point's block of 2000 rows. -/
theorem before1_2 (t : Fin cfg1.N) (d) : (dats c A5 A6 A0 A7).before 2 t d = blkOf c 2 A0 t :=
  ((dats c A5 A6 A0 A7).before_in_eq_fetched 2 rfl (fun _ => rfl) (fun _ _ _ => rfl)
    (fun t => by rw [after1_2]; unfold Dat.blockOf blkOf; rw [A_2]; try rfl) t d).trans
    (by unfold Dat.fetched Dat.blockOf blkOf; rw [A_2]; try rfl)

/-! ## The scratch rows point by point -/

theorem PhiAt_succ (n : ℕ) : PhiAt c A0 (n + 1) = scrHeld c (scr c A0 n) := rfl

theorem PhiAt_first (t : Fin cfg1.N) (h : t.val = 0) : PhiAt c A0 t.val = iprop(∃ p : Scr F, scrHeld c p) := by
  rw [h]; rfl

theorem PhiAt_pos (t : Fin cfg1.N) (h : t.val ≠ 0) : PhiAt c A0 t.val = scrHeld c (scr c A0 (t.val - 1)) := by
  obtain ⟨n, hn⟩ := t
  cases n with
  | zero => exact absurd rfl h
  | succ n => rfl

theorem scr_first (t : Fin cfg1.N) (h : t.val = 0) :
    scr c A0 t.val = scrStep (blkOf c 2 A0 t) (scrReset (blkOf c 2 A0 t)) := by
  have e : logitsBlk c A0 0 = blkOf c 2 A0 t := by
    unfold logitsBlk; rw [show pt 0 = t from by rw [← h]; exact pt_val t]
  rw [h]; unfold scr; rw [scrAt_zero, e]

theorem scr_pos (t : Fin cfg1.N) (h : t.val ≠ 0) :
    scr c A0 t.val = scrStep (blkOf c 2 A0 t) (scr c A0 (t.val - 1)) := by
  have e : logitsBlk c A0 t.val = blkOf c 2 A0 t := by unfold logitsBlk; rw [pt_val]
  obtain ⟨n, hn⟩ := t
  cases n with
  | zero => exact absurd rfl h
  | succ n =>
    show scr c A0 (n + 1) = scrStep (blkOf c 2 A0 ⟨n + 1, hn⟩) (scr c A0 n)
    unfold scr; rw [scrAt_succ]; exact congrArg (fun B => scrStep B _) e

/-! ## The body obligation, at a generic point -/

/-- Each window's current staging memref at point `t`, spelled as the pipeline passes it, and its wholeness. -/
abbrev ms0 (t : Fin cfg1.N) : Memref sig .tc .vmem S1x2048 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2000x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)

/-- The post of the result's window at a point live for it: the buffer at what the proof data state. -/
theorem leavesExact_live {Λ : Idealize.SL.Sem.Labels} {cfg : Pipeline.Cfg sig Λ} {c : Dev nD}
    (dat : Dat τ (Elt F) (HIx 1) ℕ UU ℕ cfg c) (w : Fin cfg.W) (t : Fin cfg.N)
    (hi : cfg.idle w (cfg.grid.coords t) = false) :
    dat.leavesExact w t = owns c ((cfg.win w).stage (cfg.slots t w)) fullShare (dat.after w t) := by
  unfold Dat.leavesExact; rw [hi]

/-- What the body is called with at point `t` (the windows one by one), -/
def bodyPre (t : Fin cfg1.N) : sProp (𝕄 F) :=
  iprop((dats c A5 A6 A0 A7).Φ t.castSucc ∗ (dats c A5 A6 A0 A7).owesAt (none : HIx 1) t.castSucc
    ∗ (∃ d, owns (c : Thread nD τ) (ms0 t) fullShare ((dats c A5 A6 A0 A7).before 0 t d))
    ∗ (∃ d, owns (c : Thread nD τ) (ms1 t) fullShare ((dats c A5 A6 A0 A7).before 1 t d))
    ∗ (∃ d, owns (c : Thread nD τ) (ms2 t) fullShare ((dats c A5 A6 A0 A7).before 2 t d))
    ∗ (∃ d, owns (c : Thread nD τ) (ms3 t) fullShare ((dats c A5 A6 A0 A7).before 3 t d)))

/-- and what it returns: the inputs as found, the result's buffer as found at an idle point and at the loss at the last. -/
def bodyPost (t : Fin cfg1.N) : sProp (𝕄 F) :=
  iprop((dats c A5 A6 A0 A7).Φ t.succ ∗ (dats c A5 A6 A0 A7).owesAt (none : HIx 1) t.succ
    ∗ owns (c : Thread nD τ) (ms0 t) fullShare ((dats c A5 A6 A0 A7).after 0 t)
    ∗ owns (c : Thread nD τ) (ms1 t) fullShare ((dats c A5 A6 A0 A7).after 1 t)
    ∗ owns (c : Thread nD τ) (ms2 t) fullShare ((dats c A5 A6 A0 A7).after 2 t)
    ∗ (dats c A5 A6 A0 A7).leavesExact 3 t)

set_option maxHeartbeats 1000000 in
/-- The body at any point: the inputs' buffers hold their blocks; the closed forms say which case the point is in;
    the scratch rows are the invariant's; the result's buffer goes back as found but at the last point, where it takes
    the loss; the core owes nothing throughout. -/
theorem sound_body (t : Fin cfg1.N) :
    bodyPre c A5 A6 A0 A7 t
      ⊢ wp frame (wpE (defs₀ (F := F)) Variants.none c none) Set.univ (bodyAt1 t) (fun _ => bodyPost c A5 A6 A0 A7 t) := by
  unfold bodyPre bodyPost bodyAt1
  simp only [before1_0, before1_1, before1_2]
  rw [show (dats c A5 A6 A0 A7).owesAt (none : HIx 1) t.succ = (dats c A5 A6 A0 A7).owesAt (none : HIx 1) t.castSucc from rfl,
    after1_0, after1_1, after1_2,
    show (dats c A5 A6 A0 A7).Φ t.castSucc = PhiAt c A0 t.val from rfl,
    show (dats c A5 A6 A0 A7).Φ t.succ = PhiAt c A0 (t.val + 1) from rfl, PhiAt_succ]
  have hN : t.val < 50 := lt_of_lt_of_eq t.isLt (show cfg1.N = 50 from N_1)
  by_cases h0 : t.val % 50 = 0
  · -- the first point
    have ht0 : t.val = 0 := by omega
    have h49 : ¬t.val % 50 = 49 := by omega
    have hi : cfg1.idle 3 (cfg1.grid.coords t) = true := by rw [idle3]; exact decide_eq_true h49
    have hf : (cfg1.win 3).flush t = false := Bool.eq_false_iff.mpr fun h => h49 ((flush1_3 t).mp h)
    rw [Dat.leavesExact_idle _ 3 t hi hf, scr_first c A0 t ht0, PhiAt_first c A0 t ht0]
    unfold scrHeld
    iintro ⟨⟨%p, H5, H6, H7⟩, Ho, ⟨%d0, H0⟩, ⟨%d1, H1⟩, ⟨%d2, H2⟩, ⟨%d3, H3⟩⟩
    iapply (run_first (F := F) c (grid1.coords t) (ms0 t) (hs0 t) (ms1 t) (hs1 t) (ms2 t) (hs2 t) (ms3 t) (hs3 t)
      (Memref.whole cc1_scratch0) (Memref.isWhole_whole _) (Memref.whole cc1_scratch1) (Memref.isWhole_whole _)
      (Memref.whole cc1_scratch2) (Memref.isWhole_whole _) ((hcond1 t).mpr h0) (fun h => h49 ((hcond2 t).mp h))
      (blkOf c 0 A5 t) (blkOf c 1 A6 t) (blkOf c 2 A0 t) ((dats c A5 A6 A0 A7).before 3 t d3) p Set.univ _)
    isplitl [H0]; · iexact H0
    isplitl [H1]; · iexact H1
    isplitl [H2]; · iexact H2
    isplitl [H3]; · iexact H3
    isplitl [H5]; · iexact H5
    isplitl [H6]; · iexact H6
    isplitl [H7]; · iexact H7
    iintro ⟨H0, H1, H2, H3, H5, H6, H7⟩
    isplitl [H5 H6 H7]
    · isplitl [H5]; · iexact H5
      isplitl [H6]; · iexact H6
      iexact H7
    isplitl [Ho]; · iexact Ho
    isplitl [H0]; · iexact H0
    isplitl [H1]; · iexact H1
    isplitl [H2]; · iexact H2
    iexists d3; iexact H3
  · have ht0 : t.val ≠ 0 := by omega
    rw [PhiAt_pos c A0 t ht0, scr_pos c A0 t ht0]
    unfold scrHeld
    by_cases h49 : t.val % 50 = 49
    · -- the last point
      have hi : cfg1.idle 3 (cfg1.grid.coords t) = false := by rw [idle3]; exact decide_eq_false (not_not.mpr h49)
      rw [leavesExact_live _ 3 t hi, after1_3]
      unfold lossAt
      rw [scr_pos c A0 t ht0]
      iintro ⟨⟨H5, H6, H7⟩, Ho, ⟨%d0, H0⟩, ⟨%d1, H1⟩, ⟨%d2, H2⟩, ⟨%d3, H3⟩⟩
      iapply (run_last (F := F) c (grid1.coords t) (ms0 t) (hs0 t) (ms1 t) (hs1 t) (ms2 t) (hs2 t) (ms3 t) (hs3 t)
      (Memref.whole cc1_scratch0) (Memref.isWhole_whole _) (Memref.whole cc1_scratch1) (Memref.isWhole_whole _)
      (Memref.whole cc1_scratch2) (Memref.isWhole_whole _) (fun h => h0 ((hcond1 t).mp h)) ((hcond2 t).mpr h49)
      (blkOf c 0 A5 t) (blkOf c 1 A6 t) (blkOf c 2 A0 t) ((dats c A5 A6 A0 A7).before 3 t d3) (scr c A0 (t.val - 1)) Set.univ _)
      isplitl [H0]; · iexact H0
      isplitl [H1]; · iexact H1
      isplitl [H2]; · iexact H2
      isplitl [H3]; · iexact H3
      isplitl [H5]; · iexact H5
      isplitl [H6]; · iexact H6
      isplitl [H7]; · iexact H7
      iintro ⟨H0, H1, H2, H3, H5, H6, H7⟩
      isplitl [H5 H6 H7]
      · isplitl [H5]; · iexact H5
        isplitl [H6]; · iexact H6
        iexact H7
      isplitl [Ho]; · iexact Ho
      isplitl [H0]; · iexact H0
      isplitl [H1]; · iexact H1
      isplitl [H2]; · iexact H2
      iexact H3
    · -- a point between
      have hi : cfg1.idle 3 (cfg1.grid.coords t) = true := by rw [idle3]; exact decide_eq_true h49
      have hf : (cfg1.win 3).flush t = false := Bool.eq_false_iff.mpr fun h => h49 ((flush1_3 t).mp h)
      rw [Dat.leavesExact_idle _ 3 t hi hf]
      iintro ⟨⟨H5, H6, H7⟩, Ho, ⟨%d0, H0⟩, ⟨%d1, H1⟩, ⟨%d2, H2⟩, ⟨%d3, H3⟩⟩
      iapply (run_mid (F := F) c (grid1.coords t) (ms0 t) (hs0 t) (ms1 t) (hs1 t) (ms2 t) (hs2 t) (ms3 t) (hs3 t)
      (Memref.whole cc1_scratch0) (Memref.isWhole_whole _) (Memref.whole cc1_scratch1) (Memref.isWhole_whole _)
      (Memref.whole cc1_scratch2) (Memref.isWhole_whole _) (fun h => h0 ((hcond1 t).mp h)) (fun h => h49 ((hcond2 t).mp h))
      (blkOf c 0 A5 t) (blkOf c 1 A6 t) (blkOf c 2 A0 t) ((dats c A5 A6 A0 A7).before 3 t d3) (scr c A0 (t.val - 1)) Set.univ _)
      isplitl [H0]; · iexact H0
      isplitl [H1]; · iexact H1
      isplitl [H2]; · iexact H2
      isplitl [H3]; · iexact H3
      isplitl [H5]; · iexact H5
      isplitl [H6]; · iexact H6
      isplitl [H7]; · iexact H7
      iintro ⟨H0, H1, H2, H3, H5, H6, H7⟩
      isplitl [H5 H6 H7]
      · isplitl [H5]; · iexact H5
        isplitl [H6]; · iexact H6
        iexact H7
      isplitl [Ho]; · iexact Ho
      isplitl [H0]; · iexact H0
      isplitl [H1]; · iexact H1
      isplitl [H2]; · iexact H2
      iexists d3; iexact H3

/-- The library's body obligation, at every point. -/
theorem body_obligation :
    BodyObligation (dats c A5 A6 A0 A7) (defs₀ (F := F)) Variants.none (none : HIx 1) Set.univ := fun t => by
  rw [bigSep_W1, bigSep_W1]
  exact sound_body c A5 A6 A0 A7 t

end Cert.KernelIdeal.Hand

end
-- ==== Proof.KRegion.lean ====
/-
  The TensorCore region's frame, gathered: the proof data (KRegionData), the body obligation (KRegionRun), and the two
  facts that tie the invariant to the region's boundary — before the first point the invariant is the scratch buffers
  at anything, and after the last point it gives them back.
-/
import proofs.«209869_g82368882803221_cont_9to1_m_506_32_alg».proof.Proof.KRegionRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD)
variable (A5 : Buf (Elt F) ((c : Thread nD τ).loc main_v5)) (A6 : Buf (Elt F) ((c : Thread nD τ).loc main_v6))
  (A0 : Buf (Elt F) ((c : Thread nD τ).loc main_v0)) (A7 : Buf (Elt F) ((c : Thread nD τ).loc main_v7))

/-- The scoped buffers no window stages (the three scratch rows, each at some contents) are the invariant before the
    first point. -/
theorem Φ_zero_of_scopedRest :
    (Pipeline.scopedRest (Ix := HIx 1) (Name := ℕ) (U := UU) (Lvl := ℕ) (Val := Elt F) spec1 c : sProp (𝕄 F))
      ⊢ (dats c A5 A6 A0 A7).Φ 0 := by
  rw [scopedRest1_eq, Φ_zero]
  unfold scrHeld
  iintro ⟨⟨%f0, H0⟩, ⟨%f1, H1⟩, ⟨%f2, H2⟩⟩
  iexists ((f0, f1, f2) : Scr F)
  rw [owns_whole, owns_whole, owns_whole]
  isplitl [H0]; · iexact H0
  isplitl [H1]; · iexact H1
  iexact H2

/-- The invariant after the last point gives the three scratch buffers back, each at some contents. -/
theorem scopedRest_of_Φ_last :
    (dats c A5 A6 A0 A7).Φ (Fin.last cfg1.N)
      ⊢ (Pipeline.scopedRest (Ix := HIx 1) (Name := ℕ) (U := UU) (Lvl := ℕ) (Val := Elt F) spec1 c : sProp (𝕄 F)) := by
  rw [scopedRest1_eq, Φ_last]
  unfold scrHeld
  rw [owns_whole, owns_whole, owns_whole]
  iintro ⟨H0, H1, H2⟩
  isplitl [H0]; · iexists _; iexact H0
  isplitl [H1]; · iexists _; iexact H1
  iexists _; iexact H2

/-- The body obligation as the region's loop uses it. -/
theorem body_obligation_loose :
    Pipeline.BodyObligationLoose (dats c A5 A6 A0 A7) (defs₀ (F := F)) Variants.none (none : HIx 1) Set.univ :=
  (body_obligation c A5 A6 A0 A7).loose

end Cert.KernelIdeal.Hand

end
-- ==== Proof.KRegionStep.lean ====
/-
  The TensorCore region entered inside @main: from the region's four arrays, the core's dues and the staging cells'
  launch state, the region's custom call runs to the same arrays — the result's array at what the write-back of the
  last point leaves — and the same dues.
-/
import proofs.«209869_g82368882803221_cont_9to1_m_506_32_alg».proof.Proof.KRegion
import proofs.«209869_g82368882803221_cont_9to1_m_506_32_alg».proof.Proof.KLaunchF

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The one pipeline has no prefetched tables: its admissible contents are the configuration's. -/
abbrev adm : (p : Fin 1) → (pcfgs (F := F) p).Adm := fun p => (cfgs p).toPCfg_adm

/-- The staging cells' launch state of the one pipeline on core `d`. -/
def regionGhost (d : Dev nD) : sProp (𝕄 F) :=
  iprop(Pipeline.cellsGhost (Pipeline.pin (pcfgs (F := F)) adm) EP 0 d ∗ Pipeline.toksInit (Pipeline.pin (pcfgs (F := F)) adm) EP 0 d)

/-! ## The proof data as a family over the cores

There is one device: the arrays given at core `d` are the arrays at every core. -/

/-- A buffer's contents at core `d` read at core `c`, the same core. -/
def tr {b : Ref sig .tc} (d c : Dev nD) (A : Buf (Elt F) ((d : Thread nD τ).loc b)) : Buf (Elt F) ((c : Thread nD τ).loc b) :=
  (Subsingleton.elim d c) ▸ A

theorem tr_self {b : Ref sig .tc} (d : Dev nD) (A : Buf (Elt F) ((d : Thread nD τ).loc b)) : tr d d A = A := rfl

variable (d : Dev nD)
variable (A5 : Buf (Elt F) ((d : Thread nD τ).loc main_v5)) (A6 : Buf (Elt F) ((d : Thread nD τ).loc main_v6))
  (A0 : Buf (Elt F) ((d : Thread nD τ).loc main_v0)) (A7 : Buf (Elt F) ((d : Thread nD τ).loc main_v7))

/-- The region's proof data on every core. -/
def pdats : (p : Fin 1) → (c : Dev nD) → Dat τ (Elt F) (HIx 1) ℕ UU ℕ (Pipeline.pin (pcfgs (F := F)) adm p) c
  | 0 => fun c => dats c (tr d c A5) (tr d c A6) (tr d c A0) (tr d c A7)

theorem pdats_self : pdats d A5 A6 A0 A7 0 d = dats d A5 A6 A0 A7 := rfl

/-- The core's dues as the region is entered and left: nothing owed, the recorded pairs at level at most 8. -/
def dues (c : Dev nD) : sProp (𝕄 F) :=
  iprop(∃ W, ⌜(K (F := F)).WBelow (T c) W 8⌝ ∗ owes (T c) (0 : CellTallies nD τ sig (HIx 1)) W)

/-- The region's arrays at contents `Fa` are the four buffers held. -/
theorem arrays_eq (c : Dev nD) (Fa) :
    ((pdats d A5 A6 A0 A7 0 c).arrays Fa : sProp (𝕄 F))
      = iprop(pl c main_v5 (Fa 0) ∗ pl c main_v6 (Fa 1) ∗ pl c main_v0 (Fa 2) ∗ pl c main_v7 (Fa 3)) := by
  rw [Pipeline.arrays_eq (Pipeline.pin (pcfgs (F := F)) adm) (pdats d A5 A6 A0 A7) 0 c launch1.arr_whole
    ((pdats d A5 A6 A0 A7 0 c).share_full fun _ => rfl) Fa, bigSep_W1]

/-- THE REGION as the library's segment: the four arrays into the pipeline, nothing else; the core's dues kept. -/
def reg : Pipeline.RegionSeg (pcfgs (F := F)) adm (pdats d A5 A6 A0 A7) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation_loose c (tr d c A5) (tr d c A6) (tr d c A0) (tr d c A7)
  hwaits c := Pipeline.hwaits_of_owed_zero (pcfgs (F := F)) adm (pdats d A5 A6 A0 A7) (none : HIx 1) _ _ 0 (fun _ _ => rfl) c
  pre c := iprop(pl c main_v5 (tr d c A5) ∗ pl c main_v6 (tr d c A6) ∗ pl c main_v0 (tr d c A0) ∗ pl c main_v7 (tr d c A7) ∗ dues (F := F) c)
  post c := iprop(pl c main_v5 (tr d c A5) ∗ pl c main_v6 (tr d c A6) ∗ pl c main_v0 (tr d c A0)
    ∗ pl c main_v7 ((pdats d A5 A6 A0 A7 0 c).arrAt 3 cfg1.N) ∗ dues (F := F) c)
  X _ := iprop(emp)
  Y _ := iprop(emp)
  Z _ := iprop(emp)
  hentry c := by
    rw [Pipeline.ownSems0_none, arrays_eq]
    unfold dues
    iintro ⟨⟨H5, H6, H0, H7, ⟨%W, %hW, HO⟩⟩, -, -⟩
    imodintro
    isplitl [H5 H6 H0 H7]
    · isplitl [H5]; · iexact H5
      isplitl [H6]; · iexact H6
      isplitl [H0]; · iexact H0
      iexact H7
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    refine BIBase.Entails.trans ?_ (Φ_zero_of_scopedRest c (tr d c A5) (tr d c A6) (tr d c A0) (tr d c A7))
    iintro ⟨-, -, H⟩; iexact H
  hout c := by
    rw [Pipeline.ownSems0_none]
    refine BIBase.Entails.trans (scopedRest_of_Φ_last c (tr d c A5) (tr d c A6) (tr d c A0) (tr d c A7)) ?_
    iintro H
    isplitr; · iempintro
    isplitr; · iempintro
    iexact H
  hexit c := by
    have e0 : (pdats d A5 A6 A0 A7 0 c).arrAt 0 (Pipeline.pin (pcfgs (F := F)) adm 0).N = tr d c A5 :=
      (pdats d A5 A6 A0 A7 0 c).arrAt_in 0 rfl _
    have e1 : (pdats d A5 A6 A0 A7 0 c).arrAt 1 (Pipeline.pin (pcfgs (F := F)) adm 0).N = tr d c A6 :=
      (pdats d A5 A6 A0 A7 0 c).arrAt_in 1 rfl _
    have e2 : (pdats d A5 A6 A0 A7 0 c).arrAt 2 (Pipeline.pin (pcfgs (F := F)) adm 0).N = tr d c A0 :=
      (pdats d A5 A6 A0 A7 0 c).arrAt_in 2 rfl _
    rw [arrays_eq, e0, e1, e2]
    unfold dues
    iintro ⟨⟨H5, H6, H0, H7⟩, HO, -, -⟩
    imodintro
    isplitl [H5]; · iexact H5
    isplitl [H6]; · iexact H6
    isplitl [H0]; · iexact H0
    isplitl [H7]; · iexact H7
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact le_of_eq_of_le ((K (F := F)).lev_none _) (Nat.zero_le _)
    iexact HO

theorem reg_pre : (reg d A5 A6 A0 A7).pre d
    = iprop(pl d main_v5 A5 ∗ pl d main_v6 A6 ∗ pl d main_v0 A0 ∗ pl d main_v7 A7 ∗ dues (F := F) d) := rfl

theorem reg_post : (reg d A5 A6 A0 A7).post d
    = iprop(pl d main_v5 A5 ∗ pl d main_v6 A6 ∗ pl d main_v0 A0 ∗ pl d main_v7 ((dats d A5 A6 A0 A7).arrAt 3 cfg1.N) ∗ dues (F := F) d) := rfl

/-- The region's custom call inside @main, at the extended body table. -/
theorem regionStep (d : Dev nD) (A5 : Buf (Elt F) ((d : Thread nD τ).loc main_v5)) (A6 : Buf (Elt F) ((d : Thread nD τ).loc main_v6))
    (A0 : Buf (Elt F) ((d : Thread nD τ).loc main_v0)) (A7 : Buf (Elt F) ((d : Thread nD τ).loc main_v7)) (Φ : PUnit → sProp (𝕄 F)) :
    iprop(boundary (T d) ∗ levAts (K (F := F)).L (K (F := F)).lev ∗ regionGhost (F := F) d
        ∗ pl d main_v5 A5 ∗ pl d main_v6 A6 ∗ pl d main_v0 A0 ∗ pl d main_v7 A7
        ∗ (∃ W, ⌜(K (F := F)).WBelow (T d) W 8⌝ ∗ owes (T d) (0 : CellTallies nD τ sig (HIx 1)) W)
        ∗ (iprop(boundary (T d) ∗ pl d main_v5 A5 ∗ pl d main_v6 A6 ∗ pl d main_v0 A0 ∗ pl d main_v7 ((dats d A5 A6 A0 A7).arrAt 3 cfg1.N)
              ∗ ∃ W, ⌜(K (F := F)).WBelow (T d) W 8⌝ ∗ owes (T d) (0 : CellTallies nD τ sig (HIx 1)) W) -∗ Φ ⟨⟩))
      ⊢ wp frame (wpE ((K (F := F)).defs (D (F := F))) 𝒱 (T d) none) Set.univ (Prog.lift (.customCall (SparseCore.inner (Pipeline.entry 0)) ())) Φ := by
  have hR := Pipeline.RegionSeg.wp (pcfgs (F := F)) adm (pdats d A5 A6 A0 A7) (none : HIx 1) cellOf_inj EP defs₀ 𝒱₀
    (K (F := F)).L (K (F := F)).lev (reg d A5 A6 A0 A7) d none (fun u h => nomatch h) (fun _ => .ret ⟨⟩) Φ
  have hL := (K (F := F)).wp_liftProg (D (F := F)) 𝒱 (T d) Set.univ none
    (.op (.customCall (Pipeline.entry 0) ()) fun _ => .ret ⟨⟩) Φ
  rw [reg_pre, reg_post] at hR
  unfold dues at hR
  refine BIBase.Entails.trans ?_ hL
  refine BIBase.Entails.trans ?_ hR
  unfold regionGhost
  iintro ⟨Hb, Hlev, ⟨Hcg, Htk⟩, H5, H6, H0, H7, HO, HΦ⟩
  isplitl [HΦ]
  · iintro ⟨Hb, H5, H6, H0, H7, HO⟩
    iapply (Idealize.SL.Sem.le_wp_ret _ _)
    iapply HΦ
    isplitl [Hb]; · iexact Hb
    isplitl [H5]; · iexact H5
    isplitl [H6]; · iexact H6
    isplitl [H0]; · iexact H0
    isplitl [H7]; · iexact H7
    iexact HO
  isplitl [Hb]; · iexact Hb
  isplitl [H5 H6 H0 H7 HO]
  · isplitl [H5]; · iexact H5
    isplitl [H6]; · iexact H6
    isplitl [H0]; · iexact H0
    isplitl [H7]; · iexact H7
    iexact HO
  isplitl [Hlev]; · iexact Hlev
  isplitl [Hcg]; · iexact Hcg
  iexact Htk

end Cert.KernelIdeal.Hand

end
-- ==== Proof.KLaunchH.lean ====
import proofs.«209869_g82368882803221_cont_9to1_m_506_32_alg».proof.Proof.KCommon
import proofs.«209869_g82368882803221_cont_9to1_m_506_32_alg».proof.Proof.KLaunchG
import proofs.«209869_g82368882803221_cont_9to1_m_506_32_alg».proof.Proof.KHostVals
import proofs.«209869_g82368882803221_cont_9to1_m_506_32_alg».proof.Proof.KRegionStep

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The region's entry, as @main's proof consumes it -/

/-- What the TensorCore owes and has recorded around the region: nothing owed, every recorded pair at level at most 8. -/
abbrev owes8 (d : Dev nD) : sProp (𝕄 F) :=
  iprop(∃ W, ⌜(K (F := F)).WBelow (T d) W 8⌝ ∗ owes (T d) (0 : CellTallies nD τ sig (HIx 1)) W)

/-! ## The valuations, buffer by buffer -/

theorem V5_ne (d : Dev nD) (r : DevRef τ sig) (h : r ≠ r_v4) : V5 m d r = V4 m d r := Function.update_of_ne h _ _
theorem V5_v4 (d : Dev nD) : V5 m d r_v4 = OUT m d := Function.update_self _ _ _
theorem V7_ne (d : Dev nD) (r : DevRef τ sig) (h : r ≠ r_v7) : V7 m d r = V6 m d r := Function.update_of_ne h _ _
theorem V7_v7 (d : Dev nD) : V7 m d r_v7 = RES m d := Function.update_self _ _ _

theorem V6_arg0 (d : Dev nD) : V6 m d r_arg0 = m (d, r_arg0) := by
  unfold V6; rw [op6_ne _ main_arg0 (by decide), op5_ne _ main_arg0 (by decide), V5_ne m d r_arg0 (by decide), V4_arg0]
theorem V6_arg1 (d : Dev nD) : V6 m d r_arg1 = m (d, r_arg1) := by
  unfold V6; rw [op6_ne _ main_arg1 (by decide), op5_ne _ main_arg1 (by decide), V5_ne m d r_arg1 (by decide), V4_arg1]

/-- What @main leaves the claim: the two arguments at their launch contents, the result at `VAL`. -/
def FIN (d : Dev nD) : sProp (𝕄 F) :=
  iprop(pl d main_arg0 (m (d, r_arg0)) ∗ pl d main_arg1 (m (d, r_arg1)) ∗ pl d main_v8 (VAL m d))

end Cert.KernelIdeal.Hand

end
-- ==== Proof.KLaunchI.lean ====
import proofs.«209869_g82368882803221_cont_9to1_m_506_32_alg».proof.Proof.KCommon
import proofs.«209869_g82368882803221_cont_9to1_m_506_32_alg».proof.Proof.KLaunchH

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The eleven buffers at each valuation -/

theorem held_V4 (d : Dev nD) :
    (held (T d) S11 (V4 m d) : sProp (𝕄 F)) = iprop(pl d main_arg0 (m (d, r_arg0)) ∗ pl d main_arg1 (m (d, r_arg1)) ∗ pl d main_v0 (V4 m d r_v0) ∗ pl d main_v1 (V4 m d r_v1) ∗ pl d main_v2 (V4 m d r_v2) ∗ pl d main_v3 (TAB m d) ∗ pl d main_v4 (m (d, r_v4)) ∗ pl d main_v5 (m (d, r_v5)) ∗ pl d main_v6 (m (d, r_v6)) ∗ pl d main_v7 (m (d, r_v7)) ∗ pl d main_v8 (m (d, r_v8))) := by
  rw [held_S11, V4_arg0, V4_arg1, V4_v4, V4_v5, V4_v6, V4_v7, V4_v8]; rfl

theorem held_V5 (d : Dev nD) :
    (held (T d) S11 (V5 m d) : sProp (𝕄 F)) = iprop(pl d main_arg0 (m (d, r_arg0)) ∗ pl d main_arg1 (m (d, r_arg1)) ∗ pl d main_v0 (V4 m d r_v0) ∗ pl d main_v1 (V4 m d r_v1) ∗ pl d main_v2 (V4 m d r_v2) ∗ pl d main_v3 (TAB m d) ∗ pl d main_v4 (OUT m d) ∗ pl d main_v5 (m (d, r_v5)) ∗ pl d main_v6 (m (d, r_v6)) ∗ pl d main_v7 (m (d, r_v7)) ∗ pl d main_v8 (m (d, r_v8))) := by
  rw [held_S11, V5_v4, V5_ne m d r_arg0 (by decide), V5_ne m d r_arg1 (by decide), V5_ne m d r_v0 (by decide), V5_ne m d r_v1 (by decide), V5_ne m d r_v2 (by decide), V5_ne m d r_v3 (by decide), V5_ne m d r_v5 (by decide), V5_ne m d r_v6 (by decide), V5_ne m d r_v7 (by decide), V5_ne m d r_v8 (by decide),
    V4_arg0, V4_arg1, V4_v5, V4_v6, V4_v7, V4_v8]; rfl

theorem held_V7 (d : Dev nD) :
    (held (T d) S11 (V7 m d) : sProp (𝕄 F)) = iprop(pl d main_arg0 (V6 m d r_arg0) ∗ pl d main_arg1 (V6 m d r_arg1) ∗ pl d main_v0 (V6 m d r_v0) ∗ pl d main_v1 (V6 m d r_v1) ∗ pl d main_v2 (V6 m d r_v2) ∗ pl d main_v3 (V6 m d r_v3) ∗ pl d main_v4 (V6 m d r_v4) ∗ pl d main_v5 (V6 m d r_v5) ∗ pl d main_v6 (V6 m d r_v6) ∗ pl d main_v7 (RES m d) ∗ pl d main_v8 (V6 m d r_v8)) := by
  rw [held_S11, V7_v7, V7_ne m d r_arg0 (by decide), V7_ne m d r_arg1 (by decide), V7_ne m d r_v0 (by decide), V7_ne m d r_v1 (by decide), V7_ne m d r_v2 (by decide), V7_ne m d r_v3 (by decide), V7_ne m d r_v4 (by decide), V7_ne m d r_v5 (by decide), V7_ne m d r_v6 (by decide), V7_ne m d r_v8 (by decide)]

theorem fin_arg0 (d : Dev nD) : (op8 (F := F)).result (V7 m d) r_arg0 = m (d, r_arg0) := by
  rw [op8_ne _ main_arg0 (by decide), V7_ne m d r_arg0 (by decide), V6_arg0]
theorem fin_arg1 (d : Dev nD) : (op8 (F := F)).result (V7 m d) r_arg1 = m (d, r_arg1) := by
  rw [op8_ne _ main_arg1 (by decide), V7_ne m d r_arg1 (by decide), V6_arg1]

/-! ## The TensorCore's handshake state around the region -/

theorem tcSt_open (d : Dev nD) :
    (K (F := F)).tcSt EH d 1 ⊢ (iprop(owes8 d ∗ (owes8 d -∗ (K (F := F)).tcSt EH d 1)) : sProp (𝕄 F)) := by
  unfold SparseCore.Cfg.tcSt
  rw [(K (F := F)).Otc_end d (le_refl 1)]
  iintro ⟨⟨%W, %hW, HO⟩, Hrest⟩
  isplitl [HO]
  · iexists W; isplitr
    · ipureintro; exact hW
    · iexact HO
  iintro ⟨%W', %hW', HO'⟩
  isplitl [HO']
  · iexists W'; isplitr
    · ipureintro; exact hW'
    · iexact HO'
  iexact Hrest

/-! ## @main on the TensorCore -/

theorem hmain (κ : GSem nD τ sig → ℕ) (d : Dev nD) :
    iprop((K (F := F)).ctx EH (P m) κ ∗ (K (F := F)).tcSt EH d 0 ∗ (K (F := F)).tcRes m ρ d ∗ regionGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the table: two transposes and two reshapes of the logits
  iapply (wp_hlo_within 𝒱 (SparseCore.T d) none Set.univ (op := op0) (S := S11) h_op0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S11) h_op1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S11) h_op2 (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S11) h_op3 (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  ihave Hheld4 := (Entails.of_eq (show (held (T d) S11 ((op3 (F := F)).result ((op2 (F := F)).result ((op1 (F := F)).result ((op0 (F := F)).result (V0 m d))))) : sProp (𝕄 F))
      = held (T d) S11 (V4 m d) from rfl)) $$ Hheld
  ihave Hh := (Entails.of_eq (held_V4 (F := F) m d)) $$ Hheld4
  icases Hh with ⟨Harg0, Harg1, Hv0, Hv1, Hv2, Hv3, Hv4, Hv5, Hv6, Hv7, Hv8⟩
  -- the SparseCore call: the table, the targets and the output dealt to the 32 tiles and gathered back
  ihave Hs := (st0_intro m d (m (d, r_v4))) $$ [Hv3 Harg1 Hv4]
  · isplitl [Hv3]; · iexact Hv3
    isplitl [Harg1]; · iexact Harg1
    iexact Hv4
  icases Hs with ⟨Hrem, Hst0⟩
  iapply ((K (F := F)).wp_run (D (F := F)) 𝒱 (EH := EH) (P := P m) κ d 0) $$ [Hst Hst0 Hrem Hb Harg0 Hv0 Hv1 Hv2 Hv5 Hv6 Hv7 Hv8 HG]
  isplitr; · iexact Hctx
  isplitl [Hst]; · iexact Hst
  isplitl [Hst0]; · iexact Hst0
  iintro ⟨Hst, Hdn⟩
  ihave Hst := (Entails.of_eq (show ((K (F := F)).tcSt EH d ((0 : Fin 1).val + 1) : sProp (𝕄 F)) = (K (F := F)).tcSt EH d 1 from rfl)) $$ Hst
  ihave Hd := (dn0_elim m d) $$ [Hrem Hdn]
  · isplitl [Hrem]; · iexact Hrem
    iexact Hdn
  icases Hd with ⟨Hv3, Harg1, Hv4⟩
  -- the two reshapes
  ihave Hheld := (Entails.of_eq (held_V5 (F := F) m d).symm) $$ [Harg0 Harg1 Hv0 Hv1 Hv2 Hv3 Hv4 Hv5 Hv6 Hv7 Hv8]
  · isplitl [Harg0]; · iexact Harg0
    isplitl [Harg1]; · iexact Harg1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    iexact Hv8
  iapply (wp_hlo_within 𝒱 (SparseCore.T d) none Set.univ (op := op5) (S := S11) h_op5 (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S11) h_op6 (V := (op5 (F := F)).result (V5 m d))) $$ [Hb Hheld]
  · isplitl [Hb]; · iexact Hb
    iexact Hheld
  iintro ⟨Hb, Hheld⟩
  rw [wp_ret]; imodintro
  ihave Hheld6 := (Entails.of_eq (show (held (T d) S11 ((op6 (F := F)).result ((op5 (F := F)).result (V5 m d))) : sProp (𝕄 F)) = held (T d) S11 (V6 m d) from rfl)) $$ Hheld
  ihave Hh := (Entails.of_eq (held_S11 (F := F) d (V6 m d))) $$ Hheld6
  icases Hh with ⟨Harg0, Harg1, Hv0, Hv1, Hv2, Hv3, Hv4, Hv5, Hv6, Hv7, Hv8⟩
  -- the region
  ihave Ho := (tcSt_open (F := F) d) $$ Hst
  icases Ho with ⟨HO, Hclose⟩
  ihave Hlev := ((K (F := F)).ctx_levAts κ) $$ Hctx
  iapply (regionStep d (V6 m d r_v5) (V6 m d r_v6) (V6 m d r_v0) (V6 m d r_v7) _) $$ [Hb Hlev HG Hv5 Hv6 Hv0 Hv7 HO Harg0 Harg1 Hv1 Hv2 Hv3 Hv4 Hv8 Hclose]
  isplitl [Hb]; · iexact Hb
  isplitr; · iexact Hlev
  isplitl [HG]; · iexact HG
  isplitl [Hv5]; · iexact Hv5
  isplitl [Hv6]; · iexact Hv6
  isplitl [Hv0]; · iexact Hv0
  isplitl [Hv7]; · iexact Hv7
  isplitl [HO]; · iexact HO
  iintro ⟨Hb, Hv5, Hv6, Hv0, Hv7, HO⟩
  ihave Hst := Hclose $$ HO
  -- the last reshape
  ihave Hheld := (Entails.of_eq (held_V7 (F := F) m d).symm) $$ [Harg0 Harg1 Hv0 Hv1 Hv2 Hv3 Hv4 Hv5 Hv6 Hv7 Hv8]
  · isplitl [Harg0]; · iexact Harg0
    isplitl [Harg1]; · iexact Harg1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    iexact Hv8
  iapply (wp_hlo_within 𝒱 (SparseCore.T d) none Set.univ (op := op8) (S := S11) h_op8 (V := V7 m d)) $$ [Hb Hheld]
  · isplitl [Hb]; · iexact Hb
    iexact Hheld
  iintro ⟨Hb, Hheld⟩
  ihave Hh := (Entails.of_eq (held_S11 (F := F) d ((op8 (F := F)).result (V7 m d)))) $$ Hheld
  icases Hh with ⟨Harg0, Harg1, -, -, -, -, -, -, -, -, Hv8⟩
  rw [wp_ret]; imodintro; imodintro
  isplitl [Hst]; · iexact Hst
  unfold FIN
  rw [← fin_arg0 m d, ← fin_arg1 m d]
  isplitl [Harg0]; · iexact Harg0
  isplitl [Harg1]; · iexact Harg1
  iexact Hv8

end Cert.KernelIdeal.Hand

end
-- ==== Proof.KLaunchJ.lean ====
import proofs.«209869_g82368882803221_cont_9to1_m_506_32_alg».proof.Proof.KCommon
import proofs.«209869_g82368882803221_cont_9to1_m_506_32_alg».proof.Proof.KLaunchI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The launch element: the handshakes' rounds, the region's staging rounds, the counters -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem ghost_join :
    (iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => Pipeline.toksInit (Pipeline.pin (pcfgs (F := F)) adm) EP p c)) : sProp (𝕄 F))
      ⊢ bigSep Finset.univ fun d : Dev nD => regionGhost (F := F) d := by
  unfold regionGhost
  rw [bigSep_sep', bigSep_congr (fun c _ => bigSep_univ_of_subsingleton (0 : Fin 1)), bigSep_congr (fun c _ => bigSep_univ_of_subsingleton (0 : Fin 1))]

omit [FloatOps F] in
theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UR' × Counters) (𝕄 F)) _ _) $$ HR
  icases H2 with ⟨HP0, -⟩
  ihave HP := (Entails.of_eq (show (BI.own ((Emb.inl.trans (embR : Emb (UR' × Counters) (𝕄 F)))
      (initOf (Pipeline.cells (Pipeline.pin (pcfgs (F := F)) adm) cellOf_inj) (Pipeline.launchToks (Pipeline.pin (pcfgs (F := F)) adm) cellOf_inj))) : sProp (𝕄 F))
      = BI.own (EP (initOf (Pipeline.cells (Pipeline.pin (pcfgs (F := F)) adm) cellOf_inj) (Pipeline.launchToks (Pipeline.pin (pcfgs (F := F)) adm) cellOf_inj))) from rfl)) $$ HP0
  imod (Pipeline.fund_ghost (Pipeline.pin (pcfgs (F := F)) adm) EP cellOf_inj) $$ HP with ⟨Hg, Ht⟩
  imodintro
  isplitl [HH]; · iexact HH
  isplitl [Hg Ht]
  · iapply (ghost_join (F := F))
    isplitl [Hg]; · iexact Hg
    iexact Ht
  unfold P; dsimp only
  rw [show (bigSep Finset.univ fun _ : Thread nD τ => bigSep Finset.univ fun _ : Fin 1 => (iprop(emp) : sProp (𝕄 F))) = iprop(emp) from by
    rw [bigSep_congr fun _ _ => bigSep_emp' _, bigSep_emp']]
  iempintro

/-! ## What the final memory holds -/

def fq (d : Dev nD) (s' : Phys nD τ sig (Elt F)) : Prop :=
  s'.mem.mem ((SparseCore.T d : Thread nD τ).loc main_v8) = VAL m d ∧ s'.mem.mem ((SparseCore.T d : Thread nD τ).loc main_arg0) = m (d, r_arg0)
    ∧ s'.mem.mem ((SparseCore.T d : Thread nD τ).loc main_arg1) = m (d, r_arg1)

theorem hfin (d : Dev nD) (s' : Phys nD τ sig (Elt F)) : iprop(FIN m d ∗ SI s') ⊢ (⌜fq m d s'⌝ : sProp (𝕄 F)) := by
  unfold FIN
  iintro ⟨⟨H0, H1, H8⟩, HSI⟩
  ihave H := (persistent_entails_right (SI_pointsTo_agree (st := s') (ℓ := (SparseCore.T d : Thread nD τ).loc main_arg0) (I := Finset.univ) (q := fullShare) (f := m (d, r_arg0)))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := m (d, r_arg1)))) $$ [HSI H1]
  · isplitl [HSI] <;> iassumption
  icases H with ⟨%h1, HSI, -⟩
  ihave H := (SI_pointsTo_agree (st := s') (ℓ := (SparseCore.T d : Thread nD τ).loc main_v8) (I := Finset.univ) (q := fullShare) (f := VAL m d)) $$ [HSI H8]
  · isplitl [HSI] <;> iassumption
  icases H with %h8
  ipureintro
  exact ⟨funext fun i => h8 i (Finset.mem_univ i), funext fun i => h0 i (Finset.mem_univ i), funext fun i => h1 i (Finset.mem_univ i)⟩

/-! ## The program's run -/

/-- Every final memory: the result at `VAL`, the two arguments unchanged. -/
def QC : PUnit × MemSt nD τ sig (Elt F) → Prop := fun r => ∀ c : Dev nD,
  r.2.mem ((c.tc : Thread nD τ).loc main_v8) = VAL m c ∧ r.2.mem ((c.tc : Thread nD τ).loc main_arg0) = m ((c.tc : Thread nD τ).loc main_arg0)
    ∧ r.2.mem ((c.tc : Thread nD τ).loc main_arg1) = m ((c.tc : Thread nD τ).loc main_arg1)

theorem run_main [∀ e, Nonempty (Elt F e)] (TB : TileBodySpec F) (hpre : ∀ d i, (m (tgtLoc d) i).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m TB facts hpre)
    (fun q _ => match q with | 0 => SparseCore.Cfg.VecSplit.of_plain (vecSplit m))
    m ρ main (fun d => regionGhost (F := F) d) (FIN m) (u₀ (F := F)) (sep_elim_left.trans (hu₀ m)) (hmain m ρ) (fq m) (hfin m) (QC m) (fun _ h => h)

end Cert.KernelIdeal.Hand

end
-- ==== Proof.KTilePure.lean ====
/-
  Pure word facts about the vector-subcore kernel's payloads. A tile turns each of its 64 target words `t`
  (known to lie below 100000) into the table row `(t >> 3) * 128 + (t & 7) + off`, where `off` is eight times
  half the worker number: on a non-negative word the arithmetic shift is division by 8 and the mask the remainder
  modulo 8, and no product or sum reaches 2^31, so every operation is the operation on natural numbers, and the row
  is below 1600000. The lane index vectors are the lane number plus a constant, and the column index vectors the
  lane number plus 64 times the worker number's parity plus a constant; each stays inside the 64 x 128 buffer.
-/
import proofs.«209869_g82368882803221_cont_9to1_m_506_32_alg».proof.Proof.Gen.KernelIdeal.Skeleton
import Idealize.ShloMosaic.Lib.ValueIdx

noncomputable section

namespace Cert.KernelIdeal.Hand

open Idealize.ShloMosaic Idealize.ShloMosaic.ValueIdx
open Cert.KernelIdeal Cert.KernelIdeal.Gen

variable {F : FTy → Type} [FloatOps F]

/-! ## The scalar chains -/

/-- The worker number word: `2 * tile + core`. -/
def wordW (L : grid0.Coords) : BitVec 32 :=
  Scalar.addi (Scalar.muli (BitVec.ofNat 32 (L 1).val) 2#32) (BitVec.ofNat 32 (L 0).val)

/-- The row offset word: the floor of half the worker number (as the program spells a floor division), times 8. -/
def rowOff (L : grid0.Coords) : BitVec 32 :=
  let v1 : BitVec 32 := wordW L
  let v3 : BitVec 32 := Scalar.divsi v1 2#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 2#32 0#32
  let v10 : BitVec 32 := Scalar.extui v9
  let v11 : BitVec 1 := Scalar.cmpi .slt 2#32 0#32
  let v12 : BitVec 32 := Scalar.extui v11
  let v13 : BitVec 32 := Scalar.subi v10 v12
  let v14 : BitVec 1 := Scalar.cmpi .ne v8 v13
  let v15 : BitVec 32 := Scalar.remsi v1 2#32
  let v16 : BitVec 1 := Scalar.cmpi .ne v15 0#32
  let v17 : BitVec 1 := Scalar.andi v14 v16
  let v18 : BitVec 32 := Scalar.subi v3 1#32
  let v19 : BitVec 32 := Scalar.select v17 v18 v3
  Scalar.muli v19 8#32

/-- The modulus word of the parity: the program selects 2 (the divisor is not zero). -/
def modW : BitVec 32 := Scalar.select (Scalar.cmpi .eq 2#32 0#32) 1#32 2#32

theorem wordW_toNat : ∀ L : grid0.Coords, (wordW L).toNat = 2 * (L 1).val + (L 0).val := by decide +kernel

theorem rowOff_toNat : ∀ L : grid0.Coords, (rowOff L).toNat = (2 * (L 1).val + (L 0).val) / 2 * 8 := by decide +kernel

theorem rowOff_toNat' : ∀ L : grid0.Coords, (rowOff L).toNat = (L 1).val * 8 := by decide +kernel

theorem modW_eq : modW = 2#32 := by decide

/-! ## One row word -/

/-- The row word of a target word `x` and an offset word `off`. -/
def rowWord (x off : BitVec 32) : BitVec 32 :=
  IntOp.addi (IntOp.addi (IntOp.muli (IntOp.shrsi .vector x 3#32) 128#32) (IntOp.andi x 7#32)) off

theorem rowWord_toNat (x off : BitVec 32) (hx : x.toNat < 100000) (ho : off.toNat ≤ 120) :
    (rowWord x off).toNat = x.toNat / 8 * 128 + x.toNat % 8 + off.toNat := by
  have hm : x.msb = false := by rw [BitVec.msb_eq_false_iff_two_mul_lt]; omega
  have hs : IntOp.shrsi .vector x 3#32 = x >>> 3 := by
    unfold IntOp.shrsi
    rw [if_pos (by decide), BitVec.sshiftRight_eq', BitVec.sshiftRight_eq_of_msb_false hm]
    rfl
  have ha : (x >>> 3).toNat = x.toNat / 8 := by
    rw [BitVec.toNat_ushiftRight, Nat.shiftRight_eq_div_pow]
  have hb : (x &&& 7#32).toNat = x.toNat % 8 := by
    rw [BitVec.toNat_and]
    exact Nat.and_two_pow_sub_one_eq_mod x.toNat 3
  unfold rowWord
  rw [hs]
  simp only [IntOp.addi, IntOp.muli, IntOp.andi, BitVec.toNat_add, BitVec.toNat_mul, ha, hb]
  have h128 : (128#32 : BitVec 32).toNat = 128 := rfl
  rw [h128]
  omega

/-- The row word under the two bounds, with the offset word of tile `L`. -/
theorem rowWord_rowOff_toNat (L : grid0.Coords) (x : BitVec 32) (hx : x.toNat < 100000) :
    (rowWord x (rowOff L)).toNat = x.toNat / 8 * 128 + x.toNat % 8 + (L 1).val * 8 := by
  have h1 : (L 1).val < 16 := (L 1).isLt
  rw [rowWord_toNat x (rowOff L) hx (by rw [rowOff_toNat']; omega), rowOff_toNat']

/-- The row word names a row of the 1600000-row table. -/
theorem rowWord_rowOff_lt (L : grid0.Coords) (x : BitVec 32) (hx : x.toNat < 100000) :
    (rowWord x (rowOff L)).toNat < 1600000 := by
  have h1 : (L 1).val < 16 := (L 1).isLt
  rw [rowWord_rowOff_toNat L x hx]
  omega

/-! ## The four row payloads, read at a lane -/

/-- The first 16 row words, read at a lane. -/
theorem pay1_apply (L : grid0.Coords) (v : Vec F S16 .i32) (j : S16.Idx) :
    k0_pay1 (F := F) L v j = rowWord (v j) (rowOff L) := rfl
/-- The second, third and fourth 16 row words, read at a lane, from any offset word. -/
theorem pay3_apply (v20 : BitVec 32) (v : Vec F S16 .i32) (j : S16.Idx) :
    k0_pay3 (F := F) v20 v k0_pay2 j = rowWord (v j) v20 := rfl
theorem pay4_apply (v20 : BitVec 32) (v : Vec F S16 .i32) (j : S16.Idx) :
    k0_pay4 (F := F) v20 v j = rowWord (v j) v20 := rfl
theorem pay5_apply (v20 : BitVec 32) (v : Vec F S16 .i32) (j : S16.Idx) :
    k0_pay5 (F := F) v20 v j = rowWord (v j) v20 := rfl

theorem pay1_toNat (L : grid0.Coords) (v : Vec F S16 .i32) (j : S16.Idx) (h : (v j).toNat < 100000) :
    (k0_pay1 (F := F) L v j).toNat = (v j).toNat / 8 * 128 + (v j).toNat % 8 + (L 1).val * 8 :=
  rowWord_rowOff_toNat L (v j) h
theorem pay1_lt (L : grid0.Coords) (v : Vec F S16 .i32) (j : S16.Idx) (h : (v j).toNat < 100000) :
    (k0_pay1 (F := F) L v j).toNat < 1600000 :=
  rowWord_rowOff_lt L (v j) h
theorem pay3_toNat (L : grid0.Coords) (v : Vec F S16 .i32) (j : S16.Idx) (h : (v j).toNat < 100000) :
    (k0_pay3 (F := F) (rowOff L) v k0_pay2 j).toNat = (v j).toNat / 8 * 128 + (v j).toNat % 8 + (L 1).val * 8 :=
  rowWord_rowOff_toNat L (v j) h
theorem pay3_lt (L : grid0.Coords) (v : Vec F S16 .i32) (j : S16.Idx) (h : (v j).toNat < 100000) :
    (k0_pay3 (F := F) (rowOff L) v k0_pay2 j).toNat < 1600000 :=
  rowWord_rowOff_lt L (v j) h
theorem pay4_toNat (L : grid0.Coords) (v : Vec F S16 .i32) (j : S16.Idx) (h : (v j).toNat < 100000) :
    (k0_pay4 (F := F) (rowOff L) v j).toNat = (v j).toNat / 8 * 128 + (v j).toNat % 8 + (L 1).val * 8 :=
  rowWord_rowOff_toNat L (v j) h
theorem pay4_lt (L : grid0.Coords) (v : Vec F S16 .i32) (j : S16.Idx) (h : (v j).toNat < 100000) :
    (k0_pay4 (F := F) (rowOff L) v j).toNat < 1600000 :=
  rowWord_rowOff_lt L (v j) h
theorem pay5_toNat (L : grid0.Coords) (v : Vec F S16 .i32) (j : S16.Idx) (h : (v j).toNat < 100000) :
    (k0_pay5 (F := F) (rowOff L) v j).toNat = (v j).toNat / 8 * 128 + (v j).toNat % 8 + (L 1).val * 8 :=
  rowWord_rowOff_toNat L (v j) h
theorem pay5_lt (L : grid0.Coords) (v : Vec F S16 .i32) (j : S16.Idx) (h : (v j).toNat < 100000) :
    (k0_pay5 (F := F) (rowOff L) v j).toNat < 1600000 :=
  rowWord_rowOff_lt L (v j) h

/-! ## The lane and column index vectors -/

/-- The lane number word of a one-register iota. -/
theorem iota16_apply (h : S16.Iotas .scVector 32 [0]) (j : S16.Idx) :
    iota .scVector S16 32 [0] h j = BitVec.ofNat 32 (j 0).val := by
  simp [iota]

theorem lane_lt (j : S16.Idx) : (j 0).val < 16 := (j 0).isLt

/-- A small constant plus the lane number does not wrap. -/
theorem addi_lane_toNat (b : BitVec 32) (hb : b.toNat ≤ 1000) (h : S16.Iotas .scVector 32 [0]) (j : S16.Idx) :
    (IntOp.addi b (iota .scVector S16 32 [0] h j)).toNat = b.toNat + (j 0).val := by
  have hj := lane_lt j
  rw [iota16_apply, IntOp.addi, BitVec.toNat_add, BitVec.toNat_ofNat]
  omega

/-- The column base word of tile `L`: 64 times the parity of the worker number (as the program spells a floored
    remainder), plus the constant `q`. -/
def colBase (L : grid0.Coords) (q : BitVec 32) : BitVec 32 :=
  let v1 : BitVec 32 := wordW L
  let v68 : BitVec 32 := modW
  let v69 : BitVec 32 := Scalar.remsi v1 v68
  let v70 : BitVec 1 := Scalar.cmpi .ne v69 0#32
  let v71 : BitVec 1 := Scalar.cmpi .slt v69 0#32
  let v72 : BitVec 1 := Scalar.cmpi .slt v68 0#32
  let v73 : BitVec 1 := Scalar.xori v71 v72
  let v74 : BitVec 1 := Scalar.andi v73 v70
  let v75 : BitVec 32 := Scalar.addi v69 v68
  let v76 : BitVec 32 := Scalar.select v74 v75 v69
  let v77 : BitVec 32 := Scalar.muli v76 64#32
  Scalar.addi v77 q

theorem colBase_toNat : ∀ L : grid0.Coords, (colBase L 0#32).toNat = (L 0).val * 64 ∧ (colBase L 16#32).toNat = (L 0).val * 64 + 16
    ∧ (colBase L 32#32).toNat = (L 0).val * 64 + 32 ∧ (colBase L 48#32).toNat = (L 0).val * 64 + 48 := by decide +kernel

theorem pay6_apply (j : S16.Idx) : k0_pay6 j = IntOp.addi 0#32 (iota .scVector S16 32 [0] iota_S16_d0_w32_scVector j) := rfl
theorem pay8_apply (j : S16.Idx) : k0_pay8 j = IntOp.addi 16#32 (iota .scVector S16 32 [0] iota_S16_d0_w32_scVector j) := rfl
theorem pay10_apply (j : S16.Idx) : k0_pay10 j = IntOp.addi 32#32 (iota .scVector S16 32 [0] iota_S16_d0_w32_scVector j) := rfl
theorem pay12_apply (j : S16.Idx) : k0_pay12 j = IntOp.addi 48#32 (iota .scVector S16 32 [0] iota_S16_d0_w32_scVector j) := rfl
theorem pay7_apply (L : grid0.Coords) (j : S16.Idx) :
    k0_pay7 (wordW L) modW j = IntOp.addi (colBase L 0#32) (iota .scVector S16 32 [0] iota_S16_d0_w32_scVector j) := rfl
theorem pay9_apply (L : grid0.Coords) (j : S16.Idx) :
    k0_pay9 (wordW L) modW j = IntOp.addi (colBase L 16#32) (iota .scVector S16 32 [0] iota_S16_d0_w32_scVector j) := rfl
theorem pay11_apply (L : grid0.Coords) (j : S16.Idx) :
    k0_pay11 (wordW L) modW j = IntOp.addi (colBase L 32#32) (iota .scVector S16 32 [0] iota_S16_d0_w32_scVector j) := rfl
theorem pay13_apply (L : grid0.Coords) (j : S16.Idx) :
    k0_pay13 (wordW L) modW j = IntOp.addi (colBase L 48#32) (iota .scVector S16 32 [0] iota_S16_d0_w32_scVector j) := rfl

theorem pay6_toNat (j : S16.Idx) : (k0_pay6 j).toNat = (j 0).val := by
  rw [pay6_apply, addi_lane_toNat _ (by decide)]; simp
theorem pay8_toNat (j : S16.Idx) : (k0_pay8 j).toNat = 16 + (j 0).val := by
  rw [pay8_apply, addi_lane_toNat _ (by decide)]; rfl
theorem pay10_toNat (j : S16.Idx) : (k0_pay10 j).toNat = 32 + (j 0).val := by
  rw [pay10_apply, addi_lane_toNat _ (by decide)]; rfl
theorem pay12_toNat (j : S16.Idx) : (k0_pay12 j).toNat = 48 + (j 0).val := by
  rw [pay12_apply, addi_lane_toNat _ (by decide)]; rfl

theorem pay7_toNat (L : grid0.Coords) (j : S16.Idx) : (k0_pay7 (wordW L) modW j).toNat = (L 0).val * 64 + (j 0).val := by
  have h0 : (L 0).val < 2 := (L 0).isLt
  have hc := (colBase_toNat L).1
  rw [pay7_apply, addi_lane_toNat _ (by rw [hc]; omega), hc]
theorem pay9_toNat (L : grid0.Coords) (j : S16.Idx) : (k0_pay9 (wordW L) modW j).toNat = (L 0).val * 64 + 16 + (j 0).val := by
  have h0 : (L 0).val < 2 := (L 0).isLt
  have hc := (colBase_toNat L).2.1
  rw [pay9_apply, addi_lane_toNat _ (by rw [hc]; omega), hc]
theorem pay11_toNat (L : grid0.Coords) (j : S16.Idx) : (k0_pay11 (wordW L) modW j).toNat = (L 0).val * 64 + 32 + (j 0).val := by
  have h0 : (L 0).val < 2 := (L 0).isLt
  have hc := (colBase_toNat L).2.2.1
  rw [pay11_apply, addi_lane_toNat _ (by rw [hc]; omega), hc]
theorem pay13_toNat (L : grid0.Coords) (j : S16.Idx) : (k0_pay13 (wordW L) modW j).toNat = (L 0).val * 64 + 48 + (j 0).val := by
  have h0 : (L 0).val < 2 := (L 0).isLt
  have hc := (colBase_toNat L).2.2.2
  rw [pay13_apply, addi_lane_toNat _ (by rw [hc]; omega), hc]

/-! ## The four checks the body assumes -/

theorem chk1 (L : grid0.Coords) : k0_chk1 k0_pay6 (k0_pay7 (wordW L) modW) := by
  intro a x
  have h0 : (L 0).val < 2 := (L 0).isLt
  have hx := lane_lt x
  match a with
  | ⟨0, _⟩ => show (k0_pay6 x).toNat < 64; rw [pay6_toNat]; omega
  | ⟨1, _⟩ => show (k0_pay7 (wordW L) modW x).toNat < 128; rw [pay7_toNat]; omega
theorem chk2 (L : grid0.Coords) : k0_chk2 k0_pay8 (k0_pay9 (wordW L) modW) := by
  intro a x
  have h0 : (L 0).val < 2 := (L 0).isLt
  have hx := lane_lt x
  match a with
  | ⟨0, _⟩ => show (k0_pay8 x).toNat < 64; rw [pay8_toNat]; omega
  | ⟨1, _⟩ => show (k0_pay9 (wordW L) modW x).toNat < 128; rw [pay9_toNat]; omega
theorem chk3 (L : grid0.Coords) : k0_chk3 k0_pay10 (k0_pay11 (wordW L) modW) := by
  intro a x
  have h0 : (L 0).val < 2 := (L 0).isLt
  have hx := lane_lt x
  match a with
  | ⟨0, _⟩ => show (k0_pay10 x).toNat < 64; rw [pay10_toNat]; omega
  | ⟨1, _⟩ => show (k0_pay11 (wordW L) modW x).toNat < 128; rw [pay11_toNat]; omega
theorem chk4 (L : grid0.Coords) : k0_chk4 k0_pay12 (k0_pay13 (wordW L) modW) := by
  intro a x
  have h0 : (L 0).val < 2 := (L 0).isLt
  have hx := lane_lt x
  match a with
  | ⟨0, _⟩ => show (k0_pay12 x).toNat < 64; rw [pay12_toNat]; omega
  | ⟨1, _⟩ => show (k0_pay13 (wordW L) modW x).toNat < 128; rw [pay13_toNat]; omega

end Cert.KernelIdeal.Hand

end
-- ==== Proof.KTileVal.lean ====
/-
  The value a tile of the vector-subcore kernel leaves, as index equations. The tile copies its 64 target words into the index
  scratch, rewrites each 16-word window of it with the row words `(t >> 3) * 128 + (t & 7) + 8 * tile` of the words it loaded,
  gathers the 64 table rows those words name into the rows scratch, picks from row `k` the lane `64 * core + k`, and stores the
  64 picked words. Read back through the views: a word of the index scratch is the row word of the target word copied there
  (the four windows cover it); a word of the rows scratch is the table at the row its row word names; a picked lane is therefore
  the table entry `picked` names for the output position `128 * tile + 64 * core + k`.
-/
import proofs.«209869_g82368882803221_cont_9to1_m_506_32_alg».proof.Proof.KTileDefs
import proofs.«209869_g82368882803221_cont_9to1_m_506_32_alg».proof.Proof.KTilePure
import Idealize.ShloMosaic.Lib.Writes
import Idealize.ShloMosaic.Lib.SparseCore.Stream

noncomputable section

namespace Cert.KernelIdeal.Hand

open Cert.KernelIdeal Cert.KernelIdeal.Gen

open Idealize.ShloMosaic Idealize.ShloMosaic.ValueIdx
open Idealize.ShloMosaic.SparseCore (S V T)

variable {F : FTy → Type}

section Value

variable (d : Dev nD) (L : grid0.Coords) [FloatOps F]

abbrev sIv : Memref sig .scVector .vmem S64 .i32 := Memref.whole cc0_scratch0
abbrev sRv : Memref sig .scVector .vmem S64x128 .f32 := Memref.whole cc0_scratch1
abbrev sOv : Memref sig .scVector .vmem S64 .f32 := Memref.whole cc0_scratch2

/-- A word of a 64-word scratch read through a 16-word window of it, after the scratch was written whole with `w`: `w` at the window's word. -/
theorem readAt_written (w : S64.Idx → Elt F .i32) (fi : Buf (Elt F) ((V d (cV L) (jV L)).loc cc0_scratch0)) (r : Rect S64) (x : r.shape.Idx) :
    View.readAt (Elt F) (sIv).view r.toLoadRect (View.write (Elt F) (sIv).view fi w Finset.univ) x = w (r.emb x) := by
  rw [View.readAt_apply, View.read_write_univ]; rfl

/-- The four 16-word windows at 48, 32, 16, 0 cover the 64 words. -/
theorem cover64 {e : EltTy} (p3 : (Rect.unit (s := S64) ![48] S16.size inb_S64_S16_48).shape.Idx → Elt F e) (p2 : (Rect.unit (s := S64) ![32] S16.size inb_S64_S16_32).shape.Idx → Elt F e)
    (p1 : (Rect.unit (s := S64) ![16] S16.size inb_S64_S16_16).shape.Idx → Elt F e) (p0 : (Rect.unit (s := S64) ![0] S16.size inb_S64_S16_0).shape.Idx → Elt F e) :
    ∀ y : S64.Idx, ∃ p ∈ ([⟨Rect.unit (s := S64) ![48] S16.size inb_S64_S16_48, p3⟩, ⟨Rect.unit (s := S64) ![32] S16.size inb_S64_S16_32, p2⟩,
      ⟨Rect.unit (s := S64) ![16] S16.size inb_S64_S16_16, p1⟩, ⟨Rect.unit (s := S64) ![0] S16.size inb_S64_S16_0, p0⟩] : List (View.Piece (Elt F) S64 e)), y ∈ p.1.set :=
  View.cover_of_tiled _ S16.size rfl

/-- The four stores of row words into the index scratch, last first: each 16-word window gets the row words of the 16 target words loaded from it
    (the scratch then holding the 64 target words `w` the copy landed over its old contents `fi`). -/
abbrev idxList (w : S64.Idx → Elt F .i32) (fi : Buf (Elt F) ((V d (cV L) (jV L)).loc cc0_scratch0)) : List (View.Piece (Elt F) S64 .i32) :=
      [⟨Rect.unit ![48] S16.size inb_S64_S16_48, k0_pay5 (rowOff L) (View.readAt (Elt F) (sIv).view (Rect.unit (s := S64) ![48] S16.size inb_S64_S16_48).toLoadRect (View.write (Elt F) (sIv).view fi w Finset.univ))⟩,
       ⟨Rect.unit ![32] S16.size inb_S64_S16_32, k0_pay4 (rowOff L) (View.readAt (Elt F) (sIv).view (Rect.unit (s := S64) ![32] S16.size inb_S64_S16_32).toLoadRect (View.write (Elt F) (sIv).view fi w Finset.univ))⟩,
       ⟨Rect.unit ![16] S16.size inb_S64_S16_16, k0_pay3 (rowOff L) (View.readAt (Elt F) (sIv).view (Rect.unit (s := S64) ![16] S16.size inb_S64_S16_16).toLoadRect (View.write (Elt F) (sIv).view fi w Finset.univ)) k0_pay2⟩,
       ⟨Rect.unit ![0] S16.size inb_S64_S16_0, k0_pay1 L (View.readAt (Elt F) (sIv).view (Rect.unit (s := S64) ![0] S16.size inb_S64_S16_0).toLoadRect (View.write (Elt F) (sIv).view fi w Finset.univ))⟩]

/-- What the index scratch reads after the four stores of row words: at every word, the row word of the target word copied there. -/
theorem idx_written (w : S64.Idx → Elt F .i32) (fi g : Buf (Elt F) ((V d (cV L) (jV L)).loc cc0_scratch0)) (y : S64.Idx) :
    (sIv).view.read (Elt F) ((sIv).view.writes (Elt F) g
      [⟨Rect.unit ![48] S16.size inb_S64_S16_48, k0_pay5 (rowOff L) (View.readAt (Elt F) (sIv).view (Rect.unit (s := S64) ![48] S16.size inb_S64_S16_48).toLoadRect (View.write (Elt F) (sIv).view fi w Finset.univ))⟩,
       ⟨Rect.unit ![32] S16.size inb_S64_S16_32, k0_pay4 (rowOff L) (View.readAt (Elt F) (sIv).view (Rect.unit (s := S64) ![32] S16.size inb_S64_S16_32).toLoadRect (View.write (Elt F) (sIv).view fi w Finset.univ))⟩,
       ⟨Rect.unit ![16] S16.size inb_S64_S16_16, k0_pay3 (rowOff L) (View.readAt (Elt F) (sIv).view (Rect.unit (s := S64) ![16] S16.size inb_S64_S16_16).toLoadRect (View.write (Elt F) (sIv).view fi w Finset.univ)) k0_pay2⟩,
       ⟨Rect.unit ![0] S16.size inb_S64_S16_0, k0_pay1 L (View.readAt (Elt F) (sIv).view (Rect.unit (s := S64) ![0] S16.size inb_S64_S16_0).toLoadRect (View.write (Elt F) (sIv).view fi w Finset.univ))⟩]) y
    = rowWord (w y) (rowOff L) := by
  refine View.read_writes_apply_of_pieces (sIv).view g (fun y => rowWord (w y) (rowOff L)) _ ?_ y (cover64 _ _ _ _ y)
  intro p hp
  simp only [List.mem_cons, List.not_mem_nil, or_false] at hp
  rcases hp with rfl | rfl | rfl | rfl <;> intro x
  · show k0_pay5 (rowOff L) _ x = _
    rw [pay5_apply, readAt_written]
  · show k0_pay4 (rowOff L) _ x = _
    rw [pay4_apply, readAt_written]
  · show k0_pay3 (rowOff L) _ k0_pay2 x = _
    rw [pay3_apply, readAt_written]
  · show k0_pay1 L _ x = _
    rw [pay1_apply, readAt_written]

/-- A word of the out slice after the copy-out wrote it whole with `w`. -/
theorem out_written (f0 : Buf (Elt F) (outLoc d)) (w : S64.Idx → Elt F .f32) (j : S64.Idx) :
    ((outSl L).view.writes (Elt F) f0 [⟨Rect.whole S64, w⟩]) ((outSl L).view.emb j) = w j := by
  have h := View.read_writes_cons_emb (outSl L).view f0 (Rect.whole S64) w [] j
  rw [Rect.emb_whole_apply] at h
  rw [← h, View.read_apply]; exact (cast_eq _ _).symm

/-- The gathered-rows scratch, read whole after the gather wrote it whole with `gth`. -/
theorem rows_read (fr : Buf (Elt F) ((V d (cV L) (jV L)).loc cc0_scratch1)) (gth : S64x128.Idx → Elt F .f32) (y : S64x128.Idx) :
    View.read (Elt F) ((sRv).access (Rect.whole S64x128)) ((sRv).view.writes (Elt F) fr [⟨Rect.whole S64x128, gth⟩]) y = gth y := by
  have h1 := congrFun (Memref.read_access_whole (Elt F) cc0_scratch1 ((sRv).view.writes (Elt F) fr [⟨Rect.whole S64x128, gth⟩])) y
  have h2 := congrFun (Memref.write_access_whole_univ (Elt F) cc0_scratch1 fr gth) y
  exact h1.trans h2

/-- The table read through the kernel's whole-table slice is the table. -/
theorem tab_read (ft : Buf (Elt F) (tabLoc d)) (hs : ∀ a, (Rect.unit (s := S1600000x128) ![0, 0] S1600000x128.size inb_S1600000x128_S1600000x128_0_0).stride a = 1) (z : S1600000x128.Idx) :
    View.read (Elt F) ((Memref.whole main_v3_scv : Memref sig .scVector .hbm S1600000x128 .f32).slice (Rect.unit ![0, 0] S1600000x128.size inb_S1600000x128_S1600000x128_0_0) hs).view ft z = ft z :=
  congrFun (Memref.read_access_unit_zero (Elt F) main_v3_scv (off := ![0, 0]) (funext fun a => by fin_cases a <;> rfl) inb_S1600000x128_S1600000x128_0_0 ft) z

/-- A target word the tile copied in, as a word of the targets array. -/
theorem tgt_read (tg : Buf (Elt F) (tgtLoc d)) (y : S64.Idx) :
    (tgtSl L).view.read (Elt F) tg y = tg (ValueIdx.ix1 (posOf L y)) := by
  have e : ((tgtSl L).view.emb y : (⟨1, ![2048]⟩ : Shape).Idx) = ValueIdx.ix1 (posOf L y) := by
    funext a
    match a with
    | ⟨0, _⟩ =>
      apply Fin.ext
      show (k0_off1 L) 0 + 1 * (y 0).val = 128 * (L 1).val + 64 * (L 0).val + (y 0).val
      rw [k0_off1_eq L]; simp
  rw [View.read_apply]
  exact (cast_eq _ _).trans (congrArg tg e)

/-- The gather's payload at a word of the rows scratch: the source at the row the index list names for the word's row, same column. -/
theorem gather_at (g : S1600000x128.Idx → Elt F .f32) (idx : S64.Idx → Elt F .i32) (hn : S64.numel = S64x128.size gathers_S1600000x128_S64x128.axis')
    (hin : ∀ x, (idx x).toNat < 1600000) (y : S64x128.Idx) :
    SparseCore.gatherPayload gathers_S1600000x128_S64x128 g (SparseCore.rows idx hn hin) y
      = g (ValueIdx.ix2 (⟨(idx (ValueIdx.ix1 (y 0 : Fin 64))).toNat, hin _⟩ : Fin 1600000) (y 1 : Fin 128)) := by
  unfold SparseCore.gatherPayload
  refine congrArg g (funext fun b => Fin.ext ?_)
  match b with
  | ⟨0, hb⟩ =>
    have h0 := Shape.Gathers.idx_axis gathers_S1600000x128_S64x128 (SparseCore.rows idx hn hin) y
    have e : S64.rowMajor.symm ((y gathers_S1600000x128_S64x128.axis').cast hn.symm) = (ValueIdx.ix1 (y 0 : Fin 64) : S64.Idx) :=
      (Equiv.symm_apply_eq S64.rowMajor).mpr (Fin.ext (Shape.rowMajor_val_one (d := ![64]) (ValueIdx.ix1 (y 0 : Fin 64))).symm)
    show ((gathers_S1600000x128_S64x128.idx (SparseCore.rows idx hn hin) y) gathers_S1600000x128_S64x128.axis).val = (idx (ValueIdx.ix1 (y 0 : Fin 64))).toNat
    rw [h0]
    exact congrArg (fun z : S64.Idx => (idx z).toNat) e
  | ⟨1, hb⟩ =>
    exact Shape.Gathers.idx_of_ne gathers_S1600000x128_S64x128 _ y ⟨1, hb⟩ Nat.one_ne_zero

/-- Every word of the index scratch, when the gather is issued, names a row of the table. -/
theorem idx_inb (tg : Buf (Elt F) (tgtLoc d)) (hpre : ∀ i, (tg i).toNat < 100000) (fi g : Buf (Elt F) ((V d (cV L) (jV L)).loc cc0_scratch0)) (x : S64.Idx) :
    ((sIv).view.read (Elt F) ((sIv).view.writes (Elt F) g (idxList d L ((tgtSl L).view.read (Elt F) tg) fi)) x).toNat < 1600000 := by
  rw [show (sIv).view.read (Elt F) ((sIv).view.writes (Elt F) g (idxList d L ((tgtSl L).view.read (Elt F) tg) fi)) x = _ from idx_written d L _ fi g x, tgt_read]
  exact rowWord_rowOff_lt L _ (hpre _)

/-- One picked lane. The rows scratch holds, at row `k`, the table's row named by word `k` of the index scratch; a lane reading row `q + l`, column
    `64 * core + q + l` of it reads the table entry picked for output position `128 * tile + 64 * core + q + l`. -/
theorem lane_value (ft : Buf (Elt F) (tabLoc d)) (tg : Buf (Elt F) (tgtLoc d)) (hpre : ∀ i, (tg i).toNat < 100000)
    (fi g : Buf (Elt F) ((V d (cV L) (jV L)).loc cc0_scratch0)) (fr : Buf (Elt F) ((V d (cV L) (jV L)).loc cc0_scratch1))
    (hs : ∀ a, (Rect.unit (s := S1600000x128) ![0, 0] S1600000x128.size inb_S1600000x128_S1600000x128_0_0).stride a = 1)
    (hn : S64.numel = S64x128.size gathers_S1600000x128_S64x128.axis')
    (hin : ∀ x, ((sIv).view.read (Elt F) ((sIv).view.writes (Elt F) g (idxList d L ((tgtSl L).view.read (Elt F) tg) fi)) x).toNat < 1600000)
    (A B : IVec S16 32) (h : ∀ a x, ((![A, B] : Fin 2 → IVec S16 32) a x).toNat < S64x128.size a)
    (q : ℕ) (hA : ∀ x : S16.Idx, (A x).toNat = q + (x 0).val) (hB : ∀ x : S16.Idx, (B x).toNat = (L 0).val * 64 + q + (x 0).val)
    (x : S16.Idx) (y : S64.Idx) (hy : (y 0).val = q + (x 0).val) :
    loadIdx (View.read (Elt F) ((sRv).access (Rect.whole S64x128)) ((sRv).view.writes (Elt F) fr [⟨Rect.whole S64x128,
        SparseCore.gatherPayload gathers_S1600000x128_S64x128
          (View.read (Elt F) ((Memref.whole main_v3_scv : Memref sig .scVector .hbm S1600000x128 .f32).slice (Rect.unit ![0, 0] S1600000x128.size inb_S1600000x128_S1600000x128_0_0) hs).view ft)
          (SparseCore.rows ((sIv).view.read (Elt F) ((sIv).view.writes (Elt F) g (idxList d L ((tgtSl L).view.read (Elt F) tg) fi))) hn hin)⟩])) ![A, B] h x
      = picked d ft tg (posOf L y) := by
  show View.read (Elt F) ((sRv).access (Rect.whole S64x128)) _ (idxAt (s := S64x128) ![A, B] h x) = _
  rw [rows_read, gather_at, tab_read]
  unfold picked
  have h1 : (L 1).val < 16 := (L 1).isLt
  have h0 : (L 0).val < 2 := (L 0).isLt
  have hy' : (y 0).val < 64 := (y 0).isLt
  have hp : (posOf L y).val = 128 * (L 1).val + 64 * (L 0).val + (y 0).val := rfl
  have ht := hpre (ValueIdx.ix1 (posOf L y))
  refine congrArg ft (funext fun b => Fin.ext ?_)
  match b with
  | ⟨0, _⟩ =>
    have e : (ValueIdx.ix1 ((idxAt (s := S64x128) ![A, B] h x) 0 : Fin 64) : S64.Idx) = y := by
      funext a
      match a with
      | ⟨0, _⟩ => exact Fin.ext ((hA x).trans hy.symm)
    show ((sIv).view.read (Elt F) ((sIv).view.writes (Elt F) g (idxList d L ((tgtSl L).view.read (Elt F) tg) fi)) (ValueIdx.ix1 ((idxAt (s := S64x128) ![A, B] h x) 0 : Fin 64))).toNat = _
    rw [e, show (sIv).view.read (Elt F) ((sIv).view.writes (Elt F) g (idxList d L ((tgtSl L).view.read (Elt F) tg) fi)) y = _ from idx_written d L _ fi g y,
      tgt_read, rowWord_rowOff_toNat L _ ht]
    show _ = ((tg (ValueIdx.ix1 (posOf L y))).toNat / 8 * 128 + (tg (ValueIdx.ix1 (posOf L y))).toNat % 8 + (posOf L y).val / 128 * 8) % 1600000
    rw [hp]
    omega
  | ⟨1, _⟩ =>
    show (B x).toNat = (posOf L y).val % 128
    rw [hB, hp]
    omega

/-- The rows scratch read whole, after the gather. -/
abbrev rowsRead (ft : Buf (Elt F) (tabLoc d)) (tg : Buf (Elt F) (tgtLoc d))
    (fi g : Buf (Elt F) ((V d (cV L) (jV L)).loc cc0_scratch0)) (fr : Buf (Elt F) ((V d (cV L) (jV L)).loc cc0_scratch1))
    (hs : ∀ a, (Rect.unit (s := S1600000x128) ![0, 0] S1600000x128.size inb_S1600000x128_S1600000x128_0_0).stride a = 1)
    (hn : S64.numel = S64x128.size gathers_S1600000x128_S64x128.axis')
    (hin : ∀ x, ((sIv).view.read (Elt F) ((sIv).view.writes (Elt F) g (idxList d L ((tgtSl L).view.read (Elt F) tg) fi)) x).toNat < 1600000) : Vec F S64x128 .f32 :=
  View.read (Elt F) ((sRv).access (Rect.whole S64x128)) ((sRv).view.writes (Elt F) fr [⟨Rect.whole S64x128,
        SparseCore.gatherPayload gathers_S1600000x128_S64x128
          (View.read (Elt F) ((Memref.whole main_v3_scv : Memref sig .scVector .hbm S1600000x128 .f32).slice (Rect.unit ![0, 0] S1600000x128.size inb_S1600000x128_S1600000x128_0_0) hs).view ft)
          (SparseCore.rows ((sIv).view.read (Elt F) ((sIv).view.writes (Elt F) g (idxList d L ((tgtSl L).view.read (Elt F) tg) fi))) hn hin)⟩])

set_option maxHeartbeats 1000000 in
/-- What the out scratch reads after the four stores of picked lanes: at every word, the table entry picked for the word's output position. -/
theorem out_scratch_value (ft : Buf (Elt F) (tabLoc d)) (tg : Buf (Elt F) (tgtLoc d)) (hpre : ∀ i, (tg i).toNat < 100000)
    (fi g : Buf (Elt F) ((V d (cV L) (jV L)).loc cc0_scratch0)) (fr : Buf (Elt F) ((V d (cV L) (jV L)).loc cc0_scratch1))
    (fo : Buf (Elt F) ((V d (cV L) (jV L)).loc cc0_scratch2))
    (hs : ∀ a, (Rect.unit (s := S1600000x128) ![0, 0] S1600000x128.size inb_S1600000x128_S1600000x128_0_0).stride a = 1)
    (hn : S64.numel = S64x128.size gathers_S1600000x128_S64x128.axis')
    (hin : ∀ x, ((sIv).view.read (Elt F) ((sIv).view.writes (Elt F) g (idxList d L ((tgtSl L).view.read (Elt F) tg) fi)) x).toNat < 1600000)
    (h1 : ∀ a x, ((![k0_pay6, k0_pay7 (wordW L) modW] : Fin 2 → IVec S16 32) a x).toNat < S64x128.size a)
    (h2 : ∀ a x, ((![k0_pay8, k0_pay9 (wordW L) modW] : Fin 2 → IVec S16 32) a x).toNat < S64x128.size a)
    (h3 : ∀ a x, ((![k0_pay10, k0_pay11 (wordW L) modW] : Fin 2 → IVec S16 32) a x).toNat < S64x128.size a)
    (h4 : ∀ a x, ((![k0_pay12, k0_pay13 (wordW L) modW] : Fin 2 → IVec S16 32) a x).toNat < S64x128.size a)
    (j : S64.Idx) :
    (sOv).view.read (Elt F) ((sOv).view.writes (Elt F) fo
      [⟨Rect.unit ![48] S16.size inb_S64_S16_48, loadIdx (rowsRead d L ft tg fi g fr hs hn hin) ![k0_pay12, k0_pay13 (wordW L) modW] h4⟩,
       ⟨Rect.unit ![32] S16.size inb_S64_S16_32, loadIdx (rowsRead d L ft tg fi g fr hs hn hin) ![k0_pay10, k0_pay11 (wordW L) modW] h3⟩,
       ⟨Rect.unit ![16] S16.size inb_S64_S16_16, loadIdx (rowsRead d L ft tg fi g fr hs hn hin) ![k0_pay8, k0_pay9 (wordW L) modW] h2⟩,
       ⟨Rect.unit ![0] S16.size inb_S64_S16_0, loadIdx (rowsRead d L ft tg fi g fr hs hn hin) ![k0_pay6, k0_pay7 (wordW L) modW] h1⟩]) j
    = picked d ft tg (posOf L j) := by
  refine View.read_writes_apply_of_pieces (sOv).view fo (fun y => picked d ft tg (posOf L y)) _ ?_ j (cover64 _ _ _ _ j)
  intro p hp
  simp only [List.mem_cons, List.not_mem_nil, or_false] at hp
  rcases hp with rfl | rfl | rfl | rfl <;> intro x
  · exact lane_value d L ft tg hpre fi g fr hs hn hin k0_pay12 (k0_pay13 (wordW L) modW) h4 48 (fun x => pay12_toNat x) (fun x => pay13_toNat L x) x _
      (by show ![48] 0 + 1 * (x 0).val = _; simp)
  · exact lane_value d L ft tg hpre fi g fr hs hn hin k0_pay10 (k0_pay11 (wordW L) modW) h3 32 (fun x => pay10_toNat x) (fun x => pay11_toNat L x) x _
      (by show ![32] 0 + 1 * (x 0).val = _; simp)
  · exact lane_value d L ft tg hpre fi g fr hs hn hin k0_pay8 (k0_pay9 (wordW L) modW) h2 16 (fun x => pay8_toNat x) (fun x => pay9_toNat L x) x _
      (by show ![16] 0 + 1 * (x 0).val = _; simp)
  · exact lane_value d L ft tg hpre fi g fr hs hn hin k0_pay6 (k0_pay7 (wordW L) modW) h1 0 (fun x => (pay6_toNat x).trans (Nat.zero_add _).symm)
      (fun x => by rw [pay7_toNat]; omega) x _ (by show ![0] 0 + 1 * (x 0).val = _; simp)

end Value

end Cert.KernelIdeal.Hand

end
-- ==== Proof.KTile.lean ====
/-
  The vector-subcore kernel's body on one tile, at a symbolic tile: the tile copies its 64 targets into the index scratch and waits,
  rewrites the scratch's four 16-word windows with the table row numbers, gathers those 64 rows of the re-laid table into the rows
  scratch and waits, picks one lane per row by four indexed loads (each after its range check, which the lane arithmetic proves),
  stores the picked words into the out scratch, copies it out to the tile's 64 words of the gathered logits and waits. Run from the
  tile's resources — a share of the table, its slice of the targets, its slice of the result, its scratches and semaphores, what it
  owes the launch — to the same resources with the result slice holding, at every word, the table entry `picked` names.
-/
import proofs.«209869_g82368882803221_cont_9to1_m_506_32_alg».proof.Proof.KTileVal
import proofs.«209869_g82368882803221_cont_9to1_m_506_32_alg».proof.Proof.KLaunchA

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

variable (d : Dev nD) (L : grid0.Coords)

/-- The tile's three transfer semaphores, as cells. -/
abbrev gCell : GSem nD τ sig := (V d (cV L) (jV L), .dma cc0_scratch3.sem)
abbrev aCell : GSem nD τ sig := (V d (cV L) (jV L), .dma cc0_scoped0.sem)
abbrev bCell : GSem nD τ sig := (V d (cV L) (jV L), .dma cc0_scoped1.sem)

theorem ownSems0_V :
    (ownSems0 (V d (cV L) (jV L)) : sProp (𝕄 F))
      = iprop(semVal (gCell d L) 0 ∗ semVal (aCell d L) 0 ∗ semVal (bCell d L) 0
          ∗ bigSep ((((ownCells (V d (cV L) (jV L))).erase (gCell d L)).erase (aCell d L)).erase (bCell d L))
              fun g => semVal g 0) := by
  unfold SparseCore.Cfg.ownSems0
  rw [SparseCore.bigSep_erase' ((mem_ownCells (g := gCell d L)).mpr ⟨rfl, by
      show (SemLoc.dma cc0_scratch3.sem : SemLoc sig).isScoped .scVector = true; decide⟩),
    SparseCore.bigSep_erase' (Finset.mem_erase.mpr ⟨by simp [gCell, aCell]; decide, (mem_ownCells (g := aCell d L)).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc0_scoped1.sem : SemLoc sig).isScoped .scVector = true; decide⟩⟩⟩)]

/-- The three scratch buffers are among the tile's own: they are them, at some contents, and the rest. -/
theorem ownBufs_V :
    (ownBufs (V d (cV L) (jV L)) : sProp (𝕄 F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! The arrays and scratches as the tile's memrefs address them. -/

abbrev tabW : Memref sig .scVector .hbm S1600000x128 .f32 := Memref.whole main_v3_scv
abbrev sI : Memref sig .scVector .vmem S64 .i32 := Memref.whole cc0_scratch0
abbrev sR : Memref sig .scVector .vmem S64x128 .f32 := Memref.whole cc0_scratch1
abbrev sO : Memref sig .scVector .vmem S64 .f32 := Memref.whole cc0_scratch2

theorem pts_tab (q : PosShare TreeShare) (f : Buf (Elt F) (tabLoc d)) :
    ((tabW).view.loc (V d (cV L) (jV L)) ↦{q} f : sProp (𝕄 F)) = tabLoc d ↦{q} f := rfl
theorem pts_tgt (f : Buf (Elt F) (tgtLoc d)) :
    ((tgtSl L).view.loc (V d (cV L) (jV L)) ↦[(tgtSl L).view.set]{fullShare} f : sProp (𝕄 F)) = tgtLoc d ↦[(tgtSl L).view.set]{fullShare} f := rfl
theorem pts_out (f : Buf (Elt F) (outLoc d)) :
    ((outSl L).view.loc (V d (cV L) (jV L)) ↦[(outSl L).view.set]{fullShare} f : sProp (𝕄 F)) = outLoc d ↦[(outSl L).view.set]{fullShare} f := rfl
theorem pts_sI (f : Buf (Elt F) ((V d (cV L) (jV L)).loc cc0_scratch0)) :
    ((sI).view.loc (V d (cV L) (jV L)) ↦{fullShare} f : sProp (𝕄 F)) = (V d (cV L) (jV L)).loc cc0_scratch0 ↦{fullShare} f := rfl
theorem pts_sR (f : Buf (Elt F) ((V d (cV L) (jV L)).loc cc0_scratch1)) :
    ((sR).view.loc (V d (cV L) (jV L)) ↦{fullShare} f : sProp (𝕄 F)) = (V d (cV L) (jV L)).loc cc0_scratch1 ↦{fullShare} f := rfl
theorem pts_sR_access (f : Buf (Elt F) ((V d (cV L) (jV L)).loc cc0_scratch1)) :
    (((sR).access (.whole S64x128)).loc (V d (cV L) (jV L)) ↦{fullShare} f : sProp (𝕄 F)) = (V d (cV L) (jV L)).loc cc0_scratch1 ↦{fullShare} f := rfl
theorem pts_sO (f : Buf (Elt F) ((V d (cV L) (jV L)).loc cc0_scratch2)) :
    ((sO).view.loc (V d (cV L) (jV L)) ↦{fullShare} f : sProp (𝕄 F)) = (V d (cV L) (jV L)).loc cc0_scratch2 ↦{fullShare} f := rfl

variable [FloatOps F]

/-- The indexed load in tail position: the load of the whole scratch, returning the lanes picked. -/
theorem wp_vectorLoadIdx_tail {s t : Shape} {e : EltTy} (c : Thread nD τ) (bd : Option 𝒱₀.V) (E : Set ℕ)
    {base : Memref sig c.2.kind .vmem s e} {idxs : Fin s.rank → IVec t 32}
    {h : ∀ a x, (idxs a x).toNat < s.size a} {hl : base.view.Loads}
    {S : Finset (Idx ((base.access (.whole s)).loc c))} {q : PosShare TreeShare} {f : Buf (Elt F) ((base.access (.whole s)).loc c)}
    {Q : Vec F t e → sProp (𝕄 F)}
    (hS : (base.access (.whole s)).set ⊆ S) :
    ((base.access (.whole s)).loc c ↦[S]{q} f : sProp (𝕄 F))
      ⊢ iprop((((base.access (.whole s)).loc c ↦[S]{q} f)
          -∗ wp frame (wpE (defs₀ (F := F)) 𝒱₀ c bd) E (Prog.ret (loadIdx ((base.access (.whole s)).read (Elt F) f) idxs h)) Q)
        -∗ wp frame (wpE (defs₀ (F := F)) 𝒱₀ c bd) E (SparseCore.vectorLoadIdx base idxs h hl) Q) := by
  have := SparseCore.wp_vectorLoadIdx (defs := defs₀ (F := F)) 𝒱₀ c bd E (base := base) (idxs := idxs) (h := h) (hl := hl)
    (k := fun v => Prog.ret v) (S := S) (q := q) (f := f) (Q := Q) hS
  rwa [show (SparseCore.vectorLoadIdx base idxs h hl >>= fun v => Prog.ret v) = SparseCore.vectorLoadIdx base idxs h hl from Prog.bind_pure _] at this

/-- The kernel on the tile `(L 0, L 1)` of device `d`: from a share of the table, the tile's 64 targets (each below 100000) and its 64 words of the
    result, to the same with every result word the table entry picked for its position; the table and the targets unchanged. -/
theorem tile_body (hF : (K (F := F)).Facts) (ft : Buf (Elt F) (tabLoc d)) (tg : Buf (Elt F) (tgtLoc d)) (q : PosShare TreeShare)
    (hpre : ∀ i, (tg i).toNat < 100000) (O : CellTallies nD τ sig (HIx 1)) (W : Waits sig (HIx 1)) (hO : ∀ g, O g none = 0) :
    (iprop(levAts (K (F := F)).L (K (F := F)).lev ∗ (tabLoc d ↦{q} ft) ∗ (tgtLoc d ↦[(tgtSl L).view.set]{fullShare} tg) ∗ (∃ f0, outLoc d ↦[(outSl L).view.set]{fullShare} f0)
        ∗ scopedBufs (V d (cV L) (jV L)) ∗ scopedSems0 (V d (cV L) (jV L)) ∗ owes (V d (cV L) (jV L)) O W) : sProp (𝕄 F))
      ⊢ wp frame (wpE (defs₀ (F := F)) 𝒱₀ (V d (cV L) (jV L)) none) Set.univ
          (cc0__sc_gather L (Memref.whole main_v3_scv) (Memref.isWhole_whole _) (Memref.whole main_arg1_scv) (Memref.isWhole_whole _) (Memref.whole main_v4_scv) (Memref.isWhole_whole _)
            (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop((tabLoc d ↦{q} ft) ∗ (tgtLoc d ↦[(tgtSl L).view.set]{fullShare} tg)
            ∗ (∃ f, ⌜∀ j : S64.Idx, f ((outSl L).view.emb j) = picked d ft tg (posOf L j)⌝ ∗ outLoc d ↦[(outSl L).view.set]{fullShare} f)
            ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton, k0_part2_eq_skeleton, k0_part3_eq_skeleton]
  rw [(K (F := F)).scopedBufs_V hF d (cV L) (jV L), SparseCore.Cfg.scopedSems0_V (Val := Elt F) d (cV L) (jV L), ownSems0_V, ownBufs_V]
  iintro ⟨#Hlv, Htab, Htg, ⟨%f0, Hout⟩, ⟨⟨%fi, Hsi⟩, ⟨%fr, Hsr⟩, ⟨%fo, Hso⟩, Hbufs⟩, ⟨HsemG, HsemA, HsemB, Hsems⟩, HO⟩
  ihave Hmw := ((K (F := F)).mayWaits_none (thr := V d (cV L) (jV L)) hO) $$ Hlv
  ihave Htab' := (Entails.of_eq (pts_tab (F := F) d L q _).symm) $$ Htab
  ihave Htg' := (Entails.of_eq (pts_tgt (F := F) d L _).symm) $$ Htg
  ihave Hout' := (Entails.of_eq (pts_out (F := F) d L _).symm) $$ Hout
  ihave Hsi' := (Entails.of_eq (pts_sI (F := F) d L _).symm) $$ Hsi
  ihave Hsr' := (Entails.of_eq (pts_sR (F := F) d L _).symm) $$ Hsr
  ihave Hso' := (Entails.of_eq (pts_sO (F := F) d L _).symm) $$ Hso
  sl_exec
  have hin : ∀ x : cc0_scratch0.ty.shape.Idx, (View.read (Elt F) (Memref.whole cc0_scratch0).view (sI.view.writes (Elt F) sI.view.junk (tile_body.sl.Hsi'_4 d L tg fi)) x).toNat < 1600000 :=
    fun x => idx_inb d L tg hpre fi _ x
  have hc1 := chk1 L
  have hc2 := chk2 L
  have hc3 := chk3 L
  have hc4 := chk4 L
  sl_exec
  ihave Hsr2 := (Entails.of_eq ((pts_sR (F := F) d L _).trans (pts_sR_access (F := F) d L _).symm)) $$ Hsr'
  iapply (SparseCore.wp_vectorLoadIdx 𝒱₀ (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  ihave Hsr2 := (Entails.of_eq ((pts_sR (F := F) d L _).trans (pts_sR_access (F := F) d L _).symm)) $$ Hsr'
  iapply (SparseCore.wp_vectorLoadIdx 𝒱₀ (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  ihave Hsr2 := (Entails.of_eq ((pts_sR (F := F) d L _).trans (pts_sR_access (F := F) d L _).symm)) $$ Hsr'
  iapply (SparseCore.wp_vectorLoadIdx 𝒱₀ (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  ihave Hsr2 := (Entails.of_eq ((pts_sR (F := F) d L _).trans (pts_sR_access (F := F) d L _).symm)) $$ Hsr'
  iapply (wp_vectorLoadIdx_tail (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  have hval : ∀ j : S64.Idx, ((outSl L).view.writes (Elt F) f0 [⟨Rect.whole S64, tile_body.sl.dma2 d L ft tg fi fr fo hin hc1 hc2 hc3 hc4⟩]) ((outSl L).view.emb j)
      = picked d ft tg (posOf L j) := by
    intro j
    rw [out_written]
    exact out_scratch_value d L ft tg hpre fi _ fr fo _ _ hin _ _ _ _ j
  sl_step
  isplitl [Htab']; · iexact Htab'
  isplitl [Htg']; · iexact Htg'
  isplitl [Hout']
  · iexists _; isplitr
    swap; · iexact Hout'
    ipureintro; exact hval
  isplitl [Hsi' Hsr' Hso' Hbufs]
  · isplitl [Hsi']; · iexists _; iexact Hsi'
    isplitl [Hsr']; · iexists _; iexact Hsr'
    isplitl [Hso']; · iexists _; iexact Hso'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-- The tile's body, in the form the launch consumes. -/
theorem tileBodySpec [FloatOps F] : TileBodySpec F :=
  fun d L hF ft tg q hpre O W hO => tile_body d L hF ft tg q hpre O W hO

end Cert.KernelIdeal.Hand

end
-- ==== Proof.KernelBits.KCommon.lean ====
/-
  What every module of the kernel's frame shares: the program as the launch theorem reads it, the resource algebra
  (the handshakes' rounds beside the region's staging rounds and the transfers' counters), and the three HBM arrays the
  vector subcores touch — the re-laid table of logits, the targets, the gathered logits — as locations of a device.
-/
import proofs.«209869_g82368882803221_cont_9to1_m_506_32_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«209869_g82368882803221_cont_9to1_m_506_32_alg».proof.Proof.Gen.Kernel
import proofs.«209869_g82368882803221_cont_9to1_m_506_32_alg».proof.Proof.Gen.Kernel.Skeleton
import proofs.«209869_g82368882803221_cont_9to1_m_506_32_alg».proof.Proof.Gen.Kernel.Launch
import proofs.«209869_g82368882803221_cont_9to1_m_506_32_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The region's staging rounds. -/
abbrev UR' : Type := URounds (GSem nD τ sig) Unit
abbrev UU : Type := UH × (UR' × Counters)

abbrev 𝕄 (F : FTy → Type) : Type := MT nD τ sig (HIx 1) (Elt F) ℕ UU ℕ

abbrev EH : Emb UH (𝕄 F) := embL
def EP : Emb UR' (𝕄 F) :=
  ((Emb.inl : Emb UR' (UR' × Counters)).trans (Emb.inr : Emb (UR' × Counters) UU)).trans
    (uEmb (nD := nD) (sig := sig) (Ix := HIx 1) (Val := Elt F) (Name := ℕ) (U := UU) (Lvl := ℕ)).toEmb

instance EP_landsIn : (EP : Emb UR' (𝕄 F)).LandsIn (upEmb : UEmb _ (𝕄 F)) := by unfold EP; infer_instance

/-! ## The arrays the vector subcores touch -/

/-- The re-laid table of logits (1600000 rows of 128), the targets, the gathered logits: as locations of device `d`. -/
abbrev tabLoc (d : Dev nD) : Loc nD τ sig := (SparseCore.T d).loc main_v3
abbrev tgtLoc (d : Dev nD) : Loc nD τ sig := (SparseCore.T d).loc main_arg1
abbrev outLoc (d : Dev nD) : Loc nD τ sig := (SparseCore.T d).loc main_v4

end Cert.Kernel.Hand

end
-- ==== Proof.KernelBits.KTileDefs.lean ====
import proofs.«209869_g82368882803221_cont_9to1_m_506_32_alg».proof.Proof.KernelBits.KCommon
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## A tile's coordinates, its two slices, and what it picks -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The tile's 64 targets and its 64 outputs, as the program slices the two arrays. -/
abbrev tgtSl (L : grid0.Coords) : Memref sig .scVector .hbm S64 .i32 :=
  (Memref.whole main_arg1_scv : Memref sig .scVector .hbm S2048 .i32).slice (Rect.unit (s := S2048) (k0_off1 L) S64.size (k0_off1_inb L)) (fun _ => rfl)
abbrev outSl (L : grid0.Coords) : Memref sig .scVector .hbm S64 .f32 :=
  (Memref.whole main_v4_scv : Memref sig .scVector .hbm S2048 .f32).slice (Rect.unit (s := S2048) (k0_off2 L) S64.size (k0_off2_inb L)) (fun _ => rfl)

variable (d : Dev nD)

/-- The table entry the kernel picks for output position `n` with target `t`: row `(t / 8) * 128 + t % 8 + (n / 128) * 8`, lane `n % 128`. -/
def picked (ft : Buf (Elt F) (tabLoc d)) (tg : Buf (Elt F) (tgtLoc d)) (n : Fin 2048) : Elt F .f32 :=
  ft (ValueIdx.ix2 (⟨((tg (ValueIdx.ix1 n)).toNat / 8 * 128 + (tg (ValueIdx.ix1 n)).toNat % 8 + n.val / 128 * 8) % 1600000, Nat.mod_lt _ (by omega)⟩ : Fin 1600000)
    (⟨n.val % 128, Nat.mod_lt _ (by omega)⟩ : Fin 128))

/-- The output position of tile `L`'s `j`-th word. -/
def posOf (L : grid0.Coords) (j : S64.Idx) : Fin 2048 :=
  ⟨128 * (L 1).val + 64 * (L 0).val + (j 0).val, by
    have h1 : (L 1).val < 16 := (L 1).isLt
    have h0 : (L 0).val < 2 := (L 0).isLt
    have hj : (j 0).val < 64 := (j 0).isLt
    omega⟩

end Cert.Kernel.Hand

end
-- ==== Proof.KernelBits.KLaunchA.lean ====
import proofs.«209869_g82368882803221_cont_9to1_m_506_32_alg».proof.Proof.KernelBits.KCommon
import proofs.«209869_g82368882803221_cont_9to1_m_506_32_alg».proof.Proof.KernelBits.KTileDefs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## What the body of a tile does: the statement the launch consumes -/

/-- The tile's body at a symbolic tile: from a read share of the table, the tile's targets and its output slice, to the same with the
    output slice holding what the tile picks. -/
def TileBodySpec (F : FTy → Type) [FloatOps F] : Prop :=
  ∀ (d : Dev nD) (L : grid0.Coords) (_ : (K (F := F)).Facts) (ft : Buf (Elt F) (tabLoc d)) (tg : Buf (Elt F) (tgtLoc d)) (q : PosShare TreeShare)
    (_ : ∀ i, (tg i).toNat < 100000) (O : CellTallies nD τ sig (HIx 1)) (W : Waits sig (HIx 1)) (_ : ∀ g, O g none = 0),
    (iprop(levAts (K (F := F)).L (K (F := F)).lev ∗ (tabLoc d ↦{q} ft) ∗ (tgtLoc d ↦[(tgtSl L).view.set]{fullShare} tg) ∗ (∃ f0, outLoc d ↦[(outSl L).view.set]{fullShare} f0)
        ∗ scopedBufs (V d (cV L) (jV L)) ∗ scopedSems0 (V d (cV L) (jV L)) ∗ owes (V d (cV L) (jV L)) O W) : sProp (𝕄 F))
      ⊢ wp frame (wpE (defs₀ (F := F)) 𝒱₀ (V d (cV L) (jV L)) none) Set.univ
          (cc0__sc_gather L (Memref.whole main_v3_scv) (Memref.isWhole_whole _) (Memref.whole main_arg1_scv) (Memref.isWhole_whole _) (Memref.whole main_v4_scv) (Memref.isWhole_whole _)
            (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop((tabLoc d ↦{q} ft) ∗ (tgtLoc d ↦[(tgtSl L).view.set]{fullShare} tg)
            ∗ (∃ f, ⌜∀ j : S64.Idx, f ((outSl L).view.emb j) = picked d ft tg (posOf L j)⌝ ∗ outLoc d ↦[(outSl L).view.set]{fullShare} f)
            ∗ scopedBufs (V d (cV L) (jV L)) ∗ scopedSems0 (V d (cV L) (jV L)) ∗ ∃ W', ⌜∀ p ∈ W', p ∈ W ∨ p.2 = none⌝ ∗ owes (V d (cV L) (jV L)) O W')

/-! ## What the handshakes carry -/

/-- The worker number of SparseCore `c`, tile `s`: `2 s + c`. -/
def wOf (c : Fin ((K (F := F)).nCore 0)) (s : Fin ((K (F := F)).nSub 0)) : Fin 32 :=
  ⟨2 * s.val + c.val, by have := c.isLt; have := s.isLt; simp only [nCore_zero, nSub_zero] at *; omega⟩

/-- The grid point of the launch theorem's `(c, i)`. -/
def coordsK (c : Fin ((K (F := F)).nCore 0)) (i : Fin ((K (F := F)).nSub 0)) : grid0.Coords :=
  coordsV ⟨c.val, c.isLt⟩ ⟨i.val, i.isLt⟩

variable (d : Dev nD)

/-- What a tile is handed: a read share of the table at `ft`, its targets, its output slice. -/
def goRes (ft : Buf (Elt F) (tabLoc d)) (c : Fin ((K (F := F)).nCore 0)) (i : Fin ((K (F := F)).nSub 0)) : sProp (𝕄 F) :=
  iprop((tabLoc d ↦{Transfers.shareTok fullShare 32 (wOf c i)} ft) ∗ (tgtLoc d ↦[(tgtSl (coordsK c i)).view.set]{fullShare} m (tgtLoc d))
    ∗ (∃ f0, outLoc d ↦[(outSl (coordsK c i)).view.set]{fullShare} f0))
/-- What it hands back: the same, the output slice at what the tile picks. -/
def tdRes (ft : Buf (Elt F) (tabLoc d)) (c : Fin ((K (F := F)).nCore 0)) (i : Fin ((K (F := F)).nSub 0)) : sProp (𝕄 F) :=
  iprop((tabLoc d ↦{Transfers.shareTok fullShare 32 (wOf c i)} ft) ∗ (tgtLoc d ↦[(tgtSl (coordsK c i)).view.set]{fullShare} m (tgtLoc d))
    ∗ (∃ f, ⌜∀ j : S64.Idx, f ((outSl (coordsK c i)).view.emb j) = picked d ft (m (tgtLoc d)) (posOf (coordsK c i) j)⌝ ∗ outLoc d ↦[(outSl (coordsK c i)).view.set]{fullShare} f))

end Cert.Kernel.Hand

end
-- ==== Proof.KernelBits.KLaunchB.lean ====
import proofs.«209869_g82368882803221_cont_9to1_m_506_32_alg».proof.Proof.KernelBits.KCommon
import proofs.«209869_g82368882803221_cont_9to1_m_506_32_alg».proof.Proof.KernelBits.KLaunchA

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## @main's host operations and the valuations they leave -/

abbrev r_arg0 : DevRef τ sig := Proc.devRef .tc (main_arg0 : Ref sig .tc)
abbrev r_arg1 : DevRef τ sig := Proc.devRef .tc (main_arg1 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)

/-- The logits transposed; cut into groups of 8 vocabulary rows and 16 groups of 128 positions; the two middle axes swapped; flattened to
    rows of 128: the table the tiles gather from. -/
abbrev op0 : HloOp τ sig (Elt F) :=
  StableHlo.unary main_arg0 main_v0 ((transpose S100000x2048 [1, 0] · transposes_S2048x100000_S100000x2048_1_0) : (⟨S2048x100000, .f32⟩ : BufTy).Contents (Elt F) → (⟨S100000x2048, .f32⟩ : BufTy).Contents (Elt F))
abbrev op1 : HloOp τ sig (Elt F) := StableHlo.reshape main_v0 main_v1 rfl shapeCasts_S100000x2048_S12500x8x16x128
abbrev op2 : HloOp τ sig (Elt F) :=
  StableHlo.unary main_v1 main_v2 ((transpose S12500x16x8x128 [0, 2, 1, 3] · transposes_S12500x8x16x128_S12500x16x8x128_0_2_1_3) : (⟨S12500x8x16x128, .f32⟩ : BufTy).Contents (Elt F) → (⟨S12500x16x8x128, .f32⟩ : BufTy).Contents (Elt F))
abbrev op3 : HloOp τ sig (Elt F) := StableHlo.reshape main_v2 main_v3 rfl shapeCasts_S12500x16x8x128_S1600000x128
/-- The targets and the gathered logits as one row each; the result as a scalar. -/
abbrev op5 : HloOp τ sig (Elt F) := StableHlo.reshape main_arg1 main_v5 rfl shapeCasts_S2048_S1x2048
abbrev op6 : HloOp τ sig (Elt F) := StableHlo.reshape main_v4 main_v6 rfl shapeCasts_S2048_S1x2048
abbrev op8 : HloOp τ sig (Elt F) := StableHlo.reshape main_v7 main_v8 rfl shapeCasts_S1x1_S_

/-- The launch valuation, and the one the four operations before the SparseCore call leave. -/
def V0 (d : Dev nD) : Valuation τ sig (Elt F) := fun b => m (d, b)
def V4 (d : Dev nD) : Valuation τ sig (Elt F) := (op3 (F := F)).result ((op2 (F := F)).result ((op1 (F := F)).result ((op0 (F := F)).result (V0 m d))))

/-- The table's contents at the SparseCore call. -/
def TAB (d : Dev nD) : Buf (Elt F) (tabLoc d) := V4 m d r_v3

/-! ## The handshakes' payloads -/

def P : (K (F := F)).Pay (nD := nD) (Val := Elt F) (Name := ℕ) (U := UU) where
  st := fun q d c => match q with | 0 => bigSep Finset.univ fun i : Fin ((K (F := F)).nSub 0) => goRes m d (TAB m d) c i
  dn := fun q d c => match q with | 0 => bigSep Finset.univ fun i : Fin ((K (F := F)).nSub 0) => tdRes m d (TAB m d) c i
  go := fun q d c i => match q with | 0 => goRes m d (TAB m d) c i
  td := fun q d c i => match q with | 0 => tdRes m d (TAB m d) c i
  x := fun _ _ => iprop(emp)

instance goRes_storable (d : Dev nD) (ft : Buf (Elt F) (tabLoc d)) (c) (i) : BI.Storable (upEmb : UEmb _ (𝕄 F)) (goRes m d ft c i) := by
  unfold goRes; infer_instance
instance tdRes_storable (d : Dev nD) (ft : Buf (Elt F) (tabLoc d)) (c) (i) : BI.Storable (upEmb : UEmb _ (𝕄 F)) (tdRes m d ft c i) := by
  unfold tdRes; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-- The operands of a SparseCore are its tiles' shares, the results its tiles' results. -/
theorem vecSplit : (K (F := F)).VecSplit' (P m) 0 := by
  intro d c
  show (bigSep Finset.univ fun i : Fin ((K (F := F)).nSub 0) => goRes m d (TAB m d) c i) ⊢ |={Set.univ}=> iprop(
      (bigSep Finset.univ fun i : Fin ((K (F := F)).nSub 0) => goRes m d (TAB m d) c i)
      ∗ ((bigSep Finset.univ fun i : Fin ((K (F := F)).nSub 0) => tdRes m d (TAB m d) c i)
          -∗ (bigSep Finset.univ fun i : Fin ((K (F := F)).nSub 0) => tdRes m d (TAB m d) c i)))
  iintro H; imodintro
  isplitl [H]; · iexact H
  iintro H; iexact H

end Cert.Kernel.Hand

end
-- ==== Proof.KernelBits.KLaunchC.lean ====
import proofs.«209869_g82368882803221_cont_9to1_m_506_32_alg».proof.Proof.KernelBits.KCommon
import proofs.«209869_g82368882803221_cont_9to1_m_506_32_alg».proof.Proof.KernelBits.KLaunchB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## The launch theorem's obligation for the tiles -/

theorem defs₀_vector (c : Fin τ.nSC) (s : Fin τ.nSub) :
    defs₀ (F := F) (.scVector c s) 0 ()
      = SparseCore.onTile hcore0 hsub0 (fun c s => cc0__sc_gather (coordsV c s)
          (Memref.whole main_v3_scv) (Memref.isWhole_whole _) (Memref.whole main_arg1_scv) (Memref.isWhole_whole _) (Memref.whole main_v4_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1) ⟨⟩ c s := rfl

omit [FloatOps F] in
theorem obl_post {thr : Thread nD τ} {A A' B C : sProp (𝕄 F)} {O : CellTallies nD τ sig (HIx 1)} {W : Waits sig (HIx 1)} {q : Fin 1} (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

theorem tileObl (TB : TileBodySpec F) (hF : (K (F := F)).Facts) (hpre : ∀ d i, (m (tgtLoc d) i).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := TB d (coordsK c i) hF (TAB m d) (m (tgtLoc d)) (Transfers.shareTok fullShare 32 (wOf c i)) (hpre d) O W hO
  refine BI.Entails.trans ?_ (h.trans (wp_mono frame _ _ fun _ => ?_))
  · show iprop(_ ∗ emp ∗ goRes m d (TAB m d) c i ∗ _) ⊢ _
    unfold goRes
    iintro ⟨Hl, -, ⟨Ht, Hg, Ho⟩, Hb, Hs, HO⟩
    isplitl [Hl]; · iexact Hl
    isplitl [Ht]; · iexact Ht
    isplitl [Hg]; · iexact Hg
    isplitl [Ho]; · iexact Ho
    isplitl [Hb]; · iexact Hb
    isplitl [Hs]; · iexact Hs
    iexact HO
  · show _ ⊢ iprop(tdRes m d (TAB m d) c i ∗ _)
    unfold tdRes
    iintro ⟨Ht, Hg, Ho, Hrest⟩
    iapply (obl_post (q := 0) (BI.Entails.refl _))
    isplitl [Ht Hg Ho]
    · isplitl [Ht]; · iexact Ht
      isplitl [Hg]; · iexact Hg
      iexact Ho
    iexact Hrest

end Cert.Kernel.Hand

end
-- ==== Proof.KernelBits.KLaunchD.lean ====
import proofs.«209869_g82368882803221_cont_9to1_m_506_32_alg».proof.Proof.KernelBits.KCommon
import proofs.«209869_g82368882803221_cont_9to1_m_506_32_alg».proof.Proof.KernelBits.KLaunchB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

/-! ## The 32 slices of a 2048-vector: worker `w` has entries `64 w … 64 w + 63` -/

theorem hdiv32 : 32 ∣ S2048.size 0 := ⟨64, rfl⟩
abbrev piece (w : Fin 32) : Rect S2048 := Rect.part (s := S2048) (a₀ := 0) hdiv32 w
abbrev pieceSet (w : Fin 32) : Finset S2048.Idx := (piece w).set

/-- The worker of a grid point. -/
def wL (L : grid0.Coords) : Fin 32 :=
  ⟨2 * (L 1).val + (L 0).val, by
    have h1 : (L 1).val < 16 := (L 1).isLt
    have h0 : (L 0).val < 2 := (L 0).isLt
    omega⟩

theorem sl1_eq (L : grid0.Coords) : Rect.unit (s := S2048) (k0_off1 L) S64.size (k0_off1_inb L) = piece (wL L) := by
  unfold piece Rect.part Rect.block
  congr 1 <;> funext a
  · rw [k0_off1_eq]
    match a with
    | 0 => simp [Shape.partIx, Shape.partSize, wL]; omega
  · match a with
    | 0 => simp [Shape.partSize]
theorem sl2_eq (L : grid0.Coords) : Rect.unit (s := S2048) (k0_off2 L) S64.size (k0_off2_inb L) = piece (wL L) := by
  unfold piece Rect.part Rect.block
  congr 1 <;> funext a
  · rw [k0_off2_eq]
    match a with
    | 0 => simp [Shape.partIx, Shape.partSize, wL]; omega
  · match a with
    | 0 => simp [Shape.partSize]

theorem tgtSet_eq (L : grid0.Coords) : (tgtSl L).view.set = pieceSet (wL L) := by
  show ((View.whole (main_arg1_scv : Ref sig .scVector)).slice (Rect.unit (s := S2048) (k0_off1 L) S64.size (k0_off1_inb L))).set = _
  rw [View.set_slice_whole, sl1_eq]
theorem outSet_eq (L : grid0.Coords) : (outSl L).view.set = pieceSet (wL L) := by
  show ((View.whole (main_v4_scv : Ref sig .scVector)).slice (Rect.unit (s := S2048) (k0_off2 L) S64.size (k0_off2_inb L))).set = _
  rw [View.set_slice_whole, sl2_eq]

theorem pieces_disjoint : ∀ i ∈ (Finset.univ : Finset (Fin 32)), ∀ j ∈ (Finset.univ : Finset (Fin 32)), i ≠ j → Disjoint (pieceSet i) (pieceSet j) :=
  fun _ _ _ _ h => Rect.part_disjoint hdiv32 h
theorem pieces_cover : (Finset.univ : Finset (Fin 32)).biUnion pieceSet = Finset.univ := Rect.biUnion_part hdiv32

theorem tgt_pieces (d : Dev nD) (f : Buf (Elt F) (tgtLoc d)) :
    (tgtLoc d ↦{fullShare} f : sProp (𝕄 F)) = bigSep Finset.univ fun w : Fin 32 => tgtLoc d ↦[pieceSet w]{fullShare} f := by
  rw [← pointsTo_biUnion Finset.univ (ℓ := tgtLoc d) pieceSet pieces_disjoint, pieces_cover]; try rfl
theorem out_pieces (d : Dev nD) (f : Buf (Elt F) (outLoc d)) :
    (outLoc d ↦{fullShare} f : sProp (𝕄 F)) = bigSep Finset.univ fun w : Fin 32 => outLoc d ↦[pieceSet w]{fullShare} f := by
  rw [← pointsTo_biUnion Finset.univ (ℓ := outLoc d) pieceSet pieces_disjoint, pieces_cover]; try rfl

end Cert.Kernel.Hand

end
-- ==== Proof.KernelBits.KLaunchE.lean ====
import proofs.«209869_g82368882803221_cont_9to1_m_506_32_alg».proof.Proof.KernelBits.KCommon
import proofs.«209869_g82368882803221_cont_9to1_m_506_32_alg».proof.Proof.KernelBits.KLaunchC
import proofs.«209869_g82368882803221_cont_9to1_m_506_32_alg».proof.Proof.KernelBits.KLaunchD

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

/-! ## The workers, by SparseCore and tile -/

theorem wL_coordsK (c : Fin ((K (F := F)).nCore 0)) (i : Fin ((K (F := F)).nSub 0)) : wL (coordsK c i) = wOf c i := rfl

theorem wOf_injOn :
    Set.InjOn (fun ci : Fin ((K (F := F)).nCore 0) × Fin ((K (F := F)).nSub 0) => wOf ci.1 ci.2)
      ((Finset.univ ×ˢ Finset.univ : Finset (Fin ((K (F := F)).nCore 0) × Fin ((K (F := F)).nSub 0))) : Set _) := by
  rintro ⟨c, i⟩ - ⟨c', i'⟩ - e
  have hc : c.val < 2 := c.isLt
  have hc' : c'.val < 2 := c'.isLt
  have h : 2 * i.val + c.val = 2 * i'.val + c'.val := congrArg Fin.val e
  exact Prod.ext (Fin.ext (show c.val = c'.val by omega)) (Fin.ext (show i.val = i'.val by omega))

theorem wOf_image :
    ((Finset.univ ×ˢ Finset.univ : Finset (Fin ((K (F := F)).nCore 0) × Fin ((K (F := F)).nSub 0))).image fun ci => wOf ci.1 ci.2) = Finset.univ := by
  ext w
  simp only [Finset.mem_image, Finset.mem_product, Finset.mem_univ, and_self, true_and, iff_true]
  have hw : w.val < 32 := w.isLt
  exact ⟨(⟨w.val % 2, Nat.mod_lt _ (by omega)⟩, ⟨w.val / 2, by show w.val / 2 < 16; omega⟩), Fin.ext (by show 2 * (w.val / 2) + w.val % 2 = w.val; omega)⟩

/-- A family over the 32 workers, SparseCore by SparseCore and tile by tile. -/
theorem bigSep_workers (Φ : Fin 32 → sProp (𝕄 F)) :
    bigSep Finset.univ Φ
      = bigSep Finset.univ fun c : Fin ((K (F := F)).nCore 0) => bigSep Finset.univ fun i : Fin ((K (F := F)).nSub 0) => Φ (wOf c i) := by
  rw [← SparseCore.bigSep_product Finset.univ Finset.univ (fun ci : Fin ((K (F := F)).nCore 0) × Fin ((K (F := F)).nSub 0) => Φ (wOf ci.1 ci.2)),
    ← SparseCore.bigSep_image_of_injOn (wOf_injOn (F := F)) Φ, wOf_image]

end Cert.Kernel.Hand

end
-- ==== Proof.KernelBits.KLaunchF.lean ====
import proofs.«209869_g82368882803221_cont_9to1_m_506_32_alg».proof.Proof.KernelBits.KCommon
import proofs.«209869_g82368882803221_cont_9to1_m_506_32_alg».proof.Proof.KernelBits.KLaunchE

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

/-! ## The TensorCore's eleven HBM values, held one by one -/

abbrev S11 : Finset (DevRef τ sig) := {r_arg0, r_arg1, r_v0, r_v1, r_v2, r_v3, r_v4, r_v5, r_v6, r_v7, r_v8}

abbrev pl (d : Dev nD) (b : Ref sig .tc) (f : Buf (Elt F) ((SparseCore.T d : Thread nD τ).loc b)) : sProp (𝕄 F) := (SparseCore.T d : Thread nD τ).loc b ↦{fullShare} f

theorem held_S11 (d : Dev nD) (W : Valuation τ sig (Elt F)) :
    (held (T d) S11 W : sProp (𝕄 F))
      = iprop(pl d main_arg0 (W r_arg0) ∗ pl d main_arg1 (W r_arg1) ∗ pl d main_v0 (W r_v0) ∗ pl d main_v1 (W r_v1) ∗ pl d main_v2 (W r_v2) ∗ pl d main_v3 (W r_v3) ∗ pl d main_v4 (W r_v4) ∗ pl d main_v5 (W r_v5) ∗ pl d main_v6 (W r_v6) ∗ pl d main_v7 (W r_v7) ∗ pl d main_v8 (W r_v8)) := by
  unfold held S11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp (𝕄 F))
      = iprop(pl d main_arg0 (W main_arg0) ∗ pl d main_arg1 (W main_arg1) ∗ pl d main_v0 (W main_v0) ∗ pl d main_v1 (W main_v1) ∗ pl d main_v2 (W main_v2) ∗ pl d main_v3 (W main_v3) ∗ pl d main_v4 (W main_v4) ∗ pl d main_v5 (W main_v5) ∗ pl d main_v6 (W main_v6) ∗ pl d main_v7 (W main_v7) ∗ pl d main_v8 (W main_v8)) := by
  unfold unscopedBufs
  rw [show (Finset.univ.filter fun b : Ref sig .tc => ¬ b.isScoped) = {main_arg0, main_arg1, main_v0, main_v1, main_v2, main_v3, main_v4, main_v5, main_v6, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d : Thread nD τ).loc b)) : sProp (𝕄 F)) = held (T d) S11 (V0 m d) := by
  rw [unscopedBufs_eq, held_S11]; rfl

variable [FloatOps F]

theorem h_op0 : (op0 (F := F)).bufs ⊆ S11 := show ({r_arg0, r_v0} : Finset (DevRef τ sig)) ⊆ S11 by decide
theorem h_op1 : (op1 (F := F)).bufs ⊆ S11 := show ({r_v0, r_v1} : Finset (DevRef τ sig)) ⊆ S11 by decide
theorem h_op2 : (op2 (F := F)).bufs ⊆ S11 := show ({r_v1, r_v2} : Finset (DevRef τ sig)) ⊆ S11 by decide
theorem h_op3 : (op3 (F := F)).bufs ⊆ S11 := show ({r_v2, r_v3} : Finset (DevRef τ sig)) ⊆ S11 by decide
theorem h_op5 : (op5 (F := F)).bufs ⊆ S11 := show ({r_arg1, r_v5} : Finset (DevRef τ sig)) ⊆ S11 by decide
theorem h_op6 : (op6 (F := F)).bufs ⊆ S11 := show ({r_v4, r_v6} : Finset (DevRef τ sig)) ⊆ S11 by decide
theorem h_op8 : (op8 (F := F)).bufs ⊆ S11 := show ({r_v7, r_v8} : Finset (DevRef τ sig)) ⊆ S11 by decide

end Cert.Kernel.Hand

end
-- ==== Proof.KernelBits.KRegionData.lean ====
/-
  The proof data of the TensorCore region: what the 50 grid points of the loss kernel leave, point by point.

  Grid point `t` stages rows `2000 t … 2000 t + 1999` of the transposed logits (a block `X` of 2000 rows of 2048) and
  adds them, sixteen rows a trip, into two carried 8-row accumulators (`accAt X k`: the sum of exponentials and the
  plain sum of the rows before trip `k`); after the 125 trips the accumulators are folded down their 8 rows onto the
  two running rows kept in scratch.  Point 0 first clears those two rows and keeps row 0 of its block in a third;
  point 49 last turns the three rows, the targets and the gathered logits into the one number of the result.
-/
import proofs.«209869_g82368882803221_cont_9to1_m_506_32_alg».proof.Proof.KernelBits.KCommon
import proofs.«209869_g82368882803221_cont_9to1_m_506_32_alg».proof.Proof.Gen.Kernel.Loops
import Idealize.ShloMosaic.Lib.Pipeline.Frame
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One whole-block store read back -/

/-- A store of the whole shape (offsets 0, the shape's sizes, unit strides), the last of a list of stores, leaves
    its payload: every element lies under it. -/
theorem read_writes_cons_full {sg : RefSig} {κ : Kind} {sp : Space} {s : Shape} {e : EltTy} {Val : EltTy → Type}
    (v : View sg κ sp s e) (f : v.ty.Contents Val) (off : Fin s.rank → Nat) (hoff : ∀ a, off a = 0)
    (inb : ∀ a, off a + s.size a ≤ s.size a) (w : s.Idx → Val e) (L : List (View.Piece Val s e)) :
    v.read Val (v.writes Val f (⟨Rect.unit off s.size inb, w⟩ :: L)) = w := by
  funext y
  have h := View.read_writes_cons_emb v f (Rect.unit off s.size inb) w L y
  have he : (Rect.unit off s.size inb).emb y = y := by
    funext a; apply Fin.ext; show off a + 1 * (y a : Nat) = y a; rw [hoff]; omega
  rwa [he] at h

/-- A load through a whole memref held at the raw contents that read `X` reads `X` at the box's indices. -/
theorem readAt_unread {sg : RefSig} {κ : Kind} {sp : Space} {s : Shape} {e : EltTy} {Val : EltTy → Type}
    {m : Memref sg κ sp s e} (h : m.IsWhole) (r : LoadRect s) (X : s.Idx → Val e) :
    m.view.readAt Val r (h.unread X) = fun j => X (r.idx j) := by
  funext j; rw [View.readAt_apply, h.read_unread]

/-! ## The counted loop's carried value -/

/-- Eight rows of a block of 2000, from row `off 0`. -/
def rows8 (X : Vec F S2000x2048 .f32) (off : Fin 2 → Nat) (inb : ∀ a, off a + S8x2048.size a ≤ S2000x2048.size a) :
    Vec F S8x2048 .f32 :=
  fun j => X ((Rect.unit (s := S2000x2048) off S8x2048.size inb).toLoadRect.idx j)

/-- Trip `k` reads rows `16 k … 16 k + 7` -/
def ld1 (X : Vec F S2000x2048 .f32) (k : Fin k1_t1_loop.trips) : Vec F S8x2048 .f32 := rows8 X (k1_off1 k) (k1_off1_inb k)
/-- and rows `16 k + 8 … 16 k + 15` of the block. -/
def ld2 (X : Vec F S2000x2048 .f32) (k : Fin k1_t1_loop.trips) : Vec F S8x2048 .f32 := rows8 X (k1_off2 k) (k1_off2_inb k)

/-- One trip on the carried pair: the exponentials of the sixteen rows added to the first, the rows to the second;
    past the last trip, nothing. -/
def accStep (X : Vec F S2000x2048 .f32) (k : ℕ) (prev : FVec F S8x2048 .f32 × FVec F S8x2048 .f32) :
    FVec F S8x2048 .f32 × FVec F S8x2048 .f32 :=
  if h : k < k1_t1_loop.trips then
    (k1_pay8 prev.1 (ld1 X ⟨k, h⟩) (ld2 X ⟨k, h⟩), k1_pay9 prev.2 (ld1 X ⟨k, h⟩) (ld2 X ⟨k, h⟩))
  else prev

/-- The carried pair before trip `k` over the block `X`: zeros before the first. -/
def accAt (X : Vec F S2000x2048 .f32) : ℕ → FVec F S8x2048 .f32 × FVec F S8x2048 .f32
  | 0 => (k1_pay5, k1_pay5)
  | k + 1 => accStep X k (accAt X k)

theorem accAt_zero (X : Vec F S2000x2048 .f32) : accAt X 0 = (k1_pay5, k1_pay5) := rfl

theorem accAt_succ (X : Vec F S2000x2048 .f32) (k : Fin k1_t1_loop.trips) :
    accAt X (k.val + 1)
      = (k1_pay8 (accAt X k.val).1 (ld1 X k) (ld2 X k), k1_pay9 (accAt X k.val).2 (ld1 X k) (ld2 X k)) := by
  rw [accAt]; unfold accStep; exact dif_pos k.isLt

/-- The carried pair after the last trip. -/
def accFin (X : Vec F S2000x2048 .f32) : FVec F S8x2048 .f32 × FVec F S8x2048 .f32 := accAt X k1_t1_loop.trips

/-! ## The three scratch rows -/

/-- The running sum of exponentials, the running sum, and row 0 of the first block. -/
abbrev Scr (F : FTy → Type) : Type := Vec F S1x2048 .f32 × Vec F S1x2048 .f32 × Vec F S1x2048 .f32

/-- Row 0 of a block. -/
def row0 (X : Vec F S2000x2048 .f32) : Vec F S1x2048 .f32 :=
  fun j => X ((Rect.unit (s := S2000x2048) ![0, 0] S1x2048.size inb_S2000x2048_S1x2048_0_0).toLoadRect.idx j)

/-- What the first point's reset leaves: two rows of zeros and row 0 of its block. -/
def scrReset (X : Vec F S2000x2048 .f32) : Scr F := (k1_pay2, k1_pay3, k1_pay4 (row0 X))

/-- What a point adds over its block `X`: the two accumulators, folded down their 8 rows, onto the two running rows. -/
def scrStep (X : Vec F S2000x2048 .f32) (p : Scr F) : Scr F :=
  (k1_pay10 (accFin X).1 p.1, k1_pay11 (accFin X).2 p.2.1, p.2.2)

/-- The scratch rows after point `n`, over the blocks `B n` the points stage. -/
def scrAt (B : ℕ → Vec F S2000x2048 .f32) : ℕ → Scr F
  | 0 => scrStep (B 0) (scrReset (B 0))
  | n + 1 => scrStep (B (n + 1)) (scrAt B n)

theorem scrAt_zero (B : ℕ → Vec F S2000x2048 .f32) : scrAt B 0 = scrStep (B 0) (scrReset (B 0)) := rfl
theorem scrAt_succ (B : ℕ → Vec F S2000x2048 .f32) (n : ℕ) : scrAt B (n + 1) = scrStep (B (n + 1)) (scrAt B n) := rfl

/-! ## The windows' blocks -/

variable (c : Dev nD)

/-- Window `w`'s block at point `t`, read off the array `A` the region finds. -/
def blkOf (w : Fin cfg1.W) (A : Buf (Elt F) ((cfg1.win w).arr.view.loc (c.tc : Thread nD τ))) (t : Fin cfg1.N) :
    ((cfg1.win w).xblock (cfg1.grid.coords t)).Idx → Elt F (cfg1.win w).elt :=
  ((cfg1.win w).blk t).view.read (Elt F) A

/-- Point number `n` of the grid (numbers past the grid wrap: nothing reads them). -/
def pt (n : ℕ) : Fin cfg1.N := ⟨n % 50, Nat.mod_lt _ (by decide)⟩

theorem pt_val (t : Fin cfg1.N) : pt t.val = t :=
  Fin.ext (Nat.mod_eq_of_lt (lt_of_lt_of_eq t.isLt (show cfg1.N = 50 from N_1)))

variable (A5 : Buf (Elt F) ((c : Thread nD τ).loc main_v5)) (A6 : Buf (Elt F) ((c : Thread nD τ).loc main_v6))
  (A0 : Buf (Elt F) ((c : Thread nD τ).loc main_v0)) (A7 : Buf (Elt F) ((c : Thread nD τ).loc main_v7))

/-- The block of the transposed logits point number `n` stages. -/
def logitsBlk (n : ℕ) : Vec F S2000x2048 .f32 := blkOf c 2 A0 (pt n)

/-- The scratch rows after point number `n`. -/
def scr (n : ℕ) : Scr F := scrAt (logitsBlk c A0) n

/-- What the last point stores into the result's staging buffer, stated at every point: the loss from the targets,
    the scratch rows after the point and the gathered logits. -/
def lossAt (t : Fin cfg1.N) : Vec F S1x1 .f32 :=
  k1_pay12 (k1_pay1 (blkOf c 0 A5 t)) (scr c A0 t.val).1 (scr c A0 t.val).2.2 (blkOf c 1 A6 t) (scr c A0 t.val).2.1

/-! ## The invariant: the scratch rows between points -/

/-- The three scratch buffers whole at the rows `p`. -/
def scrHeld (p : Scr F) : sProp (𝕄 F) :=
  iprop(owns (c : Thread nD τ) (Memref.whole cc1_scratch0) fullShare p.1
    ∗ owns (c : Thread nD τ) (Memref.whole cc1_scratch1) fullShare p.2.1
    ∗ owns (c : Thread nD τ) (Memref.whole cc1_scratch2) fullShare p.2.2)

/-- Before point `n`: at the first, the scratch buffers at anything; after point `n - 1`, at `scr (n - 1)`. -/
def PhiAt : ℕ → sProp (𝕄 F)
  | 0 => iprop(∃ p : Scr F, scrHeld c p)
  | n + 1 => scrHeld c (scr c A0 n)

/-! ## The proof data -/

/-- The proof data of the region on core `c`, from the arrays the region finds: the targets as [1,2048], the
    gathered logits as [1,2048], the transposed logits, the result's array.  The core owes nothing and the body waits
    for nothing: the pairs its waits recorded before the region — all of level at most 8 — bound the recorded set at
    every point. -/
def dats : Dat τ (Elt F) (HIx 1) ℕ UU ℕ cfg1 c where
  A w := match w with
    | ⟨0, _⟩ => A5
    | ⟨1, _⟩ => A6
    | ⟨2, _⟩ => A0
    | ⟨3, _⟩ => A7
  after w t := match w with
    | ⟨0, _⟩ => blkOf c 0 A5 t
    | ⟨1, _⟩ => blkOf c 1 A6 t
    | ⟨2, _⟩ => blkOf c 2 A0 t
    | ⟨3, _⟩ => lossAt c A5 A6 A0 t
  Φ n := PhiAt c A0 n.val
  q _ := fullShare
  owed _ := 0
  recorded _ := {p : SemLoc sig × HIx 1 | (K (F := F)).lev ((c : Thread nD τ), p.1) p.2 ≤ 8}

theorem A_0 : (dats c A5 A6 A0 A7).A 0 = A5 := by dsimp only [dats]
theorem A_1 : (dats c A5 A6 A0 A7).A 1 = A6 := by dsimp only [dats]
theorem A_2 : (dats c A5 A6 A0 A7).A 2 = A0 := by dsimp only [dats]
theorem A_3 : (dats c A5 A6 A0 A7).A 3 = A7 := by dsimp only [dats]

theorem after1_0 (t : Fin cfg1.N) : (dats c A5 A6 A0 A7).after 0 t = blkOf c 0 A5 t := by dsimp only [dats]
theorem after1_1 (t : Fin cfg1.N) : (dats c A5 A6 A0 A7).after 1 t = blkOf c 1 A6 t := by dsimp only [dats]
theorem after1_2 (t : Fin cfg1.N) : (dats c A5 A6 A0 A7).after 2 t = blkOf c 2 A0 t := by dsimp only [dats]
theorem after1_3 (t : Fin cfg1.N) : (dats c A5 A6 A0 A7).after 3 t = lossAt c A5 A6 A0 t := by dsimp only [dats]

theorem Φ_eq (n : Fin (cfg1.N + 1)) : (dats c A5 A6 A0 A7).Φ n = PhiAt c A0 n.val := rfl
theorem Φ_zero : (dats c A5 A6 A0 A7).Φ 0 = iprop(∃ p : Scr F, scrHeld c p) := rfl
theorem Φ_succ (t : Fin cfg1.N) : (dats c A5 A6 A0 A7).Φ t.succ = scrHeld c (scr c A0 t.val) := rfl
theorem Φ_last : (dats c A5 A6 A0 A7).Φ (Fin.last cfg1.N) = scrHeld c (scr c A0 49) := rfl
theorem owed_eq (n : Fin (cfg1.N + 1)) : (dats c A5 A6 A0 A7).owed n = 0 := rfl
/-- The pairs the core's waits have recorded stay, at every point, among those of level at most 8. -/
theorem recorded_eq (n : Fin (cfg1.N + 1)) :
    (dats c A5 A6 A0 A7).recorded n = {p : SemLoc sig × HIx 1 | (K (F := F)).lev ((c : Thread nD τ), p.1) p.2 ≤ 8} := rfl
theorem share_full (w : Fin cfg1.W) : (dats c A5 A6 A0 A7).share w = fullShare :=
  (dats c A5 A6 A0 A7).share_full (fun _ => rfl) w

end Cert.Kernel.Hand

end
-- ==== Proof.KernelBits.KVals.lean ====
import proofs.«209869_g82368882803221_cont_9to1_m_506_32_alg».proof.Proof.KernelBits.KCommon
import proofs.«209869_g82368882803221_cont_9to1_m_506_32_alg».proof.Proof.KernelBits.KLaunchB
import proofs.«209869_g82368882803221_cont_9to1_m_506_32_alg».proof.Proof.KernelBits.KRegionData

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The valuations @main passes through after the SparseCore call, and its result -/

/-- What the gathered-logits array holds after the call: at position `n` the table entry the kernel picks for it. -/
def OUT (d : Dev nD) : Buf (Elt F) (outLoc d) := fun x => picked d (TAB m d) (m (tgtLoc d)) (x 0)

/-- After the call: the gathered logits at what the tiles picked. -/
def V5 (d : Dev nD) : Valuation τ sig (Elt F) := Function.update (V4 m d) r_v4 (OUT m d)
/-- After the two reshapes. -/
def V6 (d : Dev nD) : Valuation τ sig (Elt F) := (op6 (F := F)).result ((op5 (F := F)).result (V5 m d))

/-- What the region finds in its four arrays. -/
def A5 (d : Dev nD) : Buf (Elt F) ((d : Thread nD τ).loc main_v5) := V6 m d r_v5
def A6 (d : Dev nD) : Buf (Elt F) ((d : Thread nD τ).loc main_v6) := V6 m d r_v6
def A0 (d : Dev nD) : Buf (Elt F) ((d : Thread nD τ).loc main_v0) := V6 m d r_v0
def A7 (d : Dev nD) : Buf (Elt F) ((d : Thread nD τ).loc main_v7) := V6 m d r_v7

/-- What the region leaves in its result array. -/
def RES (d : Dev nD) : Buf (Elt F) ((d : Thread nD τ).loc main_v7) := (dats d (A5 m d) (A6 m d) (A0 m d) (A7 m d)).arrAt 3 cfg1.N

/-- After the region, and the program's result. -/
def V7 (d : Dev nD) : Valuation τ sig (Elt F) := Function.update (V6 m d) r_v7 (RES m d)
def VAL (d : Dev nD) : Buf (Elt F) ((d : Thread nD τ).loc main_v8) := (op8 (F := F)).result (V7 m d) r_v8

end Cert.Kernel.Hand

end
-- ==== Proof.KernelBits.KLaunchG.lean ====
import proofs.«209869_g82368882803221_cont_9to1_m_506_32_alg».proof.Proof.KernelBits.KCommon
import proofs.«209869_g82368882803221_cont_9to1_m_506_32_alg».proof.Proof.KernelBits.KLaunchF
import proofs.«209869_g82368882803221_cont_9to1_m_506_32_alg».proof.Proof.KernelBits.KVals

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)
variable [FloatOps F]

/-! ## From the whole arrays to the tiles' shares, and back with what the tiles picked -/

/-- What a worker is handed, and hands back, in terms of its number. -/
def GO (d : Dev nD) (fo : Buf (Elt F) (outLoc d)) (w : Fin 32) : sProp (𝕄 F) :=
  iprop((tabLoc d ↦{Transfers.shareTok fullShare 32 w} TAB m d) ∗ (tgtLoc d ↦[pieceSet w]{fullShare} m (tgtLoc d)) ∗ (outLoc d ↦[pieceSet w]{fullShare} fo))
def TD (d : Dev nD) (w : Fin 32) : sProp (𝕄 F) :=
  iprop((tabLoc d ↦{Transfers.shareTok fullShare 32 w} TAB m d) ∗ (tgtLoc d ↦[pieceSet w]{fullShare} m (tgtLoc d)) ∗ (outLoc d ↦[pieceSet w]{fullShare} OUT m d))

theorem GO_goRes (d : Dev nD) (fo : Buf (Elt F) (outLoc d)) (c : Fin ((K (F := F)).nCore 0)) (i : Fin ((K (F := F)).nSub 0)) :
    GO m d fo (wOf c i) ⊢ goRes m d (TAB m d) c i := by
  unfold GO goRes
  rw [tgtSet_eq, outSet_eq, wL_coordsK]
  iintro ⟨Ht, Hg, Ho⟩
  isplitl [Ht]; · iexact Ht
  isplitl [Hg]; · iexact Hg
  iexists fo; iexact Ho

omit [FloatOps F] in
theorem emb_outSl (L : grid0.Coords) (j : S64.Idx) : (((outSl L).view.emb j) 0 : Fin 2048) = posOf L j := by
  apply Fin.ext
  show (k0_off2 L) 0 + 1 * (j 0).val = 128 * (L 1).val + 64 * (L 0).val + (j 0).val
  rw [k0_off2_eq]
  simp

theorem piece_value (d : Dev nD) (L : grid0.Coords) (f : Buf (Elt F) (outLoc d))
    (hf : ∀ j : S64.Idx, f ((outSl L).view.emb j) = picked d (TAB m d) (m (tgtLoc d)) (posOf L j)) :
    ∀ x ∈ (outSl L).view.set, f x = OUT m d x := by
  intro x hx
  obtain ⟨j, -, rfl⟩ := Finset.mem_map.mp hx
  rw [hf j]; unfold OUT; rw [emb_outSl]

theorem tdRes_TD (d : Dev nD) (c : Fin ((K (F := F)).nCore 0)) (i : Fin ((K (F := F)).nSub 0)) :
    tdRes m d (TAB m d) c i ⊢ TD m d (wOf c i) := by
  unfold tdRes TD
  iintro ⟨Ht, Hg, %f, %hf, Ho⟩
  isplitl [Ht]; · iexact Ht
  isplitl [Hg]; · rw [← wL_coordsK, ← tgtSet_eq]; iexact Hg
  rw [← wL_coordsK, ← outSet_eq,
    show (outLoc d ↦[(outSl (coordsK c i)).view.set]{fullShare} OUT m d : sProp (𝕄 F)) = outLoc d ↦[(outSl (coordsK c i)).view.set]{fullShare} f from
      (pointsTo_congr (piece_value m d (coordsK c i) f hf)).symm]
  iexact Ho

/-- The whole arrays dealt to the two SparseCores' tiles; a remainder of the table's share stays behind. -/
theorem st0_intro (d : Dev nD) (fo : Buf (Elt F) (outLoc d)) :
    iprop((tabLoc d ↦{fullShare} TAB m d) ∗ (tgtLoc d ↦{fullShare} m (tgtLoc d)) ∗ (outLoc d ↦{fullShare} fo))
      ⊢ iprop((tabLoc d ↦{Transfers.shareDrop fullShare 32} TAB m d) ∗ bigSep Finset.univ fun c : Fin ((K (F := F)).nCore 0) => (P m).st 0 d c) := by
  have hgo : (bigSep Finset.univ fun w : Fin 32 => GO m d fo w) ⊢ bigSep Finset.univ fun c : Fin ((K (F := F)).nCore 0) => (P m).st 0 d c := by
    rw [bigSep_workers]
    exact bigSep_mono fun c _ => (show _ ⊢ (bigSep Finset.univ fun i : Fin ((K (F := F)).nSub 0) => goRes m d (TAB m d) c i) from
      bigSep_mono fun i _ => GO_goRes m d fo c i)
  have hGO : (bigSep Finset.univ fun w : Fin 32 => GO m d fo w)
      = iprop((bigSep Finset.univ fun w : Fin 32 => (tabLoc d ↦{Transfers.shareTok fullShare 32 w} TAB m d : sProp (𝕄 F)))
        ∗ (bigSep Finset.univ fun w : Fin 32 => (tgtLoc d ↦[pieceSet w]{fullShare} m (tgtLoc d) : sProp (𝕄 F)))
        ∗ (bigSep Finset.univ fun w : Fin 32 => (outLoc d ↦[pieceSet w]{fullShare} fo : sProp (𝕄 F)))) := by
    unfold GO; rw [bigSep_sep', bigSep_sep']
  rw [tgt_pieces, out_pieces]
  iintro ⟨Ht, Hg, Ho⟩
  ihave Ht' := (Transfers.pointsTo_toks_split fullShare 32) $$ Ht
  icases Ht' with ⟨Hrem, Htok⟩
  isplitl [Hrem]; · iexact Hrem
  iapply hgo
  iapply (Entails.of_eq hGO.symm)
  isplitl [Htok]; · iexact Htok
  isplitl [Hg]; · iexact Hg
  iexact Ho

/-- And back: the table whole again, the targets whole, the gathered logits at what the tiles picked. -/
theorem dn0_elim (d : Dev nD) :
    iprop((tabLoc d ↦{Transfers.shareDrop fullShare 32} TAB m d) ∗ bigSep Finset.univ fun c : Fin ((K (F := F)).nCore 0) => (P m).dn 0 d c)
      ⊢ iprop((tabLoc d ↦{fullShare} TAB m d) ∗ (tgtLoc d ↦{fullShare} m (tgtLoc d)) ∗ (outLoc d ↦{fullShare} OUT m d)) := by
  have htd : (bigSep Finset.univ fun c : Fin ((K (F := F)).nCore 0) => (P m).dn 0 d c) ⊢ bigSep Finset.univ fun w : Fin 32 => TD m d w := by
    rw [bigSep_workers (fun w => TD m d w)]
    exact bigSep_mono fun c _ => (show (bigSep Finset.univ fun i : Fin ((K (F := F)).nSub 0) => tdRes m d (TAB m d) c i) ⊢ _ from
      bigSep_mono fun i _ => tdRes_TD m d c i)
  have hTD : (bigSep Finset.univ fun w : Fin 32 => TD m d w)
      = iprop((bigSep Finset.univ fun w : Fin 32 => (tabLoc d ↦{Transfers.shareTok fullShare 32 w} TAB m d : sProp (𝕄 F)))
        ∗ (bigSep Finset.univ fun w : Fin 32 => (tgtLoc d ↦[pieceSet w]{fullShare} m (tgtLoc d) : sProp (𝕄 F)))
        ∗ (bigSep Finset.univ fun w : Fin 32 => (outLoc d ↦[pieceSet w]{fullShare} OUT m d : sProp (𝕄 F)))) := by
    unfold TD; rw [bigSep_sep', bigSep_sep']
  rw [tgt_pieces, out_pieces]
  iintro ⟨Hrem, Hdn⟩
  ihave H0 := htd $$ Hdn
  ihave H := (Entails.of_eq hTD) $$ H0
  icases H with ⟨Htok, Hg, Ho⟩
  isplitl [Hrem Htok]
  · iapply (Transfers.pointsTo_toks_join fullShare 32)
    isplitl [Hrem]; · iexact Hrem
    iexact Htok
  isplitl [Hg]; · iexact Hg
  iexact Ho

end Cert.Kernel.Hand

end
-- ==== Proof.KernelBits.KHostVals.lean ====
/-
  What the host operations of the program compute, read at an index. Before the gather the logits [2048, 100000] are
  transposed to [100000, 2048], cut row-major into [12500, 8, 16, 128] (vocabulary row v = 8 a + b, position n = 128 c + l),
  the two middle axes swapped, and flattened row-major to [1600000, 128]: the entry of vocabulary row v and position n
  lands in table row ((v / 8) * 16 + n / 128) * 8 + v % 8 = v / 8 * 128 + v % 8 + n / 128 * 8, lane n % 128. After it the
  targets and the gathered logits are viewed as one row each, and the [1, 1] result as a scalar.
-/
import proofs.«209869_g82368882803221_cont_9to1_m_506_32_alg».proof.Proof.KernelBits.KLaunchB
import proofs.«209869_g82368882803221_cont_9to1_m_506_32_alg».proof.Proof.KernelBits.KTileDefs
import Idealize.ShloMosaic.Lib.ValueIdx
import Idealize.ShloMosaic.Lib.Pipeline.Value

noncomputable section

namespace Cert.Kernel.Hand

open Cert.Kernel Cert.Kernel.Gen
open Idealize.ShloMosaic Idealize.ShloMosaic.ValueIdx
open Idealize.SL.Sem

variable {F : FTy → Type} [FloatOps F] (m : (ℓ : Loc nD τ sig) → Buf (Elt F) ℓ)

/-! ## The table -/

/-- The table as one term over the logits: the four layout operations composed. -/
theorem TAB_eq (d : Dev nD) :
    TAB m d = shapeCast S1600000x128 (transpose S12500x16x8x128 [0, 2, 1, 3]
      (shapeCast S12500x8x16x128 (transpose S100000x2048 [1, 0] (m (d, r_arg0)) transposes_S2048x100000_S100000x2048_1_0)
        shapeCasts_S100000x2048_S12500x8x16x128) transposes_S12500x8x16x128_S12500x16x8x128_0_2_1_3)
      shapeCasts_S12500x16x8x128_S1600000x128 := by
  unfold TAB V4
  rw [StableHlo.reshape_result', StableHlo.unary_result', StableHlo.reshape_result', StableHlo.unary_result']
  rfl

/-- THE TABLE read at the row and lane of vocabulary row `v` and position `n`: the logit of position `n`, column `v`. -/
theorem TAB_apply (d : Dev nD) (n : Fin 2048) (v : Fin 100000)
    (hR : v.val / 8 * 128 + v.val % 8 + n.val / 128 * 8 < 1600000) (hl : n.val % 128 < 128) :
    TAB m d (ix2 (⟨v.val / 8 * 128 + v.val % 8 + n.val / 128 * 8, hR⟩ : Fin 1600000) (⟨n.val % 128, hl⟩ : Fin 128))
      = m (d, r_arg0) (ix2 n v) := by
  have hv := v.isLt
  have hn := n.isLt
  rw [TAB_eq]
  -- the flattening [12500, 16, 8, 128] → [1600000, 128]
  refine (shapeCast_apply _ _ _
    (ix4 (⟨v.val / 8, by omega⟩ : Fin 12500) (⟨n.val / 128, by omega⟩ : Fin 16) (⟨v.val % 8, by omega⟩ : Fin 8) (⟨n.val % 128, hl⟩ : Fin 128)) ?_).trans ?_
  · rw [Shape.rowMajor_val_four, Shape.rowMajor_val_two]
    show ((v.val / 8 * 16 + n.val / 128) * 8 + v.val % 8) * 128 + n.val % 128
      = (v.val / 8 * 128 + v.val % 8 + n.val / 128 * 8) * 128 + n.val % 128
    omega
  -- the swap of the two middle axes
  refine (transpose_apply _ _ _ _
    (ix4 (⟨v.val / 8, by omega⟩ : Fin 12500) (⟨v.val % 8, by omega⟩ : Fin 8) (⟨n.val / 128, by omega⟩ : Fin 16) (⟨n.val % 128, hl⟩ : Fin 128)) ?_).trans ?_
  · intro b
    match b with
    | ⟨0, _⟩ => rfl
    | ⟨1, _⟩ => rfl
    | ⟨2, _⟩ => rfl
    | ⟨3, _⟩ => rfl
  -- the cut [100000, 2048] → [12500, 8, 16, 128]
  refine (shapeCast_apply _ _ _ (ix2 v n) ?_).trans ?_
  · rw [Shape.rowMajor_val_four, Shape.rowMajor_val_two]
    show v.val * 2048 + n.val = ((v.val / 8 * 8 + v.val % 8) * 16 + n.val / 128) * 128 + n.val % 128
    omega
  -- the transposition of the logits
  refine transpose_apply _ _ _ _ (ix2 n v) ?_
  intro b
  match b with
  | ⟨0, _⟩ => rfl
  | ⟨1, _⟩ => rfl

/-- In the words of the tile's specification: with the table at its value and a target below 100000, the entry picked for
    position `n` is the logit of position `n` at the target's column. -/
theorem picked_TAB (d : Dev nD) (tg : Buf (Elt F) (tgtLoc d)) (n : Fin 2048) (h : (tg (ix1 n)).toNat < 100000) :
    picked d (TAB m d) tg n = m (d, r_arg0) (ix2 n (⟨(tg (ix1 n)).toNat, h⟩ : Fin 100000)) := by
  have hn := n.isLt
  have hX : (tg (ix1 n)).toNat / 8 * 128 + (tg (ix1 n)).toNat % 8 + n.val / 128 * 8 < 1600000 := by omega
  have e : ∀ hm, (⟨((tg (ix1 n)).toNat / 8 * 128 + (tg (ix1 n)).toNat % 8 + n.val / 128 * 8) % 1600000, hm⟩ : Fin 1600000)
      = ⟨(tg (ix1 n)).toNat / 8 * 128 + (tg (ix1 n)).toNat % 8 + n.val / 128 * 8, hX⟩ := fun _ => Fin.ext (Nat.mod_eq_of_lt hX)
  unfold picked
  rw [e]
  exact TAB_apply m d n ⟨_, h⟩ hX _

/-! ## The buffers the four operations do not write -/

/-- A buffer that is none of the four results keeps its launch contents. -/
theorem V4_of_ne (d : Dev nD) (r : Ref sig .tc) (h0 : r ≠ main_v0) (h1 : r ≠ main_v1) (h2 : r ≠ main_v2) (h3 : r ≠ main_v3) :
    V4 m d (Proc.devRef .tc r) = m (d, Proc.devRef .tc r) := by
  unfold V4
  rw [StableHlo.reshape_result_ne (h := h3), StableHlo.unary_result_ne (h := h2), StableHlo.reshape_result_ne (h := h1),
    StableHlo.unary_result_ne (h := h0)]
  rfl

theorem V4_arg0 (d : Dev nD) : V4 m d r_arg0 = m (d, r_arg0) := V4_of_ne m d main_arg0 (by decide) (by decide) (by decide) (by decide)
theorem V4_arg1 (d : Dev nD) : V4 m d r_arg1 = m (d, r_arg1) := V4_of_ne m d main_arg1 (by decide) (by decide) (by decide) (by decide)
theorem V4_v4 (d : Dev nD) : V4 m d r_v4 = m (d, r_v4) := V4_of_ne m d main_v4 (by decide) (by decide) (by decide) (by decide)
theorem V4_v5 (d : Dev nD) : V4 m d r_v5 = m (d, r_v5) := V4_of_ne m d main_v5 (by decide) (by decide) (by decide) (by decide)
theorem V4_v6 (d : Dev nD) : V4 m d r_v6 = m (d, r_v6) := V4_of_ne m d main_v6 (by decide) (by decide) (by decide) (by decide)
theorem V4_v7 (d : Dev nD) : V4 m d r_v7 = m (d, r_v7) := V4_of_ne m d main_v7 (by decide) (by decide) (by decide) (by decide)
theorem V4_v8 (d : Dev nD) : V4 m d r_v8 = m (d, r_v8) := V4_of_ne m d main_v8 (by decide) (by decide) (by decide) (by decide)

/-! ## The transposed logits -/

theorem V4_v0_eq (d : Dev nD) :
    V4 m d r_v0 = transpose S100000x2048 [1, 0] (m (d, r_arg0)) transposes_S2048x100000_S100000x2048_1_0 := by
  unfold V4
  rw [StableHlo.reshape_result_ne (r := main_v0) (h := by decide), StableHlo.unary_result_ne (r := main_v0) (h := by decide),
    StableHlo.reshape_result_ne (r := main_v0) (h := by decide), StableHlo.unary_result']
  rfl

theorem V4_v0_apply (d : Dev nD) (v : Fin 100000) (n : Fin 2048) : V4 m d r_v0 (ix2 v n) = m (d, r_arg0) (ix2 n v) := by
  rw [V4_v0_eq]
  refine transpose_apply _ _ _ _ (ix2 n v) ?_
  intro b
  match b with
  | ⟨0, _⟩ => rfl
  | ⟨1, _⟩ => rfl

/-! ## The reshapes after the gather -/

variable (W : Valuation τ sig (Elt F))

theorem op5_apply (n : Fin 2048) : (op5 (F := F)).result W r_v5 (ix2 (0 : Fin 1) n) = W r_arg1 (ix1 n) := by
  rw [StableHlo.reshape_result']
  refine shapeCast_apply _ _ _ (ix1 n) ?_
  show (S2048.rowMajor (ix1 n)).val = (S1x2048.rowMajor (ix2 (0 : Fin 1) n)).val
  rw [Shape.rowMajor_val_one, Shape.rowMajor_val_two]
  show n.val = 0 * 2048 + n.val
  omega
theorem op5_ne (r : Ref sig .tc) (h : r ≠ main_v5) : (op5 (F := F)).result W (Proc.devRef .tc r) = W (Proc.devRef .tc r) :=
  StableHlo.reshape_result_ne (h := h) ..

theorem op6_apply (n : Fin 2048) : (op6 (F := F)).result W r_v6 (ix2 (0 : Fin 1) n) = W r_v4 (ix1 n) := by
  rw [StableHlo.reshape_result']
  refine shapeCast_apply _ _ _ (ix1 n) ?_
  show (S2048.rowMajor (ix1 n)).val = (S1x2048.rowMajor (ix2 (0 : Fin 1) n)).val
  rw [Shape.rowMajor_val_one, Shape.rowMajor_val_two]
  show n.val = 0 * 2048 + n.val
  omega
theorem op6_ne (r : Ref sig .tc) (h : r ≠ main_v6) : (op6 (F := F)).result W (Proc.devRef .tc r) = W (Proc.devRef .tc r) :=
  StableHlo.reshape_result_ne (h := h) ..

theorem op8_apply : (op8 (F := F)).result W r_v8 ix0 = W r_v7 (ix2 (0 : Fin 1) (0 : Fin 1)) := by
  rw [StableHlo.reshape_result']
  refine shapeCast_apply _ _ _ (ix2 (0 : Fin 1) (0 : Fin 1)) ?_
  show (S1x1.rowMajor (ix2 (0 : Fin 1) (0 : Fin 1))).val = (S_.rowMajor ix0).val
  rw [Shape.rowMajor_val_two]
  have h : (S_.rowMajor ix0).val < 1 := lt_of_lt_of_eq (S_.rowMajor ix0).isLt (by decide)
  show 0 * 1 + 0 = (S_.rowMajor ix0).val
  omega
theorem op8_ne (r : Ref sig .tc) (h : r ≠ main_v8) : (op8 (F := F)).result W (Proc.devRef .tc r) = W (Proc.devRef .tc r) :=
  StableHlo.reshape_result_ne (h := h) ..

end Cert.Kernel.Hand

end
-- ==== Proof.KernelBits.KRegionRun.lean ====
/-
  The runs of the TensorCore region's body: one trip of the counted loop, the loop by its invariant, the body in each
  of its three cases (the first point, which resets the scratch rows; the points between; the last point, which
  stores the result), and the body obligation at every point.
-/
import proofs.«209869_g82368882803221_cont_9to1_m_506_32_alg».proof.Proof.KernelBits.KRegionData

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions, decided over the grid -/

/-- The condition of the body's first `scf.if`, from the grid coordinate. -/
abbrev cond1 (i : grid1.Coords) : Prop :=
  (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val % 50 = 0 :=
  (by decide +kernel : ∀ t : Fin grid1.N, cond1 (grid1.coords t) ↔ t.val % 50 = 0)
/-- The condition of the body's last `scf.if`. -/
abbrev cond2 (i : grid1.Coords) : Prop := k1_cond2 i = 1#1
/-- It holds at the last point only. -/
theorem hcond2 : ∀ t : Fin cfg1.N, cond2 (grid1.coords t) ↔ t.val % 50 = 49 :=
  (by decide +kernel : ∀ t : Fin grid1.N, cond2 (grid1.coords t) ↔ t.val % 50 = 49)
/-- The result's window is idle at every point but the last. -/
theorem idle3 : ∀ t : Fin cfg1.N, cfg1.idle 3 (cfg1.grid.coords t) = decide (t.val % 50 ≠ 49) :=
  (by decide +kernel : ∀ t : Fin grid1.N, idle1 3 (grid1.coords t) = decide (t.val % 50 ≠ 49))

/-! ## Loads of a whole memref -/

/-- A load of the whole shape through a whole memref held at the raw contents that read `X` reads `X`. -/
theorem readAt_unread_full {sg : RefSig} {κ : Kind} {sp : Space} {s : Shape} {e : EltTy} {Val : EltTy → Type}
    {m : Memref sg κ sp s e} (h : m.IsWhole) (off : Fin s.rank → Nat) (hoff : ∀ a, off a = 0)
    (inb : ∀ a, off a + s.size a ≤ s.size a) (X : s.Idx → Val e) :
    m.view.readAt Val (Rect.unit off s.size inb).toLoadRect (h.unread X) = X := by
  rw [readAt_unread]
  funext j
  congr 1
  funext a; apply Fin.ext; show off a + 1 * (j a : Nat) = j a; rw [hoff]; omega

theorem zero2 : ∀ a : Fin 2, (![0, 0] : Fin 2 → ℕ) a = 0 := by intro a; fin_cases a <;> rfl

/-! ## One trip of the counted loop -/

/-- One trip at a symbolic `k`: the block is read twice and left as it was; the yield is the step of `accAt`. -/
theorem trip (𝒱 : Variants) (c : Dev nD) (bd : Option 𝒱.V) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole)
    (x3 : Vec F S2000x2048 .f32) (k : Fin k1_t1_loop.trips) (E : Set ℕ) (acc : FVec F S8x2048 .f32 × FVec F S8x2048 .f32) :
    (arg3.view.loc (c : Thread nD τ) ↦[arg3.view.set]{fullShare} harg3.unread x3 : sProp (𝕄 F))
      ⊢ wp frame (wpE (defs₀ (F := F)) 𝒱 (c : Thread nD τ) bd) E (k1_t1_body (F := F) i arg1 harg1 arg2 harg2 arg3 harg3 arg4 harg4 arg5 harg5 arg6 harg6 arg7 harg7 k acc)
          (fun yld => iprop(⌜yld = (k1_pay8 acc.1 (ld1 x3 k) (ld2 x3 k), k1_pay9 acc.2 (ld1 x3 k) (ld2 x3 k))⌝
            ∗ (arg3.view.loc (c : Thread nD τ) ↦[arg3.view.set]{fullShare} harg3.unread x3))) := by
  have hk : k.val < 125 := Nat.lt_of_lt_of_le k.isLt k1_t1_abs.2.1
  have e1 : arg3.view.readAt (Elt F) (Rect.unit (s := S2000x2048) (k1_off1 k) S8x2048.size (k1_off1_inb k)).toLoadRect (harg3.unread x3) = ld1 x3 k :=
    readAt_unread harg3 _ x3
  have e2 : arg3.view.readAt (Elt F) (Rect.unit (s := S2000x2048) (k1_off2 k) S8x2048.size (k1_off2_inb k)).toLoadRect (harg3.unread x3) = ld2 x3 k :=
    readAt_unread harg3 _ x3
  unfold k1_t1_body
  iintro HR_arg3
  sl_exec
  sl_step
  isplitr
  · ipureintro; first | rfl | rw [e1, e2]
  · iexact HR_arg3

/-! ## The loop by its invariant -/

/-- Before trip `k`: the block as it was, and the carried pair at `accAt x3 k`. -/
abbrev inv_loop (c : Dev nD) (arg3 : Memref sig .tc .vmem S2000x2048 .f32) (harg3 : arg3.IsWhole) (x3 : Vec F S2000x2048 .f32)
    (k : ℕ) (acc : FVec F S8x2048 .f32 × FVec F S8x2048 .f32) : sProp (𝕄 F) :=
  iprop((arg3.view.loc (c : Thread nD τ) ↦[arg3.view.set]{fullShare} harg3.unread x3) ∗ ⌜acc = accAt x3 k⌝)

macro_rules | `(tactic| sl_pure) => `(tactic| with_reducible exact (Cert.Kernel.Hand.accAt_zero ..).symm)

set_option warn.classDefReducibility false in
/-- The counted loop by its invariant, at the region's resource algebra. -/
@[sl_loop] def loopInv (𝒱 : Variants) (c : Dev nD) (bd : Option 𝒱.V) (E : Set ℕ) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole)
    (x3 : Vec F S2000x2048 .f32) :
    LoopInvTy_k1_t1 (F := F) (HIx 1) ℕ UU ℕ 𝒱 c bd E i arg1 harg1 arg2 harg2 arg3 harg3 arg4 harg4 arg5 harg5 arg6 harg6 arg7 harg7 (k1_pay5 (F := F), k1_pay5 (F := F)) where
  inv := inv_loop (F := F) c arg3 harg3 x3
  step k acc := by
    iintro ⟨HR_arg3, %h_acc⟩
    subst h_acc
    iapply (wp_wand_r Idealize.ShloMosaic.frame (wpE (defs₀ (F := F)) 𝒱 (c : Thread nD τ) bd) E)
    isplitl [HR_arg3]
    · iapply (trip (F := F) 𝒱 c bd i arg1 harg1 arg2 harg2 arg3 harg3 arg4 harg4 arg5 harg5 arg6 harg6 arg7 harg7 x3 k E (accAt x3 k))
      iexact HR_arg3
    · iintro %yld ⟨%h_res, HR_arg3⟩
      isplitl [HR_arg3]; · iexact HR_arg3
      ipureintro; rw [h_res, accAt_succ]

/-! ## Whole-block stores and loads of the kernel's rows read back -/

theorem read_full_1x2048 {κ : Kind} {sp : Space} (v : View sig κ sp S1x2048 .f32) (f : v.ty.Contents (Elt F))
    (w : S1x2048.Idx → Elt F .f32) (L : List (View.Piece (Elt F) S1x2048 .f32)) :
    v.read (Elt F) (v.writes (Elt F) f (⟨Rect.unit (s := S1x2048) ![0, 0] S1x2048.size inb_S1x2048_S1x2048_0_0, w⟩ :: L)) = w :=
  read_writes_cons_full v f _ zero2 _ w L

theorem read_full_1x1 {κ : Kind} {sp : Space} (v : View sig κ sp S1x1 .f32) (f : v.ty.Contents (Elt F))
    (w : S1x1.Idx → Elt F .f32) (L : List (View.Piece (Elt F) S1x1 .f32)) :
    v.read (Elt F) (v.writes (Elt F) f (⟨Rect.unit (s := S1x1) ![0, 0] S1x1.size inb_S1x1_S1x1_0_0, w⟩ :: L)) = w :=
  read_writes_cons_full v f _ zero2 _ w L

theorem readCov_full_1x2048 {κ : Kind} {sp : Space} (v : View sig κ sp S1x2048 .f32)
    (w : S1x2048.Idx → Elt F .f32) (L : List (View.Piece (Elt F) S1x2048 .f32)) :
    v.readCov (⟨Rect.unit (s := S1x2048) ![0, 0] S1x2048.size inb_S1x2048_S1x2048_0_0, w⟩ :: L)
      (Rect.unit (s := S1x2048) ![0, 0] S1x2048.size inb_S1x2048_S1x2048_0_0).toLoadRect = w := by
  unfold View.readCov
  funext j
  rw [View.readAt_apply, read_full_1x2048]
  congr 1
  funext a; apply Fin.ext
  show (![0, 0] : Fin 2 → ℕ) a + 1 * (j a : Nat) = j a
  rw [zero2]; omega

theorem readAt_writes_full_1x2048 {κ : Kind} {sp : Space} (v : View sig κ sp S1x2048 .f32) (f : v.ty.Contents (Elt F))
    (w : S1x2048.Idx → Elt F .f32) (L : List (View.Piece (Elt F) S1x2048 .f32)) :
    v.readAt (Elt F) (Rect.unit (s := S1x2048) ![0, 0] S1x2048.size inb_S1x2048_S1x2048_0_0).toLoadRect
      (v.writes (Elt F) f (⟨Rect.unit (s := S1x2048) ![0, 0] S1x2048.size inb_S1x2048_S1x2048_0_0, w⟩ :: L)) = w := by
  funext j
  rw [View.readAt_apply, read_full_1x2048]
  congr 1
  funext a; apply Fin.ext
  show (![0, 0] : Fin 2 → ℕ) a + 1 * (j a : Nat) = j a
  rw [zero2]; omega

/-! ## The body, case by case -/

/-- A point between the first and the last: the two running rows take the point's block, row 0 and every window stay. -/
theorem run_mid (c : Dev nD) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc1 : ¬cond1 i) (hc2 : ¬cond2 i)
    (x1 : Vec F S1x2048 .i32) (x2 : Vec F S1x2048 .f32) (x3 : Vec F S2000x2048 .f32) (d4 : Vec F S1x1 .f32) (p : Scr F)
    (E : Set ℕ) (K : PUnit → sProp (𝕄 F)) :
    iprop(owns (c : Thread nD τ) arg1 fullShare x1 ∗ owns (c : Thread nD τ) arg2 fullShare x2 ∗ owns (c : Thread nD τ) arg3 fullShare x3 ∗ owns (c : Thread nD τ) arg4 fullShare d4
        ∗ owns (c : Thread nD τ) arg5 fullShare p.1 ∗ owns (c : Thread nD τ) arg6 fullShare p.2.1 ∗ owns (c : Thread nD τ) arg7 fullShare p.2.2
        ∗ (iprop(owns (c : Thread nD τ) arg1 fullShare x1 ∗ owns (c : Thread nD τ) arg2 fullShare x2 ∗ owns (c : Thread nD τ) arg3 fullShare x3 ∗ owns (c : Thread nD τ) arg4 fullShare d4
            ∗ owns (c : Thread nD τ) arg5 fullShare (scrStep x3 p).1 ∗ owns (c : Thread nD τ) arg6 fullShare (scrStep x3 p).2.1 ∗ owns (c : Thread nD τ) arg7 fullShare (scrStep x3 p).2.2) -∗ K ⟨⟩))
      ⊢ wp frame (wpE (defs₀ (F := F)) Variants.none (c : Thread nD τ) none) E (cc1__ls_kernel i arg1 harg1 arg2 harg2 arg3 harg3 arg4 harg4 arg5 harg5 arg6 harg6 arg7 harg7) K := by
  have e1 : arg1.view.readAt (Elt F) (Rect.unit (s := S1x2048) ![0, 0] S1x2048.size inb_S1x2048_S1x2048_0_0).toLoadRect (harg1.unread x1) = x1 :=
    readAt_unread_full harg1 _ zero2 _ x1
  have e2 : arg2.view.readAt (Elt F) (Rect.unit (s := S1x2048) ![0, 0] S1x2048.size inb_S1x2048_S1x2048_0_0).toLoadRect (harg2.unread x2) = x2 :=
    readAt_unread_full harg2 _ zero2 _ x2
  have e3 : arg3.view.readAt (Elt F) (Rect.unit (s := S2000x2048) ![0, 0] S1x2048.size inb_S2000x2048_S1x2048_0_0).toLoadRect (harg3.unread x3) = row0 x3 :=
    readAt_unread harg3 _ x3
  have e5 : arg5.view.readAt (Elt F) (Rect.unit (s := S1x2048) ![0, 0] S1x2048.size inb_S1x2048_S1x2048_0_0).toLoadRect (harg5.unread p.1) = p.1 :=
    readAt_unread_full harg5 _ zero2 _ p.1
  have e6 : arg6.view.readAt (Elt F) (Rect.unit (s := S1x2048) ![0, 0] S1x2048.size inb_S1x2048_S1x2048_0_0).toLoadRect (harg6.unread p.2.1) = p.2.1 :=
    readAt_unread_full harg6 _ zero2 _ p.2.1
  have e7 : arg7.view.readAt (Elt F) (Rect.unit (s := S1x2048) ![0, 0] S1x2048.size inb_S1x2048_S1x2048_0_0).toLoadRect (harg7.unread p.2.2) = p.2.2 :=
    readAt_unread_full harg7 _ zero2 _ p.2.2
  simp only [cc1__ls_kernel_eq_skeleton, k1_part1_eq_skeleton]; unfold cc1__ls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    exact harg4.read_unread _
  isplitl [H5]
  · iexists _; isplitr; swap; · iexact H5
    ipureintro
    rw [read_full_1x2048]; first | rfl | (rw [e5]; rfl)
  isplitl [H6]
  · iexists _; isplitr; swap; · iexact H6
    ipureintro
    rw [read_full_1x2048]; first | rfl | (rw [e6]; rfl)
  iexists _; isplitr; swap; · iexact H7
  ipureintro
  exact harg7.read_unread _

/-- The first point: whatever the scratch rows held, they are reset, then take the point's block. -/
theorem run_first (c : Dev nD) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc1 : cond1 i) (hc2 : ¬cond2 i)
    (x1 : Vec F S1x2048 .i32) (x2 : Vec F S1x2048 .f32) (x3 : Vec F S2000x2048 .f32) (d4 : Vec F S1x1 .f32) (p : Scr F)
    (E : Set ℕ) (K : PUnit → sProp (𝕄 F)) :
    iprop(owns (c : Thread nD τ) arg1 fullShare x1 ∗ owns (c : Thread nD τ) arg2 fullShare x2 ∗ owns (c : Thread nD τ) arg3 fullShare x3 ∗ owns (c : Thread nD τ) arg4 fullShare d4
        ∗ owns (c : Thread nD τ) arg5 fullShare p.1 ∗ owns (c : Thread nD τ) arg6 fullShare p.2.1 ∗ owns (c : Thread nD τ) arg7 fullShare p.2.2
        ∗ (iprop(owns (c : Thread nD τ) arg1 fullShare x1 ∗ owns (c : Thread nD τ) arg2 fullShare x2 ∗ owns (c : Thread nD τ) arg3 fullShare x3 ∗ owns (c : Thread nD τ) arg4 fullShare d4
            ∗ owns (c : Thread nD τ) arg5 fullShare (scrStep x3 (scrReset x3)).1 ∗ owns (c : Thread nD τ) arg6 fullShare (scrStep x3 (scrReset x3)).2.1 ∗ owns (c : Thread nD τ) arg7 fullShare (scrStep x3 (scrReset x3)).2.2) -∗ K ⟨⟩))
      ⊢ wp frame (wpE (defs₀ (F := F)) Variants.none (c : Thread nD τ) none) E (cc1__ls_kernel i arg1 harg1 arg2 harg2 arg3 harg3 arg4 harg4 arg5 harg5 arg6 harg6 arg7 harg7) K := by
  have e1 : arg1.view.readAt (Elt F) (Rect.unit (s := S1x2048) ![0, 0] S1x2048.size inb_S1x2048_S1x2048_0_0).toLoadRect (harg1.unread x1) = x1 :=
    readAt_unread_full harg1 _ zero2 _ x1
  have e2 : arg2.view.readAt (Elt F) (Rect.unit (s := S1x2048) ![0, 0] S1x2048.size inb_S1x2048_S1x2048_0_0).toLoadRect (harg2.unread x2) = x2 :=
    readAt_unread_full harg2 _ zero2 _ x2
  have e3 : arg3.view.readAt (Elt F) (Rect.unit (s := S2000x2048) ![0, 0] S1x2048.size inb_S2000x2048_S1x2048_0_0).toLoadRect (harg3.unread x3) = row0 x3 :=
    readAt_unread harg3 _ x3
  have e5 : arg5.view.readAt (Elt F) (Rect.unit (s := S1x2048) ![0, 0] S1x2048.size inb_S1x2048_S1x2048_0_0).toLoadRect (harg5.unread p.1) = p.1 :=
    readAt_unread_full harg5 _ zero2 _ p.1
  have e6 : arg6.view.readAt (Elt F) (Rect.unit (s := S1x2048) ![0, 0] S1x2048.size inb_S1x2048_S1x2048_0_0).toLoadRect (harg6.unread p.2.1) = p.2.1 :=
    readAt_unread_full harg6 _ zero2 _ p.2.1
  have e7 : arg7.view.readAt (Elt F) (Rect.unit (s := S1x2048) ![0, 0] S1x2048.size inb_S1x2048_S1x2048_0_0).toLoadRect (harg7.unread p.2.2) = p.2.2 :=
    readAt_unread_full harg7 _ zero2 _ p.2.2
  simp only [cc1__ls_kernel_eq_skeleton, k1_part1_eq_skeleton]; unfold cc1__ls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    exact harg4.read_unread _
  isplitl [H5]
  · iexists _; isplitr; swap; · iexact H5
    ipureintro
    rw [read_full_1x2048]; delta run_first.sl.v8 run_first.sl.H5_1; rw [readCov_full_1x2048]; rfl
  isplitl [H6]
  · iexists _; isplitr; swap; · iexact H6
    ipureintro
    rw [read_full_1x2048]; delta run_first.sl.v15 run_first.sl.H6_1; rw [readCov_full_1x2048]; rfl
  iexists _; isplitr; swap; · iexact H7
  ipureintro
  delta run_first.sl.H7_1; rw [read_full_1x2048]; rfl

/-- The last point: as between, then the loss is stored into the result's staging buffer. -/
theorem run_last (c : Dev nD) (i : grid1.Coords) (arg1 : Memref sig .tc .vmem S1x2048 .i32) (harg1 : arg1.IsWhole) (arg2 : Memref sig .tc .vmem S1x2048 .f32) (harg2 : arg2.IsWhole) (arg3 : Memref sig .tc .vmem S2000x2048 .f32) (harg3 : arg3.IsWhole) (arg4 : Memref sig .tc .vmem S1x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc1 : ¬cond1 i) (hc2 : cond2 i)
    (x1 : Vec F S1x2048 .i32) (x2 : Vec F S1x2048 .f32) (x3 : Vec F S2000x2048 .f32) (d4 : Vec F S1x1 .f32) (p : Scr F)
    (E : Set ℕ) (K : PUnit → sProp (𝕄 F)) :
    iprop(owns (c : Thread nD τ) arg1 fullShare x1 ∗ owns (c : Thread nD τ) arg2 fullShare x2 ∗ owns (c : Thread nD τ) arg3 fullShare x3 ∗ owns (c : Thread nD τ) arg4 fullShare d4
        ∗ owns (c : Thread nD τ) arg5 fullShare p.1 ∗ owns (c : Thread nD τ) arg6 fullShare p.2.1 ∗ owns (c : Thread nD τ) arg7 fullShare p.2.2
        ∗ (iprop(owns (c : Thread nD τ) arg1 fullShare x1 ∗ owns (c : Thread nD τ) arg2 fullShare x2 ∗ owns (c : Thread nD τ) arg3 fullShare x3 ∗ owns (c : Thread nD τ) arg4 fullShare (k1_pay12 (k1_pay1 x1) (scrStep x3 p).1 (scrStep x3 p).2.2 x2 (scrStep x3 p).2.1)
            ∗ owns (c : Thread nD τ) arg5 fullShare (scrStep x3 p).1 ∗ owns (c : Thread nD τ) arg6 fullShare (scrStep x3 p).2.1 ∗ owns (c : Thread nD τ) arg7 fullShare (scrStep x3 p).2.2) -∗ K ⟨⟩))
      ⊢ wp frame (wpE (defs₀ (F := F)) Variants.none (c : Thread nD τ) none) E (cc1__ls_kernel i arg1 harg1 arg2 harg2 arg3 harg3 arg4 harg4 arg5 harg5 arg6 harg6 arg7 harg7) K := by
  have e1 : arg1.view.readAt (Elt F) (Rect.unit (s := S1x2048) ![0, 0] S1x2048.size inb_S1x2048_S1x2048_0_0).toLoadRect (harg1.unread x1) = x1 :=
    readAt_unread_full harg1 _ zero2 _ x1
  have e2 : arg2.view.readAt (Elt F) (Rect.unit (s := S1x2048) ![0, 0] S1x2048.size inb_S1x2048_S1x2048_0_0).toLoadRect (harg2.unread x2) = x2 :=
    readAt_unread_full harg2 _ zero2 _ x2
  have e3 : arg3.view.readAt (Elt F) (Rect.unit (s := S2000x2048) ![0, 0] S1x2048.size inb_S2000x2048_S1x2048_0_0).toLoadRect (harg3.unread x3) = row0 x3 :=
    readAt_unread harg3 _ x3
  have e5 : arg5.view.readAt (Elt F) (Rect.unit (s := S1x2048) ![0, 0] S1x2048.size inb_S1x2048_S1x2048_0_0).toLoadRect (harg5.unread p.1) = p.1 :=
    readAt_unread_full harg5 _ zero2 _ p.1
  have e6 : arg6.view.readAt (Elt F) (Rect.unit (s := S1x2048) ![0, 0] S1x2048.size inb_S1x2048_S1x2048_0_0).toLoadRect (harg6.unread p.2.1) = p.2.1 :=
    readAt_unread_full harg6 _ zero2 _ p.2.1
  have e7 : arg7.view.readAt (Elt F) (Rect.unit (s := S1x2048) ![0, 0] S1x2048.size inb_S1x2048_S1x2048_0_0).toLoadRect (harg7.unread p.2.2) = p.2.2 :=
    readAt_unread_full harg7 _ zero2 _ p.2.2
  simp only [cc1__ls_kernel_eq_skeleton, k1_part1_eq_skeleton]; unfold cc1__ls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_full_1x1]; delta run_last.sl.v25 run_last.sl.v32 run_last.sl.H5_1 run_last.sl.H6_1; rw [readCov_full_1x2048, readCov_full_1x2048]; rfl
  isplitl [H5]
  · iexists _; isplitr; swap; · iexact H5
    ipureintro
    delta run_last.sl.H5_1; rw [read_full_1x2048]; rfl
  isplitl [H6]
  · iexists _; isplitr; swap; · iexact H6
    ipureintro
    delta run_last.sl.H6_1; rw [read_full_1x2048]; rfl
  iexists _; isplitr; swap; · iexact H7
  ipureintro
  exact harg7.read_unread _

/-! ## What the body finds in the input windows' staging buffers -/

variable (c : Dev nD)
variable (A5 : Buf (Elt F) ((c : Thread nD τ).loc main_v5)) (A6 : Buf (Elt F) ((c : Thread nD τ).loc main_v6))
  (A0 : Buf (Elt F) ((c : Thread nD τ).loc main_v0)) (A7 : Buf (Elt F) ((c : Thread nD τ).loc main_v7))

/-- The targets' staging buffer holds the targets at every point, fetched there or not. -/
theorem before1_0 (t : Fin cfg1.N) (d) : (dats c A5 A6 A0 A7).before 0 t d = blkOf c 0 A5 t :=
  ((dats c A5 A6 A0 A7).before_in_eq_fetched 0 rfl (fun _ => rfl) (fun _ _ _ => rfl)
    (fun t => by rw [after1_0]; unfold Dat.blockOf blkOf; rw [A_0]; try rfl) t d).trans
    (by unfold Dat.fetched Dat.blockOf blkOf; rw [A_0]; try rfl)
/-- The gathered logits' staging buffer holds them at every point, fetched there or not. -/
theorem before1_1 (t : Fin cfg1.N) (d) : (dats c A5 A6 A0 A7).before 1 t d = blkOf c 1 A6 t :=
  ((dats c A5 A6 A0 A7).before_in_eq_fetched 1 rfl (fun _ => rfl) (fun _ _ _ => rfl)
    (fun t => by rw [after1_1]; unfold Dat.blockOf blkOf; rw [A_1]; try rfl) t d).trans
    (by unfold Dat.fetched Dat.blockOf blkOf; rw [A_1]; try rfl)
/-- The logits' current staging buffer holds the point's block of 2000 rows. -/
theorem before1_2 (t : Fin cfg1.N) (d) : (dats c A5 A6 A0 A7).before 2 t d = blkOf c 2 A0 t :=
  ((dats c A5 A6 A0 A7).before_in_eq_fetched 2 rfl (fun _ => rfl) (fun _ _ _ => rfl)
    (fun t => by rw [after1_2]; unfold Dat.blockOf blkOf; rw [A_2]; try rfl) t d).trans
    (by unfold Dat.fetched Dat.blockOf blkOf; rw [A_2]; try rfl)

/-! ## The scratch rows point by point -/

theorem PhiAt_succ (n : ℕ) : PhiAt c A0 (n + 1) = scrHeld c (scr c A0 n) := rfl

theorem PhiAt_first (t : Fin cfg1.N) (h : t.val = 0) : PhiAt c A0 t.val = iprop(∃ p : Scr F, scrHeld c p) := by
  rw [h]; rfl

theorem PhiAt_pos (t : Fin cfg1.N) (h : t.val ≠ 0) : PhiAt c A0 t.val = scrHeld c (scr c A0 (t.val - 1)) := by
  obtain ⟨n, hn⟩ := t
  cases n with
  | zero => exact absurd rfl h
  | succ n => rfl

theorem scr_first (t : Fin cfg1.N) (h : t.val = 0) :
    scr c A0 t.val = scrStep (blkOf c 2 A0 t) (scrReset (blkOf c 2 A0 t)) := by
  have e : logitsBlk c A0 0 = blkOf c 2 A0 t := by
    unfold logitsBlk; rw [show pt 0 = t from by rw [← h]; exact pt_val t]
  rw [h]; unfold scr; rw [scrAt_zero, e]

theorem scr_pos (t : Fin cfg1.N) (h : t.val ≠ 0) :
    scr c A0 t.val = scrStep (blkOf c 2 A0 t) (scr c A0 (t.val - 1)) := by
  have e : logitsBlk c A0 t.val = blkOf c 2 A0 t := by unfold logitsBlk; rw [pt_val]
  obtain ⟨n, hn⟩ := t
  cases n with
  | zero => exact absurd rfl h
  | succ n =>
    show scr c A0 (n + 1) = scrStep (blkOf c 2 A0 ⟨n + 1, hn⟩) (scr c A0 n)
    unfold scr; rw [scrAt_succ]; exact congrArg (fun B => scrStep B _) e

/-! ## The body obligation, at a generic point -/

/-- Each window's current staging memref at point `t`, spelled as the pipeline passes it, and its wholeness. -/
abbrev ms0 (t : Fin cfg1.N) : Memref sig .tc .vmem S1x2048 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2000x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)

/-- The post of the result's window at a point live for it: the buffer at what the proof data state. -/
theorem leavesExact_live {Λ : Idealize.SL.Sem.Labels} {cfg : Pipeline.Cfg sig Λ} {c : Dev nD}
    (dat : Dat τ (Elt F) (HIx 1) ℕ UU ℕ cfg c) (w : Fin cfg.W) (t : Fin cfg.N)
    (hi : cfg.idle w (cfg.grid.coords t) = false) :
    dat.leavesExact w t = owns c ((cfg.win w).stage (cfg.slots t w)) fullShare (dat.after w t) := by
  unfold Dat.leavesExact; rw [hi]

/-- What the body is called with at point `t` (the windows one by one), -/
def bodyPre (t : Fin cfg1.N) : sProp (𝕄 F) :=
  iprop((dats c A5 A6 A0 A7).Φ t.castSucc ∗ (dats c A5 A6 A0 A7).owesAt (none : HIx 1) t.castSucc
    ∗ (∃ d, owns (c : Thread nD τ) (ms0 t) fullShare ((dats c A5 A6 A0 A7).before 0 t d))
    ∗ (∃ d, owns (c : Thread nD τ) (ms1 t) fullShare ((dats c A5 A6 A0 A7).before 1 t d))
    ∗ (∃ d, owns (c : Thread nD τ) (ms2 t) fullShare ((dats c A5 A6 A0 A7).before 2 t d))
    ∗ (∃ d, owns (c : Thread nD τ) (ms3 t) fullShare ((dats c A5 A6 A0 A7).before 3 t d)))

/-- and what it returns: the inputs as found, the result's buffer as found at an idle point and at the loss at the last. -/
def bodyPost (t : Fin cfg1.N) : sProp (𝕄 F) :=
  iprop((dats c A5 A6 A0 A7).Φ t.succ ∗ (dats c A5 A6 A0 A7).owesAt (none : HIx 1) t.succ
    ∗ owns (c : Thread nD τ) (ms0 t) fullShare ((dats c A5 A6 A0 A7).after 0 t)
    ∗ owns (c : Thread nD τ) (ms1 t) fullShare ((dats c A5 A6 A0 A7).after 1 t)
    ∗ owns (c : Thread nD τ) (ms2 t) fullShare ((dats c A5 A6 A0 A7).after 2 t)
    ∗ (dats c A5 A6 A0 A7).leavesExact 3 t)

set_option maxHeartbeats 1000000 in
/-- The body at any point: the inputs' buffers hold their blocks; the closed forms say which case the point is in;
    the scratch rows are the invariant's; the result's buffer goes back as found but at the last point, where it takes
    the loss; the core owes nothing throughout. -/
theorem sound_body (t : Fin cfg1.N) :
    bodyPre c A5 A6 A0 A7 t
      ⊢ wp frame (wpE (defs₀ (F := F)) Variants.none c none) Set.univ (bodyAt1 t) (fun _ => bodyPost c A5 A6 A0 A7 t) := by
  unfold bodyPre bodyPost bodyAt1
  simp only [before1_0, before1_1, before1_2]
  rw [show (dats c A5 A6 A0 A7).owesAt (none : HIx 1) t.succ = (dats c A5 A6 A0 A7).owesAt (none : HIx 1) t.castSucc from rfl,
    after1_0, after1_1, after1_2,
    show (dats c A5 A6 A0 A7).Φ t.castSucc = PhiAt c A0 t.val from rfl,
    show (dats c A5 A6 A0 A7).Φ t.succ = PhiAt c A0 (t.val + 1) from rfl, PhiAt_succ]
  have hN : t.val < 50 := lt_of_lt_of_eq t.isLt (show cfg1.N = 50 from N_1)
  by_cases h0 : t.val % 50 = 0
  · -- the first point
    have ht0 : t.val = 0 := by omega
    have h49 : ¬t.val % 50 = 49 := by omega
    have hi : cfg1.idle 3 (cfg1.grid.coords t) = true := by rw [idle3]; exact decide_eq_true h49
    have hf : (cfg1.win 3).flush t = false := Bool.eq_false_iff.mpr fun h => h49 ((flush1_3 t).mp h)
    rw [Dat.leavesExact_idle _ 3 t hi hf, scr_first c A0 t ht0, PhiAt_first c A0 t ht0]
    unfold scrHeld
    iintro ⟨⟨%p, H5, H6, H7⟩, Ho, ⟨%d0, H0⟩, ⟨%d1, H1⟩, ⟨%d2, H2⟩, ⟨%d3, H3⟩⟩
    iapply (run_first (F := F) c (grid1.coords t) (ms0 t) (hs0 t) (ms1 t) (hs1 t) (ms2 t) (hs2 t) (ms3 t) (hs3 t)
      (Memref.whole cc1_scratch0) (Memref.isWhole_whole _) (Memref.whole cc1_scratch1) (Memref.isWhole_whole _)
      (Memref.whole cc1_scratch2) (Memref.isWhole_whole _) ((hcond1 t).mpr h0) (fun h => h49 ((hcond2 t).mp h))
      (blkOf c 0 A5 t) (blkOf c 1 A6 t) (blkOf c 2 A0 t) ((dats c A5 A6 A0 A7).before 3 t d3) p Set.univ _)
    isplitl [H0]; · iexact H0
    isplitl [H1]; · iexact H1
    isplitl [H2]; · iexact H2
    isplitl [H3]; · iexact H3
    isplitl [H5]; · iexact H5
    isplitl [H6]; · iexact H6
    isplitl [H7]; · iexact H7
    iintro ⟨H0, H1, H2, H3, H5, H6, H7⟩
    isplitl [H5 H6 H7]
    · isplitl [H5]; · iexact H5
      isplitl [H6]; · iexact H6
      iexact H7
    isplitl [Ho]; · iexact Ho
    isplitl [H0]; · iexact H0
    isplitl [H1]; · iexact H1
    isplitl [H2]; · iexact H2
    iexists d3; iexact H3
  · have ht0 : t.val ≠ 0 := by omega
    rw [PhiAt_pos c A0 t ht0, scr_pos c A0 t ht0]
    unfold scrHeld
    by_cases h49 : t.val % 50 = 49
    · -- the last point
      have hi : cfg1.idle 3 (cfg1.grid.coords t) = false := by rw [idle3]; exact decide_eq_false (not_not.mpr h49)
      rw [leavesExact_live _ 3 t hi, after1_3]
      unfold lossAt
      rw [scr_pos c A0 t ht0]
      iintro ⟨⟨H5, H6, H7⟩, Ho, ⟨%d0, H0⟩, ⟨%d1, H1⟩, ⟨%d2, H2⟩, ⟨%d3, H3⟩⟩
      iapply (run_last (F := F) c (grid1.coords t) (ms0 t) (hs0 t) (ms1 t) (hs1 t) (ms2 t) (hs2 t) (ms3 t) (hs3 t)
      (Memref.whole cc1_scratch0) (Memref.isWhole_whole _) (Memref.whole cc1_scratch1) (Memref.isWhole_whole _)
      (Memref.whole cc1_scratch2) (Memref.isWhole_whole _) (fun h => h0 ((hcond1 t).mp h)) ((hcond2 t).mpr h49)
      (blkOf c 0 A5 t) (blkOf c 1 A6 t) (blkOf c 2 A0 t) ((dats c A5 A6 A0 A7).before 3 t d3) (scr c A0 (t.val - 1)) Set.univ _)
      isplitl [H0]; · iexact H0
      isplitl [H1]; · iexact H1
      isplitl [H2]; · iexact H2
      isplitl [H3]; · iexact H3
      isplitl [H5]; · iexact H5
      isplitl [H6]; · iexact H6
      isplitl [H7]; · iexact H7
      iintro ⟨H0, H1, H2, H3, H5, H6, H7⟩
      isplitl [H5 H6 H7]
      · isplitl [H5]; · iexact H5
        isplitl [H6]; · iexact H6
        iexact H7
      isplitl [Ho]; · iexact Ho
      isplitl [H0]; · iexact H0
      isplitl [H1]; · iexact H1
      isplitl [H2]; · iexact H2
      iexact H3
    · -- a point between
      have hi : cfg1.idle 3 (cfg1.grid.coords t) = true := by rw [idle3]; exact decide_eq_true h49
      have hf : (cfg1.win 3).flush t = false := Bool.eq_false_iff.mpr fun h => h49 ((flush1_3 t).mp h)
      rw [Dat.leavesExact_idle _ 3 t hi hf]
      iintro ⟨⟨H5, H6, H7⟩, Ho, ⟨%d0, H0⟩, ⟨%d1, H1⟩, ⟨%d2, H2⟩, ⟨%d3, H3⟩⟩
      iapply (run_mid (F := F) c (grid1.coords t) (ms0 t) (hs0 t) (ms1 t) (hs1 t) (ms2 t) (hs2 t) (ms3 t) (hs3 t)
      (Memref.whole cc1_scratch0) (Memref.isWhole_whole _) (Memref.whole cc1_scratch1) (Memref.isWhole_whole _)
      (Memref.whole cc1_scratch2) (Memref.isWhole_whole _) (fun h => h0 ((hcond1 t).mp h)) (fun h => h49 ((hcond2 t).mp h))
      (blkOf c 0 A5 t) (blkOf c 1 A6 t) (blkOf c 2 A0 t) ((dats c A5 A6 A0 A7).before 3 t d3) (scr c A0 (t.val - 1)) Set.univ _)
      isplitl [H0]; · iexact H0
      isplitl [H1]; · iexact H1
      isplitl [H2]; · iexact H2
      isplitl [H3]; · iexact H3
      isplitl [H5]; · iexact H5
      isplitl [H6]; · iexact H6
      isplitl [H7]; · iexact H7
      iintro ⟨H0, H1, H2, H3, H5, H6, H7⟩
      isplitl [H5 H6 H7]
      · isplitl [H5]; · iexact H5
        isplitl [H6]; · iexact H6
        iexact H7
      isplitl [Ho]; · iexact Ho
      isplitl [H0]; · iexact H0
      isplitl [H1]; · iexact H1
      isplitl [H2]; · iexact H2
      iexists d3; iexact H3

/-- The library's body obligation, at every point. -/
theorem body_obligation :
    BodyObligation (dats c A5 A6 A0 A7) (defs₀ (F := F)) Variants.none (none : HIx 1) Set.univ := fun t => by
  rw [bigSep_W1, bigSep_W1]
  exact sound_body c A5 A6 A0 A7 t

end Cert.Kernel.Hand

end
-- ==== Proof.KernelBits.KRegion.lean ====
/-
  The TensorCore region's frame, gathered: the proof data (KRegionData), the body obligation (KRegionRun), and the two
  facts that tie the invariant to the region's boundary — before the first point the invariant is the scratch buffers
  at anything, and after the last point it gives them back.
-/
import proofs.«209869_g82368882803221_cont_9to1_m_506_32_alg».proof.Proof.KernelBits.KRegionRun

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD)
variable (A5 : Buf (Elt F) ((c : Thread nD τ).loc main_v5)) (A6 : Buf (Elt F) ((c : Thread nD τ).loc main_v6))
  (A0 : Buf (Elt F) ((c : Thread nD τ).loc main_v0)) (A7 : Buf (Elt F) ((c : Thread nD τ).loc main_v7))

/-- The scoped buffers no window stages (the three scratch rows, each at some contents) are the invariant before the
    first point. -/
theorem Φ_zero_of_scopedRest :
    (Pipeline.scopedRest (Ix := HIx 1) (Name := ℕ) (U := UU) (Lvl := ℕ) (Val := Elt F) spec1 c : sProp (𝕄 F))
      ⊢ (dats c A5 A6 A0 A7).Φ 0 := by
  rw [scopedRest1_eq, Φ_zero]
  unfold scrHeld
  iintro ⟨⟨%f0, H0⟩, ⟨%f1, H1⟩, ⟨%f2, H2⟩⟩
  iexists ((f0, f1, f2) : Scr F)
  rw [owns_whole, owns_whole, owns_whole]
  isplitl [H0]; · iexact H0
  isplitl [H1]; · iexact H1
  iexact H2

/-- The invariant after the last point gives the three scratch buffers back, each at some contents. -/
theorem scopedRest_of_Φ_last :
    (dats c A5 A6 A0 A7).Φ (Fin.last cfg1.N)
      ⊢ (Pipeline.scopedRest (Ix := HIx 1) (Name := ℕ) (U := UU) (Lvl := ℕ) (Val := Elt F) spec1 c : sProp (𝕄 F)) := by
  rw [scopedRest1_eq, Φ_last]
  unfold scrHeld
  rw [owns_whole, owns_whole, owns_whole]
  iintro ⟨H0, H1, H2⟩
  isplitl [H0]; · iexists _; iexact H0
  isplitl [H1]; · iexists _; iexact H1
  iexists _; iexact H2

/-- The body obligation as the region's loop uses it. -/
theorem body_obligation_loose :
    Pipeline.BodyObligationLoose (dats c A5 A6 A0 A7) (defs₀ (F := F)) Variants.none (none : HIx 1) Set.univ :=
  (body_obligation c A5 A6 A0 A7).loose

end Cert.Kernel.Hand

end
-- ==== Proof.KernelBits.KRegionStep.lean ====
/-
  The TensorCore region entered inside @main: from the region's four arrays, the core's dues and the staging cells'
  launch state, the region's custom call runs to the same arrays — the result's array at what the write-back of the
  last point leaves — and the same dues.
-/
import proofs.«209869_g82368882803221_cont_9to1_m_506_32_alg».proof.Proof.KernelBits.KRegion
import proofs.«209869_g82368882803221_cont_9to1_m_506_32_alg».proof.Proof.KernelBits.KLaunchF

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The one pipeline has no prefetched tables: its admissible contents are the configuration's. -/
abbrev adm : (p : Fin 1) → (pcfgs (F := F) p).Adm := fun p => (cfgs p).toPCfg_adm

/-- The staging cells' launch state of the one pipeline on core `d`. -/
def regionGhost (d : Dev nD) : sProp (𝕄 F) :=
  iprop(Pipeline.cellsGhost (Pipeline.pin (pcfgs (F := F)) adm) EP 0 d ∗ Pipeline.toksInit (Pipeline.pin (pcfgs (F := F)) adm) EP 0 d)

/-! ## The proof data as a family over the cores

There is one device: the arrays given at core `d` are the arrays at every core. -/

/-- A buffer's contents at core `d` read at core `c`, the same core. -/
def tr {b : Ref sig .tc} (d c : Dev nD) (A : Buf (Elt F) ((d : Thread nD τ).loc b)) : Buf (Elt F) ((c : Thread nD τ).loc b) :=
  (Subsingleton.elim d c) ▸ A

theorem tr_self {b : Ref sig .tc} (d : Dev nD) (A : Buf (Elt F) ((d : Thread nD τ).loc b)) : tr d d A = A := rfl

variable (d : Dev nD)
variable (A5 : Buf (Elt F) ((d : Thread nD τ).loc main_v5)) (A6 : Buf (Elt F) ((d : Thread nD τ).loc main_v6))
  (A0 : Buf (Elt F) ((d : Thread nD τ).loc main_v0)) (A7 : Buf (Elt F) ((d : Thread nD τ).loc main_v7))

/-- The region's proof data on every core. -/
def pdats : (p : Fin 1) → (c : Dev nD) → Dat τ (Elt F) (HIx 1) ℕ UU ℕ (Pipeline.pin (pcfgs (F := F)) adm p) c
  | 0 => fun c => dats c (tr d c A5) (tr d c A6) (tr d c A0) (tr d c A7)

theorem pdats_self : pdats d A5 A6 A0 A7 0 d = dats d A5 A6 A0 A7 := rfl

/-- The core's dues as the region is entered and left: nothing owed, the recorded pairs at level at most 8. -/
def dues (c : Dev nD) : sProp (𝕄 F) :=
  iprop(∃ W, ⌜(K (F := F)).WBelow (T c) W 8⌝ ∗ owes (T c) (0 : CellTallies nD τ sig (HIx 1)) W)

/-- The region's arrays at contents `Fa` are the four buffers held. -/
theorem arrays_eq (c : Dev nD) (Fa) :
    ((pdats d A5 A6 A0 A7 0 c).arrays Fa : sProp (𝕄 F))
      = iprop(pl c main_v5 (Fa 0) ∗ pl c main_v6 (Fa 1) ∗ pl c main_v0 (Fa 2) ∗ pl c main_v7 (Fa 3)) := by
  rw [Pipeline.arrays_eq (Pipeline.pin (pcfgs (F := F)) adm) (pdats d A5 A6 A0 A7) 0 c launch1.arr_whole
    ((pdats d A5 A6 A0 A7 0 c).share_full fun _ => rfl) Fa, bigSep_W1]

/-- THE REGION as the library's segment: the four arrays into the pipeline, nothing else; the core's dues kept. -/
def reg : Pipeline.RegionSeg (pcfgs (F := F)) adm (pdats d A5 A6 A0 A7) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation_loose c (tr d c A5) (tr d c A6) (tr d c A0) (tr d c A7)
  hwaits c := Pipeline.hwaits_of_owed_zero (pcfgs (F := F)) adm (pdats d A5 A6 A0 A7) (none : HIx 1) _ _ 0 (fun _ _ => rfl) c
  pre c := iprop(pl c main_v5 (tr d c A5) ∗ pl c main_v6 (tr d c A6) ∗ pl c main_v0 (tr d c A0) ∗ pl c main_v7 (tr d c A7) ∗ dues (F := F) c)
  post c := iprop(pl c main_v5 (tr d c A5) ∗ pl c main_v6 (tr d c A6) ∗ pl c main_v0 (tr d c A0)
    ∗ pl c main_v7 ((pdats d A5 A6 A0 A7 0 c).arrAt 3 cfg1.N) ∗ dues (F := F) c)
  X _ := iprop(emp)
  Y _ := iprop(emp)
  Z _ := iprop(emp)
  hentry c := by
    rw [Pipeline.ownSems0_none, arrays_eq]
    unfold dues
    iintro ⟨⟨H5, H6, H0, H7, ⟨%W, %hW, HO⟩⟩, -, -⟩
    imodintro
    isplitl [H5 H6 H0 H7]
    · isplitl [H5]; · iexact H5
      isplitl [H6]; · iexact H6
      isplitl [H0]; · iexact H0
      iexact H7
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    refine BIBase.Entails.trans ?_ (Φ_zero_of_scopedRest c (tr d c A5) (tr d c A6) (tr d c A0) (tr d c A7))
    iintro ⟨-, -, H⟩; iexact H
  hout c := by
    rw [Pipeline.ownSems0_none]
    refine BIBase.Entails.trans (scopedRest_of_Φ_last c (tr d c A5) (tr d c A6) (tr d c A0) (tr d c A7)) ?_
    iintro H
    isplitr; · iempintro
    isplitr; · iempintro
    iexact H
  hexit c := by
    have e0 : (pdats d A5 A6 A0 A7 0 c).arrAt 0 (Pipeline.pin (pcfgs (F := F)) adm 0).N = tr d c A5 :=
      (pdats d A5 A6 A0 A7 0 c).arrAt_in 0 rfl _
    have e1 : (pdats d A5 A6 A0 A7 0 c).arrAt 1 (Pipeline.pin (pcfgs (F := F)) adm 0).N = tr d c A6 :=
      (pdats d A5 A6 A0 A7 0 c).arrAt_in 1 rfl _
    have e2 : (pdats d A5 A6 A0 A7 0 c).arrAt 2 (Pipeline.pin (pcfgs (F := F)) adm 0).N = tr d c A0 :=
      (pdats d A5 A6 A0 A7 0 c).arrAt_in 2 rfl _
    rw [arrays_eq, e0, e1, e2]
    unfold dues
    iintro ⟨⟨H5, H6, H0, H7⟩, HO, -, -⟩
    imodintro
    isplitl [H5]; · iexact H5
    isplitl [H6]; · iexact H6
    isplitl [H0]; · iexact H0
    isplitl [H7]; · iexact H7
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact le_of_eq_of_le ((K (F := F)).lev_none _) (Nat.zero_le _)
    iexact HO

theorem reg_pre : (reg d A5 A6 A0 A7).pre d
    = iprop(pl d main_v5 A5 ∗ pl d main_v6 A6 ∗ pl d main_v0 A0 ∗ pl d main_v7 A7 ∗ dues (F := F) d) := rfl

theorem reg_post : (reg d A5 A6 A0 A7).post d
    = iprop(pl d main_v5 A5 ∗ pl d main_v6 A6 ∗ pl d main_v0 A0 ∗ pl d main_v7 ((dats d A5 A6 A0 A7).arrAt 3 cfg1.N) ∗ dues (F := F) d) := rfl

/-- The region's custom call inside @main, at the extended body table. -/
theorem regionStep (d : Dev nD) (A5 : Buf (Elt F) ((d : Thread nD τ).loc main_v5)) (A6 : Buf (Elt F) ((d : Thread nD τ).loc main_v6))
    (A0 : Buf (Elt F) ((d : Thread nD τ).loc main_v0)) (A7 : Buf (Elt F) ((d : Thread nD τ).loc main_v7)) (Φ : PUnit → sProp (𝕄 F)) :
    iprop(boundary (T d) ∗ levAts (K (F := F)).L (K (F := F)).lev ∗ regionGhost (F := F) d
        ∗ pl d main_v5 A5 ∗ pl d main_v6 A6 ∗ pl d main_v0 A0 ∗ pl d main_v7 A7
        ∗ (∃ W, ⌜(K (F := F)).WBelow (T d) W 8⌝ ∗ owes (T d) (0 : CellTallies nD τ sig (HIx 1)) W)
        ∗ (iprop(boundary (T d) ∗ pl d main_v5 A5 ∗ pl d main_v6 A6 ∗ pl d main_v0 A0 ∗ pl d main_v7 ((dats d A5 A6 A0 A7).arrAt 3 cfg1.N)
              ∗ ∃ W, ⌜(K (F := F)).WBelow (T d) W 8⌝ ∗ owes (T d) (0 : CellTallies nD τ sig (HIx 1)) W) -∗ Φ ⟨⟩))
      ⊢ wp frame (wpE ((K (F := F)).defs (D (F := F))) 𝒱 (T d) none) Set.univ (Prog.lift (.customCall (SparseCore.inner (Pipeline.entry 0)) ())) Φ := by
  have hR := Pipeline.RegionSeg.wp (pcfgs (F := F)) adm (pdats d A5 A6 A0 A7) (none : HIx 1) cellOf_inj EP defs₀ 𝒱₀
    (K (F := F)).L (K (F := F)).lev (reg d A5 A6 A0 A7) d none (fun u h => nomatch h) (fun _ => .ret ⟨⟩) Φ
  have hL := (K (F := F)).wp_liftProg (D (F := F)) 𝒱 (T d) Set.univ none
    (.op (.customCall (Pipeline.entry 0) ()) fun _ => .ret ⟨⟩) Φ
  rw [reg_pre, reg_post] at hR
  unfold dues at hR
  refine BIBase.Entails.trans ?_ hL
  refine BIBase.Entails.trans ?_ hR
  unfold regionGhost
  iintro ⟨Hb, Hlev, ⟨Hcg, Htk⟩, H5, H6, H0, H7, HO, HΦ⟩
  isplitl [HΦ]
  · iintro ⟨Hb, H5, H6, H0, H7, HO⟩
    iapply (Idealize.SL.Sem.le_wp_ret _ _)
    iapply HΦ
    isplitl [Hb]; · iexact Hb
    isplitl [H5]; · iexact H5
    isplitl [H6]; · iexact H6
    isplitl [H0]; · iexact H0
    isplitl [H7]; · iexact H7
    iexact HO
  isplitl [Hb]; · iexact Hb
  isplitl [H5 H6 H0 H7 HO]
  · isplitl [H5]; · iexact H5
    isplitl [H6]; · iexact H6
    isplitl [H0]; · iexact H0
    isplitl [H7]; · iexact H7
    iexact HO
  isplitl [Hlev]; · iexact Hlev
  isplitl [Hcg]; · iexact Hcg
  iexact Htk

end Cert.Kernel.Hand

end
-- ==== Proof.KernelBits.KLaunchH.lean ====
import proofs.«209869_g82368882803221_cont_9to1_m_506_32_alg».proof.Proof.KernelBits.KCommon
import proofs.«209869_g82368882803221_cont_9to1_m_506_32_alg».proof.Proof.KernelBits.KLaunchG
import proofs.«209869_g82368882803221_cont_9to1_m_506_32_alg».proof.Proof.KernelBits.KHostVals
import proofs.«209869_g82368882803221_cont_9to1_m_506_32_alg».proof.Proof.KernelBits.KRegionStep

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The region's entry, as @main's proof consumes it -/

/-- What the TensorCore owes and has recorded around the region: nothing owed, every recorded pair at level at most 8. -/
abbrev owes8 (d : Dev nD) : sProp (𝕄 F) :=
  iprop(∃ W, ⌜(K (F := F)).WBelow (T d) W 8⌝ ∗ owes (T d) (0 : CellTallies nD τ sig (HIx 1)) W)

/-! ## The valuations, buffer by buffer -/

theorem V5_ne (d : Dev nD) (r : DevRef τ sig) (h : r ≠ r_v4) : V5 m d r = V4 m d r := Function.update_of_ne h _ _
theorem V5_v4 (d : Dev nD) : V5 m d r_v4 = OUT m d := Function.update_self _ _ _
theorem V7_ne (d : Dev nD) (r : DevRef τ sig) (h : r ≠ r_v7) : V7 m d r = V6 m d r := Function.update_of_ne h _ _
theorem V7_v7 (d : Dev nD) : V7 m d r_v7 = RES m d := Function.update_self _ _ _

theorem V6_arg0 (d : Dev nD) : V6 m d r_arg0 = m (d, r_arg0) := by
  unfold V6; rw [op6_ne _ main_arg0 (by decide), op5_ne _ main_arg0 (by decide), V5_ne m d r_arg0 (by decide), V4_arg0]
theorem V6_arg1 (d : Dev nD) : V6 m d r_arg1 = m (d, r_arg1) := by
  unfold V6; rw [op6_ne _ main_arg1 (by decide), op5_ne _ main_arg1 (by decide), V5_ne m d r_arg1 (by decide), V4_arg1]

/-- What @main leaves the claim: the two arguments at their launch contents, the result at `VAL`. -/
def FIN (d : Dev nD) : sProp (𝕄 F) :=
  iprop(pl d main_arg0 (m (d, r_arg0)) ∗ pl d main_arg1 (m (d, r_arg1)) ∗ pl d main_v8 (VAL m d))

end Cert.Kernel.Hand

end
-- ==== Proof.KernelBits.KLaunchI.lean ====
import proofs.«209869_g82368882803221_cont_9to1_m_506_32_alg».proof.Proof.KernelBits.KCommon
import proofs.«209869_g82368882803221_cont_9to1_m_506_32_alg».proof.Proof.KernelBits.KLaunchH

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The eleven buffers at each valuation -/

theorem held_V4 (d : Dev nD) :
    (held (T d) S11 (V4 m d) : sProp (𝕄 F)) = iprop(pl d main_arg0 (m (d, r_arg0)) ∗ pl d main_arg1 (m (d, r_arg1)) ∗ pl d main_v0 (V4 m d r_v0) ∗ pl d main_v1 (V4 m d r_v1) ∗ pl d main_v2 (V4 m d r_v2) ∗ pl d main_v3 (TAB m d) ∗ pl d main_v4 (m (d, r_v4)) ∗ pl d main_v5 (m (d, r_v5)) ∗ pl d main_v6 (m (d, r_v6)) ∗ pl d main_v7 (m (d, r_v7)) ∗ pl d main_v8 (m (d, r_v8))) := by
  rw [held_S11, V4_arg0, V4_arg1, V4_v4, V4_v5, V4_v6, V4_v7, V4_v8]; rfl

theorem held_V5 (d : Dev nD) :
    (held (T d) S11 (V5 m d) : sProp (𝕄 F)) = iprop(pl d main_arg0 (m (d, r_arg0)) ∗ pl d main_arg1 (m (d, r_arg1)) ∗ pl d main_v0 (V4 m d r_v0) ∗ pl d main_v1 (V4 m d r_v1) ∗ pl d main_v2 (V4 m d r_v2) ∗ pl d main_v3 (TAB m d) ∗ pl d main_v4 (OUT m d) ∗ pl d main_v5 (m (d, r_v5)) ∗ pl d main_v6 (m (d, r_v6)) ∗ pl d main_v7 (m (d, r_v7)) ∗ pl d main_v8 (m (d, r_v8))) := by
  rw [held_S11, V5_v4, V5_ne m d r_arg0 (by decide), V5_ne m d r_arg1 (by decide), V5_ne m d r_v0 (by decide), V5_ne m d r_v1 (by decide), V5_ne m d r_v2 (by decide), V5_ne m d r_v3 (by decide), V5_ne m d r_v5 (by decide), V5_ne m d r_v6 (by decide), V5_ne m d r_v7 (by decide), V5_ne m d r_v8 (by decide),
    V4_arg0, V4_arg1, V4_v5, V4_v6, V4_v7, V4_v8]; rfl

theorem held_V7 (d : Dev nD) :
    (held (T d) S11 (V7 m d) : sProp (𝕄 F)) = iprop(pl d main_arg0 (V6 m d r_arg0) ∗ pl d main_arg1 (V6 m d r_arg1) ∗ pl d main_v0 (V6 m d r_v0) ∗ pl d main_v1 (V6 m d r_v1) ∗ pl d main_v2 (V6 m d r_v2) ∗ pl d main_v3 (V6 m d r_v3) ∗ pl d main_v4 (V6 m d r_v4) ∗ pl d main_v5 (V6 m d r_v5) ∗ pl d main_v6 (V6 m d r_v6) ∗ pl d main_v7 (RES m d) ∗ pl d main_v8 (V6 m d r_v8)) := by
  rw [held_S11, V7_v7, V7_ne m d r_arg0 (by decide), V7_ne m d r_arg1 (by decide), V7_ne m d r_v0 (by decide), V7_ne m d r_v1 (by decide), V7_ne m d r_v2 (by decide), V7_ne m d r_v3 (by decide), V7_ne m d r_v4 (by decide), V7_ne m d r_v5 (by decide), V7_ne m d r_v6 (by decide), V7_ne m d r_v8 (by decide)]

theorem fin_arg0 (d : Dev nD) : (op8 (F := F)).result (V7 m d) r_arg0 = m (d, r_arg0) := by
  rw [op8_ne _ main_arg0 (by decide), V7_ne m d r_arg0 (by decide), V6_arg0]
theorem fin_arg1 (d : Dev nD) : (op8 (F := F)).result (V7 m d) r_arg1 = m (d, r_arg1) := by
  rw [op8_ne _ main_arg1 (by decide), V7_ne m d r_arg1 (by decide), V6_arg1]

/-! ## The TensorCore's handshake state around the region -/

theorem tcSt_open (d : Dev nD) :
    (K (F := F)).tcSt EH d 1 ⊢ (iprop(owes8 d ∗ (owes8 d -∗ (K (F := F)).tcSt EH d 1)) : sProp (𝕄 F)) := by
  unfold SparseCore.Cfg.tcSt
  rw [(K (F := F)).Otc_end d (le_refl 1)]
  iintro ⟨⟨%W, %hW, HO⟩, Hrest⟩
  isplitl [HO]
  · iexists W; isplitr
    · ipureintro; exact hW
    · iexact HO
  iintro ⟨%W', %hW', HO'⟩
  isplitl [HO']
  · iexists W'; isplitr
    · ipureintro; exact hW'
    · iexact HO'
  iexact Hrest

/-! ## @main on the TensorCore -/

theorem hmain (κ : GSem nD τ sig → ℕ) (d : Dev nD) :
    iprop((K (F := F)).ctx EH (P m) κ ∗ (K (F := F)).tcSt EH d 0 ∗ (K (F := F)).tcRes m ρ d ∗ regionGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the table: two transposes and two reshapes of the logits
  iapply (wp_hlo_within 𝒱 (SparseCore.T d) none Set.univ (op := op0) (S := S11) h_op0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S11) h_op1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S11) h_op2 (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S11) h_op3 (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  ihave Hheld4 := (Entails.of_eq (show (held (T d) S11 ((op3 (F := F)).result ((op2 (F := F)).result ((op1 (F := F)).result ((op0 (F := F)).result (V0 m d))))) : sProp (𝕄 F))
      = held (T d) S11 (V4 m d) from rfl)) $$ Hheld
  ihave Hh := (Entails.of_eq (held_V4 (F := F) m d)) $$ Hheld4
  icases Hh with ⟨Harg0, Harg1, Hv0, Hv1, Hv2, Hv3, Hv4, Hv5, Hv6, Hv7, Hv8⟩
  -- the SparseCore call: the table, the targets and the output dealt to the 32 tiles and gathered back
  ihave Hs := (st0_intro m d (m (d, r_v4))) $$ [Hv3 Harg1 Hv4]
  · isplitl [Hv3]; · iexact Hv3
    isplitl [Harg1]; · iexact Harg1
    iexact Hv4
  icases Hs with ⟨Hrem, Hst0⟩
  iapply ((K (F := F)).wp_run (D (F := F)) 𝒱 (EH := EH) (P := P m) κ d 0) $$ [Hst Hst0 Hrem Hb Harg0 Hv0 Hv1 Hv2 Hv5 Hv6 Hv7 Hv8 HG]
  isplitr; · iexact Hctx
  isplitl [Hst]; · iexact Hst
  isplitl [Hst0]; · iexact Hst0
  iintro ⟨Hst, Hdn⟩
  ihave Hst := (Entails.of_eq (show ((K (F := F)).tcSt EH d ((0 : Fin 1).val + 1) : sProp (𝕄 F)) = (K (F := F)).tcSt EH d 1 from rfl)) $$ Hst
  ihave Hd := (dn0_elim m d) $$ [Hrem Hdn]
  · isplitl [Hrem]; · iexact Hrem
    iexact Hdn
  icases Hd with ⟨Hv3, Harg1, Hv4⟩
  -- the two reshapes
  ihave Hheld := (Entails.of_eq (held_V5 (F := F) m d).symm) $$ [Harg0 Harg1 Hv0 Hv1 Hv2 Hv3 Hv4 Hv5 Hv6 Hv7 Hv8]
  · isplitl [Harg0]; · iexact Harg0
    isplitl [Harg1]; · iexact Harg1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    iexact Hv8
  iapply (wp_hlo_within 𝒱 (SparseCore.T d) none Set.univ (op := op5) (S := S11) h_op5 (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S11) h_op6 (V := (op5 (F := F)).result (V5 m d))) $$ [Hb Hheld]
  · isplitl [Hb]; · iexact Hb
    iexact Hheld
  iintro ⟨Hb, Hheld⟩
  rw [wp_ret]; imodintro
  ihave Hheld6 := (Entails.of_eq (show (held (T d) S11 ((op6 (F := F)).result ((op5 (F := F)).result (V5 m d))) : sProp (𝕄 F)) = held (T d) S11 (V6 m d) from rfl)) $$ Hheld
  ihave Hh := (Entails.of_eq (held_S11 (F := F) d (V6 m d))) $$ Hheld6
  icases Hh with ⟨Harg0, Harg1, Hv0, Hv1, Hv2, Hv3, Hv4, Hv5, Hv6, Hv7, Hv8⟩
  -- the region
  ihave Ho := (tcSt_open (F := F) d) $$ Hst
  icases Ho with ⟨HO, Hclose⟩
  ihave Hlev := ((K (F := F)).ctx_levAts κ) $$ Hctx
  iapply (regionStep d (V6 m d r_v5) (V6 m d r_v6) (V6 m d r_v0) (V6 m d r_v7) _) $$ [Hb Hlev HG Hv5 Hv6 Hv0 Hv7 HO Harg0 Harg1 Hv1 Hv2 Hv3 Hv4 Hv8 Hclose]
  isplitl [Hb]; · iexact Hb
  isplitr; · iexact Hlev
  isplitl [HG]; · iexact HG
  isplitl [Hv5]; · iexact Hv5
  isplitl [Hv6]; · iexact Hv6
  isplitl [Hv0]; · iexact Hv0
  isplitl [Hv7]; · iexact Hv7
  isplitl [HO]; · iexact HO
  iintro ⟨Hb, Hv5, Hv6, Hv0, Hv7, HO⟩
  ihave Hst := Hclose $$ HO
  -- the last reshape
  ihave Hheld := (Entails.of_eq (held_V7 (F := F) m d).symm) $$ [Harg0 Harg1 Hv0 Hv1 Hv2 Hv3 Hv4 Hv5 Hv6 Hv7 Hv8]
  · isplitl [Harg0]; · iexact Harg0
    isplitl [Harg1]; · iexact Harg1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    iexact Hv8
  iapply (wp_hlo_within 𝒱 (SparseCore.T d) none Set.univ (op := op8) (S := S11) h_op8 (V := V7 m d)) $$ [Hb Hheld]
  · isplitl [Hb]; · iexact Hb
    iexact Hheld
  iintro ⟨Hb, Hheld⟩
  ihave Hh := (Entails.of_eq (held_S11 (F := F) d ((op8 (F := F)).result (V7 m d)))) $$ Hheld
  icases Hh with ⟨Harg0, Harg1, -, -, -, -, -, -, -, -, Hv8⟩
  rw [wp_ret]; imodintro; imodintro
  isplitl [Hst]; · iexact Hst
  unfold FIN
  rw [← fin_arg0 m d, ← fin_arg1 m d]
  isplitl [Harg0]; · iexact Harg0
  isplitl [Harg1]; · iexact Harg1
  iexact Hv8

end Cert.Kernel.Hand

end
-- ==== Proof.KernelBits.KLaunchJ.lean ====
import proofs.«209869_g82368882803221_cont_9to1_m_506_32_alg».proof.Proof.KernelBits.KCommon
import proofs.«209869_g82368882803221_cont_9to1_m_506_32_alg».proof.Proof.KernelBits.KLaunchI

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.TcCoe

variable (m : (ℓ : Loc nD τ sig) → Buf (Elt F) ℓ) (ρ : Dev nD → PrngReg)
variable [FloatOps F]

/-! ## The launch element: the handshakes' rounds, the region's staging rounds, the counters -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem ghost_join :
    (iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => Pipeline.toksInit (Pipeline.pin (pcfgs (F := F)) adm) EP p c)) : sProp (𝕄 F))
      ⊢ bigSep Finset.univ fun d : Dev nD => regionGhost (F := F) d := by
  unfold regionGhost
  rw [bigSep_sep', bigSep_congr (fun c _ => bigSep_univ_of_subsingleton (0 : Fin 1)), bigSep_congr (fun c _ => bigSep_univ_of_subsingleton (0 : Fin 1))]

omit [FloatOps F] in
theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UR' × Counters) (𝕄 F)) _ _) $$ HR
  icases H2 with ⟨HP0, -⟩
  ihave HP := (Entails.of_eq (show (BI.own ((Emb.inl.trans (embR : Emb (UR' × Counters) (𝕄 F)))
      (initOf (Pipeline.cells (Pipeline.pin (pcfgs (F := F)) adm) cellOf_inj) (Pipeline.launchToks (Pipeline.pin (pcfgs (F := F)) adm) cellOf_inj))) : sProp (𝕄 F))
      = BI.own (EP (initOf (Pipeline.cells (Pipeline.pin (pcfgs (F := F)) adm) cellOf_inj) (Pipeline.launchToks (Pipeline.pin (pcfgs (F := F)) adm) cellOf_inj))) from rfl)) $$ HP0
  imod (Pipeline.fund_ghost (Pipeline.pin (pcfgs (F := F)) adm) EP cellOf_inj) $$ HP with ⟨Hg, Ht⟩
  imodintro
  isplitl [HH]; · iexact HH
  isplitl [Hg Ht]
  · iapply (ghost_join (F := F))
    isplitl [Hg]; · iexact Hg
    iexact Ht
  unfold P; dsimp only
  rw [show (bigSep Finset.univ fun _ : Thread nD τ => bigSep Finset.univ fun _ : Fin 1 => (iprop(emp) : sProp (𝕄 F))) = iprop(emp) from by
    rw [bigSep_congr fun _ _ => bigSep_emp' _, bigSep_emp']]
  iempintro

/-! ## What the final memory holds -/

def fq (d : Dev nD) (s' : Phys nD τ sig (Elt F)) : Prop :=
  s'.mem.mem ((SparseCore.T d : Thread nD τ).loc main_v8) = VAL m d ∧ s'.mem.mem ((SparseCore.T d : Thread nD τ).loc main_arg0) = m (d, r_arg0)
    ∧ s'.mem.mem ((SparseCore.T d : Thread nD τ).loc main_arg1) = m (d, r_arg1)

theorem hfin (d : Dev nD) (s' : Phys nD τ sig (Elt F)) : iprop(FIN m d ∗ SI s') ⊢ (⌜fq m d s'⌝ : sProp (𝕄 F)) := by
  unfold FIN
  iintro ⟨⟨H0, H1, H8⟩, HSI⟩
  ihave H := (persistent_entails_right (SI_pointsTo_agree (st := s') (ℓ := (SparseCore.T d : Thread nD τ).loc main_arg0) (I := Finset.univ) (q := fullShare) (f := m (d, r_arg0)))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := m (d, r_arg1)))) $$ [HSI H1]
  · isplitl [HSI] <;> iassumption
  icases H with ⟨%h1, HSI, -⟩
  ihave H := (SI_pointsTo_agree (st := s') (ℓ := (SparseCore.T d : Thread nD τ).loc main_v8) (I := Finset.univ) (q := fullShare) (f := VAL m d)) $$ [HSI H8]
  · isplitl [HSI] <;> iassumption
  icases H with %h8
  ipureintro
  exact ⟨funext fun i => h8 i (Finset.mem_univ i), funext fun i => h0 i (Finset.mem_univ i), funext fun i => h1 i (Finset.mem_univ i)⟩

/-! ## The program's run -/

/-- Every final memory: the result at `VAL`, the two arguments unchanged. -/
def QC : PUnit × MemSt nD τ sig (Elt F) → Prop := fun r => ∀ c : Dev nD,
  r.2.mem ((c.tc : Thread nD τ).loc main_v8) = VAL m c ∧ r.2.mem ((c.tc : Thread nD τ).loc main_arg0) = m ((c.tc : Thread nD τ).loc main_arg0)
    ∧ r.2.mem ((c.tc : Thread nD τ).loc main_arg1) = m ((c.tc : Thread nD τ).loc main_arg1)

theorem run_main [∀ e, Nonempty (Elt F e)] (TB : TileBodySpec F) (hpre : ∀ d i, (m (tgtLoc d) i).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m TB facts hpre)
    (fun q _ => match q with | 0 => SparseCore.Cfg.VecSplit.of_plain (vecSplit m))
    m ρ main (fun d => regionGhost (F := F) d) (FIN m) (u₀ (F := F)) (sep_elim_left.trans (hu₀ m)) (hmain m ρ) (fq m) (hfin m) (QC m) (fun _ h => h)

end Cert.Kernel.Hand

end
-- ==== Proof.KernelBits.KTilePure.lean ====
/-
  Pure word facts about the vector-subcore kernel's payloads. A tile turns each of its 64 target words `t`
  (known to lie below 100000) into the table row `(t >> 3) * 128 + (t & 7) + off`, where `off` is eight times
  half the worker number: on a non-negative word the arithmetic shift is division by 8 and the mask the remainder
  modulo 8, and no product or sum reaches 2^31, so every operation is the operation on natural numbers, and the row
  is below 1600000. The lane index vectors are the lane number plus a constant, and the column index vectors the
  lane number plus 64 times the worker number's parity plus a constant; each stays inside the 64 x 128 buffer.
-/
import proofs.«209869_g82368882803221_cont_9to1_m_506_32_alg».proof.Proof.Gen.Kernel.Skeleton
import Idealize.ShloMosaic.Lib.ValueIdx

noncomputable section

namespace Cert.Kernel.Hand

open Idealize.ShloMosaic Idealize.ShloMosaic.ValueIdx
open Cert.Kernel Cert.Kernel.Gen

variable {F : FTy → Type} [FloatOps F]

/-! ## The scalar chains -/

/-- The worker number word: `2 * tile + core`. -/
def wordW (L : grid0.Coords) : BitVec 32 :=
  Scalar.addi (Scalar.muli (BitVec.ofNat 32 (L 1).val) 2#32) (BitVec.ofNat 32 (L 0).val)

/-- The row offset word: the floor of half the worker number (as the program spells a floor division), times 8. -/
def rowOff (L : grid0.Coords) : BitVec 32 :=
  let v1 : BitVec 32 := wordW L
  let v3 : BitVec 32 := Scalar.divsi v1 2#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 2#32 0#32
  let v10 : BitVec 32 := Scalar.extui v9
  let v11 : BitVec 1 := Scalar.cmpi .slt 2#32 0#32
  let v12 : BitVec 32 := Scalar.extui v11
  let v13 : BitVec 32 := Scalar.subi v10 v12
  let v14 : BitVec 1 := Scalar.cmpi .ne v8 v13
  let v15 : BitVec 32 := Scalar.remsi v1 2#32
  let v16 : BitVec 1 := Scalar.cmpi .ne v15 0#32
  let v17 : BitVec 1 := Scalar.andi v14 v16
  let v18 : BitVec 32 := Scalar.subi v3 1#32
  let v19 : BitVec 32 := Scalar.select v17 v18 v3
  Scalar.muli v19 8#32

/-- The modulus word of the parity: the program selects 2 (the divisor is not zero). -/
def modW : BitVec 32 := Scalar.select (Scalar.cmpi .eq 2#32 0#32) 1#32 2#32

theorem wordW_toNat : ∀ L : grid0.Coords, (wordW L).toNat = 2 * (L 1).val + (L 0).val := by decide +kernel

theorem rowOff_toNat : ∀ L : grid0.Coords, (rowOff L).toNat = (2 * (L 1).val + (L 0).val) / 2 * 8 := by decide +kernel

theorem rowOff_toNat' : ∀ L : grid0.Coords, (rowOff L).toNat = (L 1).val * 8 := by decide +kernel

theorem modW_eq : modW = 2#32 := by decide

/-! ## One row word -/

/-- The row word of a target word `x` and an offset word `off`. -/
def rowWord (x off : BitVec 32) : BitVec 32 :=
  IntOp.addi (IntOp.addi (IntOp.muli (IntOp.shrsi .vector x 3#32) 128#32) (IntOp.andi x 7#32)) off

theorem rowWord_toNat (x off : BitVec 32) (hx : x.toNat < 100000) (ho : off.toNat ≤ 120) :
    (rowWord x off).toNat = x.toNat / 8 * 128 + x.toNat % 8 + off.toNat := by
  have hm : x.msb = false := by rw [BitVec.msb_eq_false_iff_two_mul_lt]; omega
  have hs : IntOp.shrsi .vector x 3#32 = x >>> 3 := by
    unfold IntOp.shrsi
    rw [if_pos (by decide), BitVec.sshiftRight_eq', BitVec.sshiftRight_eq_of_msb_false hm]
    rfl
  have ha : (x >>> 3).toNat = x.toNat / 8 := by
    rw [BitVec.toNat_ushiftRight, Nat.shiftRight_eq_div_pow]
  have hb : (x &&& 7#32).toNat = x.toNat % 8 := by
    rw [BitVec.toNat_and]
    exact Nat.and_two_pow_sub_one_eq_mod x.toNat 3
  unfold rowWord
  rw [hs]
  simp only [IntOp.addi, IntOp.muli, IntOp.andi, BitVec.toNat_add, BitVec.toNat_mul, ha, hb]
  have h128 : (128#32 : BitVec 32).toNat = 128 := rfl
  rw [h128]
  omega

/-- The row word under the two bounds, with the offset word of tile `L`. -/
theorem rowWord_rowOff_toNat (L : grid0.Coords) (x : BitVec 32) (hx : x.toNat < 100000) :
    (rowWord x (rowOff L)).toNat = x.toNat / 8 * 128 + x.toNat % 8 + (L 1).val * 8 := by
  have h1 : (L 1).val < 16 := (L 1).isLt
  rw [rowWord_toNat x (rowOff L) hx (by rw [rowOff_toNat']; omega), rowOff_toNat']

/-- The row word names a row of the 1600000-row table. -/
theorem rowWord_rowOff_lt (L : grid0.Coords) (x : BitVec 32) (hx : x.toNat < 100000) :
    (rowWord x (rowOff L)).toNat < 1600000 := by
  have h1 : (L 1).val < 16 := (L 1).isLt
  rw [rowWord_rowOff_toNat L x hx]
  omega

/-! ## The four row payloads, read at a lane -/

/-- The first 16 row words, read at a lane. -/
theorem pay1_apply (L : grid0.Coords) (v : Vec F S16 .i32) (j : S16.Idx) :
    k0_pay1 (F := F) L v j = rowWord (v j) (rowOff L) := rfl
/-- The second, third and fourth 16 row words, read at a lane, from any offset word. -/
theorem pay3_apply (v20 : BitVec 32) (v : Vec F S16 .i32) (j : S16.Idx) :
    k0_pay3 (F := F) v20 v k0_pay2 j = rowWord (v j) v20 := rfl
theorem pay4_apply (v20 : BitVec 32) (v : Vec F S16 .i32) (j : S16.Idx) :
    k0_pay4 (F := F) v20 v j = rowWord (v j) v20 := rfl
theorem pay5_apply (v20 : BitVec 32) (v : Vec F S16 .i32) (j : S16.Idx) :
    k0_pay5 (F := F) v20 v j = rowWord (v j) v20 := rfl

theorem pay1_toNat (L : grid0.Coords) (v : Vec F S16 .i32) (j : S16.Idx) (h : (v j).toNat < 100000) :
    (k0_pay1 (F := F) L v j).toNat = (v j).toNat / 8 * 128 + (v j).toNat % 8 + (L 1).val * 8 :=
  rowWord_rowOff_toNat L (v j) h
theorem pay1_lt (L : grid0.Coords) (v : Vec F S16 .i32) (j : S16.Idx) (h : (v j).toNat < 100000) :
    (k0_pay1 (F := F) L v j).toNat < 1600000 :=
  rowWord_rowOff_lt L (v j) h
theorem pay3_toNat (L : grid0.Coords) (v : Vec F S16 .i32) (j : S16.Idx) (h : (v j).toNat < 100000) :
    (k0_pay3 (F := F) (rowOff L) v k0_pay2 j).toNat = (v j).toNat / 8 * 128 + (v j).toNat % 8 + (L 1).val * 8 :=
  rowWord_rowOff_toNat L (v j) h
theorem pay3_lt (L : grid0.Coords) (v : Vec F S16 .i32) (j : S16.Idx) (h : (v j).toNat < 100000) :
    (k0_pay3 (F := F) (rowOff L) v k0_pay2 j).toNat < 1600000 :=
  rowWord_rowOff_lt L (v j) h
theorem pay4_toNat (L : grid0.Coords) (v : Vec F S16 .i32) (j : S16.Idx) (h : (v j).toNat < 100000) :
    (k0_pay4 (F := F) (rowOff L) v j).toNat = (v j).toNat / 8 * 128 + (v j).toNat % 8 + (L 1).val * 8 :=
  rowWord_rowOff_toNat L (v j) h
theorem pay4_lt (L : grid0.Coords) (v : Vec F S16 .i32) (j : S16.Idx) (h : (v j).toNat < 100000) :
    (k0_pay4 (F := F) (rowOff L) v j).toNat < 1600000 :=
  rowWord_rowOff_lt L (v j) h
theorem pay5_toNat (L : grid0.Coords) (v : Vec F S16 .i32) (j : S16.Idx) (h : (v j).toNat < 100000) :
    (k0_pay5 (F := F) (rowOff L) v j).toNat = (v j).toNat / 8 * 128 + (v j).toNat % 8 + (L 1).val * 8 :=
  rowWord_rowOff_toNat L (v j) h
theorem pay5_lt (L : grid0.Coords) (v : Vec F S16 .i32) (j : S16.Idx) (h : (v j).toNat < 100000) :
    (k0_pay5 (F := F) (rowOff L) v j).toNat < 1600000 :=
  rowWord_rowOff_lt L (v j) h

/-! ## The lane and column index vectors -/

/-- The lane number word of a one-register iota. -/
theorem iota16_apply (h : S16.Iotas .scVector 32 [0]) (j : S16.Idx) :
    iota .scVector S16 32 [0] h j = BitVec.ofNat 32 (j 0).val := by
  simp [iota]

theorem lane_lt (j : S16.Idx) : (j 0).val < 16 := (j 0).isLt

/-- A small constant plus the lane number does not wrap. -/
theorem addi_lane_toNat (b : BitVec 32) (hb : b.toNat ≤ 1000) (h : S16.Iotas .scVector 32 [0]) (j : S16.Idx) :
    (IntOp.addi b (iota .scVector S16 32 [0] h j)).toNat = b.toNat + (j 0).val := by
  have hj := lane_lt j
  rw [iota16_apply, IntOp.addi, BitVec.toNat_add, BitVec.toNat_ofNat]
  omega

/-- The column base word of tile `L`: 64 times the parity of the worker number (as the program spells a floored
    remainder), plus the constant `q`. -/
def colBase (L : grid0.Coords) (q : BitVec 32) : BitVec 32 :=
  let v1 : BitVec 32 := wordW L
  let v68 : BitVec 32 := modW
  let v69 : BitVec 32 := Scalar.remsi v1 v68
  let v70 : BitVec 1 := Scalar.cmpi .ne v69 0#32
  let v71 : BitVec 1 := Scalar.cmpi .slt v69 0#32
  let v72 : BitVec 1 := Scalar.cmpi .slt v68 0#32
  let v73 : BitVec 1 := Scalar.xori v71 v72
  let v74 : BitVec 1 := Scalar.andi v73 v70
  let v75 : BitVec 32 := Scalar.addi v69 v68
  let v76 : BitVec 32 := Scalar.select v74 v75 v69
  let v77 : BitVec 32 := Scalar.muli v76 64#32
  Scalar.addi v77 q

theorem colBase_toNat : ∀ L : grid0.Coords, (colBase L 0#32).toNat = (L 0).val * 64 ∧ (colBase L 16#32).toNat = (L 0).val * 64 + 16
    ∧ (colBase L 32#32).toNat = (L 0).val * 64 + 32 ∧ (colBase L 48#32).toNat = (L 0).val * 64 + 48 := by decide +kernel

theorem pay6_apply (j : S16.Idx) : k0_pay6 j = IntOp.addi 0#32 (iota .scVector S16 32 [0] iota_S16_d0_w32_scVector j) := rfl
theorem pay8_apply (j : S16.Idx) : k0_pay8 j = IntOp.addi 16#32 (iota .scVector S16 32 [0] iota_S16_d0_w32_scVector j) := rfl
theorem pay10_apply (j : S16.Idx) : k0_pay10 j = IntOp.addi 32#32 (iota .scVector S16 32 [0] iota_S16_d0_w32_scVector j) := rfl
theorem pay12_apply (j : S16.Idx) : k0_pay12 j = IntOp.addi 48#32 (iota .scVector S16 32 [0] iota_S16_d0_w32_scVector j) := rfl
theorem pay7_apply (L : grid0.Coords) (j : S16.Idx) :
    k0_pay7 (wordW L) modW j = IntOp.addi (colBase L 0#32) (iota .scVector S16 32 [0] iota_S16_d0_w32_scVector j) := rfl
theorem pay9_apply (L : grid0.Coords) (j : S16.Idx) :
    k0_pay9 (wordW L) modW j = IntOp.addi (colBase L 16#32) (iota .scVector S16 32 [0] iota_S16_d0_w32_scVector j) := rfl
theorem pay11_apply (L : grid0.Coords) (j : S16.Idx) :
    k0_pay11 (wordW L) modW j = IntOp.addi (colBase L 32#32) (iota .scVector S16 32 [0] iota_S16_d0_w32_scVector j) := rfl
theorem pay13_apply (L : grid0.Coords) (j : S16.Idx) :
    k0_pay13 (wordW L) modW j = IntOp.addi (colBase L 48#32) (iota .scVector S16 32 [0] iota_S16_d0_w32_scVector j) := rfl

theorem pay6_toNat (j : S16.Idx) : (k0_pay6 j).toNat = (j 0).val := by
  rw [pay6_apply, addi_lane_toNat _ (by decide)]; simp
theorem pay8_toNat (j : S16.Idx) : (k0_pay8 j).toNat = 16 + (j 0).val := by
  rw [pay8_apply, addi_lane_toNat _ (by decide)]; rfl
theorem pay10_toNat (j : S16.Idx) : (k0_pay10 j).toNat = 32 + (j 0).val := by
  rw [pay10_apply, addi_lane_toNat _ (by decide)]; rfl
theorem pay12_toNat (j : S16.Idx) : (k0_pay12 j).toNat = 48 + (j 0).val := by
  rw [pay12_apply, addi_lane_toNat _ (by decide)]; rfl

theorem pay7_toNat (L : grid0.Coords) (j : S16.Idx) : (k0_pay7 (wordW L) modW j).toNat = (L 0).val * 64 + (j 0).val := by
  have h0 : (L 0).val < 2 := (L 0).isLt
  have hc := (colBase_toNat L).1
  rw [pay7_apply, addi_lane_toNat _ (by rw [hc]; omega), hc]
theorem pay9_toNat (L : grid0.Coords) (j : S16.Idx) : (k0_pay9 (wordW L) modW j).toNat = (L 0).val * 64 + 16 + (j 0).val := by
  have h0 : (L 0).val < 2 := (L 0).isLt
  have hc := (colBase_toNat L).2.1
  rw [pay9_apply, addi_lane_toNat _ (by rw [hc]; omega), hc]
theorem pay11_toNat (L : grid0.Coords) (j : S16.Idx) : (k0_pay11 (wordW L) modW j).toNat = (L 0).val * 64 + 32 + (j 0).val := by
  have h0 : (L 0).val < 2 := (L 0).isLt
  have hc := (colBase_toNat L).2.2.1
  rw [pay11_apply, addi_lane_toNat _ (by rw [hc]; omega), hc]
theorem pay13_toNat (L : grid0.Coords) (j : S16.Idx) : (k0_pay13 (wordW L) modW j).toNat = (L 0).val * 64 + 48 + (j 0).val := by
  have h0 : (L 0).val < 2 := (L 0).isLt
  have hc := (colBase_toNat L).2.2.2
  rw [pay13_apply, addi_lane_toNat _ (by rw [hc]; omega), hc]

/-! ## The four checks the body assumes -/

theorem chk1 (L : grid0.Coords) : k0_chk1 k0_pay6 (k0_pay7 (wordW L) modW) := by
  intro a x
  have h0 : (L 0).val < 2 := (L 0).isLt
  have hx := lane_lt x
  match a with
  | ⟨0, _⟩ => show (k0_pay6 x).toNat < 64; rw [pay6_toNat]; omega
  | ⟨1, _⟩ => show (k0_pay7 (wordW L) modW x).toNat < 128; rw [pay7_toNat]; omega
theorem chk2 (L : grid0.Coords) : k0_chk2 k0_pay8 (k0_pay9 (wordW L) modW) := by
  intro a x
  have h0 : (L 0).val < 2 := (L 0).isLt
  have hx := lane_lt x
  match a with
  | ⟨0, _⟩ => show (k0_pay8 x).toNat < 64; rw [pay8_toNat]; omega
  | ⟨1, _⟩ => show (k0_pay9 (wordW L) modW x).toNat < 128; rw [pay9_toNat]; omega
theorem chk3 (L : grid0.Coords) : k0_chk3 k0_pay10 (k0_pay11 (wordW L) modW) := by
  intro a x
  have h0 : (L 0).val < 2 := (L 0).isLt
  have hx := lane_lt x
  match a with
  | ⟨0, _⟩ => show (k0_pay10 x).toNat < 64; rw [pay10_toNat]; omega
  | ⟨1, _⟩ => show (k0_pay11 (wordW L) modW x).toNat < 128; rw [pay11_toNat]; omega
theorem chk4 (L : grid0.Coords) : k0_chk4 k0_pay12 (k0_pay13 (wordW L) modW) := by
  intro a x
  have h0 : (L 0).val < 2 := (L 0).isLt
  have hx := lane_lt x
  match a with
  | ⟨0, _⟩ => show (k0_pay12 x).toNat < 64; rw [pay12_toNat]; omega
  | ⟨1, _⟩ => show (k0_pay13 (wordW L) modW x).toNat < 128; rw [pay13_toNat]; omega

end Cert.Kernel.Hand

end
-- ==== Proof.KernelBits.KTileVal.lean ====
/-
  The value a tile of the vector-subcore kernel leaves, as index equations. The tile copies its 64 target words into the index
  scratch, rewrites each 16-word window of it with the row words `(t >> 3) * 128 + (t & 7) + 8 * tile` of the words it loaded,
  gathers the 64 table rows those words name into the rows scratch, picks from row `k` the lane `64 * core + k`, and stores the
  64 picked words. Read back through the views: a word of the index scratch is the row word of the target word copied there
  (the four windows cover it); a word of the rows scratch is the table at the row its row word names; a picked lane is therefore
  the table entry `picked` names for the output position `128 * tile + 64 * core + k`.
-/
import proofs.«209869_g82368882803221_cont_9to1_m_506_32_alg».proof.Proof.KernelBits.KTileDefs
import proofs.«209869_g82368882803221_cont_9to1_m_506_32_alg».proof.Proof.KernelBits.KTilePure
import Idealize.ShloMosaic.Lib.Writes
import Idealize.ShloMosaic.Lib.SparseCore.Stream

noncomputable section

namespace Cert.Kernel.Hand

open Cert.Kernel Cert.Kernel.Gen

open Idealize.ShloMosaic Idealize.ShloMosaic.ValueIdx
open Idealize.ShloMosaic.SparseCore (S V T)

variable {F : FTy → Type}

section Value

variable (d : Dev nD) (L : grid0.Coords) [FloatOps F]

abbrev sIv : Memref sig .scVector .vmem S64 .i32 := Memref.whole cc0_scratch0
abbrev sRv : Memref sig .scVector .vmem S64x128 .f32 := Memref.whole cc0_scratch1
abbrev sOv : Memref sig .scVector .vmem S64 .f32 := Memref.whole cc0_scratch2

/-- A word of a 64-word scratch read through a 16-word window of it, after the scratch was written whole with `w`: `w` at the window's word. -/
theorem readAt_written (w : S64.Idx → Elt F .i32) (fi : Buf (Elt F) ((V d (cV L) (jV L)).loc cc0_scratch0)) (r : Rect S64) (x : r.shape.Idx) :
    View.readAt (Elt F) (sIv).view r.toLoadRect (View.write (Elt F) (sIv).view fi w Finset.univ) x = w (r.emb x) := by
  rw [View.readAt_apply, View.read_write_univ]; rfl

/-- The four 16-word windows at 48, 32, 16, 0 cover the 64 words. -/
theorem cover64 {e : EltTy} (p3 : (Rect.unit (s := S64) ![48] S16.size inb_S64_S16_48).shape.Idx → Elt F e) (p2 : (Rect.unit (s := S64) ![32] S16.size inb_S64_S16_32).shape.Idx → Elt F e)
    (p1 : (Rect.unit (s := S64) ![16] S16.size inb_S64_S16_16).shape.Idx → Elt F e) (p0 : (Rect.unit (s := S64) ![0] S16.size inb_S64_S16_0).shape.Idx → Elt F e) :
    ∀ y : S64.Idx, ∃ p ∈ ([⟨Rect.unit (s := S64) ![48] S16.size inb_S64_S16_48, p3⟩, ⟨Rect.unit (s := S64) ![32] S16.size inb_S64_S16_32, p2⟩,
      ⟨Rect.unit (s := S64) ![16] S16.size inb_S64_S16_16, p1⟩, ⟨Rect.unit (s := S64) ![0] S16.size inb_S64_S16_0, p0⟩] : List (View.Piece (Elt F) S64 e)), y ∈ p.1.set :=
  View.cover_of_tiled _ S16.size rfl

/-- The four stores of row words into the index scratch, last first: each 16-word window gets the row words of the 16 target words loaded from it
    (the scratch then holding the 64 target words `w` the copy landed over its old contents `fi`). -/
abbrev idxList (w : S64.Idx → Elt F .i32) (fi : Buf (Elt F) ((V d (cV L) (jV L)).loc cc0_scratch0)) : List (View.Piece (Elt F) S64 .i32) :=
      [⟨Rect.unit ![48] S16.size inb_S64_S16_48, k0_pay5 (rowOff L) (View.readAt (Elt F) (sIv).view (Rect.unit (s := S64) ![48] S16.size inb_S64_S16_48).toLoadRect (View.write (Elt F) (sIv).view fi w Finset.univ))⟩,
       ⟨Rect.unit ![32] S16.size inb_S64_S16_32, k0_pay4 (rowOff L) (View.readAt (Elt F) (sIv).view (Rect.unit (s := S64) ![32] S16.size inb_S64_S16_32).toLoadRect (View.write (Elt F) (sIv).view fi w Finset.univ))⟩,
       ⟨Rect.unit ![16] S16.size inb_S64_S16_16, k0_pay3 (rowOff L) (View.readAt (Elt F) (sIv).view (Rect.unit (s := S64) ![16] S16.size inb_S64_S16_16).toLoadRect (View.write (Elt F) (sIv).view fi w Finset.univ)) k0_pay2⟩,
       ⟨Rect.unit ![0] S16.size inb_S64_S16_0, k0_pay1 L (View.readAt (Elt F) (sIv).view (Rect.unit (s := S64) ![0] S16.size inb_S64_S16_0).toLoadRect (View.write (Elt F) (sIv).view fi w Finset.univ))⟩]

/-- What the index scratch reads after the four stores of row words: at every word, the row word of the target word copied there. -/
theorem idx_written (w : S64.Idx → Elt F .i32) (fi g : Buf (Elt F) ((V d (cV L) (jV L)).loc cc0_scratch0)) (y : S64.Idx) :
    (sIv).view.read (Elt F) ((sIv).view.writes (Elt F) g
      [⟨Rect.unit ![48] S16.size inb_S64_S16_48, k0_pay5 (rowOff L) (View.readAt (Elt F) (sIv).view (Rect.unit (s := S64) ![48] S16.size inb_S64_S16_48).toLoadRect (View.write (Elt F) (sIv).view fi w Finset.univ))⟩,
       ⟨Rect.unit ![32] S16.size inb_S64_S16_32, k0_pay4 (rowOff L) (View.readAt (Elt F) (sIv).view (Rect.unit (s := S64) ![32] S16.size inb_S64_S16_32).toLoadRect (View.write (Elt F) (sIv).view fi w Finset.univ))⟩,
       ⟨Rect.unit ![16] S16.size inb_S64_S16_16, k0_pay3 (rowOff L) (View.readAt (Elt F) (sIv).view (Rect.unit (s := S64) ![16] S16.size inb_S64_S16_16).toLoadRect (View.write (Elt F) (sIv).view fi w Finset.univ)) k0_pay2⟩,
       ⟨Rect.unit ![0] S16.size inb_S64_S16_0, k0_pay1 L (View.readAt (Elt F) (sIv).view (Rect.unit (s := S64) ![0] S16.size inb_S64_S16_0).toLoadRect (View.write (Elt F) (sIv).view fi w Finset.univ))⟩]) y
    = rowWord (w y) (rowOff L) := by
  refine View.read_writes_apply_of_pieces (sIv).view g (fun y => rowWord (w y) (rowOff L)) _ ?_ y (cover64 _ _ _ _ y)
  intro p hp
  simp only [List.mem_cons, List.not_mem_nil, or_false] at hp
  rcases hp with rfl | rfl | rfl | rfl <;> intro x
  · show k0_pay5 (rowOff L) _ x = _
    rw [pay5_apply, readAt_written]
  · show k0_pay4 (rowOff L) _ x = _
    rw [pay4_apply, readAt_written]
  · show k0_pay3 (rowOff L) _ k0_pay2 x = _
    rw [pay3_apply, readAt_written]
  · show k0_pay1 L _ x = _
    rw [pay1_apply, readAt_written]

/-- A word of the out slice after the copy-out wrote it whole with `w`. -/
theorem out_written (f0 : Buf (Elt F) (outLoc d)) (w : S64.Idx → Elt F .f32) (j : S64.Idx) :
    ((outSl L).view.writes (Elt F) f0 [⟨Rect.whole S64, w⟩]) ((outSl L).view.emb j) = w j := by
  have h := View.read_writes_cons_emb (outSl L).view f0 (Rect.whole S64) w [] j
  rw [Rect.emb_whole_apply] at h
  rw [← h, View.read_apply]; exact (cast_eq _ _).symm

/-- The gathered-rows scratch, read whole after the gather wrote it whole with `gth`. -/
theorem rows_read (fr : Buf (Elt F) ((V d (cV L) (jV L)).loc cc0_scratch1)) (gth : S64x128.Idx → Elt F .f32) (y : S64x128.Idx) :
    View.read (Elt F) ((sRv).access (Rect.whole S64x128)) ((sRv).view.writes (Elt F) fr [⟨Rect.whole S64x128, gth⟩]) y = gth y := by
  have h1 := congrFun (Memref.read_access_whole (Elt F) cc0_scratch1 ((sRv).view.writes (Elt F) fr [⟨Rect.whole S64x128, gth⟩])) y
  have h2 := congrFun (Memref.write_access_whole_univ (Elt F) cc0_scratch1 fr gth) y
  exact h1.trans h2

/-- The table read through the kernel's whole-table slice is the table. -/
theorem tab_read (ft : Buf (Elt F) (tabLoc d)) (hs : ∀ a, (Rect.unit (s := S1600000x128) ![0, 0] S1600000x128.size inb_S1600000x128_S1600000x128_0_0).stride a = 1) (z : S1600000x128.Idx) :
    View.read (Elt F) ((Memref.whole main_v3_scv : Memref sig .scVector .hbm S1600000x128 .f32).slice (Rect.unit ![0, 0] S1600000x128.size inb_S1600000x128_S1600000x128_0_0) hs).view ft z = ft z :=
  congrFun (Memref.read_access_unit_zero (Elt F) main_v3_scv (off := ![0, 0]) (funext fun a => by fin_cases a <;> rfl) inb_S1600000x128_S1600000x128_0_0 ft) z

/-- A target word the tile copied in, as a word of the targets array. -/
theorem tgt_read (tg : Buf (Elt F) (tgtLoc d)) (y : S64.Idx) :
    (tgtSl L).view.read (Elt F) tg y = tg (ValueIdx.ix1 (posOf L y)) := by
  have e : ((tgtSl L).view.emb y : (⟨1, ![2048]⟩ : Shape).Idx) = ValueIdx.ix1 (posOf L y) := by
    funext a
    match a with
    | ⟨0, _⟩ =>
      apply Fin.ext
      show (k0_off1 L) 0 + 1 * (y 0).val = 128 * (L 1).val + 64 * (L 0).val + (y 0).val
      rw [k0_off1_eq L]; simp
  rw [View.read_apply]
  exact (cast_eq _ _).trans (congrArg tg e)

/-- The gather's payload at a word of the rows scratch: the source at the row the index list names for the word's row, same column. -/
theorem gather_at (g : S1600000x128.Idx → Elt F .f32) (idx : S64.Idx → Elt F .i32) (hn : S64.numel = S64x128.size gathers_S1600000x128_S64x128.axis')
    (hin : ∀ x, (idx x).toNat < 1600000) (y : S64x128.Idx) :
    SparseCore.gatherPayload gathers_S1600000x128_S64x128 g (SparseCore.rows idx hn hin) y
      = g (ValueIdx.ix2 (⟨(idx (ValueIdx.ix1 (y 0 : Fin 64))).toNat, hin _⟩ : Fin 1600000) (y 1 : Fin 128)) := by
  unfold SparseCore.gatherPayload
  refine congrArg g (funext fun b => Fin.ext ?_)
  match b with
  | ⟨0, hb⟩ =>
    have h0 := Shape.Gathers.idx_axis gathers_S1600000x128_S64x128 (SparseCore.rows idx hn hin) y
    have e : S64.rowMajor.symm ((y gathers_S1600000x128_S64x128.axis').cast hn.symm) = (ValueIdx.ix1 (y 0 : Fin 64) : S64.Idx) :=
      (Equiv.symm_apply_eq S64.rowMajor).mpr (Fin.ext (Shape.rowMajor_val_one (d := ![64]) (ValueIdx.ix1 (y 0 : Fin 64))).symm)
    show ((gathers_S1600000x128_S64x128.idx (SparseCore.rows idx hn hin) y) gathers_S1600000x128_S64x128.axis).val = (idx (ValueIdx.ix1 (y 0 : Fin 64))).toNat
    rw [h0]
    exact congrArg (fun z : S64.Idx => (idx z).toNat) e
  | ⟨1, hb⟩ =>
    exact Shape.Gathers.idx_of_ne gathers_S1600000x128_S64x128 _ y ⟨1, hb⟩ Nat.one_ne_zero

/-- Every word of the index scratch, when the gather is issued, names a row of the table. -/
theorem idx_inb (tg : Buf (Elt F) (tgtLoc d)) (hpre : ∀ i, (tg i).toNat < 100000) (fi g : Buf (Elt F) ((V d (cV L) (jV L)).loc cc0_scratch0)) (x : S64.Idx) :
    ((sIv).view.read (Elt F) ((sIv).view.writes (Elt F) g (idxList d L ((tgtSl L).view.read (Elt F) tg) fi)) x).toNat < 1600000 := by
  rw [show (sIv).view.read (Elt F) ((sIv).view.writes (Elt F) g (idxList d L ((tgtSl L).view.read (Elt F) tg) fi)) x = _ from idx_written d L _ fi g x, tgt_read]
  exact rowWord_rowOff_lt L _ (hpre _)

/-- One picked lane. The rows scratch holds, at row `k`, the table's row named by word `k` of the index scratch; a lane reading row `q + l`, column
    `64 * core + q + l` of it reads the table entry picked for output position `128 * tile + 64 * core + q + l`. -/
theorem lane_value (ft : Buf (Elt F) (tabLoc d)) (tg : Buf (Elt F) (tgtLoc d)) (hpre : ∀ i, (tg i).toNat < 100000)
    (fi g : Buf (Elt F) ((V d (cV L) (jV L)).loc cc0_scratch0)) (fr : Buf (Elt F) ((V d (cV L) (jV L)).loc cc0_scratch1))
    (hs : ∀ a, (Rect.unit (s := S1600000x128) ![0, 0] S1600000x128.size inb_S1600000x128_S1600000x128_0_0).stride a = 1)
    (hn : S64.numel = S64x128.size gathers_S1600000x128_S64x128.axis')
    (hin : ∀ x, ((sIv).view.read (Elt F) ((sIv).view.writes (Elt F) g (idxList d L ((tgtSl L).view.read (Elt F) tg) fi)) x).toNat < 1600000)
    (A B : IVec S16 32) (h : ∀ a x, ((![A, B] : Fin 2 → IVec S16 32) a x).toNat < S64x128.size a)
    (q : ℕ) (hA : ∀ x : S16.Idx, (A x).toNat = q + (x 0).val) (hB : ∀ x : S16.Idx, (B x).toNat = (L 0).val * 64 + q + (x 0).val)
    (x : S16.Idx) (y : S64.Idx) (hy : (y 0).val = q + (x 0).val) :
    loadIdx (View.read (Elt F) ((sRv).access (Rect.whole S64x128)) ((sRv).view.writes (Elt F) fr [⟨Rect.whole S64x128,
        SparseCore.gatherPayload gathers_S1600000x128_S64x128
          (View.read (Elt F) ((Memref.whole main_v3_scv : Memref sig .scVector .hbm S1600000x128 .f32).slice (Rect.unit ![0, 0] S1600000x128.size inb_S1600000x128_S1600000x128_0_0) hs).view ft)
          (SparseCore.rows ((sIv).view.read (Elt F) ((sIv).view.writes (Elt F) g (idxList d L ((tgtSl L).view.read (Elt F) tg) fi))) hn hin)⟩])) ![A, B] h x
      = picked d ft tg (posOf L y) := by
  show View.read (Elt F) ((sRv).access (Rect.whole S64x128)) _ (idxAt (s := S64x128) ![A, B] h x) = _
  rw [rows_read, gather_at, tab_read]
  unfold picked
  have h1 : (L 1).val < 16 := (L 1).isLt
  have h0 : (L 0).val < 2 := (L 0).isLt
  have hy' : (y 0).val < 64 := (y 0).isLt
  have hp : (posOf L y).val = 128 * (L 1).val + 64 * (L 0).val + (y 0).val := rfl
  have ht := hpre (ValueIdx.ix1 (posOf L y))
  refine congrArg ft (funext fun b => Fin.ext ?_)
  match b with
  | ⟨0, _⟩ =>
    have e : (ValueIdx.ix1 ((idxAt (s := S64x128) ![A, B] h x) 0 : Fin 64) : S64.Idx) = y := by
      funext a
      match a with
      | ⟨0, _⟩ => exact Fin.ext ((hA x).trans hy.symm)
    show ((sIv).view.read (Elt F) ((sIv).view.writes (Elt F) g (idxList d L ((tgtSl L).view.read (Elt F) tg) fi)) (ValueIdx.ix1 ((idxAt (s := S64x128) ![A, B] h x) 0 : Fin 64))).toNat = _
    rw [e, show (sIv).view.read (Elt F) ((sIv).view.writes (Elt F) g (idxList d L ((tgtSl L).view.read (Elt F) tg) fi)) y = _ from idx_written d L _ fi g y,
      tgt_read, rowWord_rowOff_toNat L _ ht]
    show _ = ((tg (ValueIdx.ix1 (posOf L y))).toNat / 8 * 128 + (tg (ValueIdx.ix1 (posOf L y))).toNat % 8 + (posOf L y).val / 128 * 8) % 1600000
    rw [hp]
    omega
  | ⟨1, _⟩ =>
    show (B x).toNat = (posOf L y).val % 128
    rw [hB, hp]
    omega

/-- The rows scratch read whole, after the gather. -/
abbrev rowsRead (ft : Buf (Elt F) (tabLoc d)) (tg : Buf (Elt F) (tgtLoc d))
    (fi g : Buf (Elt F) ((V d (cV L) (jV L)).loc cc0_scratch0)) (fr : Buf (Elt F) ((V d (cV L) (jV L)).loc cc0_scratch1))
    (hs : ∀ a, (Rect.unit (s := S1600000x128) ![0, 0] S1600000x128.size inb_S1600000x128_S1600000x128_0_0).stride a = 1)
    (hn : S64.numel = S64x128.size gathers_S1600000x128_S64x128.axis')
    (hin : ∀ x, ((sIv).view.read (Elt F) ((sIv).view.writes (Elt F) g (idxList d L ((tgtSl L).view.read (Elt F) tg) fi)) x).toNat < 1600000) : Vec F S64x128 .f32 :=
  View.read (Elt F) ((sRv).access (Rect.whole S64x128)) ((sRv).view.writes (Elt F) fr [⟨Rect.whole S64x128,
        SparseCore.gatherPayload gathers_S1600000x128_S64x128
          (View.read (Elt F) ((Memref.whole main_v3_scv : Memref sig .scVector .hbm S1600000x128 .f32).slice (Rect.unit ![0, 0] S1600000x128.size inb_S1600000x128_S1600000x128_0_0) hs).view ft)
          (SparseCore.rows ((sIv).view.read (Elt F) ((sIv).view.writes (Elt F) g (idxList d L ((tgtSl L).view.read (Elt F) tg) fi))) hn hin)⟩])

set_option maxHeartbeats 1000000 in
/-- What the out scratch reads after the four stores of picked lanes: at every word, the table entry picked for the word's output position. -/
theorem out_scratch_value (ft : Buf (Elt F) (tabLoc d)) (tg : Buf (Elt F) (tgtLoc d)) (hpre : ∀ i, (tg i).toNat < 100000)
    (fi g : Buf (Elt F) ((V d (cV L) (jV L)).loc cc0_scratch0)) (fr : Buf (Elt F) ((V d (cV L) (jV L)).loc cc0_scratch1))
    (fo : Buf (Elt F) ((V d (cV L) (jV L)).loc cc0_scratch2))
    (hs : ∀ a, (Rect.unit (s := S1600000x128) ![0, 0] S1600000x128.size inb_S1600000x128_S1600000x128_0_0).stride a = 1)
    (hn : S64.numel = S64x128.size gathers_S1600000x128_S64x128.axis')
    (hin : ∀ x, ((sIv).view.read (Elt F) ((sIv).view.writes (Elt F) g (idxList d L ((tgtSl L).view.read (Elt F) tg) fi)) x).toNat < 1600000)
    (h1 : ∀ a x, ((![k0_pay6, k0_pay7 (wordW L) modW] : Fin 2 → IVec S16 32) a x).toNat < S64x128.size a)
    (h2 : ∀ a x, ((![k0_pay8, k0_pay9 (wordW L) modW] : Fin 2 → IVec S16 32) a x).toNat < S64x128.size a)
    (h3 : ∀ a x, ((![k0_pay10, k0_pay11 (wordW L) modW] : Fin 2 → IVec S16 32) a x).toNat < S64x128.size a)
    (h4 : ∀ a x, ((![k0_pay12, k0_pay13 (wordW L) modW] : Fin 2 → IVec S16 32) a x).toNat < S64x128.size a)
    (j : S64.Idx) :
    (sOv).view.read (Elt F) ((sOv).view.writes (Elt F) fo
      [⟨Rect.unit ![48] S16.size inb_S64_S16_48, loadIdx (rowsRead d L ft tg fi g fr hs hn hin) ![k0_pay12, k0_pay13 (wordW L) modW] h4⟩,
       ⟨Rect.unit ![32] S16.size inb_S64_S16_32, loadIdx (rowsRead d L ft tg fi g fr hs hn hin) ![k0_pay10, k0_pay11 (wordW L) modW] h3⟩,
       ⟨Rect.unit ![16] S16.size inb_S64_S16_16, loadIdx (rowsRead d L ft tg fi g fr hs hn hin) ![k0_pay8, k0_pay9 (wordW L) modW] h2⟩,
       ⟨Rect.unit ![0] S16.size inb_S64_S16_0, loadIdx (rowsRead d L ft tg fi g fr hs hn hin) ![k0_pay6, k0_pay7 (wordW L) modW] h1⟩]) j
    = picked d ft tg (posOf L j) := by
  refine View.read_writes_apply_of_pieces (sOv).view fo (fun y => picked d ft tg (posOf L y)) _ ?_ j (cover64 _ _ _ _ j)
  intro p hp
  simp only [List.mem_cons, List.not_mem_nil, or_false] at hp
  rcases hp with rfl | rfl | rfl | rfl <;> intro x
  · exact lane_value d L ft tg hpre fi g fr hs hn hin k0_pay12 (k0_pay13 (wordW L) modW) h4 48 (fun x => pay12_toNat x) (fun x => pay13_toNat L x) x _
      (by show ![48] 0 + 1 * (x 0).val = _; simp)
  · exact lane_value d L ft tg hpre fi g fr hs hn hin k0_pay10 (k0_pay11 (wordW L) modW) h3 32 (fun x => pay10_toNat x) (fun x => pay11_toNat L x) x _
      (by show ![32] 0 + 1 * (x 0).val = _; simp)
  · exact lane_value d L ft tg hpre fi g fr hs hn hin k0_pay8 (k0_pay9 (wordW L) modW) h2 16 (fun x => pay8_toNat x) (fun x => pay9_toNat L x) x _
      (by show ![16] 0 + 1 * (x 0).val = _; simp)
  · exact lane_value d L ft tg hpre fi g fr hs hn hin k0_pay6 (k0_pay7 (wordW L) modW) h1 0 (fun x => (pay6_toNat x).trans (Nat.zero_add _).symm)
      (fun x => by rw [pay7_toNat]; omega) x _ (by show ![0] 0 + 1 * (x 0).val = _; simp)

end Value

end Cert.Kernel.Hand

end
-- ==== Proof.KernelBits.KTile.lean ====
/-
  The vector-subcore kernel's body on one tile, at a symbolic tile: the tile copies its 64 targets into the index scratch and waits,
  rewrites the scratch's four 16-word windows with the table row numbers, gathers those 64 rows of the re-laid table into the rows
  scratch and waits, picks one lane per row by four indexed loads (each after its range check, which the lane arithmetic proves),
  stores the picked words into the out scratch, copies it out to the tile's 64 words of the gathered logits and waits. Run from the
  tile's resources — a share of the table, its slice of the targets, its slice of the result, its scratches and semaphores, what it
  owes the launch — to the same resources with the result slice holding, at every word, the table entry `picked` names.
-/
import proofs.«209869_g82368882803221_cont_9to1_m_506_32_alg».proof.Proof.KernelBits.KTileVal
import proofs.«209869_g82368882803221_cont_9to1_m_506_32_alg».proof.Proof.KernelBits.KLaunchA

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

variable (d : Dev nD) (L : grid0.Coords)

/-- The tile's three transfer semaphores, as cells. -/
abbrev gCell : GSem nD τ sig := (V d (cV L) (jV L), .dma cc0_scratch3.sem)
abbrev aCell : GSem nD τ sig := (V d (cV L) (jV L), .dma cc0_scoped0.sem)
abbrev bCell : GSem nD τ sig := (V d (cV L) (jV L), .dma cc0_scoped1.sem)

theorem ownSems0_V :
    (ownSems0 (V d (cV L) (jV L)) : sProp (𝕄 F))
      = iprop(semVal (gCell d L) 0 ∗ semVal (aCell d L) 0 ∗ semVal (bCell d L) 0
          ∗ bigSep ((((ownCells (V d (cV L) (jV L))).erase (gCell d L)).erase (aCell d L)).erase (bCell d L))
              fun g => semVal g 0) := by
  unfold SparseCore.Cfg.ownSems0
  rw [SparseCore.bigSep_erase' ((mem_ownCells (g := gCell d L)).mpr ⟨rfl, by
      show (SemLoc.dma cc0_scratch3.sem : SemLoc sig).isScoped .scVector = true; decide⟩),
    SparseCore.bigSep_erase' (Finset.mem_erase.mpr ⟨by simp [gCell, aCell]; decide, (mem_ownCells (g := aCell d L)).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc0_scoped1.sem : SemLoc sig).isScoped .scVector = true; decide⟩⟩⟩)]

/-- The three scratch buffers are among the tile's own: they are them, at some contents, and the rest. -/
theorem ownBufs_V :
    (ownBufs (V d (cV L) (jV L)) : sProp (𝕄 F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! The arrays and scratches as the tile's memrefs address them. -/

abbrev tabW : Memref sig .scVector .hbm S1600000x128 .f32 := Memref.whole main_v3_scv
abbrev sI : Memref sig .scVector .vmem S64 .i32 := Memref.whole cc0_scratch0
abbrev sR : Memref sig .scVector .vmem S64x128 .f32 := Memref.whole cc0_scratch1
abbrev sO : Memref sig .scVector .vmem S64 .f32 := Memref.whole cc0_scratch2

theorem pts_tab (q : PosShare TreeShare) (f : Buf (Elt F) (tabLoc d)) :
    ((tabW).view.loc (V d (cV L) (jV L)) ↦{q} f : sProp (𝕄 F)) = tabLoc d ↦{q} f := rfl
theorem pts_tgt (f : Buf (Elt F) (tgtLoc d)) :
    ((tgtSl L).view.loc (V d (cV L) (jV L)) ↦[(tgtSl L).view.set]{fullShare} f : sProp (𝕄 F)) = tgtLoc d ↦[(tgtSl L).view.set]{fullShare} f := rfl
theorem pts_out (f : Buf (Elt F) (outLoc d)) :
    ((outSl L).view.loc (V d (cV L) (jV L)) ↦[(outSl L).view.set]{fullShare} f : sProp (𝕄 F)) = outLoc d ↦[(outSl L).view.set]{fullShare} f := rfl
theorem pts_sI (f : Buf (Elt F) ((V d (cV L) (jV L)).loc cc0_scratch0)) :
    ((sI).view.loc (V d (cV L) (jV L)) ↦{fullShare} f : sProp (𝕄 F)) = (V d (cV L) (jV L)).loc cc0_scratch0 ↦{fullShare} f := rfl
theorem pts_sR (f : Buf (Elt F) ((V d (cV L) (jV L)).loc cc0_scratch1)) :
    ((sR).view.loc (V d (cV L) (jV L)) ↦{fullShare} f : sProp (𝕄 F)) = (V d (cV L) (jV L)).loc cc0_scratch1 ↦{fullShare} f := rfl
theorem pts_sR_access (f : Buf (Elt F) ((V d (cV L) (jV L)).loc cc0_scratch1)) :
    (((sR).access (.whole S64x128)).loc (V d (cV L) (jV L)) ↦{fullShare} f : sProp (𝕄 F)) = (V d (cV L) (jV L)).loc cc0_scratch1 ↦{fullShare} f := rfl
theorem pts_sO (f : Buf (Elt F) ((V d (cV L) (jV L)).loc cc0_scratch2)) :
    ((sO).view.loc (V d (cV L) (jV L)) ↦{fullShare} f : sProp (𝕄 F)) = (V d (cV L) (jV L)).loc cc0_scratch2 ↦{fullShare} f := rfl

variable [FloatOps F]

/-- The indexed load in tail position: the load of the whole scratch, returning the lanes picked. -/
theorem wp_vectorLoadIdx_tail {s t : Shape} {e : EltTy} (c : Thread nD τ) (bd : Option 𝒱₀.V) (E : Set ℕ)
    {base : Memref sig c.2.kind .vmem s e} {idxs : Fin s.rank → IVec t 32}
    {h : ∀ a x, (idxs a x).toNat < s.size a} {hl : base.view.Loads}
    {S : Finset (Idx ((base.access (.whole s)).loc c))} {q : PosShare TreeShare} {f : Buf (Elt F) ((base.access (.whole s)).loc c)}
    {Q : Vec F t e → sProp (𝕄 F)}
    (hS : (base.access (.whole s)).set ⊆ S) :
    ((base.access (.whole s)).loc c ↦[S]{q} f : sProp (𝕄 F))
      ⊢ iprop((((base.access (.whole s)).loc c ↦[S]{q} f)
          -∗ wp frame (wpE (defs₀ (F := F)) 𝒱₀ c bd) E (Prog.ret (loadIdx ((base.access (.whole s)).read (Elt F) f) idxs h)) Q)
        -∗ wp frame (wpE (defs₀ (F := F)) 𝒱₀ c bd) E (SparseCore.vectorLoadIdx base idxs h hl) Q) := by
  have := SparseCore.wp_vectorLoadIdx (defs := defs₀ (F := F)) 𝒱₀ c bd E (base := base) (idxs := idxs) (h := h) (hl := hl)
    (k := fun v => Prog.ret v) (S := S) (q := q) (f := f) (Q := Q) hS
  rwa [show (SparseCore.vectorLoadIdx base idxs h hl >>= fun v => Prog.ret v) = SparseCore.vectorLoadIdx base idxs h hl from Prog.bind_pure _] at this

/-- The kernel on the tile `(L 0, L 1)` of device `d`: from a share of the table, the tile's 64 targets (each below 100000) and its 64 words of the
    result, to the same with every result word the table entry picked for its position; the table and the targets unchanged. -/
theorem tile_body (hF : (K (F := F)).Facts) (ft : Buf (Elt F) (tabLoc d)) (tg : Buf (Elt F) (tgtLoc d)) (q : PosShare TreeShare)
    (hpre : ∀ i, (tg i).toNat < 100000) (O : CellTallies nD τ sig (HIx 1)) (W : Waits sig (HIx 1)) (hO : ∀ g, O g none = 0) :
    (iprop(levAts (K (F := F)).L (K (F := F)).lev ∗ (tabLoc d ↦{q} ft) ∗ (tgtLoc d ↦[(tgtSl L).view.set]{fullShare} tg) ∗ (∃ f0, outLoc d ↦[(outSl L).view.set]{fullShare} f0)
        ∗ scopedBufs (V d (cV L) (jV L)) ∗ scopedSems0 (V d (cV L) (jV L)) ∗ owes (V d (cV L) (jV L)) O W) : sProp (𝕄 F))
      ⊢ wp frame (wpE (defs₀ (F := F)) 𝒱₀ (V d (cV L) (jV L)) none) Set.univ
          (cc0__sc_gather L (Memref.whole main_v3_scv) (Memref.isWhole_whole _) (Memref.whole main_arg1_scv) (Memref.isWhole_whole _) (Memref.whole main_v4_scv) (Memref.isWhole_whole _)
            (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop((tabLoc d ↦{q} ft) ∗ (tgtLoc d ↦[(tgtSl L).view.set]{fullShare} tg)
            ∗ (∃ f, ⌜∀ j : S64.Idx, f ((outSl L).view.emb j) = picked d ft tg (posOf L j)⌝ ∗ outLoc d ↦[(outSl L).view.set]{fullShare} f)
            ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton, k0_part2_eq_skeleton, k0_part3_eq_skeleton]
  rw [(K (F := F)).scopedBufs_V hF d (cV L) (jV L), SparseCore.Cfg.scopedSems0_V (Val := Elt F) d (cV L) (jV L), ownSems0_V, ownBufs_V]
  iintro ⟨#Hlv, Htab, Htg, ⟨%f0, Hout⟩, ⟨⟨%fi, Hsi⟩, ⟨%fr, Hsr⟩, ⟨%fo, Hso⟩, Hbufs⟩, ⟨HsemG, HsemA, HsemB, Hsems⟩, HO⟩
  ihave Hmw := ((K (F := F)).mayWaits_none (thr := V d (cV L) (jV L)) hO) $$ Hlv
  ihave Htab' := (Entails.of_eq (pts_tab (F := F) d L q _).symm) $$ Htab
  ihave Htg' := (Entails.of_eq (pts_tgt (F := F) d L _).symm) $$ Htg
  ihave Hout' := (Entails.of_eq (pts_out (F := F) d L _).symm) $$ Hout
  ihave Hsi' := (Entails.of_eq (pts_sI (F := F) d L _).symm) $$ Hsi
  ihave Hsr' := (Entails.of_eq (pts_sR (F := F) d L _).symm) $$ Hsr
  ihave Hso' := (Entails.of_eq (pts_sO (F := F) d L _).symm) $$ Hso
  sl_exec
  have hin : ∀ x : cc0_scratch0.ty.shape.Idx, (View.read (Elt F) (Memref.whole cc0_scratch0).view (sI.view.writes (Elt F) sI.view.junk (tile_body.sl.Hsi'_4 d L tg fi)) x).toNat < 1600000 :=
    fun x => idx_inb d L tg hpre fi _ x
  have hc1 := chk1 L
  have hc2 := chk2 L
  have hc3 := chk3 L
  have hc4 := chk4 L
  sl_exec
  ihave Hsr2 := (Entails.of_eq ((pts_sR (F := F) d L _).trans (pts_sR_access (F := F) d L _).symm)) $$ Hsr'
  iapply (SparseCore.wp_vectorLoadIdx 𝒱₀ (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  ihave Hsr2 := (Entails.of_eq ((pts_sR (F := F) d L _).trans (pts_sR_access (F := F) d L _).symm)) $$ Hsr'
  iapply (SparseCore.wp_vectorLoadIdx 𝒱₀ (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  ihave Hsr2 := (Entails.of_eq ((pts_sR (F := F) d L _).trans (pts_sR_access (F := F) d L _).symm)) $$ Hsr'
  iapply (SparseCore.wp_vectorLoadIdx 𝒱₀ (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  ihave Hsr2 := (Entails.of_eq ((pts_sR (F := F) d L _).trans (pts_sR_access (F := F) d L _).symm)) $$ Hsr'
  iapply (wp_vectorLoadIdx_tail (V d (cV L) (jV L)) none Set.univ (base := sR) (S := Finset.univ) (q := fullShare) (Finset.subset_univ _)) $$ Hsr2; iintro Hsr2
  ihave Hsr' := (Entails.of_eq ((pts_sR_access (F := F) d L _).trans (pts_sR (F := F) d L _).symm)) $$ Hsr2
  sl_exec
  have hval : ∀ j : S64.Idx, ((outSl L).view.writes (Elt F) f0 [⟨Rect.whole S64, tile_body.sl.dma2 d L ft tg fi fr fo hin hc1 hc2 hc3 hc4⟩]) ((outSl L).view.emb j)
      = picked d ft tg (posOf L j) := by
    intro j
    rw [out_written]
    exact out_scratch_value d L ft tg hpre fi _ fr fo _ _ hin _ _ _ _ j
  sl_step
  isplitl [Htab']; · iexact Htab'
  isplitl [Htg']; · iexact Htg'
  isplitl [Hout']
  · iexists _; isplitr
    swap; · iexact Hout'
    ipureintro; exact hval
  isplitl [Hsi' Hsr' Hso' Hbufs]
  · isplitl [Hsi']; · iexists _; iexact Hsi'
    isplitl [Hsr']; · iexists _; iexact Hsr'
    isplitl [Hso']; · iexists _; iexact Hso'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-- The tile's body, in the form the launch consumes. -/
theorem tileBodySpec [FloatOps F] : TileBodySpec F :=
  fun d L hF ft tg q hpre O W hO => tile_body d L hF ft tg q hpre O W hO

end Cert.Kernel.Hand

end
-- ==== Proof.KFinal.lean ====
/-
  The four facts the claims' assembly takes: the reference's run, the kernel's value at the extended reals, and the
  kernel's run at both instances — the idealized program's with its result named, the word-level program's for its frame.
-/
import proofs.«209869_g82368882803221_cont_9to1_m_506_32_alg».proof.Proof.KClaims
import proofs.«209869_g82368882803221_cont_9to1_m_506_32_alg».proof.Proof.RefRunH
import proofs.«209869_g82368882803221_cont_9to1_m_506_32_alg».proof.Proof.KValue
import proofs.«209869_g82368882803221_cont_9to1_m_506_32_alg».proof.Proof.KLaunchJ
import proofs.«209869_g82368882803221_cont_9to1_m_506_32_alg».proof.Proof.KTile
import proofs.«209869_g82368882803221_cont_9to1_m_506_32_alg».proof.Proof.KernelBits.KLaunchJ
import proofs.«209869_g82368882803221_cont_9to1_m_506_32_alg».proof.Proof.KernelBits.KTile

noncomputable section

namespace Cert.Proof.Final

open Idealize.ShloMosaic Idealize.SL.Sem

theorem refRun : Cert.Proof.Claims.RefRunSpec := fun m ρ => Cert.RefRunH.run m ρ

theorem kVal : Cert.Proof.Claims.KValSpec := fun m d h => Cert.KernelIdeal.Hand.VAL_eq m d h

theorem kRun : Cert.Proof.Claims.KRunSpec Ideal :=
  fun m ρ h => Cert.KernelIdeal.Hand.run_main (F := Ideal) m ρ Cert.KernelIdeal.Hand.tileBodySpec h

theorem kRunB : Cert.Proof.Claims.KRunSpecB :=
  fun m ρ h => (θ_run (Cert.Kernel.defs (F := Bits)) (Cert.Kernel.threads (F := Bits)) _).mono (fun _ hh c => (hh c).2)
    (Cert.Kernel.Hand.run_main (F := Bits) m ρ Cert.Kernel.Hand.tileBodySpec h)

end Cert.Proof.Final

end
-- ==== Proof.lean ====
/-
  The label-smoothing loss, twice: the kernel gathers each row's logit at its target on the vector subcores and
  reduces the rows on the TensorCore with one log-sum-exp per row; the reference builds a smoothed distribution by
  two scatters and multiplies it with a shifted log-softmax. Spec.lean writes both arrangements as functions of
  the logits and the targets; Algebra.lean proves them equal when every logit is real and every target names a
  column; PreFacts.lean reads that off the precondition; RefValue.lean reads the reference's result as the
  reference's arrangement, the kernel-side modules the kernel's result as the kernel's; KClaims.lean puts the five
  claims together from the two programs' runs and those values, and KFinal.lean supplies the runs.
-/
import proofs.«209869_g82368882803221_cont_9to1_m_506_32_alg».proof.Defs
import proofs.«209869_g82368882803221_cont_9to1_m_506_32_alg».proof.Proof.Gen.Kernel
import proofs.«209869_g82368882803221_cont_9to1_m_506_32_alg».proof.Proof.Gen.Kernel.Skeleton
import proofs.«209869_g82368882803221_cont_9to1_m_506_32_alg».proof.Proof.Gen.Kernel.Loops
import proofs.«209869_g82368882803221_cont_9to1_m_506_32_alg».proof.Proof.Gen.Kernel.Launch
import proofs.«209869_g82368882803221_cont_9to1_m_506_32_alg».proof.Proof.Gen.Kernel.Points
import proofs.«209869_g82368882803221_cont_9to1_m_506_32_alg».proof.Proof.Gen.KernelIdeal
import proofs.«209869_g82368882803221_cont_9to1_m_506_32_alg».proof.Proof.Gen.KernelIdeal.Skeleton
import proofs.«209869_g82368882803221_cont_9to1_m_506_32_alg».proof.Proof.Gen.KernelIdeal.Loops
import proofs.«209869_g82368882803221_cont_9to1_m_506_32_alg».proof.Proof.Gen.KernelIdeal.Launch
import proofs.«209869_g82368882803221_cont_9to1_m_506_32_alg».proof.Proof.Gen.KernelIdeal.Points
import proofs.«209869_g82368882803221_cont_9to1_m_506_32_alg».proof.Proof.Gen.ReferenceIdeal
import proofs.«209869_g82368882803221_cont_9to1_m_506_32_alg».proof.Proof.Gen.Pre_input_domain
import proofs.«209869_g82368882803221_cont_9to1_m_506_32_alg».proof.Proof.KClaims
import proofs.«209869_g82368882803221_cont_9to1_m_506_32_alg».proof.Proof.KFinal
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_p Final.kRunB,
    Claims.frame_pi Final.kRun,
    Claims.frame_ri Final.refRun,
    Claims.preserves,
    Claims.algebraic Final.kRun Final.kVal Final.refRun⟩

end Cert.Proof

end
